-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v97)) (v1 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_v113) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v139) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x81 : Shape := ⟨2, ![100000, 81]⟩
abbrev S2x3200000 : Shape := ⟨2, ![2, 3200000]⟩
abbrev S81x64 : Shape := ⟨2, ![81, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩

class Facts : Prop where
  bcast_S_S100000x81 : S_.BroadcastsInDim S100000x81 (![] : Fin 0 → Fin S100000x81.rank)
  reducesTo_S100000x81_S_d0_1 : S100000x81.ReducesTo [0, 1] S_
  h_S_ : 0 < S_.numel
  bcast_S_S81x64 : S_.BroadcastsInDim S81x64 (![] : Fin 0 → Fin S81x64.rank)
  reducesTo_S81x64_S_d0_1 : S81x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg12 : FVec F S64x32 .f32) (main_arg13 : FVec F S32 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S64x32 .f32 := Host.absf main_arg12
  let main_cst_20 : FVec F S_ .f32 := constant S_ .f32 0x7F800000#32
  let main_v55 : FVec F S64x32 .f32 := broadcastInDim S64x32 ![] bcast_S_S64x32 main_cst_20
  let main_v56 : IVec S64x32 1 := cmpf .olt main_v54 main_v55
  let main_c_21 : IVec S_ 1 := constantI S_ 1 1#1
  let main_v57 : IVec S_ 1 := (fun x v => Host.reduce IntOp.andi x v reducesTo_S64x32_S_d0_1 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  main_v63

def fn_part2 {F : FTy → Type} [FloatOps F] (main_arg8 : FVec F S64 .f32) (main_arg9 : FVec F S64 .f32) (main_arg10 : FVec F S64x32 .f32) (main_arg11 : FVec F S32 .f32) (main_arg12 : FVec F S64x32 .f32) (main_arg13 : FVec F S32 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg10
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_v48 main_v49 main_v50

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_arg10 : FVec F S64x32 .f32) (main_arg11 : FVec F S32 .f32) (main_arg12 : FVec F S64x32 .f32) (main_arg13 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x81 .f32) (main_arg1 : IVec S2x3200000 32) (main_arg2 : FVec F S81x64 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S64x32 .f32) (main_arg11 : FVec F S32 .f32) (main_arg12 : FVec F S64x32 .f32) (main_arg13 : FVec F S32 .f32) : IVec S_ 1 :=
  let main_v0 : FVec F S100000x81 .f32 := Host.absf main_arg0
  let main_cst : FVec F S_ .f32 := constant S_ .f32 0x7F800000#32
  let main_v1 : FVec F S100000x81 .f32 := broadcastInDim S100000x81 ![] bcast_S_S100000x81 main_cst
  let main_v2 : IVec S100000x81 1 := cmpf .olt main_v0 main_v1
  let main_c : IVec S_ 1 := constantI S_ 1 1#1
  let main_v3 : IVec S_ 1 := (fun x v => Host.reduce IntOp.andi x v reducesTo_S100000x81_S_d0_1 h_S_) main_v2 main_c
  let main_v4 : FVec F S81x64 .f32 := Host.absf main_arg2
  let main_cst_0 : FVec F S_ .f32 := constant S_ .f32 0x7F800000#32
  let main_v5 : FVec F S81x64 .f32 := broadcastInDim S81x64 ![] bcast_S_S81x64 main_cst_0
  let main_v6 : IVec S81x64 1 := cmpf .olt main_v4 main_v5
  let main_c_1 : IVec S_ 1 := constantI S_ 1 1#1
  let main_v7 : IVec S_ 1 := (fun x v => Host.reduce IntOp.andi x v reducesTo_S81x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_v13 main_v16
-- ==== Kernel.lean ====
abbrev S100000x81 : Shape := ⟨2, ![100000, 81]⟩
abbrev S2x3200000 : Shape := ⟨2, ![2, 3200000]⟩
abbrev S81x64 : Shape := ⟨2, ![81, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x81 : Shape := ⟨2, ![10000, 81]⟩
abbrev S10000x64 : Shape := ⟨2, ![10000, 64]⟩
abbrev S3300000x64 : Shape := ⟨2, ![3300000, 64]⟩
abbrev S1x64 : Shape := ⟨2, ![1, 64]⟩
abbrev S100000x32 : Shape := ⟨2, ![100000, 32]⟩
abbrev S10000x32 : Shape := ⟨2, ![10000, 32]⟩
abbrev S3300000x32 : Shape := ⟨2, ![3300000, 32]⟩
abbrev S1x32 : Shape := ⟨2, ![1, 32]⟩

abbrev nBuf : Space → Nat
  | .hbm => 199
  | .vmem => 56
  | .smem => 0
  | _ => 0

abbrev hbmTy0_0 (i : Nat) : BufTy := match i % 128 with
  | 0 => ⟨S100000x81, .f32⟩
  | 1 => ⟨S2x3200000, .i32⟩
  | 2 => ⟨S81x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x32, .f32⟩
  | 11 => ⟨S32, .f32⟩
  | 12 => ⟨S64x32, .f32⟩
  | 13 => ⟨S32, .f32⟩
  | 14 => ⟨S100000, .i32⟩
  | 15 => ⟨S1x3200000, .i32⟩
  | 16 => ⟨S3200000, .i32⟩
  | 17 => ⟨S3300000, .i32⟩
  | 18 => ⟨S1x3200000, .i32⟩
  | 19 => ⟨S3200000, .i32⟩
  | 20 => ⟨S3300000, .i32⟩
  | 21 => ⟨S_, .f32⟩
  | 22 => ⟨S3300000, .f32⟩
  | 23 => ⟨S_, .f32⟩
  | 24 => ⟨S100000, .f32⟩
  | 25 => ⟨S3300000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000, .f32⟩
  | 56 => ⟨S3300000, .f32⟩
  | 57 => ⟨S100000x64, .f32⟩
  | 58 => ⟨S_, .i32⟩
  | 59 => ⟨S3300000, .i32⟩
  | 60 => ⟨S3300000, .i1⟩
  | 61 => ⟨S_, .i32⟩
  | 62 => ⟨S3300000, .i32⟩
  | 63 => ⟨S3300000, .i32⟩
  | 64 => ⟨S3300000, .i32⟩
  | 65 => ⟨S3300000x1, .i32⟩
  | 66 => ⟨S3300000x64, .f32⟩
  | 67 => ⟨S3300000x1, .f32⟩
  | 68 => ⟨S3300000x64, .f32⟩
  | 69 => ⟨S3300000x64, .f32⟩
  | 70 => ⟨S_, .f32⟩
  | 71 => ⟨S100000x64, .f32⟩
  | 72 => ⟨S3300000x1, .i32⟩
  | 73 => ⟨S100000x64, .f32⟩
  | 74 => ⟨S1x64, .f32⟩
  | 75 => ⟨S100000x64, .f32⟩
  | 76 => ⟨S_, .f32⟩
  | 77 => ⟨S64, .f32⟩
  | 78 => ⟨S_, .f32⟩
  | 79 => ⟨S64, .f32⟩
  | 80 => ⟨S64, .f32⟩
  | 81 => ⟨S_, .i32⟩
  | 82 => ⟨S_, .f32⟩
  | 83 => ⟨S64, .f32⟩
  | 84 => ⟨S1x64, .f32⟩
  | 85 => ⟨S_, .f32⟩
  | 86 => ⟨S1x64, .f32⟩
  | 87 => ⟨S1x64, .f32⟩
  | 88 => ⟨S100000x64, .f32⟩
  | 89 => ⟨S100000x64, .f32⟩
  | 90 => ⟨S100000x64, .f32⟩
  | 91 => ⟨S_, .f32⟩
  | 92 => ⟨S_, .f32⟩
  | 93 => ⟨S_, .f32⟩
  | 94 => ⟨S_, .f32⟩
  | 95 => ⟨S64, .f32⟩
  | 96 => ⟨S64, .f32⟩
  | 97 => ⟨S64, .f32⟩
  | 98 => ⟨S_, .f32⟩
  | 99 => ⟨S_, .i1⟩
  | 100 => ⟨S_, .f32⟩
  | 101 => ⟨S_, .f32⟩
  | 102 => ⟨S64, .f32⟩
  | 103 => ⟨S64, .f32⟩
  | 104 => ⟨S1x64, .f32⟩
  | 105 => ⟨S1x64, .f32⟩
  | 106 => ⟨S1x64, .f32⟩
  | 107 => ⟨S1x64, .f32⟩
  | 108 => ⟨S100000x64, .f32⟩
  | 109 => ⟨S100000x64, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x64, .f32⟩
  | 119 => ⟨S3300000x1, .f32⟩
  | 120 => ⟨S3300000x64, .f32⟩
  | 121 => ⟨S3300000x64, .f32⟩
  | 122 => ⟨S_, .f32⟩
  | 123 => ⟨S100000x64, .f32⟩
  | 124 => ⟨S3300000x1, .i32⟩
  | 125 => ⟨S100000x64, .f32⟩
  | 126 => ⟨S1x64, .f32⟩
  | 127 => ⟨S100000x64, .f32⟩
  | _ => ⟨S100000x81, .f32⟩

abbrev hbmTy0_1 (i : Nat) : BufTy := match i % 128 with
  | 0 => ⟨S_, .f32⟩
  | 1 => ⟨S64, .f32⟩
  | 2 => ⟨S_, .f32⟩
  | 3 => ⟨S64, .f32⟩
  | 4 => ⟨S64, .f32⟩
  | 5 => ⟨S_, .i32⟩
  | 6 => ⟨S_, .f32⟩
  | 7 => ⟨S64, .f32⟩
  | 8 => ⟨S1x64, .f32⟩
  | 9 => ⟨S_, .f32⟩
  | 10 => ⟨S1x64, .f32⟩
  | 11 => ⟨S1x64, .f32⟩
  | 12 => ⟨S100000x64, .f32⟩
  | 13 => ⟨S100000x64, .f32⟩
  | 14 => ⟨S100000x64, .f32⟩
  | 15 => ⟨S_, .f32⟩
  | 16 => ⟨S_, .f32⟩
  | 17 => ⟨S_, .f32⟩
  | 18 => ⟨S_, .f32⟩
  | 19 => ⟨S64, .f32⟩
  | 20 => ⟨S64, .f32⟩
  | 21 => ⟨S64, .f32⟩
  | 22 => ⟨S_, .f32⟩
  | 23 => ⟨S_, .i1⟩
  | 24 => ⟨S_, .f32⟩
  | 25 => ⟨S_, .f32⟩
  | 26 => ⟨S64, .f32⟩
  | 27 => ⟨S64, .f32⟩
  | 28 => ⟨S1x64, .f32⟩
  | 29 => ⟨S1x64, .f32⟩
  | 30 => ⟨S1x64, .f32⟩
  | 31 => ⟨S1x64, .f32⟩
  | 32 => ⟨S100000x64, .f32⟩
  | 33 => ⟨S100000x32, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000x32, .f32⟩
  | 43 => ⟨S3300000x1, .f32⟩
  | 44 => ⟨S3300000x32, .f32⟩
  | 45 => ⟨S3300000x32, .f32⟩
  | 46 => ⟨S_, .f32⟩
  | 47 => ⟨S100000x32, .f32⟩
  | 48 => ⟨S3300000x1, .i32⟩
  | 49 => ⟨S100000x32, .f32⟩
  | 50 => ⟨S1x32, .f32⟩
  | 51 => ⟨S100000x32, .f32⟩
  | 52 => ⟨S100000x32, .f32⟩
  | 53 => ⟨S_, .i32⟩
  | 54 => ⟨S3300000, .i32⟩
  | 55 => ⟨S3300000, .i1⟩
  | 56 => ⟨S_, .i32⟩
  | 57 => ⟨S3300000, .i32⟩
  | 58 => ⟨S3300000, .i32⟩
  | 59 => ⟨S3300000, .i32⟩
  | 60 => ⟨S3300000x1, .i32⟩
  | 61 => ⟨S3300000x32, .f32⟩
  | 62 => ⟨S3300000x1, .f32⟩
  | 63 => ⟨S3300000x32, .f32⟩
  | 64 => ⟨S3300000x32, .f32⟩
  | 65 => ⟨S_, .f32⟩
  | 66 => ⟨S100000x32, .f32⟩
  | 67 => ⟨S3300000x1, .i32⟩
  | 68 => ⟨S100000x32, .f32⟩
  | 69 => ⟨S1x32, .f32⟩
  | 70 => ⟨S100000x32, .f32⟩
  | _ => ⟨S100000x81, .f32⟩

abbrev hbmTy (i : Nat) : BufTy := match i / 128 with
  | 0 => hbmTy0_0 i
  | 1 => hbmTy0_1 i
  | _ => ⟨S100000x81, .f32⟩

abbrev bufTy : (tb : Table) → Fin (tcTables nBuf tb) → BufTy
  | .hbm, ⟨i, _⟩ => hbmTy i
  | .local _ .vmem, ⟨0, _⟩ => ⟨S10000x81, .f32⟩
  | .local _ .vmem, ⟨1, _⟩ => ⟨S10000x81, .f32⟩
  | .local _ .vmem, ⟨2, _⟩ => ⟨S81x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S64x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S64x32, .f32⟩
  | .local _ .vmem, ⟨39, _⟩ => ⟨S10000x32, .f32⟩
  | .local _ .vmem, ⟨40, _⟩ => ⟨S10000x32, .f32⟩
  | .local _ .vmem, ⟨41, _⟩ => ⟨S10000x32, .f32⟩
  | .local _ .vmem, ⟨42, _⟩ => ⟨S10000x32, .f32⟩
  | .local _ .vmem, ⟨43, _⟩ => ⟨S1x32, .f32⟩
  | .local _ .vmem, ⟨44, _⟩ => ⟨S10000x32, .f32⟩
  | .local _ .vmem, ⟨45, _⟩ => ⟨S10000x32, .f32⟩
  | .local _ .vmem, ⟨46, _⟩ => ⟨S10000x64, .f32⟩
  | .local _ .vmem, ⟨47, _⟩ => ⟨S10000x64, .f32⟩
  | .local _ .vmem, ⟨48, _⟩ => ⟨S64x32, .f32⟩
  | .local _ .vmem, ⟨49, _⟩ => ⟨S10000x32, .f32⟩
  | .local _ .vmem, ⟨50, _⟩ => ⟨S10000x32, .f32⟩
  | .local _ .vmem, ⟨51, _⟩ => ⟨S10000x32, .f32⟩
  | .local _ .vmem, ⟨52, _⟩ => ⟨S10000x32, .f32⟩
  | .local _ .vmem, ⟨53, _⟩ => ⟨S1x32, .f32⟩
  | .local _ .vmem, ⟨54, _⟩ => ⟨S10000x32, .f32⟩
  | .local _ .vmem, ⟨55, _⟩ => ⟨S10000x32, .f32⟩
  | _, _ => ⟨S100000x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_c_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_10 : Ref sig .tc := ⟨.hbm, 76, rfl⟩
abbrev main_v48 : Ref sig .tc := ⟨.hbm, 77, rfl⟩
abbrev main_cst_11 : Ref sig .tc := ⟨.hbm, 78, rfl⟩
abbrev main_v49 : Ref sig .tc := ⟨.hbm, 79, rfl⟩
abbrev main_v50 : Ref sig .tc := ⟨.hbm, 80, rfl⟩
abbrev main_c_12 : Ref sig .tc := ⟨.hbm, 81, rfl⟩
abbrev main_call1_cst : Ref sig .tc := ⟨.hbm, 82, rfl⟩
abbrev main_call1_v0 : Ref sig .tc := ⟨.hbm, 83, rfl⟩
abbrev main_call1_v1 : Ref sig .tc := ⟨.hbm, 84, rfl⟩
abbrev main_call1_cst_0 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_v7 : Ref sig .tc := ⟨.hbm, 91, rfl⟩
abbrev main_call1_cst_1 : Ref sig .tc := ⟨.hbm, 92, rfl⟩
abbrev main_call1_v8 : Ref sig .tc := ⟨.hbm, 93, rfl⟩
abbrev main_call1_cst_2 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_cst_3 : Ref sig .tc := ⟨.hbm, 98, rfl⟩
abbrev main_call1_v12 : Ref sig .tc := ⟨.hbm, 99, rfl⟩
abbrev main_call1_cst_4 : Ref sig .tc := ⟨.hbm, 100, rfl⟩
abbrev main_call1_call0_v0 : Ref sig .tc := ⟨.hbm, 101, rfl⟩
abbrev main_call1_call0_v1 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_c_13 : Ref sig .tc := ⟨.hbm, 110, rfl⟩
abbrev main_v58 : Ref sig .tc := ⟨.hbm, 111, rfl⟩
abbrev main_v59 : Ref sig .tc := ⟨.hbm, 112, rfl⟩
abbrev main_c_14 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_cst_15 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_cst_16 : Ref sig .tc := ⟨.hbm, 128, rfl⟩
abbrev main_v73 : Ref sig .tc := ⟨.hbm, 129, rfl⟩
abbrev main_cst_17 : Ref sig .tc := ⟨.hbm, 130, rfl⟩
abbrev main_v74 : Ref sig .tc := ⟨.hbm, 131, rfl⟩
abbrev main_v75 : Ref sig .tc := ⟨.hbm, 132, rfl⟩
abbrev main_c_18 : Ref sig .tc := ⟨.hbm, 133, rfl⟩
abbrev main_call2_cst : Ref sig .tc := ⟨.hbm, 134, rfl⟩
abbrev main_call2_v0 : Ref sig .tc := ⟨.hbm, 135, rfl⟩
abbrev main_call2_v1 : Ref sig .tc := ⟨.hbm, 136, rfl⟩
abbrev main_call2_cst_0 : Ref sig .tc := ⟨.hbm, 137, rfl⟩
abbrev main_call2_v2 : Ref sig .tc := ⟨.hbm, 138, rfl⟩
abbrev main_call2_v3 : Ref sig .tc := ⟨.hbm, 139, rfl⟩
abbrev main_call2_v4 : Ref sig .tc := ⟨.hbm, 140, rfl⟩
abbrev main_call2_v5 : Ref sig .tc := ⟨.hbm, 141, rfl⟩
abbrev main_call2_v6 : Ref sig .tc := ⟨.hbm, 142, rfl⟩
abbrev main_call2_v7 : Ref sig .tc := ⟨.hbm, 143, rfl⟩
abbrev main_call2_cst_1 : Ref sig .tc := ⟨.hbm, 144, rfl⟩
abbrev main_call2_v8 : Ref sig .tc := ⟨.hbm, 145, rfl⟩
abbrev main_call2_cst_2 : Ref sig .tc := ⟨.hbm, 146, rfl⟩
abbrev main_call2_v9 : Ref sig .tc := ⟨.hbm, 147, rfl⟩
abbrev main_call2_v10 : Ref sig .tc := ⟨.hbm, 148, rfl⟩
abbrev main_call2_v11 : Ref sig .tc := ⟨.hbm, 149, rfl⟩
abbrev main_call2_cst_3 : Ref sig .tc := ⟨.hbm, 150, rfl⟩
abbrev main_call2_v12 : Ref sig .tc := ⟨.hbm, 151, rfl⟩
abbrev main_call2_cst_4 : Ref sig .tc := ⟨.hbm, 152, rfl⟩
abbrev main_call2_call0_v0 : Ref sig .tc := ⟨.hbm, 153, rfl⟩
abbrev main_call2_call0_v1 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_c_19 : Ref sig .tc := ⟨.hbm, 162, rfl⟩
abbrev main_v83 : Ref sig .tc := ⟨.hbm, 163, rfl⟩
abbrev main_v84 : Ref sig .tc := ⟨.hbm, 164, rfl⟩
abbrev main_c_20 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_cst_21 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_c_22 : Ref sig .tc := ⟨.hbm, 181, rfl⟩
abbrev main_v99 : Ref sig .tc := ⟨.hbm, 182, rfl⟩
abbrev main_v100 : Ref sig .tc := ⟨.hbm, 183, rfl⟩
abbrev main_c_23 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_cst_24 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg4_0 : Ref sig .tc := ⟨.vmem, 33, rfl⟩
abbrev cc5_stg5_0 : Ref sig .tc := ⟨.vmem, 34, rfl⟩
abbrev cc5_stg5_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg2_0 : Ref sig .tc := ⟨.vmem, 44, rfl⟩
abbrev cc7_stg2_1 : Ref sig .tc := ⟨.vmem, 45, rfl⟩
abbrev cc8_stg0_0 : Ref sig .tc := ⟨.vmem, 46, rfl⟩
abbrev cc8_stg0_1 : Ref sig .tc := ⟨.vmem, 47, rfl⟩
abbrev cc8_stg1_0 : Ref sig .tc := ⟨.vmem, 48, rfl⟩
abbrev cc8_stg2_0 : Ref sig .tc := ⟨.vmem, 49, rfl⟩
abbrev cc8_stg2_1 : Ref sig .tc := ⟨.vmem, 50, rfl⟩
abbrev cc9_stg0_0 : Ref sig .tc := ⟨.vmem, 51, rfl⟩
abbrev cc9_stg0_1 : Ref sig .tc := ⟨.vmem, 52, rfl⟩
abbrev cc9_stg1_0 : Ref sig .tc := ⟨.vmem, 53, rfl⟩
abbrev cc9_stg2_0 : Ref sig .tc := ⟨.vmem, 54, rfl⟩
abbrev cc9_stg2_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem4_0 : DmaSem sig := 33
abbrev cc5_sem5_0 : DmaSem sig := 34
abbrev cc5_sem5_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem2_0 : DmaSem sig := 44
abbrev cc7_sem2_1 : DmaSem sig := 45
abbrev cc8_sem0_0 : DmaSem sig := 46
abbrev cc8_sem0_1 : DmaSem sig := 47
abbrev cc8_sem1_0 : DmaSem sig := 48
abbrev cc8_sem2_0 : DmaSem sig := 49
abbrev cc8_sem2_1 : DmaSem sig := 50
abbrev cc9_sem0_0 : DmaSem sig := 51
abbrev cc9_sem0_1 : DmaSem sig := 52
abbrev cc9_sem1_0 : DmaSem sig := 53
abbrev cc9_sem2_0 : DmaSem sig := 54
abbrev cc9_sem2_1 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S81x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x32 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S10000x32 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x81_S10000x81_0_0 : ∀ a, (![0, 0] : Fin 2 → Nat) a + S10000x81.size a ≤ S10000x81.size a
  h_S10000x81 : 0 < S10000x81.numel
  bitsLt_bf16_f32 : FTy.bits .bf16 < FTy.bits .f32
  inb_S81x64_S81x64_0_0 : ∀ a, (![0, 0] : Fin 2 → Nat) a + S81x64.size a ≤ S81x64.size a
  h_S81x64 : 0 < S81x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x81_S81x64_S10000x64_1_0_0_1_n_n_wf : DotDims.WF S10000x81 S81x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x81.size a ≤ S100000x81.size a
  hwx0_0 : ∀ i : grid0.Coords, EltTy.bits .f32 = 32 ∨ (Rect.block (s := S100000x81) S10000x81.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S81x64.size a ≤ S81x64.size a
  hwx0_1 : ∀ i : grid0.Coords, EltTy.bits .f32 = 32 ∨ (Rect.block (s := S81x64) S81x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x32.size a ≤ S100000x32.size a
  hwx6_2 : ∀ i : grid6.Coords, EltTy.bits .f32 = 32 ∨ (Rect.block (s := S100000x32) S10000x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x32.size a ≤ S100000x32.size a
  hwx7_0 : ∀ i : grid7.Coords, EltTy.bits .f32 = 32 ∨ (Rect.block (s := S100000x32) S10000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x32.size a ≤ S1x32.size a
  hwx7_1 : ∀ i : grid7.Coords, EltTy.bits .f32 = 32 ∨ (Rect.block (s := S1x32) S1x32.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x32.size a ≤ S100000x32.size a
  hwx7_2 : ∀ i : grid7.Coords, EltTy.bits .f32 = 32 ∨ (Rect.block (s := S100000x32) S10000x32.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x32.size a ≤ S64x32.size a
  hwx8_1 : ∀ i : grid8.Coords, EltTy.bits .f32 = 32 ∨ (Rect.block (s := S64x32) S64x32.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x32.size a ≤ S100000x32.size a
  hwx8_2 : ∀ i : grid8.Coords, EltTy.bits .f32 = 32 ∨ (Rect.block (s := S100000x32) S10000x32.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x32.size a ≤ S100000x32.size a
  hwx9_0 : ∀ i : grid9.Coords, EltTy.bits .f32 = 32 ∨ (Rect.block (s := S100000x32) S10000x32.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x32.size a ≤ S1x32.size a
  hwx9_1 : ∀ i : grid9.Coords, EltTy.bits .f32 = 32 ∨ (Rect.block (s := S1x32) S1x32.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x32.size a ≤ S100000x32.size a
  hwx9_2 : ∀ i : grid9.Coords, EltTy.bits .f32 = 32 ∨ (Rect.block (s := S100000x32) S10000x32.size (cc9_transform_2 i) (hinb9_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x81_S81x64_S10000x64_1_0_0_1_n_n : DotDims S10000x81 S81x64 S10000x64 where
  lhsContracting := [1]
  rhsContracting := [0]
  lhsNonContracting := [0]
  rhsNonContracting := [1]
  lhsBatch := []
  rhsBatch := []
  wf := dot_S10000x81_S81x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

abbrev win0_0 : Pipeline.Window sig grid0 :=
  Pipeline.Window.ofSpec (Memref.whole main_arg0) S10000x81.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S81x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v56) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v70) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v79) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v80) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v81) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v81) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v82) S10000x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v95) S10000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v96) S1x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v97) S10000x32.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v81) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg12) S64x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v98) S10000x32.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v111) S10000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v112) S1x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v113) S10000x32.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S100000x81 : Shape := ⟨2, ![100000, 81]⟩
abbrev S2x3200000 : Shape := ⟨2, ![2, 3200000]⟩
abbrev S81x64 : Shape := ⟨2, ![81, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x32 : Shape := ⟨2, ![100000, 32]⟩
abbrev S3300000x32 : Shape := ⟨2, ![3300000, 32]⟩
abbrev S1x32 : Shape := ⟨2, ![1, 32]⟩

abbrev nBuf : Space → Nat
  | .hbm => 231
  | .vmem => 0
  | .smem => 0
  | _ => 0

abbrev hbmTy0_0 (i : Nat) : BufTy := match i % 128 with
  | 0 => ⟨S100000x81, .f32⟩
  | 1 => ⟨S2x3200000, .i32⟩
  | 2 => ⟨S81x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x32, .f32⟩
  | 11 => ⟨S32, .f32⟩
  | 12 => ⟨S64x32, .f32⟩
  | 13 => ⟨S32, .f32⟩
  | 14 => ⟨S100000, .i32⟩
  | 15 => ⟨S1x3200000, .i32⟩
  | 16 => ⟨S3200000, .i32⟩
  | 17 => ⟨S3300000, .i32⟩
  | 18 => ⟨S1x3200000, .i32⟩
  | 19 => ⟨S3200000, .i32⟩
  | 20 => ⟨S3300000, .i32⟩
  | 21 => ⟨S_, .f32⟩
  | 22 => ⟨S3300000, .f32⟩
  | 23 => ⟨S_, .f32⟩
  | 24 => ⟨S100000, .f32⟩
  | 25 => ⟨S3300000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000, .f32⟩
  | 56 => ⟨S3300000, .f32⟩
  | 57 => ⟨S100000x64, .f32⟩
  | 58 => ⟨S_, .i32⟩
  | 59 => ⟨S3300000, .i32⟩
  | 60 => ⟨S3300000, .i1⟩
  | 61 => ⟨S_, .i32⟩
  | 62 => ⟨S3300000, .i32⟩
  | 63 => ⟨S3300000, .i32⟩
  | 64 => ⟨S3300000, .i32⟩
  | 65 => ⟨S3300000x1, .i32⟩
  | 66 => ⟨S3300000x64, .f32⟩
  | 67 => ⟨S3300000x1, .f32⟩
  | 68 => ⟨S3300000x64, .f32⟩
  | 69 => ⟨S3300000x64, .f32⟩
  | 70 => ⟨S_, .f32⟩
  | 71 => ⟨S100000x64, .f32⟩
  | 72 => ⟨S3300000x1, .i32⟩
  | 73 => ⟨S100000x64, .f32⟩
  | 74 => ⟨S1x64, .f32⟩
  | 75 => ⟨S100000x64, .f32⟩
  | 76 => ⟨S100000x64, .f32⟩
  | 77 => ⟨S_, .f32⟩
  | 78 => ⟨S64, .f32⟩
  | 79 => ⟨S_, .f32⟩
  | 80 => ⟨S64, .f32⟩
  | 81 => ⟨S64, .f32⟩
  | 82 => ⟨S_, .i32⟩
  | 83 => ⟨S_, .f32⟩
  | 84 => ⟨S64, .f32⟩
  | 85 => ⟨S1x64, .f32⟩
  | 86 => ⟨S_, .f32⟩
  | 87 => ⟨S1x64, .f32⟩
  | 88 => ⟨S1x64, .f32⟩
  | 89 => ⟨S100000x64, .f32⟩
  | 90 => ⟨S100000x64, .f32⟩
  | 91 => ⟨S100000x64, .f32⟩
  | 92 => ⟨S_, .f32⟩
  | 93 => ⟨S_, .f32⟩
  | 94 => ⟨S_, .f32⟩
  | 95 => ⟨S_, .f32⟩
  | 96 => ⟨S64, .f32⟩
  | 97 => ⟨S64, .f32⟩
  | 98 => ⟨S64, .f32⟩
  | 99 => ⟨S_, .f32⟩
  | 100 => ⟨S_, .i1⟩
  | 101 => ⟨S_, .f32⟩
  | 102 => ⟨S_, .f32⟩
  | 103 => ⟨S64, .f32⟩
  | 104 => ⟨S64, .f32⟩
  | 105 => ⟨S1x64, .f32⟩
  | 106 => ⟨S100000x64, .f32⟩
  | 107 => ⟨S100000x64, .f32⟩
  | 108 => ⟨S_, .f32⟩
  | 109 => ⟨S64, .f32⟩
  | 110 => ⟨S64, .f32⟩
  | 111 => ⟨S64, .f32⟩
  | 112 => ⟨S1x64, .f32⟩
  | 113 => ⟨S100000x64, .f32⟩
  | 114 => ⟨S100000x64, .f32⟩
  | 115 => ⟨S1x64, .f32⟩
  | 116 => ⟨S100000x64, .f32⟩
  | 117 => ⟨S100000x64, .f32⟩
  | 118 => ⟨S1x64, .f32⟩
  | 119 => ⟨S100000x64, .f32⟩
  | 120 => ⟨S100000x64, .f32⟩
  | 121 => ⟨S_, .f32⟩
  | 122 => ⟨S100000x64, .f32⟩
  | 123 => ⟨S100000x64, .f32⟩
  | 124 => ⟨S100000x64, .f32⟩
  | 125 => ⟨S_, .i32⟩
  | 126 => ⟨S3300000, .i32⟩
  | 127 => ⟨S3300000, .i1⟩
  | _ => ⟨S100000x81, .f32⟩

abbrev hbmTy0_1 (i : Nat) : BufTy := match i % 128 with
  | 0 => ⟨S_, .i32⟩
  | 1 => ⟨S3300000, .i32⟩
  | 2 => ⟨S3300000, .i32⟩
  | 3 => ⟨S3300000, .i32⟩
  | 4 => ⟨S3300000x1, .i32⟩
  | 5 => ⟨S3300000x64, .f32⟩
  | 6 => ⟨S3300000x1, .f32⟩
  | 7 => ⟨S3300000x64, .f32⟩
  | 8 => ⟨S3300000x64, .f32⟩
  | 9 => ⟨S_, .f32⟩
  | 10 => ⟨S100000x64, .f32⟩
  | 11 => ⟨S3300000x1, .i32⟩
  | 12 => ⟨S100000x64, .f32⟩
  | 13 => ⟨S1x64, .f32⟩
  | 14 => ⟨S100000x64, .f32⟩
  | 15 => ⟨S100000x64, .f32⟩
  | 16 => ⟨S_, .f32⟩
  | 17 => ⟨S64, .f32⟩
  | 18 => ⟨S_, .f32⟩
  | 19 => ⟨S64, .f32⟩
  | 20 => ⟨S64, .f32⟩
  | 21 => ⟨S_, .i32⟩
  | 22 => ⟨S_, .f32⟩
  | 23 => ⟨S64, .f32⟩
  | 24 => ⟨S1x64, .f32⟩
  | 25 => ⟨S_, .f32⟩
  | 26 => ⟨S1x64, .f32⟩
  | 27 => ⟨S1x64, .f32⟩
  | 28 => ⟨S100000x64, .f32⟩
  | 29 => ⟨S100000x64, .f32⟩
  | 30 => ⟨S100000x64, .f32⟩
  | 31 => ⟨S_, .f32⟩
  | 32 => ⟨S_, .f32⟩
  | 33 => ⟨S_, .f32⟩
  | 34 => ⟨S_, .f32⟩
  | 35 => ⟨S64, .f32⟩
  | 36 => ⟨S64, .f32⟩
  | 37 => ⟨S64, .f32⟩
  | 38 => ⟨S_, .f32⟩
  | 39 => ⟨S_, .i1⟩
  | 40 => ⟨S_, .f32⟩
  | 41 => ⟨S_, .f32⟩
  | 42 => ⟨S64, .f32⟩
  | 43 => ⟨S64, .f32⟩
  | 44 => ⟨S1x64, .f32⟩
  | 45 => ⟨S100000x64, .f32⟩
  | 46 => ⟨S100000x64, .f32⟩
  | 47 => ⟨S_, .f32⟩
  | 48 => ⟨S64, .f32⟩
  | 49 => ⟨S64, .f32⟩
  | 50 => ⟨S64, .f32⟩
  | 51 => ⟨S1x64, .f32⟩
  | 52 => ⟨S100000x64, .f32⟩
  | 53 => ⟨S100000x64, .f32⟩
  | 54 => ⟨S1x64, .f32⟩
  | 55 => ⟨S100000x64, .f32⟩
  | 56 => ⟨S100000x64, .f32⟩
  | 57 => ⟨S1x64, .f32⟩
  | 58 => ⟨S100000x64, .f32⟩
  | 59 => ⟨S100000x64, .f32⟩
  | 60 => ⟨S_, .f32⟩
  | 61 => ⟨S100000x64, .f32⟩
  | 62 => ⟨S100000x64, .f32⟩
  | 63 => ⟨S100000x32, .f32⟩
  | 64 => ⟨S_, .i32⟩
  | 65 => ⟨S3300000, .i32⟩
  | 66 => ⟨S3300000, .i1⟩
  | 67 => ⟨S_, .i32⟩
  | 68 => ⟨S3300000, .i32⟩
  | 69 => ⟨S3300000, .i32⟩
  | 70 => ⟨S3300000, .i32⟩
  | 71 => ⟨S3300000x1, .i32⟩
  | 72 => ⟨S3300000x32, .f32⟩
  | 73 => ⟨S3300000x1, .f32⟩
  | 74 => ⟨S3300000x32, .f32⟩
  | 75 => ⟨S3300000x32, .f32⟩
  | 76 => ⟨S_, .f32⟩
  | 77 => ⟨S100000x32, .f32⟩
  | 78 => ⟨S3300000x1, .i32⟩
  | 79 => ⟨S100000x32, .f32⟩
  | 80 => ⟨S1x32, .f32⟩
  | 81 => ⟨S100000x32, .f32⟩
  | 82 => ⟨S100000x32, .f32⟩
  | 83 => ⟨S100000x32, .f32⟩
  | 84 => ⟨S_, .i32⟩
  | 85 => ⟨S3300000, .i32⟩
  | 86 => ⟨S3300000, .i1⟩
  | 87 => ⟨S_, .i32⟩
  | 88 => ⟨S3300000, .i32⟩
  | 89 => ⟨S3300000, .i32⟩
  | 90 => ⟨S3300000, .i32⟩
  | 91 => ⟨S3300000x1, .i32⟩
  | 92 => ⟨S3300000x32, .f32⟩
  | 93 => ⟨S3300000x1, .f32⟩
  | 94 => ⟨S3300000x32, .f32⟩
  | 95 => ⟨S3300000x32, .f32⟩
  | 96 => ⟨S_, .f32⟩
  | 97 => ⟨S100000x32, .f32⟩
  | 98 => ⟨S3300000x1, .i32⟩
  | 99 => ⟨S100000x32, .f32⟩
  | 100 => ⟨S1x32, .f32⟩
  | 101 => ⟨S100000x32, .f32⟩
  | 102 => ⟨S100000x32, .f32⟩
  | _ => ⟨S100000x81, .f32⟩

abbrev hbmTy (i : Nat) : BufTy := match i / 128 with
  | 0 => hbmTy0_0 i
  | 1 => hbmTy0_1 i
  | _ => ⟨S100000x81, .f32⟩

abbrev bufTy : (tb : Table) → Fin (tcTables nBuf tb) → BufTy
  | .hbm, ⟨i, _⟩ => hbmTy i
  | _, _ => ⟨S100000x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_c_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_10 : Ref sig .tc := ⟨.hbm, 77, rfl⟩
abbrev main_v49 : Ref sig .tc := ⟨.hbm, 78, rfl⟩
abbrev main_cst_11 : Ref sig .tc := ⟨.hbm, 79, rfl⟩
abbrev main_v50 : Ref sig .tc := ⟨.hbm, 80, rfl⟩
abbrev main_v51 : Ref sig .tc := ⟨.hbm, 81, rfl⟩
abbrev main_c_12 : Ref sig .tc := ⟨.hbm, 82, rfl⟩
abbrev main_call1_cst : Ref sig .tc := ⟨.hbm, 83, rfl⟩
abbrev main_call1_v0 : Ref sig .tc := ⟨.hbm, 84, rfl⟩
abbrev main_call1_v1 : Ref sig .tc := ⟨.hbm, 85, rfl⟩
abbrev main_call1_cst_0 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_cst_1 : Ref sig .tc := ⟨.hbm, 93, rfl⟩
abbrev main_call1_v8 : Ref sig .tc := ⟨.hbm, 94, rfl⟩
abbrev main_call1_cst_2 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_call1_cst_3 : Ref sig .tc := ⟨.hbm, 99, rfl⟩
abbrev main_call1_v12 : Ref sig .tc := ⟨.hbm, 100, rfl⟩
abbrev main_call1_cst_4 : Ref sig .tc := ⟨.hbm, 101, rfl⟩
abbrev main_call1_call0_v0 : Ref sig .tc := ⟨.hbm, 102, rfl⟩
abbrev main_call1_call0_v1 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_cst_13 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_call2_cst : Ref sig .tc := ⟨.hbm, 121, rfl⟩
abbrev main_call2_v0 : Ref sig .tc := ⟨.hbm, 122, rfl⟩
abbrev main_v68 : Ref sig .tc := ⟨.hbm, 123, rfl⟩
abbrev main_v69 : Ref sig .tc := ⟨.hbm, 124, rfl⟩
abbrev main_c_14 : Ref sig .tc := ⟨.hbm, 125, rfl⟩
abbrev main_v70 : Ref sig .tc := ⟨.hbm, 126, rfl⟩
abbrev main_v71 : Ref sig .tc := ⟨.hbm, 127, rfl⟩
abbrev main_c_15 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_cst_16 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_cst_17 : Ref sig .tc := ⟨.hbm, 144, rfl⟩
abbrev main_v86 : Ref sig .tc := ⟨.hbm, 145, rfl⟩
abbrev main_cst_18 : Ref sig .tc := ⟨.hbm, 146, rfl⟩
abbrev main_v87 : Ref sig .tc := ⟨.hbm, 147, rfl⟩
abbrev main_v88 : Ref sig .tc := ⟨.hbm, 148, rfl⟩
abbrev main_c_19 : Ref sig .tc := ⟨.hbm, 149, rfl⟩
abbrev main_call3_cst : Ref sig .tc := ⟨.hbm, 150, rfl⟩
abbrev main_call3_v0 : Ref sig .tc := ⟨.hbm, 151, rfl⟩
abbrev main_call3_v1 : Ref sig .tc := ⟨.hbm, 152, rfl⟩
abbrev main_call3_cst_0 : Ref sig .tc := ⟨.hbm, 153, rfl⟩
abbrev main_call3_v2 : Ref sig .tc := ⟨.hbm, 154, rfl⟩
abbrev main_call3_v3 : Ref sig .tc := ⟨.hbm, 155, rfl⟩
abbrev main_call3_v4 : Ref sig .tc := ⟨.hbm, 156, rfl⟩
abbrev main_call3_v5 : Ref sig .tc := ⟨.hbm, 157, rfl⟩
abbrev main_call3_v6 : Ref sig .tc := ⟨.hbm, 158, rfl⟩
abbrev main_call3_v7 : Ref sig .tc := ⟨.hbm, 159, rfl⟩
abbrev main_call3_cst_1 : Ref sig .tc := ⟨.hbm, 160, rfl⟩
abbrev main_call3_v8 : Ref sig .tc := ⟨.hbm, 161, rfl⟩
abbrev main_call3_cst_2 : Ref sig .tc := ⟨.hbm, 162, rfl⟩
abbrev main_call3_v9 : Ref sig .tc := ⟨.hbm, 163, rfl⟩
abbrev main_call3_v10 : Ref sig .tc := ⟨.hbm, 164, rfl⟩
abbrev main_call3_v11 : Ref sig .tc := ⟨.hbm, 165, rfl⟩
abbrev main_call3_cst_3 : Ref sig .tc := ⟨.hbm, 166, rfl⟩
abbrev main_call3_v12 : Ref sig .tc := ⟨.hbm, 167, rfl⟩
abbrev main_call3_cst_4 : Ref sig .tc := ⟨.hbm, 168, rfl⟩
abbrev main_call3_call0_v0 : Ref sig .tc := ⟨.hbm, 169, rfl⟩
abbrev main_call3_call0_v1 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_cst_20 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_call4_cst : Ref sig .tc := ⟨.hbm, 188, rfl⟩
abbrev main_call4_v0 : Ref sig .tc := ⟨.hbm, 189, rfl⟩
abbrev main_v105 : Ref sig .tc := ⟨.hbm, 190, rfl⟩
abbrev main_v106 : Ref sig .tc := ⟨.hbm, 191, rfl⟩
abbrev main_c_21 : Ref sig .tc := ⟨.hbm, 192, rfl⟩
abbrev main_v107 : Ref sig .tc := ⟨.hbm, 193, rfl⟩
abbrev main_v108 : Ref sig .tc := ⟨.hbm, 194, rfl⟩
abbrev main_c_22 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_cst_23 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_c_24 : Ref sig .tc := ⟨.hbm, 212, rfl⟩
abbrev main_v124 : Ref sig .tc := ⟨.hbm, 213, rfl⟩
abbrev main_v125 : Ref sig .tc := ⟨.hbm, 214, rfl⟩
abbrev main_c_25 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_cst_26 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x81_S81x64_S100000x64_1_0_0_1_n_n_wf : DotDims.WF S100000x81 S81x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x81_S81x64_S100000x64_1_0_0_1_n_n : DotDims S100000x81 S81x64 S100000x64 where
  lhsContracting := [1]
  rhsContracting := [0]
  lhsNonContracting := [0]
  rhsNonContracting := [1]
  lhsBatch := []
  rhsBatch := []
  wf := dot_S100000x81_S81x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

class Facts : Prop extends Facts₀ where

variable [Facts]
-- ==== Proof.KRun.lean ====
/-
  The idealized kernel's run with its two results named.

  Every weakly fair execution of the program ends with each unscoped buffer of a core at the contents the
  chain of boundary valuations ends in: the launch memory folded through the host stretches and, at each
  dense stage, through what the stage's blocks write back.  Here this is read at the two result arrays
  (the mean head and the log-deviation head) beside the fourteen arguments, which end as they were launched.
-/
import proofs.«103011_j65481071395098_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both result arrays end at the last boundary's contents, the arguments as launched. -/
theorem run : θ_run defs (onTc (τ := τ) (main (F := F))) ⟨m, fun _ => 0, ρ⟩ (fun r => ∀ c : Dev nD,
      r.2.mem ((c.tc : Thread nD τ).loc main_v97) = W23 m ρ c (Proc.devRef .tc main_v97)
      ∧ r.2.mem ((c.tc : Thread nD τ).loc main_v113) = W23 m ρ c (Proc.devRef .tc main_v113)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c =>
      ⟨h c _ (mem_uc main_v97 (by decide)),
       h c _ (mem_uc main_v113 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c),
       (h c _ (mem_uc main_arg6 (by decide))).trans (W23_main_arg6 m ρ c),
       (h c _ (mem_uc main_arg7 (by decide))).trans (W23_main_arg7 m ρ c),
       (h c _ (mem_uc main_arg8 (by decide))).trans (W23_main_arg8 m ρ c),
       (h c _ (mem_uc main_arg9 (by decide))).trans (W23_main_arg9 m ρ c),
       (h c _ (mem_uc main_arg10 (by decide))).trans (W23_main_arg10 m ρ c),
       (h c _ (mem_uc main_arg11 (by decide))).trans (W23_main_arg11 m ρ c),
       (h c _ (mem_uc main_arg12 (by decide))).trans (W23_main_arg12 m ρ c),
       (h c _ (mem_uc main_arg13 (by decide))).trans (W23_main_arg13 m ρ c)⟩)

end Cert.KernelIdeal.KRun

end
-- ==== Proof.RefOps.lean ====
/-
  The reference program's host operations, in order, cut at the places where the kernel's program passes from
  host operations to a dense stage and back: the degree normalisation of the graph (first piece), then for each
  of the four graph convolutions the matrix product, the gather / scale / scatter-add over the edges and the
  bias, and between the convolutions the column statistics, the normalisation and the cut-off at zero.  Calls of
  outlined functions are listed operation by operation at the call site, over the call's own buffers.
-/
import proofs.«103011_j65481071395098_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem

variable {F : FTy → Type} [FloatOps F]

/-- Piece R1: 43 operations, ending at result 31. -/
abbrev R1 : List (HloOp τ sig (Elt F)) :=
  [ StableHlo.nullary main_v0 (iotaInDim S100000 32 0),
    StableHlo.unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v1 main_v2 rfl shapeCasts_S1x3200000_S3200000,
    StableHlo.binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v4 main_v5 rfl shapeCasts_S1x3200000_S3200000,
    StableHlo.binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst (constant S_ .f32 0x3F800000#32),
    StableHlo.unary main_cst main_v7 (broadcastInDim S3300000 ![] bcast_S_S3300000 : (⟨S_, .f32⟩ : BufTy).Contents (Elt F) → (⟨S3300000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S3300000x1 ![0] bcast_S3300000_S3300000x1_0 : (⟨S3300000, .i32⟩ : BufTy).Contents (Elt F) → (⟨S3300000x1, .i32⟩ : BufTy).Contents (Elt F)),
    StableHlo.ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (maximumf : (⟨S100000, .f32⟩ : BufTy).Contents (Elt F) → (⟨S100000, .f32⟩ : BufTy).Contents (Elt F) → (⟨S100000, .f32⟩ : BufTy).Contents (Elt F)),
    StableHlo.unary main_v14 main_v15 (Host.rsqrt : (⟨S100000, .f32⟩ : BufTy).Contents (Elt F) → (⟨S100000, .f32⟩ : BufTy).Contents (Elt F)),
    StableHlo.nullary main_cst_3 (constant S_ .f32 0x00000000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v12 : StableHlo.TRef sig ⟨S100000, .i1⟩) (.of main_v15 : StableHlo.TRef sig ⟨S100000, .f32⟩) (.of main_call0_v1 : StableHlo.TRef sig ⟨S100000, .f32⟩) (.of main_v16 : StableHlo.TRef sig ⟨S100000, .f32⟩) select,
    StableHlo.nullary main_c (constantI S_ 32 0#32),
    StableHlo.unary main_c main_v17 (broadcastInDim S3300000 ![] bcast_S_S3300000 : (⟨S_, .i32⟩ : BufTy).Contents (Elt F) → (⟨S3300000, .i32⟩ : BufTy).Contents (Elt F)),
    StableHlo.binary main_v3 main_v17 main_v18 (cmpi .slt : (⟨S3300000, .i32⟩ : BufTy).Contents (Elt F) → (⟨S3300000, .i32⟩ : BufTy).Contents (Elt F) → (⟨S3300000, .i1⟩ : BufTy).Contents (Elt F)),
    StableHlo.nullary main_c_4 (constantI S_ 32 100000#32),
    StableHlo.unary main_c_4 main_v19 (broadcastInDim S3300000 ![] bcast_S_S3300000 : (⟨S_, .i32⟩ : BufTy).Contents (Elt F) → (⟨S3300000, .i32⟩ : BufTy).Contents (Elt F)),
    StableHlo.binary main_v3 main_v19 main_v20 (addi : (⟨S3300000, .i32⟩ : BufTy).Contents (Elt F) → (⟨S3300000, .i32⟩ : BufTy).Contents (Elt F) → (⟨S3300000, .i32⟩ : BufTy).Contents (Elt F)),
    StableHlo.ternary main_v18 main_v20 main_v3 main_v21 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v21 main_v22 (broadcastInDim S3300000x1 ![0] bcast_S3300000_S3300000x1_0 : (⟨S3300000, .i32⟩ : BufTy).Contents (Elt F) → (⟨S3300000x1, .i32⟩ : BufTy).Contents (Elt F)),
    StableHlo.binary main_v16 main_v22 main_v23 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_5 (constantI S_ 32 0#32),
    StableHlo.unary main_c_5 main_v24 (broadcastInDim S3300000 ![] bcast_S_S3300000 : (⟨S_, .i32⟩ : BufTy).Contents (Elt F) → (⟨S3300000, .i32⟩ : BufTy).Contents (Elt F)),
    StableHlo.binary main_v6 main_v24 main_v25 (cmpi .slt : (⟨S3300000, .i32⟩ : BufTy).Contents (Elt F) → (⟨S3300000, .i32⟩ : BufTy).Contents (Elt F) → (⟨S3300000, .i1⟩ : BufTy).Contents (Elt F)),
    StableHlo.nullary main_c_6 (constantI S_ 32 100000#32),
    StableHlo.unary main_c_6 main_v26 (broadcastInDim S3300000 ![] bcast_S_S3300000 : (⟨S_, .i32⟩ : BufTy).Contents (Elt F) → (⟨S3300000, .i32⟩ : BufTy).Contents (Elt F)),
    StableHlo.binary main_v6 main_v26 main_v27 (addi : (⟨S3300000, .i32⟩ : BufTy).Contents (Elt F) → (⟨S3300000, .i32⟩ : BufTy).Contents (Elt F) → (⟨S3300000, .i32⟩ : BufTy).Contents (Elt F)),
    StableHlo.ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v28 main_v29 (broadcastInDim S3300000x1 ![0] bcast_S3300000_S3300000x1_0 : (⟨S3300000, .i32⟩ : BufTy).Contents (Elt F) → (⟨S3300000x1, .i32⟩ : BufTy).Contents (Elt F)),
    StableHlo.binary main_v16 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v23 main_v30 main_v31 (mulf : (⟨S3300000, .f32⟩ : BufTy).Contents (Elt F) → (⟨S3300000, .f32⟩ : BufTy).Contents (Elt F) → (⟨S3300000, .f32⟩ : BufTy).Contents (Elt F)) ]
theorem R1_sub : (R1 : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩

/-- Piece R2: 1 operation, ending at result 32. -/
abbrev R2 : List (HloOp τ sig (Elt F)) :=
  [ StableHlo.binary main_arg0 main_arg2 main_v32 ((fun l r => Host.dotGeneral dot_S100000x81_S81x64_S100000x64_1_0_0_1_n_n none l r) : (⟨S100000x81, .f32⟩ : BufTy).Contents (Elt F) → (⟨S81x64, .f32⟩ : BufTy).Contents (Elt F) → (⟨S100000x64, .f32⟩ : BufTy).Contents (Elt F)) ]
theorem R2_sub : (R2 : List (HloOp τ sig (Elt F))).Forall fun op => op.bufs ⊆ StableHlo.tcRefs τ sig :=
  StableHlo.binary_bufs_sub ..

/-- Piece R3: 16 operations, ending at result 45. -/
abbrev R3 : List (HloOp τ sig (Elt F)) :=
  [ StableHlo.nullary main_c_7 (constantI S_ 32 0#32),
    StableHlo.unary main_c_7 main_v33 (broadcastInDim S3300000 ![] bcast_S_S3300000 : (⟨S_, .i32⟩ : BufTy).Contents (Elt F) → (⟨S3300000, .i32⟩ : BufTy).Contents (Elt F)),
    StableHlo.binary main_v3 main_v33 main_v34 (cmpi .slt : (⟨S3300000, .i32⟩ : BufTy).Contents (Elt F) → (⟨S3300000, .i32⟩ : BufTy).Contents (Elt F) → (⟨S3300000, .i1⟩ : BufTy).Contents (Elt F)),
    StableHlo.nullary main_c_8 (constantI S_ 32 100000#32),
    StableHlo.unary main_c_8 main_v35 (broadcastInDim S3300000 ![] bcast_S_S3300000 : (⟨S_, .i32⟩ : BufTy).Contents (Elt F) → (⟨S3300000, .i32⟩ : BufTy).Contents (Elt F)),
    StableHlo.binary main_v3 main_v35 main_v36 (addi : (⟨S3300000, .i32⟩ : BufTy).Contents (Elt F) → (⟨S3300000, .i32⟩ : BufTy).Contents (Elt F) → (⟨S3300000, .i32⟩ : BufTy).Contents (Elt F)),
    StableHlo.ternary main_v34 main_v36 main_v3 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v37 main_v38 (broadcastInDim S3300000x1 ![0] bcast_S3300000_S3300000x1_0 : (⟨S3300000, .i32⟩ : BufTy).Contents (Elt F) → (⟨S3300000x1, .i32⟩ : BufTy).Contents (Elt F)),
    StableHlo.binary main_v32 main_v38 main_v39 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    StableHlo.unary main_v31 main_v40 (broadcastInDim S3300000x1 ![0] bcast_S3300000_S3300000x1_0 : (⟨S3300000, .f32⟩ : BufTy).Contents (Elt F) → (⟨S3300000x1, .f32⟩ : BufTy).Contents (Elt F)),
    StableHlo.unary main_v40 main_v41 (broadcastInDim S3300000x64 ![0, 1] bcast_S3300000x1_S3300000x64_0_1 : (⟨S3300000x1, .f32⟩ : BufTy).Contents (Elt F) → (⟨S3300000x64, .f32⟩ : BufTy).Contents (Elt F)),
    StableHlo.binary main_v39 main_v41 main_v42 (mulf : (⟨S3300000x64, .f32⟩ : BufTy).Contents (Elt F) → (⟨S3300000x64, .f32⟩ : BufTy).Contents (Elt F) → (⟨S3300000x64, .f32⟩ : BufTy).Contents (Elt F)),
    StableHlo.nullary main_cst_9 (constant S_ .f32 0x00000000#32),
    StableHlo.unary main_cst_9 main_v43 (broadcastInDim S100000x64 ![] bcast_S_S100000x64 : (⟨S_, .f32⟩ : BufTy).Contents (Elt F) → (⟨S100000x64, .f32⟩ : BufTy).Contents (Elt F)),
    StableHlo.unary main_v6 main_v44 (broadcastInDim S3300000x1 ![0] bcast_S3300000_S3300000x1_0 : (⟨S3300000, .i32⟩ : BufTy).Contents (Elt F) → (⟨S3300000x1, .i32⟩ : BufTy).Contents (Elt F)),
    StableHlo.ternary main_v43 main_v44 main_v42 main_v45 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)) ]
theorem R3_sub : (R3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub ..⟩

/-- Piece R4a: 2 operations, ending at result 47. -/
abbrev R4a : List (HloOp τ sig (Elt F)) :=
  [ StableHlo.unary main_arg3 main_v46 (broadcastInDim S1x64 ![1] bcast_S64_S1x64_1 : (⟨S64, .f32⟩ : BufTy).Contents (Elt F) → (⟨S1x64, .f32⟩ : BufTy).Contents (Elt F)),
    StableHlo.unary main_v46 main_v47 (broadcastInDim S100000x64 ![0, 1] bcast_S1x64_S100000x64_0_1 : (⟨S1x64, .f32⟩ : BufTy).Contents (Elt F) → (⟨S100000x64, .f32⟩ : BufTy).Contents (Elt F)) ]
theorem R4a_sub : (R4a : List (HloOp τ sig (Elt F))).Forall fun op => op.bufs ⊆ StableHlo.tcRefs τ sig :=
  ⟨StableHlo.unary_bufs_sub .., StableHlo.unary_bufs_sub ..⟩

/-- Piece R4b: 1 operation, ending at result 48. -/
abbrev R4b : List (HloOp τ sig (Elt F)) :=
  [ StableHlo.binary main_v45 main_v47 main_v48 (addf : (⟨S100000x64, .f32⟩ : BufTy).Contents (Elt F) → (⟨S100000x64, .f32⟩ : BufTy).Contents (Elt F) → (⟨S100000x64, .f32⟩ : BufTy).Contents (Elt F)) ]
theorem R4b_sub : (R4b : List (HloOp τ sig (Elt F))).Forall fun op => op.bufs ⊆ StableHlo.tcRefs τ sig :=
  StableHlo.binary_bufs_sub ..

/-- Piece R5: 28 operations, ending at result 52. -/
abbrev R5 : List (HloOp τ sig (Elt F)) :=
  [ StableHlo.nullary main_cst_10 (constant S_ .f32 0x00000000#32),
    StableHlo.binary main_v48 main_cst_10 main_v49 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_11 (constant S_ .f32 0x47C35000#32),
    StableHlo.unary main_cst_11 main_v50 (broadcastInDim S64 ![] bcast_S_S64 : (⟨S_, .f32⟩ : BufTy).Contents (Elt F) → (⟨S64, .f32⟩ : BufTy).Contents (Elt F)),
    StableHlo.binary main_v49 main_v50 main_v51 (Host.divf : (⟨S64, .f32⟩ : BufTy).Contents (Elt F) → (⟨S64, .f32⟩ : BufTy).Contents (Elt F) → (⟨S64, .f32⟩ : BufTy).Contents (Elt F)),
    StableHlo.nullary main_c_12 (constantI S_ 32 0#32),
    StableHlo.TRef.nullary (.of main_call1_cst : StableHlo.TRef sig ⟨S_, .f32⟩) (constant S_ .f32 0x00000000#32),
    StableHlo.TRef.binary (.of main_v48 : StableHlo.TRef sig ⟨S100000x64, .f32⟩) (.of main_call1_cst : StableHlo.TRef sig ⟨S_, .f32⟩) (.of main_call1_v0 : StableHlo.TRef sig ⟨S64, .f32⟩) (fun x v => Host.reduceAdd x v reducesTo_S100000x64_S64_d0 h_S_),
    StableHlo.TRef.unary (.of main_call1_v0 : StableHlo.TRef sig ⟨S64, .f32⟩) (.of main_call1_v1 : StableHlo.TRef sig ⟨S1x64, .f32⟩) (broadcastInDim S1x64 ![1] bcast_S64_S1x64_1),
    StableHlo.TRef.nullary (.of main_call1_cst_0 : StableHlo.TRef sig ⟨S_, .f32⟩) (constant S_ .f32 0x47C35000#32),
    StableHlo.TRef.unary (.of main_call1_cst_0 : StableHlo.TRef sig ⟨S_, .f32⟩) (.of main_call1_v2 : StableHlo.TRef sig ⟨S1x64, .f32⟩) (broadcastInDim S1x64 ![] bcast_S_S1x64),
    StableHlo.TRef.binary (.of main_call1_v1 : StableHlo.TRef sig ⟨S1x64, .f32⟩) (.of main_call1_v2 : StableHlo.TRef sig ⟨S1x64, .f32⟩) (.of main_call1_v3 : StableHlo.TRef sig ⟨S1x64, .f32⟩) Host.divf,
    StableHlo.TRef.unary (.of main_call1_v3 : StableHlo.TRef sig ⟨S1x64, .f32⟩) (.of main_call1_v4 : StableHlo.TRef sig ⟨S100000x64, .f32⟩) (broadcastInDim S100000x64 ![0, 1] bcast_S1x64_S100000x64_0_1),
    StableHlo.TRef.binary (.of main_v48 : StableHlo.TRef sig ⟨S100000x64, .f32⟩) (.of main_call1_v4 : StableHlo.TRef sig ⟨S100000x64, .f32⟩) (.of main_call1_v5 : StableHlo.TRef sig ⟨S100000x64, .f32⟩) subf,
    StableHlo.TRef.binary (.of main_call1_v5 : StableHlo.TRef sig ⟨S100000x64, .f32⟩) (.of main_call1_v5 : StableHlo.TRef sig ⟨S100000x64, .f32⟩) (.of main_call1_v6 : StableHlo.TRef sig ⟨S100000x64, .f32⟩) mulf,
    StableHlo.TRef.unary (.of main_c_12 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x47C35000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S100000x64, .f32⟩) (.of main_call1_cst_2 : StableHlo.TRef sig ⟨S_, .f32⟩) (.of main_call1_v9 : StableHlo.TRef sig ⟨S64, .f32⟩) (fun x v => Host.reduceAdd x v reducesTo_S100000x64_S64_d0 h_S_),
    StableHlo.TRef.unary (.of main_call1_v8 : StableHlo.TRef sig ⟨S_, .f32⟩) (.of main_call1_v10 : StableHlo.TRef sig ⟨S64, .f32⟩) (broadcastInDim S64 ![] bcast_S_S64),
    StableHlo.TRef.binary (.of main_call1_v9 : StableHlo.TRef sig ⟨S64, .f32⟩) (.of main_call1_v10 : StableHlo.TRef sig ⟨S64, .f32⟩) (.of main_call1_v11 : StableHlo.TRef sig ⟨S64, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S64, .f32⟩) (broadcastInDim S64 ![] bcast_S_S64),
    StableHlo.TRef.ternary (.of main_call1_v12 : StableHlo.TRef sig ⟨S_, .i1⟩) (.of main_call1_v11 : StableHlo.TRef sig ⟨S64, .f32⟩) (.of main_call1_call0_v1 : StableHlo.TRef sig ⟨S64, .f32⟩) (.of main_v52 : StableHlo.TRef sig ⟨S64, .f32⟩) (fun p a b => select (broadcastInDim S64 ![] bcast_S_S64 p) a b) ]
theorem R5_sub : (R5 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

/-- Piece R6: 19 operations, ending at result 68. -/
abbrev R6 : List (HloOp τ sig (Elt F)) :=
  [ StableHlo.unary main_v51 main_v53 (broadcastInDim S1x64 ![1] bcast_S64_S1x64_1 : (⟨S64, .f32⟩ : BufTy).Contents (Elt F) → (⟨S1x64, .f32⟩ : BufTy).Contents (Elt F)),
    StableHlo.unary main_v53 main_v54 (broadcastInDim S100000x64 ![0, 1] bcast_S1x64_S100000x64_0_1 : (⟨S1x64, .f32⟩ : BufTy).Contents (Elt F) → (⟨S100000x64, .f32⟩ : BufTy).Contents (Elt F)),
    StableHlo.binary main_v48 main_v54 main_v55 (subf : (⟨S100000x64, .f32⟩ : BufTy).Contents (Elt F) → (⟨S100000x64, .f32⟩ : BufTy).Contents (Elt F) → (⟨S100000x64, .f32⟩ : BufTy).Contents (Elt F)),
    StableHlo.nullary main_cst_13 (constant S_ .f32 0x3727C5AC#32),
    StableHlo.unary main_cst_13 main_v56 (broadcastInDim S64 ![] bcast_S_S64 : (⟨S_, .f32⟩ : BufTy).Contents (Elt F) → (⟨S64, .f32⟩ : BufTy).Contents (Elt F)),
    StableHlo.binary main_v52 main_v56 main_v57 (addf : (⟨S64, .f32⟩ : BufTy).Contents (Elt F) → (⟨S64, .f32⟩ : BufTy).Contents (Elt F) → (⟨S64, .f32⟩ : BufTy).Contents (Elt F)),
    StableHlo.unary main_v57 main_v58 (Host.rsqrt : (⟨S64, .f32⟩ : BufTy).Contents (Elt F) → (⟨S64, .f32⟩ : BufTy).Contents (Elt F)),
    StableHlo.unary main_v58 main_v59 (broadcastInDim S1x64 ![1] bcast_S64_S1x64_1 : (⟨S64, .f32⟩ : BufTy).Contents (Elt F) → (⟨S1x64, .f32⟩ : BufTy).Contents (Elt F)),
    StableHlo.unary main_v59 main_v60 (broadcastInDim S100000x64 ![0, 1] bcast_S1x64_S100000x64_0_1 : (⟨S1x64, .f32⟩ : BufTy).Contents (Elt F) → (⟨S100000x64, .f32⟩ : BufTy).Contents (Elt F)),
    StableHlo.binary main_v55 main_v60 main_v61 (mulf : (⟨S100000x64, .f32⟩ : BufTy).Contents (Elt F) → (⟨S100000x64, .f32⟩ : BufTy).Contents (Elt F) → (⟨S100000x64, .f32⟩ : BufTy).Contents (Elt F)),
    StableHlo.unary main_arg4 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S100000x64 ![0, 1] bcast_S1x64_S100000x64_0_1 : (⟨S1x64, .f32⟩ : BufTy).Contents (Elt F) → (⟨S100000x64, .f32⟩ : BufTy).Contents (Elt F)),
    StableHlo.binary main_v61 main_v63 main_v64 (mulf : (⟨S100000x64, .f32⟩ : BufTy).Contents (Elt F) → (⟨S100000x64, .f32⟩ : BufTy).Contents (Elt F) → (⟨S100000x64, .f32⟩ : BufTy).Contents (Elt F)),
    StableHlo.unary main_arg5 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S100000x64 ![0, 1] bcast_S1x64_S100000x64_0_1 : (⟨S1x64, .f32⟩ : BufTy).Contents (Elt F) → (⟨S100000x64, .f32⟩ : BufTy).Contents (Elt F)),
    StableHlo.binary main_v64 main_v66 main_v67 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S100000x64, .f32⟩) (broadcastInDim S100000x64 ![] bcast_S_S100000x64),
    StableHlo.TRef.binary (.of main_v67 : StableHlo.TRef sig ⟨S100000x64, .f32⟩) (.of main_call2_v0 : StableHlo.TRef sig ⟨S100000x64, .f32⟩) (.of main_v68 : StableHlo.TRef sig ⟨S100000x64, .f32⟩) maximumf ]
theorem R6_sub : (R6 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Piece R7: 1 operation, ending at result 69. -/
abbrev R7 : List (HloOp τ sig (Elt F)) :=
  [ StableHlo.binary main_v68 main_arg6 main_v69 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]
theorem R7_sub : (R7 : List (HloOp τ sig (Elt F))).Forall fun op => op.bufs ⊆ StableHlo.tcRefs τ sig :=
  StableHlo.binary_bufs_sub ..

/-- Piece R8: 16 operations, ending at result 82. -/
abbrev R8 : List (HloOp τ sig (Elt F)) :=
  [ StableHlo.nullary main_c_14 (constantI S_ 32 0#32),
    StableHlo.unary main_c_14 main_v70 (broadcastInDim S3300000 ![] bcast_S_S3300000 : (⟨S_, .i32⟩ : BufTy).Contents (Elt F) → (⟨S3300000, .i32⟩ : BufTy).Contents (Elt F)),
    StableHlo.binary main_v3 main_v70 main_v71 (cmpi .slt : (⟨S3300000, .i32⟩ : BufTy).Contents (Elt F) → (⟨S3300000, .i32⟩ : BufTy).Contents (Elt F) → (⟨S3300000, .i1⟩ : BufTy).Contents (Elt F)),
    StableHlo.nullary main_c_15 (constantI S_ 32 100000#32),
    StableHlo.unary main_c_15 main_v72 (broadcastInDim S3300000 ![] bcast_S_S3300000 : (⟨S_, .i32⟩ : BufTy).Contents (Elt F) → (⟨S3300000, .i32⟩ : BufTy).Contents (Elt F)),
    StableHlo.binary main_v3 main_v72 main_v73 (addi : (⟨S3300000, .i32⟩ : BufTy).Contents (Elt F) → (⟨S3300000, .i32⟩ : BufTy).Contents (Elt F) → (⟨S3300000, .i32⟩ : BufTy).Contents (Elt F)),
    StableHlo.ternary main_v71 main_v73 main_v3 main_v74 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v74 main_v75 (broadcastInDim S3300000x1 ![0] bcast_S3300000_S3300000x1_0 : (⟨S3300000, .i32⟩ : BufTy).Contents (Elt F) → (⟨S3300000x1, .i32⟩ : BufTy).Contents (Elt F)),
    StableHlo.binary main_v69 main_v75 main_v76 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    StableHlo.unary main_v31 main_v77 (broadcastInDim S3300000x1 ![0] bcast_S3300000_S3300000x1_0 : (⟨S3300000, .f32⟩ : BufTy).Contents (Elt F) → (⟨S3300000x1, .f32⟩ : BufTy).Contents (Elt F)),
    StableHlo.unary main_v77 main_v78 (broadcastInDim S3300000x64 ![0, 1] bcast_S3300000x1_S3300000x64_0_1 : (⟨S3300000x1, .f32⟩ : BufTy).Contents (Elt F) → (⟨S3300000x64, .f32⟩ : BufTy).Contents (Elt F)),
    StableHlo.binary main_v76 main_v78 main_v79 (mulf : (⟨S3300000x64, .f32⟩ : BufTy).Contents (Elt F) → (⟨S3300000x64, .f32⟩ : BufTy).Contents (Elt F) → (⟨S3300000x64, .f32⟩ : BufTy).Contents (Elt F)),
    StableHlo.nullary main_cst_16 (constant S_ .f32 0x00000000#32),
    StableHlo.unary main_cst_16 main_v80 (broadcastInDim S100000x64 ![] bcast_S_S100000x64 : (⟨S_, .f32⟩ : BufTy).Contents (Elt F) → (⟨S100000x64, .f32⟩ : BufTy).Contents (Elt F)),
    StableHlo.unary main_v6 main_v81 (broadcastInDim S3300000x1 ![0] bcast_S3300000_S3300000x1_0 : (⟨S3300000, .i32⟩ : BufTy).Contents (Elt F) → (⟨S3300000x1, .i32⟩ : BufTy).Contents (Elt F)),
    StableHlo.ternary main_v80 main_v81 main_v79 main_v82 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)) ]
theorem R8_sub : (R8 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub ..⟩

/-- Piece R9: 3 operations, ending at result 85. -/
abbrev R9 : List (HloOp τ sig (Elt F)) :=
  [ StableHlo.unary main_arg7 main_v83 (broadcastInDim S1x64 ![1] bcast_S64_S1x64_1 : (⟨S64, .f32⟩ : BufTy).Contents (Elt F) → (⟨S1x64, .f32⟩ : BufTy).Contents (Elt F)),
    StableHlo.unary main_v83 main_v84 (broadcastInDim S100000x64 ![0, 1] bcast_S1x64_S100000x64_0_1 : (⟨S1x64, .f32⟩ : BufTy).Contents (Elt F) → (⟨S100000x64, .f32⟩ : BufTy).Contents (Elt F)),
    StableHlo.binary main_v82 main_v84 main_v85 (addf : (⟨S100000x64, .f32⟩ : BufTy).Contents (Elt F) → (⟨S100000x64, .f32⟩ : BufTy).Contents (Elt F) → (⟨S100000x64, .f32⟩ : BufTy).Contents (Elt F)) ]
theorem R9_sub : (R9 : List (HloOp τ sig (Elt F))).Forall fun op => op.bufs ⊆ StableHlo.tcRefs τ sig :=
  ⟨StableHlo.unary_bufs_sub .., StableHlo.unary_bufs_sub .., StableHlo.binary_bufs_sub ..⟩

/-- Piece R10: 28 operations, ending at result 89. -/
abbrev R10 : List (HloOp τ sig (Elt F)) :=
  [ StableHlo.nullary main_cst_17 (constant S_ .f32 0x00000000#32),
    StableHlo.binary main_v85 main_cst_17 main_v86 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_18 (constant S_ .f32 0x47C35000#32),
    StableHlo.unary main_cst_18 main_v87 (broadcastInDim S64 ![] bcast_S_S64 : (⟨S_, .f32⟩ : BufTy).Contents (Elt F) → (⟨S64, .f32⟩ : BufTy).Contents (Elt F)),
    StableHlo.binary main_v86 main_v87 main_v88 (Host.divf : (⟨S64, .f32⟩ : BufTy).Contents (Elt F) → (⟨S64, .f32⟩ : BufTy).Contents (Elt F) → (⟨S64, .f32⟩ : BufTy).Contents (Elt F)),
    StableHlo.nullary main_c_19 (constantI S_ 32 0#32),
    StableHlo.TRef.nullary (.of main_call3_cst : StableHlo.TRef sig ⟨S_, .f32⟩) (constant S_ .f32 0x00000000#32),
    StableHlo.TRef.binary (.of main_v85 : StableHlo.TRef sig ⟨S100000x64, .f32⟩) (.of main_call3_cst : StableHlo.TRef sig ⟨S_, .f32⟩) (.of main_call3_v0 : StableHlo.TRef sig ⟨S64, .f32⟩) (fun x v => Host.reduceAdd x v reducesTo_S100000x64_S64_d0 h_S_),
    StableHlo.TRef.unary (.of main_call3_v0 : StableHlo.TRef sig ⟨S64, .f32⟩) (.of main_call3_v1 : StableHlo.TRef sig ⟨S1x64, .f32⟩) (broadcastInDim S1x64 ![1] bcast_S64_S1x64_1),
    StableHlo.TRef.nullary (.of main_call3_cst_0 : StableHlo.TRef sig ⟨S_, .f32⟩) (constant S_ .f32 0x47C35000#32),
    StableHlo.TRef.unary (.of main_call3_cst_0 : StableHlo.TRef sig ⟨S_, .f32⟩) (.of main_call3_v2 : StableHlo.TRef sig ⟨S1x64, .f32⟩) (broadcastInDim S1x64 ![] bcast_S_S1x64),
    StableHlo.TRef.binary (.of main_call3_v1 : StableHlo.TRef sig ⟨S1x64, .f32⟩) (.of main_call3_v2 : StableHlo.TRef sig ⟨S1x64, .f32⟩) (.of main_call3_v3 : StableHlo.TRef sig ⟨S1x64, .f32⟩) Host.divf,
    StableHlo.TRef.unary (.of main_call3_v3 : StableHlo.TRef sig ⟨S1x64, .f32⟩) (.of main_call3_v4 : StableHlo.TRef sig ⟨S100000x64, .f32⟩) (broadcastInDim S100000x64 ![0, 1] bcast_S1x64_S100000x64_0_1),
    StableHlo.TRef.binary (.of main_v85 : StableHlo.TRef sig ⟨S100000x64, .f32⟩) (.of main_call3_v4 : StableHlo.TRef sig ⟨S100000x64, .f32⟩) (.of main_call3_v5 : StableHlo.TRef sig ⟨S100000x64, .f32⟩) subf,
    StableHlo.TRef.binary (.of main_call3_v5 : StableHlo.TRef sig ⟨S100000x64, .f32⟩) (.of main_call3_v5 : StableHlo.TRef sig ⟨S100000x64, .f32⟩) (.of main_call3_v6 : StableHlo.TRef sig ⟨S100000x64, .f32⟩) mulf,
    StableHlo.TRef.unary (.of main_c_19 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x47C35000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S100000x64, .f32⟩) (.of main_call3_cst_2 : StableHlo.TRef sig ⟨S_, .f32⟩) (.of main_call3_v9 : StableHlo.TRef sig ⟨S64, .f32⟩) (fun x v => Host.reduceAdd x v reducesTo_S100000x64_S64_d0 h_S_),
    StableHlo.TRef.unary (.of main_call3_v8 : StableHlo.TRef sig ⟨S_, .f32⟩) (.of main_call3_v10 : StableHlo.TRef sig ⟨S64, .f32⟩) (broadcastInDim S64 ![] bcast_S_S64),
    StableHlo.TRef.binary (.of main_call3_v9 : StableHlo.TRef sig ⟨S64, .f32⟩) (.of main_call3_v10 : StableHlo.TRef sig ⟨S64, .f32⟩) (.of main_call3_v11 : StableHlo.TRef sig ⟨S64, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S64, .f32⟩) (broadcastInDim S64 ![] bcast_S_S64),
    StableHlo.TRef.ternary (.of main_call3_v12 : StableHlo.TRef sig ⟨S_, .i1⟩) (.of main_call3_v11 : StableHlo.TRef sig ⟨S64, .f32⟩) (.of main_call3_call0_v1 : StableHlo.TRef sig ⟨S64, .f32⟩) (.of main_v89 : StableHlo.TRef sig ⟨S64, .f32⟩) (fun p a b => select (broadcastInDim S64 ![] bcast_S_S64 p) a b) ]
theorem R10_sub : (R10 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

/-- Piece R11a: 8 operations, ending at result 96. -/
abbrev R11a : List (HloOp τ sig (Elt F)) :=
  [ StableHlo.unary main_v88 main_v90 (broadcastInDim S1x64 ![1] bcast_S64_S1x64_1 : (⟨S64, .f32⟩ : BufTy).Contents (Elt F) → (⟨S1x64, .f32⟩ : BufTy).Contents (Elt F)),
    StableHlo.unary main_v90 main_v91 (broadcastInDim S100000x64 ![0, 1] bcast_S1x64_S100000x64_0_1 : (⟨S1x64, .f32⟩ : BufTy).Contents (Elt F) → (⟨S100000x64, .f32⟩ : BufTy).Contents (Elt F)),
    StableHlo.binary main_v85 main_v91 main_v92 (subf : (⟨S100000x64, .f32⟩ : BufTy).Contents (Elt F) → (⟨S100000x64, .f32⟩ : BufTy).Contents (Elt F) → (⟨S100000x64, .f32⟩ : BufTy).Contents (Elt F)),
    StableHlo.nullary main_cst_20 (constant S_ .f32 0x3727C5AC#32),
    StableHlo.unary main_cst_20 main_v93 (broadcastInDim S64 ![] bcast_S_S64 : (⟨S_, .f32⟩ : BufTy).Contents (Elt F) → (⟨S64, .f32⟩ : BufTy).Contents (Elt F)),
    StableHlo.binary main_v89 main_v93 main_v94 (addf : (⟨S64, .f32⟩ : BufTy).Contents (Elt F) → (⟨S64, .f32⟩ : BufTy).Contents (Elt F) → (⟨S64, .f32⟩ : BufTy).Contents (Elt F)),
    StableHlo.unary main_v94 main_v95 (Host.rsqrt : (⟨S64, .f32⟩ : BufTy).Contents (Elt F) → (⟨S64, .f32⟩ : BufTy).Contents (Elt F)),
    StableHlo.unary main_v95 main_v96 (broadcastInDim S1x64 ![1] bcast_S64_S1x64_1 : (⟨S64, .f32⟩ : BufTy).Contents (Elt F) → (⟨S1x64, .f32⟩ : BufTy).Contents (Elt F)) ]
theorem R11a_sub : (R11a : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub ..⟩

/-- Piece R11b: 11 operations, ending at result 105. -/
abbrev R11b : List (HloOp τ sig (Elt F)) :=
  [ StableHlo.unary main_v96 main_v97 (broadcastInDim S100000x64 ![0, 1] bcast_S1x64_S100000x64_0_1 : (⟨S1x64, .f32⟩ : BufTy).Contents (Elt F) → (⟨S100000x64, .f32⟩ : BufTy).Contents (Elt F)),
    StableHlo.binary main_v92 main_v97 main_v98 (mulf : (⟨S100000x64, .f32⟩ : BufTy).Contents (Elt F) → (⟨S100000x64, .f32⟩ : BufTy).Contents (Elt F) → (⟨S100000x64, .f32⟩ : BufTy).Contents (Elt F)),
    StableHlo.unary main_arg8 main_v99 (broadcastInDim S1x64 ![1] bcast_S64_S1x64_1 : (⟨S64, .f32⟩ : BufTy).Contents (Elt F) → (⟨S1x64, .f32⟩ : BufTy).Contents (Elt F)),
    StableHlo.unary main_v99 main_v100 (broadcastInDim S100000x64 ![0, 1] bcast_S1x64_S100000x64_0_1 : (⟨S1x64, .f32⟩ : BufTy).Contents (Elt F) → (⟨S100000x64, .f32⟩ : BufTy).Contents (Elt F)),
    StableHlo.binary main_v98 main_v100 main_v101 (mulf : (⟨S100000x64, .f32⟩ : BufTy).Contents (Elt F) → (⟨S100000x64, .f32⟩ : BufTy).Contents (Elt F) → (⟨S100000x64, .f32⟩ : BufTy).Contents (Elt F)),
    StableHlo.unary main_arg9 main_v102 (broadcastInDim S1x64 ![1] bcast_S64_S1x64_1 : (⟨S64, .f32⟩ : BufTy).Contents (Elt F) → (⟨S1x64, .f32⟩ : BufTy).Contents (Elt F)),
    StableHlo.unary main_v102 main_v103 (broadcastInDim S100000x64 ![0, 1] bcast_S1x64_S100000x64_0_1 : (⟨S1x64, .f32⟩ : BufTy).Contents (Elt F) → (⟨S100000x64, .f32⟩ : BufTy).Contents (Elt F)),
    StableHlo.binary main_v101 main_v103 main_v104 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S100000x64, .f32⟩) (broadcastInDim S100000x64 ![] bcast_S_S100000x64),
    StableHlo.TRef.binary (.of main_v104 : StableHlo.TRef sig ⟨S100000x64, .f32⟩) (.of main_call4_v0 : StableHlo.TRef sig ⟨S100000x64, .f32⟩) (.of main_v105 : StableHlo.TRef sig ⟨S100000x64, .f32⟩) maximumf ]
theorem R11b_sub : (R11b : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Piece R12: 1 operation, ending at result 106. -/
abbrev R12 : List (HloOp τ sig (Elt F)) :=
  [ StableHlo.binary main_v105 main_arg10 main_v106 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)) ]
theorem R12_sub : (R12 : List (HloOp τ sig (Elt F))).Forall fun op => op.bufs ⊆ StableHlo.tcRefs τ sig :=
  StableHlo.binary_bufs_sub ..

/-- Piece R13: 16 operations, ending at result 119. -/
abbrev R13 : List (HloOp τ sig (Elt F)) :=
  [ StableHlo.nullary main_c_21 (constantI S_ 32 0#32),
    StableHlo.unary main_c_21 main_v107 (broadcastInDim S3300000 ![] bcast_S_S3300000 : (⟨S_, .i32⟩ : BufTy).Contents (Elt F) → (⟨S3300000, .i32⟩ : BufTy).Contents (Elt F)),
    StableHlo.binary main_v3 main_v107 main_v108 (cmpi .slt : (⟨S3300000, .i32⟩ : BufTy).Contents (Elt F) → (⟨S3300000, .i32⟩ : BufTy).Contents (Elt F) → (⟨S3300000, .i1⟩ : BufTy).Contents (Elt F)),
    StableHlo.nullary main_c_22 (constantI S_ 32 100000#32),
    StableHlo.unary main_c_22 main_v109 (broadcastInDim S3300000 ![] bcast_S_S3300000 : (⟨S_, .i32⟩ : BufTy).Contents (Elt F) → (⟨S3300000, .i32⟩ : BufTy).Contents (Elt F)),
    StableHlo.binary main_v3 main_v109 main_v110 (addi : (⟨S3300000, .i32⟩ : BufTy).Contents (Elt F) → (⟨S3300000, .i32⟩ : BufTy).Contents (Elt F) → (⟨S3300000, .i32⟩ : BufTy).Contents (Elt F)),
    StableHlo.ternary main_v108 main_v110 main_v3 main_v111 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v111 main_v112 (broadcastInDim S3300000x1 ![0] bcast_S3300000_S3300000x1_0 : (⟨S3300000, .i32⟩ : BufTy).Contents (Elt F) → (⟨S3300000x1, .i32⟩ : BufTy).Contents (Elt F)),
    StableHlo.binary main_v106 main_v112 main_v113 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    StableHlo.unary main_v31 main_v114 (broadcastInDim S3300000x1 ![0] bcast_S3300000_S3300000x1_0 : (⟨S3300000, .f32⟩ : BufTy).Contents (Elt F) → (⟨S3300000x1, .f32⟩ : BufTy).Contents (Elt F)),
    StableHlo.unary main_v114 main_v115 (broadcastInDim S3300000x32 ![0, 1] bcast_S3300000x1_S3300000x32_0_1 : (⟨S3300000x1, .f32⟩ : BufTy).Contents (Elt F) → (⟨S3300000x32, .f32⟩ : BufTy).Contents (Elt F)),
    StableHlo.binary main_v113 main_v115 main_v116 (mulf : (⟨S3300000x32, .f32⟩ : BufTy).Contents (Elt F) → (⟨S3300000x32, .f32⟩ : BufTy).Contents (Elt F) → (⟨S3300000x32, .f32⟩ : BufTy).Contents (Elt F)),
    StableHlo.nullary main_cst_23 (constant S_ .f32 0x00000000#32),
    StableHlo.unary main_cst_23 main_v117 (broadcastInDim S100000x32 ![] bcast_S_S100000x32 : (⟨S_, .f32⟩ : BufTy).Contents (Elt F) → (⟨S100000x32, .f32⟩ : BufTy).Contents (Elt F)),
    StableHlo.unary main_v6 main_v118 (broadcastInDim S3300000x1 ![0] bcast_S3300000_S3300000x1_0 : (⟨S3300000, .i32⟩ : BufTy).Contents (Elt F) → (⟨S3300000x1, .i32⟩ : BufTy).Contents (Elt F)),
    StableHlo.ternary main_v117 main_v118 main_v116 main_v119 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)) ]
theorem R13_sub : (R13 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub ..⟩

/-- Piece R14: 3 operations, ending at result 122. -/
abbrev R14 : List (HloOp τ sig (Elt F)) :=
  [ StableHlo.unary main_arg11 main_v120 (broadcastInDim S1x32 ![1] bcast_S32_S1x32_1 : (⟨S32, .f32⟩ : BufTy).Contents (Elt F) → (⟨S1x32, .f32⟩ : BufTy).Contents (Elt F)),
    StableHlo.unary main_v120 main_v121 (broadcastInDim S100000x32 ![0, 1] bcast_S1x32_S100000x32_0_1 : (⟨S1x32, .f32⟩ : BufTy).Contents (Elt F) → (⟨S100000x32, .f32⟩ : BufTy).Contents (Elt F)),
    StableHlo.binary main_v119 main_v121 main_v122 (addf : (⟨S100000x32, .f32⟩ : BufTy).Contents (Elt F) → (⟨S100000x32, .f32⟩ : BufTy).Contents (Elt F) → (⟨S100000x32, .f32⟩ : BufTy).Contents (Elt F)) ]
theorem R14_sub : (R14 : List (HloOp τ sig (Elt F))).Forall fun op => op.bufs ⊆ StableHlo.tcRefs τ sig :=
  ⟨StableHlo.unary_bufs_sub .., StableHlo.unary_bufs_sub .., StableHlo.binary_bufs_sub ..⟩

/-- Piece R15: 1 operation, ending at result 123. -/
abbrev R15 : List (HloOp τ sig (Elt F)) :=
  [ StableHlo.binary main_v105 main_arg12 main_v123 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)) ]
theorem R15_sub : (R15 : List (HloOp τ sig (Elt F))).Forall fun op => op.bufs ⊆ StableHlo.tcRefs τ sig :=
  StableHlo.binary_bufs_sub ..

/-- Piece R16: 16 operations, ending at result 136. -/
abbrev R16 : List (HloOp τ sig (Elt F)) :=
  [ StableHlo.nullary main_c_24 (constantI S_ 32 0#32),
    StableHlo.unary main_c_24 main_v124 (broadcastInDim S3300000 ![] bcast_S_S3300000 : (⟨S_, .i32⟩ : BufTy).Contents (Elt F) → (⟨S3300000, .i32⟩ : BufTy).Contents (Elt F)),
    StableHlo.binary main_v3 main_v124 main_v125 (cmpi .slt : (⟨S3300000, .i32⟩ : BufTy).Contents (Elt F) → (⟨S3300000, .i32⟩ : BufTy).Contents (Elt F) → (⟨S3300000, .i1⟩ : BufTy).Contents (Elt F)),
    StableHlo.nullary main_c_25 (constantI S_ 32 100000#32),
    StableHlo.unary main_c_25 main_v126 (broadcastInDim S3300000 ![] bcast_S_S3300000 : (⟨S_, .i32⟩ : BufTy).Contents (Elt F) → (⟨S3300000, .i32⟩ : BufTy).Contents (Elt F)),
    StableHlo.binary main_v3 main_v126 main_v127 (addi : (⟨S3300000, .i32⟩ : BufTy).Contents (Elt F) → (⟨S3300000, .i32⟩ : BufTy).Contents (Elt F) → (⟨S3300000, .i32⟩ : BufTy).Contents (Elt F)),
    StableHlo.ternary main_v125 main_v127 main_v3 main_v128 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v128 main_v129 (broadcastInDim S3300000x1 ![0] bcast_S3300000_S3300000x1_0 : (⟨S3300000, .i32⟩ : BufTy).Contents (Elt F) → (⟨S3300000x1, .i32⟩ : BufTy).Contents (Elt F)),
    StableHlo.binary main_v123 main_v129 main_v130 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    StableHlo.unary main_v31 main_v131 (broadcastInDim S3300000x1 ![0] bcast_S3300000_S3300000x1_0 : (⟨S3300000, .f32⟩ : BufTy).Contents (Elt F) → (⟨S3300000x1, .f32⟩ : BufTy).Contents (Elt F)),
    StableHlo.unary main_v131 main_v132 (broadcastInDim S3300000x32 ![0, 1] bcast_S3300000x1_S3300000x32_0_1 : (⟨S3300000x1, .f32⟩ : BufTy).Contents (Elt F) → (⟨S3300000x32, .f32⟩ : BufTy).Contents (Elt F)),
    StableHlo.binary main_v130 main_v132 main_v133 (mulf : (⟨S3300000x32, .f32⟩ : BufTy).Contents (Elt F) → (⟨S3300000x32, .f32⟩ : BufTy).Contents (Elt F) → (⟨S3300000x32, .f32⟩ : BufTy).Contents (Elt F)),
    StableHlo.nullary main_cst_26 (constant S_ .f32 0x00000000#32),
    StableHlo.unary main_cst_26 main_v134 (broadcastInDim S100000x32 ![] bcast_S_S100000x32 : (⟨S_, .f32⟩ : BufTy).Contents (Elt F) → (⟨S100000x32, .f32⟩ : BufTy).Contents (Elt F)),
    StableHlo.unary main_v6 main_v135 (broadcastInDim S3300000x1 ![0] bcast_S3300000_S3300000x1_0 : (⟨S3300000, .i32⟩ : BufTy).Contents (Elt F) → (⟨S3300000x1, .i32⟩ : BufTy).Contents (Elt F)),
    StableHlo.ternary main_v134 main_v135 main_v133 main_v136 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)) ]
theorem R16_sub : (R16 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub ..⟩

/-- Piece R17: 3 operations, ending at result 139. -/
abbrev R17 : List (HloOp τ sig (Elt F)) :=
  [ StableHlo.unary main_arg13 main_v137 (broadcastInDim S1x32 ![1] bcast_S32_S1x32_1 : (⟨S32, .f32⟩ : BufTy).Contents (Elt F) → (⟨S1x32, .f32⟩ : BufTy).Contents (Elt F)),
    StableHlo.unary main_v137 main_v138 (broadcastInDim S100000x32 ![0, 1] bcast_S1x32_S100000x32_0_1 : (⟨S1x32, .f32⟩ : BufTy).Contents (Elt F) → (⟨S100000x32, .f32⟩ : BufTy).Contents (Elt F)),
    StableHlo.binary main_v136 main_v138 main_v139 (addf : (⟨S100000x32, .f32⟩ : BufTy).Contents (Elt F) → (⟨S100000x32, .f32⟩ : BufTy).Contents (Elt F) → (⟨S100000x32, .f32⟩ : BufTy).Contents (Elt F)) ]
theorem R17_sub : (R17 : List (HloOp τ sig (Elt F))).Forall fun op => op.bufs ⊆ StableHlo.tcRefs τ sig :=
  ⟨StableHlo.unary_bufs_sub .., StableHlo.unary_bufs_sub .., StableHlo.binary_bufs_sub ..⟩

end Cert.ReferenceIdeal.RefOps

end
-- ==== Proof.RefRun.lean ====
/- The run of the reference program: @main is the straight line of its host operations (the three windows it
   runs in order, each a literal list with the outlined functions' operations at their calls), so every weakly
   fair execution terminates with each buffer at the fold of the operations' results over the launch contents. -/
import proofs.«103011_j65481071395098_1_alg».proof.Proof.RefOps
import Idealize.ShloMosaic.Lib.StableHlo.Run

noncomputable section

namespace Cert.ReferenceIdeal.RefRun

open Cert.ReferenceIdeal Cert.ReferenceIdeal.Gen Cert.ReferenceIdeal.RefOps Idealize.ShloMosaic Idealize.ShloMosaic.TcCoe Idealize.SL.Sem

variable {F : FTy → Type} [FloatOps F]

/-- The first window of @main: 62 operations. -/
abbrev P0 : List (HloOp τ sig (Elt F)) := R1 (F := F) ++ R2 (F := F) ++ R3 (F := F) ++ R4a (F := F)
/-- The second window of @main: 104 operations. -/
abbrev P1 : List (HloOp τ sig (Elt F)) := R4b (F := F) ++ R5 (F := F) ++ R6 (F := F) ++ R7 (F := F) ++ R8 (F := F) ++ R9 (F := F) ++ R10 (F := F) ++ R11a (F := F)
/-- The third window of @main: 51 operations. -/
abbrev P2 : List (HloOp τ sig (Elt F)) := R11b (F := F) ++ R12 (F := F) ++ R13 (F := F) ++ R14 (F := F) ++ R15 (F := F) ++ R16 (F := F) ++ R17 (F := F)

/-- The contents after two lines run one after the other: the second line's fold over the first's. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- A property of every entry of two lists holds of every entry of their concatenation. -/
theorem forall_app {α : Type} {p : α → Prop} {l₁ l₂ : List α} (h₁ : l₁.Forall p) (h₂ : l₂.Forall p) :
    (l₁ ++ l₂).Forall p :=
  List.forall_append.mpr ⟨h₁, h₂⟩

/-- Each window is the straight line of its operations: the functions' bodies unfold at their calls and the
    sequencing re-associates, by computation. -/
theorem part0_eq (c : Dev nD) : main_part0 (F := F) c = StableHlo.seq (P0 (F := F)) := rfl
theorem part1_eq (c : Dev nD) : main_part1 (F := F) c = StableHlo.seq (P1 (F := F)) := rfl
theorem part2_eq (c : Dev nD) : main_part2 (F := F) c = StableHlo.seq (P2 (F := F)) := rfl

/-- @main is the straight line of its three windows' operations. -/
theorem main_eq (c : Dev nD) : main (F := F) c = StableHlo.seq (P0 (F := F) ++ P1 ++ P2) :=
  calc main (F := F) c = (main_part0 c >>= fun _ => main_part1 c >>= fun _ => main_part2 c) := rfl
    _ = (StableHlo.seq P0 >>= fun _ => StableHlo.seq P1 >>= fun _ => StableHlo.seq P2) := by
        rw [part0_eq c, part1_eq c, part2_eq c]
    _ = StableHlo.seq (P0 (F := F) ++ P1 ++ P2) := by
        rw [StableHlo.seq_append (P0 ++ P1) P2, StableHlo.seq_append P0 P1, bind_assoc]

/-- Every operation touches TensorCore references only. -/
theorem P0_sub : (P0 : List (HloOp τ sig (Elt F))).Forall fun op => op.bufs ⊆ StableHlo.tcRefs τ sig :=
  forall_app (forall_app (forall_app (R1_sub) R2_sub) R3_sub) R4a_sub
theorem P1_sub : (P1 : List (HloOp τ sig (Elt F))).Forall fun op => op.bufs ⊆ StableHlo.tcRefs τ sig :=
  forall_app (forall_app (forall_app (forall_app (forall_app (forall_app (forall_app (R4b_sub) R5_sub) R6_sub) R7_sub) R8_sub) R9_sub) R10_sub) R11a_sub
theorem P2_sub : (P2 : List (HloOp τ sig (Elt F))).Forall fun op => op.bufs ⊆ StableHlo.tcRefs τ sig :=
  forall_app (forall_app (forall_app (forall_app (forall_app (forall_app (R11b_sub) R12_sub) R13_sub) R14_sub) R15_sub) R16_sub) R17_sub
theorem ops_sub : (P0 ++ P1 ++ P2 : List (HloOp τ sig (Elt F))).Forall fun op => op.bufs ⊆ StableHlo.tcRefs τ sig :=
  forall_app (forall_app P0_sub P1_sub) P2_sub

/-- No operation allocates a buffer: each determines its results. -/
theorem R1_fresh : (R1 : List (HloOp τ sig (Elt F))).Forall fun op => op.fresh = ∅ := by
  simp only [List.Forall]; repeat' constructor
theorem R2_fresh : (R2 : List (HloOp τ sig (Elt F))).Forall fun op => op.fresh = ∅ := by
  simp only [List.Forall]; repeat' constructor
theorem R3_fresh : (R3 : List (HloOp τ sig (Elt F))).Forall fun op => op.fresh = ∅ := by
  simp only [List.Forall]; repeat' constructor
theorem R4a_fresh : (R4a : List (HloOp τ sig (Elt F))).Forall fun op => op.fresh = ∅ := by
  simp only [List.Forall]; repeat' constructor
theorem R4b_fresh : (R4b : List (HloOp τ sig (Elt F))).Forall fun op => op.fresh = ∅ := by
  simp only [List.Forall]; repeat' constructor
theorem R5_fresh : (R5 : List (HloOp τ sig (Elt F))).Forall fun op => op.fresh = ∅ := by
  simp only [List.Forall]; repeat' constructor
theorem R6_fresh : (R6 : List (HloOp τ sig (Elt F))).Forall fun op => op.fresh = ∅ := by
  simp only [List.Forall]; repeat' constructor
theorem R7_fresh : (R7 : List (HloOp τ sig (Elt F))).Forall fun op => op.fresh = ∅ := by
  simp only [List.Forall]; repeat' constructor
theorem R8_fresh : (R8 : List (HloOp τ sig (Elt F))).Forall fun op => op.fresh = ∅ := by
  simp only [List.Forall]; repeat' constructor
theorem R9_fresh : (R9 : List (HloOp τ sig (Elt F))).Forall fun op => op.fresh = ∅ := by
  simp only [List.Forall]; repeat' constructor
theorem R10_fresh : (R10 : List (HloOp τ sig (Elt F))).Forall fun op => op.fresh = ∅ := by
  simp only [List.Forall]; repeat' constructor
theorem R11a_fresh : (R11a : List (HloOp τ sig (Elt F))).Forall fun op => op.fresh = ∅ := by
  simp only [List.Forall]; repeat' constructor
theorem R11b_fresh : (R11b : List (HloOp τ sig (Elt F))).Forall fun op => op.fresh = ∅ := by
  simp only [List.Forall]; repeat' constructor
theorem R12_fresh : (R12 : List (HloOp τ sig (Elt F))).Forall fun op => op.fresh = ∅ := by
  simp only [List.Forall]; repeat' constructor
theorem R13_fresh : (R13 : List (HloOp τ sig (Elt F))).Forall fun op => op.fresh = ∅ := by
  simp only [List.Forall]; repeat' constructor
theorem R14_fresh : (R14 : List (HloOp τ sig (Elt F))).Forall fun op => op.fresh = ∅ := by
  simp only [List.Forall]; repeat' constructor
theorem R15_fresh : (R15 : List (HloOp τ sig (Elt F))).Forall fun op => op.fresh = ∅ := by
  simp only [List.Forall]; repeat' constructor
theorem R16_fresh : (R16 : List (HloOp τ sig (Elt F))).Forall fun op => op.fresh = ∅ := by
  simp only [List.Forall]; repeat' constructor
theorem R17_fresh : (R17 : List (HloOp τ sig (Elt F))).Forall fun op => op.fresh = ∅ := by
  simp only [List.Forall]; repeat' constructor
theorem P0_fresh : (P0 : List (HloOp τ sig (Elt F))).Forall fun op => op.fresh = ∅ :=
  forall_app (forall_app (forall_app (R1_fresh) R2_fresh) R3_fresh) R4a_fresh
theorem P1_fresh : (P1 : List (HloOp τ sig (Elt F))).Forall fun op => op.fresh = ∅ :=
  forall_app (forall_app (forall_app (forall_app (forall_app (forall_app (forall_app (R4b_fresh) R5_fresh) R6_fresh) R7_fresh) R8_fresh) R9_fresh) R10_fresh) R11a_fresh
theorem P2_fresh : (P2 : List (HloOp τ sig (Elt F))).Forall fun op => op.fresh = ∅ :=
  forall_app (forall_app (forall_app (forall_app (forall_app (forall_app (R11b_fresh) R12_fresh) R13_fresh) R14_fresh) R15_fresh) R16_fresh) R17_fresh
theorem ops_fresh : (P0 ++ P1 ++ P2 : List (HloOp τ sig (Elt F))).Forall fun op => op.fresh = ∅ :=
  forall_app (forall_app P0_fresh P1_fresh) P2_fresh

theorem scopedRefs_eq : (Finset.univ.filter fun b : Ref sig .tc => b.isScoped) = ∅ := by decide
theorem scopedSems_eq : (Finset.univ.filter fun sm : SemLoc sig => sm.isScoped .tc) = ∅ := by decide

/-- The contents after the whole line, piece by piece. -/
theorem after_all (V : Valuation τ sig (Elt F)) :
    StableHlo.after (P0 (F := F) ++ P1 ++ P2) V = StableHlo.after R17 (StableHlo.after R16 (StableHlo.after R15 (StableHlo.after R14 (StableHlo.after R13 (StableHlo.after R12 (StableHlo.after R11b (StableHlo.after R11a (StableHlo.after R10 (StableHlo.after R9 (StableHlo.after R8 (StableHlo.after R7 (StableHlo.after R6 (StableHlo.after R5 (StableHlo.after R4b (StableHlo.after R4a (StableHlo.after R3 (StableHlo.after R2 (StableHlo.after R1 (V))))))))))))))))))) := by
  simp only [P0, P1, P2, after_append]

/-- On every device, for any float values, from any memory with zero counters: every weakly fair execution of
    @main terminates with each TensorCore buffer at the operations' fold, piece by piece, over its launch
    contents. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b)
        = StableHlo.after R17 (StableHlo.after R16 (StableHlo.after R15 (StableHlo.after R14 (StableHlo.after R13 (StableHlo.after R12 (StableHlo.after R11b (StableHlo.after R11a (StableHlo.after R10 (StableHlo.after R9 (StableHlo.after R8 (StableHlo.after R7 (StableHlo.after R6 (StableHlo.after R5 (StableHlo.after R4b (StableHlo.after R4a (StableHlo.after R3 (StableHlo.after R2 (StableHlo.after R1 (StableHlo.launchContents m d))))))))))))))))))) (Proc.devRef .tc b) :=
  (θ_run defs _ _).mono (fun _ h d b => (h d b).trans (congrFun (after_all _) _))
    (StableHlo.run_seq scopedRefs_eq scopedSems_eq defs main (fun _ => P0 ++ P1 ++ P2) main_eq (fun _ => ops_sub) m ρ
      (fun _ => List.forall_iff_forall_mem.1 ops_fresh))

end Cert.ReferenceIdeal.RefRun

end
-- ==== Proof.RefChain.lean ====
/- The reference program's buffer contents after each piece of its straight line, from the launch contents, and
   the facts that a buffer no operation of a stretch writes keeps its contents across that stretch: the arguments
   up to the piece that reads them, the edge lists and edge weights from the first piece on, and each stage's
   result up to its last reader. -/
import proofs.«103011_j65481071395098_1_alg».proof.Proof.RefOps
import Idealize.ShloMosaic.PureOps.Ideal
import Idealize.ShloMosaic.Lib.StableHlo.Run

noncomputable section

namespace Cert.ReferenceIdeal.RefChain

open Cert.ReferenceIdeal Cert.ReferenceIdeal.Gen Cert.ReferenceIdeal.RefOps Idealize.ShloMosaic Idealize.ShloMosaic.TcCoe Idealize.SL.Sem

/-! ## The buffers each piece writes -/

/-- An operation whose writes are the one buffer `y`, a member of the list `W`, writes inside `W`. -/
theorem wr {op : HloOp τ sig (Elt Ideal)} (y : Ref sig .tc) {W : List (Ref sig .tc)} (hop : op.writes = {Proc.devRef .tc y})
    (hy : y ∈ W) : op.writes ⊆ (W.map (Proc.devRef (τ := τ) .tc)).toFinset := by
  rw [hop, Finset.singleton_subset_iff, List.mem_toFinset]
  exact List.mem_map_of_mem hy

/-- The buffers the operations of `R1` write, in order. -/
def Wr1 : List (Ref sig .tc) :=
  [main_v0, main_v1, main_v2, main_v3, main_v4, main_v5, main_v6, main_cst, main_v7, main_cst_0, main_v8, main_v9, main_v10, main_cst_1, main_v11, main_v12, main_cst_2, main_v13, main_v14, main_v15, main_cst_3, main_call0_v0, main_call0_v1, main_v16, main_c, main_v17, main_v18, main_c_4, main_v19, main_v20, main_v21, main_v22, main_v23, main_c_5, main_v24, main_v25, main_c_6, main_v26, main_v27, main_v28, main_v29, main_v30, main_v31]
theorem R1_writes : (R1 (F := Ideal)).Forall fun op => op.writes ⊆ (Wr1.map (Proc.devRef (τ := τ) .tc)).toFinset :=
  ⟨wr main_v0 rfl (by decide), wr main_v1 rfl (by decide), wr main_v2 rfl (by decide), wr main_v3 rfl (by decide), wr main_v4 rfl (by decide), wr main_v5 rfl (by decide), wr main_v6 rfl (by decide), wr main_cst rfl (by decide), wr main_v7 rfl (by decide), wr main_cst_0 rfl (by decide), wr main_v8 rfl (by decide), wr main_v9 rfl (by decide), wr main_v10 rfl (by decide), wr main_cst_1 rfl (by decide), wr main_v11 rfl (by decide), wr main_v12 rfl (by decide), wr main_cst_2 rfl (by decide), wr main_v13 rfl (by decide), wr main_v14 rfl (by decide), wr main_v15 rfl (by decide), wr main_cst_3 rfl (by decide), wr main_call0_v0 rfl (by decide), wr main_call0_v1 rfl (by decide), wr main_v16 rfl (by decide), wr main_c rfl (by decide), wr main_v17 rfl (by decide), wr main_v18 rfl (by decide), wr main_c_4 rfl (by decide), wr main_v19 rfl (by decide), wr main_v20 rfl (by decide), wr main_v21 rfl (by decide), wr main_v22 rfl (by decide), wr main_v23 rfl (by decide), wr main_c_5 rfl (by decide), wr main_v24 rfl (by decide), wr main_v25 rfl (by decide), wr main_c_6 rfl (by decide), wr main_v26 rfl (by decide), wr main_v27 rfl (by decide), wr main_v28 rfl (by decide), wr main_v29 rfl (by decide), wr main_v30 rfl (by decide), wr main_v31 rfl (by decide)⟩

/-- The buffers the operations of `R2` write, in order. -/
def Wr2 : List (Ref sig .tc) :=
  [main_v32]
theorem R2_writes : (R2 (F := Ideal)).Forall fun op => op.writes ⊆ (Wr2.map (Proc.devRef (τ := τ) .tc)).toFinset :=
  wr main_v32 rfl (by decide)

/-- The buffers the operations of `R3` write, in order. -/
def Wr3 : List (Ref sig .tc) :=
  [main_c_7, main_v33, main_v34, main_c_8, main_v35, main_v36, main_v37, main_v38, main_v39, main_v40, main_v41, main_v42, main_cst_9, main_v43, main_v44, main_v45]
theorem R3_writes : (R3 (F := Ideal)).Forall fun op => op.writes ⊆ (Wr3.map (Proc.devRef (τ := τ) .tc)).toFinset :=
  ⟨wr main_c_7 rfl (by decide), wr main_v33 rfl (by decide), wr main_v34 rfl (by decide), wr main_c_8 rfl (by decide), wr main_v35 rfl (by decide), wr main_v36 rfl (by decide), wr main_v37 rfl (by decide), wr main_v38 rfl (by decide), wr main_v39 rfl (by decide), wr main_v40 rfl (by decide), wr main_v41 rfl (by decide), wr main_v42 rfl (by decide), wr main_cst_9 rfl (by decide), wr main_v43 rfl (by decide), wr main_v44 rfl (by decide), wr main_v45 rfl (by decide)⟩

/-- The buffers the operations of `R4a` write, in order. -/
def Wr4a : List (Ref sig .tc) :=
  [main_v46, main_v47]
theorem R4a_writes : (R4a (F := Ideal)).Forall fun op => op.writes ⊆ (Wr4a.map (Proc.devRef (τ := τ) .tc)).toFinset :=
  ⟨wr main_v46 rfl (by decide), wr main_v47 rfl (by decide)⟩

/-- The buffers the operations of `R4b` write, in order. -/
def Wr4b : List (Ref sig .tc) :=
  [main_v48]
theorem R4b_writes : (R4b (F := Ideal)).Forall fun op => op.writes ⊆ (Wr4b.map (Proc.devRef (τ := τ) .tc)).toFinset :=
  wr main_v48 rfl (by decide)

/-- The buffers the operations of `R5` write, in order. -/
def Wr5 : List (Ref sig .tc) :=
  [main_cst_10, main_v49, main_cst_11, main_v50, main_v51, main_c_12, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v52]
theorem R5_writes : (R5 (F := Ideal)).Forall fun op => op.writes ⊆ (Wr5.map (Proc.devRef (τ := τ) .tc)).toFinset :=
  ⟨wr main_cst_10 rfl (by decide), wr main_v49 rfl (by decide), wr main_cst_11 rfl (by decide), wr main_v50 rfl (by decide), wr main_v51 rfl (by decide), wr main_c_12 rfl (by decide), wr main_call1_cst rfl (by decide), wr main_call1_v0 rfl (by decide), wr main_call1_v1 rfl (by decide), wr main_call1_cst_0 rfl (by decide), wr main_call1_v2 rfl (by decide), wr main_call1_v3 rfl (by decide), wr main_call1_v4 rfl (by decide), wr main_call1_v5 rfl (by decide), wr main_call1_v6 rfl (by decide), wr main_call1_v7 rfl (by decide), wr main_call1_cst_1 rfl (by decide), wr main_call1_v8 rfl (by decide), wr main_call1_cst_2 rfl (by decide), wr main_call1_v9 rfl (by decide), wr main_call1_v10 rfl (by decide), wr main_call1_v11 rfl (by decide), wr main_call1_cst_3 rfl (by decide), wr main_call1_v12 rfl (by decide), wr main_call1_cst_4 rfl (by decide), wr main_call1_call0_v0 rfl (by decide), wr main_call1_call0_v1 rfl (by decide), wr main_v52 rfl (by decide)⟩

/-- The buffers the operations of `R6` write, in order. -/
def Wr6 : List (Ref sig .tc) :=
  [main_v53, main_v54, main_v55, main_cst_13, main_v56, main_v57, main_v58, main_v59, main_v60, main_v61, main_v62, main_v63, main_v64, main_v65, main_v66, main_v67, main_call2_cst, main_call2_v0, main_v68]
theorem R6_writes : (R6 (F := Ideal)).Forall fun op => op.writes ⊆ (Wr6.map (Proc.devRef (τ := τ) .tc)).toFinset :=
  ⟨wr main_v53 rfl (by decide), wr main_v54 rfl (by decide), wr main_v55 rfl (by decide), wr main_cst_13 rfl (by decide), wr main_v56 rfl (by decide), wr main_v57 rfl (by decide), wr main_v58 rfl (by decide), wr main_v59 rfl (by decide), wr main_v60 rfl (by decide), wr main_v61 rfl (by decide), wr main_v62 rfl (by decide), wr main_v63 rfl (by decide), wr main_v64 rfl (by decide), wr main_v65 rfl (by decide), wr main_v66 rfl (by decide), wr main_v67 rfl (by decide), wr main_call2_cst rfl (by decide), wr main_call2_v0 rfl (by decide), wr main_v68 rfl (by decide)⟩

/-- The buffers the operations of `R7` write, in order. -/
def Wr7 : List (Ref sig .tc) :=
  [main_v69]
theorem R7_writes : (R7 (F := Ideal)).Forall fun op => op.writes ⊆ (Wr7.map (Proc.devRef (τ := τ) .tc)).toFinset :=
  wr main_v69 rfl (by decide)

/-- The buffers the operations of `R8` write, in order. -/
def Wr8 : List (Ref sig .tc) :=
  [main_c_14, main_v70, main_v71, main_c_15, main_v72, main_v73, main_v74, main_v75, main_v76, main_v77, main_v78, main_v79, main_cst_16, main_v80, main_v81, main_v82]
theorem R8_writes : (R8 (F := Ideal)).Forall fun op => op.writes ⊆ (Wr8.map (Proc.devRef (τ := τ) .tc)).toFinset :=
  ⟨wr main_c_14 rfl (by decide), wr main_v70 rfl (by decide), wr main_v71 rfl (by decide), wr main_c_15 rfl (by decide), wr main_v72 rfl (by decide), wr main_v73 rfl (by decide), wr main_v74 rfl (by decide), wr main_v75 rfl (by decide), wr main_v76 rfl (by decide), wr main_v77 rfl (by decide), wr main_v78 rfl (by decide), wr main_v79 rfl (by decide), wr main_cst_16 rfl (by decide), wr main_v80 rfl (by decide), wr main_v81 rfl (by decide), wr main_v82 rfl (by decide)⟩

/-- The buffers the operations of `R9` write, in order. -/
def Wr9 : List (Ref sig .tc) :=
  [main_v83, main_v84, main_v85]
theorem R9_writes : (R9 (F := Ideal)).Forall fun op => op.writes ⊆ (Wr9.map (Proc.devRef (τ := τ) .tc)).toFinset :=
  ⟨wr main_v83 rfl (by decide), wr main_v84 rfl (by decide), wr main_v85 rfl (by decide)⟩

/-- The buffers the operations of `R10` write, in order. -/
def Wr10 : List (Ref sig .tc) :=
  [main_cst_17, main_v86, main_cst_18, main_v87, main_v88, main_c_19, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v89]
theorem R10_writes : (R10 (F := Ideal)).Forall fun op => op.writes ⊆ (Wr10.map (Proc.devRef (τ := τ) .tc)).toFinset :=
  ⟨wr main_cst_17 rfl (by decide), wr main_v86 rfl (by decide), wr main_cst_18 rfl (by decide), wr main_v87 rfl (by decide), wr main_v88 rfl (by decide), wr main_c_19 rfl (by decide), wr main_call3_cst rfl (by decide), wr main_call3_v0 rfl (by decide), wr main_call3_v1 rfl (by decide), wr main_call3_cst_0 rfl (by decide), wr main_call3_v2 rfl (by decide), wr main_call3_v3 rfl (by decide), wr main_call3_v4 rfl (by decide), wr main_call3_v5 rfl (by decide), wr main_call3_v6 rfl (by decide), wr main_call3_v7 rfl (by decide), wr main_call3_cst_1 rfl (by decide), wr main_call3_v8 rfl (by decide), wr main_call3_cst_2 rfl (by decide), wr main_call3_v9 rfl (by decide), wr main_call3_v10 rfl (by decide), wr main_call3_v11 rfl (by decide), wr main_call3_cst_3 rfl (by decide), wr main_call3_v12 rfl (by decide), wr main_call3_cst_4 rfl (by decide), wr main_call3_call0_v0 rfl (by decide), wr main_call3_call0_v1 rfl (by decide), wr main_v89 rfl (by decide)⟩

/-- The buffers the operations of `R11a` write, in order. -/
def Wr11a : List (Ref sig .tc) :=
  [main_v90, main_v91, main_v92, main_cst_20, main_v93, main_v94, main_v95, main_v96]
theorem R11a_writes : (R11a (F := Ideal)).Forall fun op => op.writes ⊆ (Wr11a.map (Proc.devRef (τ := τ) .tc)).toFinset :=
  ⟨wr main_v90 rfl (by decide), wr main_v91 rfl (by decide), wr main_v92 rfl (by decide), wr main_cst_20 rfl (by decide), wr main_v93 rfl (by decide), wr main_v94 rfl (by decide), wr main_v95 rfl (by decide), wr main_v96 rfl (by decide)⟩

/-- The buffers the operations of `R11b` write, in order. -/
def Wr11b : List (Ref sig .tc) :=
  [main_v97, main_v98, main_v99, main_v100, main_v101, main_v102, main_v103, main_v104, main_call4_cst, main_call4_v0, main_v105]
theorem R11b_writes : (R11b (F := Ideal)).Forall fun op => op.writes ⊆ (Wr11b.map (Proc.devRef (τ := τ) .tc)).toFinset :=
  ⟨wr main_v97 rfl (by decide), wr main_v98 rfl (by decide), wr main_v99 rfl (by decide), wr main_v100 rfl (by decide), wr main_v101 rfl (by decide), wr main_v102 rfl (by decide), wr main_v103 rfl (by decide), wr main_v104 rfl (by decide), wr main_call4_cst rfl (by decide), wr main_call4_v0 rfl (by decide), wr main_v105 rfl (by decide)⟩

/-- The buffers the operations of `R12` write, in order. -/
def Wr12 : List (Ref sig .tc) :=
  [main_v106]
theorem R12_writes : (R12 (F := Ideal)).Forall fun op => op.writes ⊆ (Wr12.map (Proc.devRef (τ := τ) .tc)).toFinset :=
  wr main_v106 rfl (by decide)

/-- The buffers the operations of `R13` write, in order. -/
def Wr13 : List (Ref sig .tc) :=
  [main_c_21, main_v107, main_v108, main_c_22, main_v109, main_v110, main_v111, main_v112, main_v113, main_v114, main_v115, main_v116, main_cst_23, main_v117, main_v118, main_v119]
theorem R13_writes : (R13 (F := Ideal)).Forall fun op => op.writes ⊆ (Wr13.map (Proc.devRef (τ := τ) .tc)).toFinset :=
  ⟨wr main_c_21 rfl (by decide), wr main_v107 rfl (by decide), wr main_v108 rfl (by decide), wr main_c_22 rfl (by decide), wr main_v109 rfl (by decide), wr main_v110 rfl (by decide), wr main_v111 rfl (by decide), wr main_v112 rfl (by decide), wr main_v113 rfl (by decide), wr main_v114 rfl (by decide), wr main_v115 rfl (by decide), wr main_v116 rfl (by decide), wr main_cst_23 rfl (by decide), wr main_v117 rfl (by decide), wr main_v118 rfl (by decide), wr main_v119 rfl (by decide)⟩

/-- The buffers the operations of `R14` write, in order. -/
def Wr14 : List (Ref sig .tc) :=
  [main_v120, main_v121, main_v122]
theorem R14_writes : (R14 (F := Ideal)).Forall fun op => op.writes ⊆ (Wr14.map (Proc.devRef (τ := τ) .tc)).toFinset :=
  ⟨wr main_v120 rfl (by decide), wr main_v121 rfl (by decide), wr main_v122 rfl (by decide)⟩

/-- The buffers the operations of `R15` write, in order. -/
def Wr15 : List (Ref sig .tc) :=
  [main_v123]
theorem R15_writes : (R15 (F := Ideal)).Forall fun op => op.writes ⊆ (Wr15.map (Proc.devRef (τ := τ) .tc)).toFinset :=
  wr main_v123 rfl (by decide)

/-- The buffers the operations of `R16` write, in order. -/
def Wr16 : List (Ref sig .tc) :=
  [main_c_24, main_v124, main_v125, main_c_25, main_v126, main_v127, main_v128, main_v129, main_v130, main_v131, main_v132, main_v133, main_cst_26, main_v134, main_v135, main_v136]
theorem R16_writes : (R16 (F := Ideal)).Forall fun op => op.writes ⊆ (Wr16.map (Proc.devRef (τ := τ) .tc)).toFinset :=
  ⟨wr main_c_24 rfl (by decide), wr main_v124 rfl (by decide), wr main_v125 rfl (by decide), wr main_c_25 rfl (by decide), wr main_v126 rfl (by decide), wr main_v127 rfl (by decide), wr main_v128 rfl (by decide), wr main_v129 rfl (by decide), wr main_v130 rfl (by decide), wr main_v131 rfl (by decide), wr main_v132 rfl (by decide), wr main_v133 rfl (by decide), wr main_cst_26 rfl (by decide), wr main_v134 rfl (by decide), wr main_v135 rfl (by decide), wr main_v136 rfl (by decide)⟩

/-- The buffers the operations of `R17` write, in order. -/
def Wr17 : List (Ref sig .tc) :=
  [main_v137, main_v138, main_v139]
theorem R17_writes : (R17 (F := Ideal)).Forall fun op => op.writes ⊆ (Wr17.map (Proc.devRef (τ := τ) .tc)).toFinset :=
  ⟨wr main_v137 rfl (by decide), wr main_v138 rfl (by decide), wr main_v139 rfl (by decide)⟩

/-! ## The contents after each piece -/

variable (m : (ℓ : Loc nD τ sig) → Buf (Elt Ideal) ℓ) (c : Dev nD)

/-- The launch contents of device `c`. -/
def A0 : Valuation τ sig (Elt Ideal) := StableHlo.launchContents m c
/-- The contents after `R1`. -/
def A1 : Valuation τ sig (Elt Ideal) := StableHlo.after (R1 (F := Ideal)) (A0 m c)
/-- The contents after `R2`. -/
def A2 : Valuation τ sig (Elt Ideal) := StableHlo.after (R2 (F := Ideal)) (A1 m c)
/-- The contents after `R3`. -/
def A3 : Valuation τ sig (Elt Ideal) := StableHlo.after (R3 (F := Ideal)) (A2 m c)
/-- The contents after `R4a`. -/
def A4a : Valuation τ sig (Elt Ideal) := StableHlo.after (R4a (F := Ideal)) (A3 m c)
/-- The contents after `R4b`. -/
def A4b : Valuation τ sig (Elt Ideal) := StableHlo.after (R4b (F := Ideal)) (A4a m c)
/-- The contents after `R5`. -/
def A5 : Valuation τ sig (Elt Ideal) := StableHlo.after (R5 (F := Ideal)) (A4b m c)
/-- The contents after `R6`. -/
def A6 : Valuation τ sig (Elt Ideal) := StableHlo.after (R6 (F := Ideal)) (A5 m c)
/-- The contents after `R7`. -/
def A7 : Valuation τ sig (Elt Ideal) := StableHlo.after (R7 (F := Ideal)) (A6 m c)
/-- The contents after `R8`. -/
def A8 : Valuation τ sig (Elt Ideal) := StableHlo.after (R8 (F := Ideal)) (A7 m c)
/-- The contents after `R9`. -/
def A9 : Valuation τ sig (Elt Ideal) := StableHlo.after (R9 (F := Ideal)) (A8 m c)
/-- The contents after `R10`. -/
def A10 : Valuation τ sig (Elt Ideal) := StableHlo.after (R10 (F := Ideal)) (A9 m c)
/-- The contents after `R11a`. -/
def A11a : Valuation τ sig (Elt Ideal) := StableHlo.after (R11a (F := Ideal)) (A10 m c)
/-- The contents after `R11b`. -/
def A11b : Valuation τ sig (Elt Ideal) := StableHlo.after (R11b (F := Ideal)) (A11a m c)
/-- The contents after `R12`. -/
def A12 : Valuation τ sig (Elt Ideal) := StableHlo.after (R12 (F := Ideal)) (A11b m c)
/-- The contents after `R13`. -/
def A13 : Valuation τ sig (Elt Ideal) := StableHlo.after (R13 (F := Ideal)) (A12 m c)
/-- The contents after `R14`. -/
def A14 : Valuation τ sig (Elt Ideal) := StableHlo.after (R14 (F := Ideal)) (A13 m c)
/-- The contents after `R15`. -/
def A15 : Valuation τ sig (Elt Ideal) := StableHlo.after (R15 (F := Ideal)) (A14 m c)
/-- The contents after `R16`. -/
def A16 : Valuation τ sig (Elt Ideal) := StableHlo.after (R16 (F := Ideal)) (A15 m c)
/-- The contents after `R17`. -/
def A17 : Valuation τ sig (Elt Ideal) := StableHlo.after (R17 (F := Ideal)) (A16 m c)

/-- The contents after the last piece, unfolded: the fold of all the pieces in order over the launch contents. -/
theorem A17_eq : A17 m c = StableHlo.after (R17 (F := Ideal)) (StableHlo.after (R16 (F := Ideal)) (StableHlo.after (R15 (F := Ideal)) (StableHlo.after (R14 (F := Ideal)) (StableHlo.after (R13 (F := Ideal)) (StableHlo.after (R12 (F := Ideal)) (StableHlo.after (R11b (F := Ideal)) (StableHlo.after (R11a (F := Ideal)) (StableHlo.after (R10 (F := Ideal)) (StableHlo.after (R9 (F := Ideal)) (StableHlo.after (R8 (F := Ideal)) (StableHlo.after (R7 (F := Ideal)) (StableHlo.after (R6 (F := Ideal)) (StableHlo.after (R5 (F := Ideal)) (StableHlo.after (R4b (F := Ideal)) (StableHlo.after (R4a (F := Ideal)) (StableHlo.after (R3 (F := Ideal)) (StableHlo.after (R2 (F := Ideal)) (StableHlo.after (R1 (F := Ideal)) (StableHlo.launchContents m c))))))))))))))))))) := rfl

/-! ## One piece: a buffer it does not write keeps its contents -/

theorem keep1 {r : Ref sig .tc} (hr : r ∉ Wr1) : A1 m c (Proc.devRef .tc r) = A0 m c (Proc.devRef .tc r) :=
  StableHlo.after_of_writes_sub _ _ R1_writes hr
theorem keep2 {r : Ref sig .tc} (hr : r ∉ Wr2) : A2 m c (Proc.devRef .tc r) = A1 m c (Proc.devRef .tc r) :=
  StableHlo.after_of_writes_sub _ _ R2_writes hr
theorem keep3 {r : Ref sig .tc} (hr : r ∉ Wr3) : A3 m c (Proc.devRef .tc r) = A2 m c (Proc.devRef .tc r) :=
  StableHlo.after_of_writes_sub _ _ R3_writes hr
theorem keep4a {r : Ref sig .tc} (hr : r ∉ Wr4a) : A4a m c (Proc.devRef .tc r) = A3 m c (Proc.devRef .tc r) :=
  StableHlo.after_of_writes_sub _ _ R4a_writes hr
theorem keep4b {r : Ref sig .tc} (hr : r ∉ Wr4b) : A4b m c (Proc.devRef .tc r) = A4a m c (Proc.devRef .tc r) :=
  StableHlo.after_of_writes_sub _ _ R4b_writes hr
theorem keep5 {r : Ref sig .tc} (hr : r ∉ Wr5) : A5 m c (Proc.devRef .tc r) = A4b m c (Proc.devRef .tc r) :=
  StableHlo.after_of_writes_sub _ _ R5_writes hr
theorem keep6 {r : Ref sig .tc} (hr : r ∉ Wr6) : A6 m c (Proc.devRef .tc r) = A5 m c (Proc.devRef .tc r) :=
  StableHlo.after_of_writes_sub _ _ R6_writes hr
theorem keep7 {r : Ref sig .tc} (hr : r ∉ Wr7) : A7 m c (Proc.devRef .tc r) = A6 m c (Proc.devRef .tc r) :=
  StableHlo.after_of_writes_sub _ _ R7_writes hr
theorem keep8 {r : Ref sig .tc} (hr : r ∉ Wr8) : A8 m c (Proc.devRef .tc r) = A7 m c (Proc.devRef .tc r) :=
  StableHlo.after_of_writes_sub _ _ R8_writes hr
theorem keep9 {r : Ref sig .tc} (hr : r ∉ Wr9) : A9 m c (Proc.devRef .tc r) = A8 m c (Proc.devRef .tc r) :=
  StableHlo.after_of_writes_sub _ _ R9_writes hr
theorem keep10 {r : Ref sig .tc} (hr : r ∉ Wr10) : A10 m c (Proc.devRef .tc r) = A9 m c (Proc.devRef .tc r) :=
  StableHlo.after_of_writes_sub _ _ R10_writes hr
theorem keep11a {r : Ref sig .tc} (hr : r ∉ Wr11a) : A11a m c (Proc.devRef .tc r) = A10 m c (Proc.devRef .tc r) :=
  StableHlo.after_of_writes_sub _ _ R11a_writes hr
theorem keep11b {r : Ref sig .tc} (hr : r ∉ Wr11b) : A11b m c (Proc.devRef .tc r) = A11a m c (Proc.devRef .tc r) :=
  StableHlo.after_of_writes_sub _ _ R11b_writes hr
theorem keep12 {r : Ref sig .tc} (hr : r ∉ Wr12) : A12 m c (Proc.devRef .tc r) = A11b m c (Proc.devRef .tc r) :=
  StableHlo.after_of_writes_sub _ _ R12_writes hr
theorem keep13 {r : Ref sig .tc} (hr : r ∉ Wr13) : A13 m c (Proc.devRef .tc r) = A12 m c (Proc.devRef .tc r) :=
  StableHlo.after_of_writes_sub _ _ R13_writes hr
theorem keep14 {r : Ref sig .tc} (hr : r ∉ Wr14) : A14 m c (Proc.devRef .tc r) = A13 m c (Proc.devRef .tc r) :=
  StableHlo.after_of_writes_sub _ _ R14_writes hr
theorem keep15 {r : Ref sig .tc} (hr : r ∉ Wr15) : A15 m c (Proc.devRef .tc r) = A14 m c (Proc.devRef .tc r) :=
  StableHlo.after_of_writes_sub _ _ R15_writes hr
theorem keep16 {r : Ref sig .tc} (hr : r ∉ Wr16) : A16 m c (Proc.devRef .tc r) = A15 m c (Proc.devRef .tc r) :=
  StableHlo.after_of_writes_sub _ _ R16_writes hr
theorem keep17 {r : Ref sig .tc} (hr : r ∉ Wr17) : A17 m c (Proc.devRef .tc r) = A16 m c (Proc.devRef .tc r) :=
  StableHlo.after_of_writes_sub _ _ R17_writes hr

/-! ## The arguments, up to the piece that reads them -/

theorem arg0_at_A1 : A1 m c (Proc.devRef .tc main_arg0) = m ((c.tc : Thread nD τ).loc main_arg0) :=
  (keep1 m c (r := main_arg0) (by decide))
theorem arg2_at_A1 : A1 m c (Proc.devRef .tc main_arg2) = m ((c.tc : Thread nD τ).loc main_arg2) :=
  (keep1 m c (r := main_arg2) (by decide))
theorem arg3_at_A3 : A3 m c (Proc.devRef .tc main_arg3) = m ((c.tc : Thread nD τ).loc main_arg3) :=
  ((keep3 m c (r := main_arg3) (by decide)).trans ((keep2 m c (r := main_arg3) (by decide)).trans (keep1 m c (r := main_arg3) (by decide))))
theorem arg4_at_A5 : A5 m c (Proc.devRef .tc main_arg4) = m ((c.tc : Thread nD τ).loc main_arg4) :=
  ((keep5 m c (r := main_arg4) (by decide)).trans ((keep4b m c (r := main_arg4) (by decide)).trans ((keep4a m c (r := main_arg4) (by decide)).trans ((keep3 m c (r := main_arg4) (by decide)).trans ((keep2 m c (r := main_arg4) (by decide)).trans (keep1 m c (r := main_arg4) (by decide)))))))
theorem arg5_at_A5 : A5 m c (Proc.devRef .tc main_arg5) = m ((c.tc : Thread nD τ).loc main_arg5) :=
  ((keep5 m c (r := main_arg5) (by decide)).trans ((keep4b m c (r := main_arg5) (by decide)).trans ((keep4a m c (r := main_arg5) (by decide)).trans ((keep3 m c (r := main_arg5) (by decide)).trans ((keep2 m c (r := main_arg5) (by decide)).trans (keep1 m c (r := main_arg5) (by decide)))))))
theorem arg6_at_A6 : A6 m c (Proc.devRef .tc main_arg6) = m ((c.tc : Thread nD τ).loc main_arg6) :=
  ((keep6 m c (r := main_arg6) (by decide)).trans ((keep5 m c (r := main_arg6) (by decide)).trans ((keep4b m c (r := main_arg6) (by decide)).trans ((keep4a m c (r := main_arg6) (by decide)).trans ((keep3 m c (r := main_arg6) (by decide)).trans ((keep2 m c (r := main_arg6) (by decide)).trans (keep1 m c (r := main_arg6) (by decide))))))))
theorem arg7_at_A8 : A8 m c (Proc.devRef .tc main_arg7) = m ((c.tc : Thread nD τ).loc main_arg7) :=
  ((keep8 m c (r := main_arg7) (by decide)).trans ((keep7 m c (r := main_arg7) (by decide)).trans ((keep6 m c (r := main_arg7) (by decide)).trans ((keep5 m c (r := main_arg7) (by decide)).trans ((keep4b m c (r := main_arg7) (by decide)).trans ((keep4a m c (r := main_arg7) (by decide)).trans ((keep3 m c (r := main_arg7) (by decide)).trans ((keep2 m c (r := main_arg7) (by decide)).trans (keep1 m c (r := main_arg7) (by decide))))))))))
theorem arg8_at_A10 : A10 m c (Proc.devRef .tc main_arg8) = m ((c.tc : Thread nD τ).loc main_arg8) :=
  ((keep10 m c (r := main_arg8) (by decide)).trans ((keep9 m c (r := main_arg8) (by decide)).trans ((keep8 m c (r := main_arg8) (by decide)).trans ((keep7 m c (r := main_arg8) (by decide)).trans ((keep6 m c (r := main_arg8) (by decide)).trans ((keep5 m c (r := main_arg8) (by decide)).trans ((keep4b m c (r := main_arg8) (by decide)).trans ((keep4a m c (r := main_arg8) (by decide)).trans ((keep3 m c (r := main_arg8) (by decide)).trans ((keep2 m c (r := main_arg8) (by decide)).trans (keep1 m c (r := main_arg8) (by decide))))))))))))
theorem arg9_at_A10 : A10 m c (Proc.devRef .tc main_arg9) = m ((c.tc : Thread nD τ).loc main_arg9) :=
  ((keep10 m c (r := main_arg9) (by decide)).trans ((keep9 m c (r := main_arg9) (by decide)).trans ((keep8 m c (r := main_arg9) (by decide)).trans ((keep7 m c (r := main_arg9) (by decide)).trans ((keep6 m c (r := main_arg9) (by decide)).trans ((keep5 m c (r := main_arg9) (by decide)).trans ((keep4b m c (r := main_arg9) (by decide)).trans ((keep4a m c (r := main_arg9) (by decide)).trans ((keep3 m c (r := main_arg9) (by decide)).trans ((keep2 m c (r := main_arg9) (by decide)).trans (keep1 m c (r := main_arg9) (by decide))))))))))))
theorem arg10_at_A11b : A11b m c (Proc.devRef .tc main_arg10) = m ((c.tc : Thread nD τ).loc main_arg10) :=
  ((keep11b m c (r := main_arg10) (by decide)).trans ((keep11a m c (r := main_arg10) (by decide)).trans ((keep10 m c (r := main_arg10) (by decide)).trans ((keep9 m c (r := main_arg10) (by decide)).trans ((keep8 m c (r := main_arg10) (by decide)).trans ((keep7 m c (r := main_arg10) (by decide)).trans ((keep6 m c (r := main_arg10) (by decide)).trans ((keep5 m c (r := main_arg10) (by decide)).trans ((keep4b m c (r := main_arg10) (by decide)).trans ((keep4a m c (r := main_arg10) (by decide)).trans ((keep3 m c (r := main_arg10) (by decide)).trans ((keep2 m c (r := main_arg10) (by decide)).trans (keep1 m c (r := main_arg10) (by decide))))))))))))))
theorem arg11_at_A13 : A13 m c (Proc.devRef .tc main_arg11) = m ((c.tc : Thread nD τ).loc main_arg11) :=
  ((keep13 m c (r := main_arg11) (by decide)).trans ((keep12 m c (r := main_arg11) (by decide)).trans ((keep11b m c (r := main_arg11) (by decide)).trans ((keep11a m c (r := main_arg11) (by decide)).trans ((keep10 m c (r := main_arg11) (by decide)).trans ((keep9 m c (r := main_arg11) (by decide)).trans ((keep8 m c (r := main_arg11) (by decide)).trans ((keep7 m c (r := main_arg11) (by decide)).trans ((keep6 m c (r := main_arg11) (by decide)).trans ((keep5 m c (r := main_arg11) (by decide)).trans ((keep4b m c (r := main_arg11) (by decide)).trans ((keep4a m c (r := main_arg11) (by decide)).trans ((keep3 m c (r := main_arg11) (by decide)).trans ((keep2 m c (r := main_arg11) (by decide)).trans (keep1 m c (r := main_arg11) (by decide))))))))))))))))
theorem arg12_at_A14 : A14 m c (Proc.devRef .tc main_arg12) = m ((c.tc : Thread nD τ).loc main_arg12) :=
  ((keep14 m c (r := main_arg12) (by decide)).trans ((keep13 m c (r := main_arg12) (by decide)).trans ((keep12 m c (r := main_arg12) (by decide)).trans ((keep11b m c (r := main_arg12) (by decide)).trans ((keep11a m c (r := main_arg12) (by decide)).trans ((keep10 m c (r := main_arg12) (by decide)).trans ((keep9 m c (r := main_arg12) (by decide)).trans ((keep8 m c (r := main_arg12) (by decide)).trans ((keep7 m c (r := main_arg12) (by decide)).trans ((keep6 m c (r := main_arg12) (by decide)).trans ((keep5 m c (r := main_arg12) (by decide)).trans ((keep4b m c (r := main_arg12) (by decide)).trans ((keep4a m c (r := main_arg12) (by decide)).trans ((keep3 m c (r := main_arg12) (by decide)).trans ((keep2 m c (r := main_arg12) (by decide)).trans (keep1 m c (r := main_arg12) (by decide)))))))))))))))))
theorem arg13_at_A16 : A16 m c (Proc.devRef .tc main_arg13) = m ((c.tc : Thread nD τ).loc main_arg13) :=
  ((keep16 m c (r := main_arg13) (by decide)).trans ((keep15 m c (r := main_arg13) (by decide)).trans ((keep14 m c (r := main_arg13) (by decide)).trans ((keep13 m c (r := main_arg13) (by decide)).trans ((keep12 m c (r := main_arg13) (by decide)).trans ((keep11b m c (r := main_arg13) (by decide)).trans ((keep11a m c (r := main_arg13) (by decide)).trans ((keep10 m c (r := main_arg13) (by decide)).trans ((keep9 m c (r := main_arg13) (by decide)).trans ((keep8 m c (r := main_arg13) (by decide)).trans ((keep7 m c (r := main_arg13) (by decide)).trans ((keep6 m c (r := main_arg13) (by decide)).trans ((keep5 m c (r := main_arg13) (by decide)).trans ((keep4b m c (r := main_arg13) (by decide)).trans ((keep4a m c (r := main_arg13) (by decide)).trans ((keep3 m c (r := main_arg13) (by decide)).trans ((keep2 m c (r := main_arg13) (by decide)).trans (keep1 m c (r := main_arg13) (by decide)))))))))))))))))))

/-! ## The edge lists and the edge weights, from the first piece to each neighbourhood sum -/

theorem keep_v3_A2 : A2 m c (Proc.devRef .tc main_v3) = A1 m c (Proc.devRef .tc main_v3) :=
  (keep2 m c (r := main_v3) (by decide))
theorem keep_v3_A7 : A7 m c (Proc.devRef .tc main_v3) = A1 m c (Proc.devRef .tc main_v3) :=
  ((keep7 m c (r := main_v3) (by decide)).trans ((keep6 m c (r := main_v3) (by decide)).trans ((keep5 m c (r := main_v3) (by decide)).trans ((keep4b m c (r := main_v3) (by decide)).trans ((keep4a m c (r := main_v3) (by decide)).trans ((keep3 m c (r := main_v3) (by decide)).trans (keep2 m c (r := main_v3) (by decide))))))))
theorem keep_v3_A12 : A12 m c (Proc.devRef .tc main_v3) = A1 m c (Proc.devRef .tc main_v3) :=
  ((keep12 m c (r := main_v3) (by decide)).trans ((keep11b m c (r := main_v3) (by decide)).trans ((keep11a m c (r := main_v3) (by decide)).trans ((keep10 m c (r := main_v3) (by decide)).trans ((keep9 m c (r := main_v3) (by decide)).trans ((keep8 m c (r := main_v3) (by decide)).trans ((keep7 m c (r := main_v3) (by decide)).trans ((keep6 m c (r := main_v3) (by decide)).trans ((keep5 m c (r := main_v3) (by decide)).trans ((keep4b m c (r := main_v3) (by decide)).trans ((keep4a m c (r := main_v3) (by decide)).trans ((keep3 m c (r := main_v3) (by decide)).trans (keep2 m c (r := main_v3) (by decide))))))))))))))
theorem keep_v3_A15 : A15 m c (Proc.devRef .tc main_v3) = A1 m c (Proc.devRef .tc main_v3) :=
  ((keep15 m c (r := main_v3) (by decide)).trans ((keep14 m c (r := main_v3) (by decide)).trans ((keep13 m c (r := main_v3) (by decide)).trans ((keep12 m c (r := main_v3) (by decide)).trans ((keep11b m c (r := main_v3) (by decide)).trans ((keep11a m c (r := main_v3) (by decide)).trans ((keep10 m c (r := main_v3) (by decide)).trans ((keep9 m c (r := main_v3) (by decide)).trans ((keep8 m c (r := main_v3) (by decide)).trans ((keep7 m c (r := main_v3) (by decide)).trans ((keep6 m c (r := main_v3) (by decide)).trans ((keep5 m c (r := main_v3) (by decide)).trans ((keep4b m c (r := main_v3) (by decide)).trans ((keep4a m c (r := main_v3) (by decide)).trans ((keep3 m c (r := main_v3) (by decide)).trans (keep2 m c (r := main_v3) (by decide)))))))))))))))))
theorem keep_v6_A2 : A2 m c (Proc.devRef .tc main_v6) = A1 m c (Proc.devRef .tc main_v6) :=
  (keep2 m c (r := main_v6) (by decide))
theorem keep_v6_A7 : A7 m c (Proc.devRef .tc main_v6) = A1 m c (Proc.devRef .tc main_v6) :=
  ((keep7 m c (r := main_v6) (by decide)).trans ((keep6 m c (r := main_v6) (by decide)).trans ((keep5 m c (r := main_v6) (by decide)).trans ((keep4b m c (r := main_v6) (by decide)).trans ((keep4a m c (r := main_v6) (by decide)).trans ((keep3 m c (r := main_v6) (by decide)).trans (keep2 m c (r := main_v6) (by decide))))))))
theorem keep_v6_A12 : A12 m c (Proc.devRef .tc main_v6) = A1 m c (Proc.devRef .tc main_v6) :=
  ((keep12 m c (r := main_v6) (by decide)).trans ((keep11b m c (r := main_v6) (by decide)).trans ((keep11a m c (r := main_v6) (by decide)).trans ((keep10 m c (r := main_v6) (by decide)).trans ((keep9 m c (r := main_v6) (by decide)).trans ((keep8 m c (r := main_v6) (by decide)).trans ((keep7 m c (r := main_v6) (by decide)).trans ((keep6 m c (r := main_v6) (by decide)).trans ((keep5 m c (r := main_v6) (by decide)).trans ((keep4b m c (r := main_v6) (by decide)).trans ((keep4a m c (r := main_v6) (by decide)).trans ((keep3 m c (r := main_v6) (by decide)).trans (keep2 m c (r := main_v6) (by decide))))))))))))))
theorem keep_v6_A15 : A15 m c (Proc.devRef .tc main_v6) = A1 m c (Proc.devRef .tc main_v6) :=
  ((keep15 m c (r := main_v6) (by decide)).trans ((keep14 m c (r := main_v6) (by decide)).trans ((keep13 m c (r := main_v6) (by decide)).trans ((keep12 m c (r := main_v6) (by decide)).trans ((keep11b m c (r := main_v6) (by decide)).trans ((keep11a m c (r := main_v6) (by decide)).trans ((keep10 m c (r := main_v6) (by decide)).trans ((keep9 m c (r := main_v6) (by decide)).trans ((keep8 m c (r := main_v6) (by decide)).trans ((keep7 m c (r := main_v6) (by decide)).trans ((keep6 m c (r := main_v6) (by decide)).trans ((keep5 m c (r := main_v6) (by decide)).trans ((keep4b m c (r := main_v6) (by decide)).trans ((keep4a m c (r := main_v6) (by decide)).trans ((keep3 m c (r := main_v6) (by decide)).trans (keep2 m c (r := main_v6) (by decide)))))))))))))))))
theorem keep_v31_A2 : A2 m c (Proc.devRef .tc main_v31) = A1 m c (Proc.devRef .tc main_v31) :=
  (keep2 m c (r := main_v31) (by decide))
theorem keep_v31_A7 : A7 m c (Proc.devRef .tc main_v31) = A1 m c (Proc.devRef .tc main_v31) :=
  ((keep7 m c (r := main_v31) (by decide)).trans ((keep6 m c (r := main_v31) (by decide)).trans ((keep5 m c (r := main_v31) (by decide)).trans ((keep4b m c (r := main_v31) (by decide)).trans ((keep4a m c (r := main_v31) (by decide)).trans ((keep3 m c (r := main_v31) (by decide)).trans (keep2 m c (r := main_v31) (by decide))))))))
theorem keep_v31_A12 : A12 m c (Proc.devRef .tc main_v31) = A1 m c (Proc.devRef .tc main_v31) :=
  ((keep12 m c (r := main_v31) (by decide)).trans ((keep11b m c (r := main_v31) (by decide)).trans ((keep11a m c (r := main_v31) (by decide)).trans ((keep10 m c (r := main_v31) (by decide)).trans ((keep9 m c (r := main_v31) (by decide)).trans ((keep8 m c (r := main_v31) (by decide)).trans ((keep7 m c (r := main_v31) (by decide)).trans ((keep6 m c (r := main_v31) (by decide)).trans ((keep5 m c (r := main_v31) (by decide)).trans ((keep4b m c (r := main_v31) (by decide)).trans ((keep4a m c (r := main_v31) (by decide)).trans ((keep3 m c (r := main_v31) (by decide)).trans (keep2 m c (r := main_v31) (by decide))))))))))))))
theorem keep_v31_A15 : A15 m c (Proc.devRef .tc main_v31) = A1 m c (Proc.devRef .tc main_v31) :=
  ((keep15 m c (r := main_v31) (by decide)).trans ((keep14 m c (r := main_v31) (by decide)).trans ((keep13 m c (r := main_v31) (by decide)).trans ((keep12 m c (r := main_v31) (by decide)).trans ((keep11b m c (r := main_v31) (by decide)).trans ((keep11a m c (r := main_v31) (by decide)).trans ((keep10 m c (r := main_v31) (by decide)).trans ((keep9 m c (r := main_v31) (by decide)).trans ((keep8 m c (r := main_v31) (by decide)).trans ((keep7 m c (r := main_v31) (by decide)).trans ((keep6 m c (r := main_v31) (by decide)).trans ((keep5 m c (r := main_v31) (by decide)).trans ((keep4b m c (r := main_v31) (by decide)).trans ((keep4a m c (r := main_v31) (by decide)).trans ((keep3 m c (r := main_v31) (by decide)).trans (keep2 m c (r := main_v31) (by decide)))))))))))))))))

/-! ## Each stage's result, up to its last reader -/

theorem keep_v48_A5 : A5 m c (Proc.devRef .tc main_v48) = A4b m c (Proc.devRef .tc main_v48) :=
  (keep5 m c (r := main_v48) (by decide))
theorem keep_v85_A10 : A10 m c (Proc.devRef .tc main_v85) = A9 m c (Proc.devRef .tc main_v85) :=
  (keep10 m c (r := main_v85) (by decide))
theorem keep_v105_A14 : A14 m c (Proc.devRef .tc main_v105) = A11b m c (Proc.devRef .tc main_v105) :=
  ((keep14 m c (r := main_v105) (by decide)).trans ((keep13 m c (r := main_v105) (by decide)).trans (keep12 m c (r := main_v105) (by decide))))
theorem keep_v122_A17 : A17 m c (Proc.devRef .tc main_v122) = A14 m c (Proc.devRef .tc main_v122) :=
  ((keep17 m c (r := main_v122) (by decide)).trans ((keep16 m c (r := main_v122) (by decide)).trans (keep15 m c (r := main_v122) (by decide))))
theorem keep_v45_A4a : A4a m c (Proc.devRef .tc main_v45) = A3 m c (Proc.devRef .tc main_v45) :=
  (keep4a m c (r := main_v45) (by decide))

end Cert.ReferenceIdeal.RefChain

end
-- ==== Proof.RefRunA.lean ====
/- The reference program's run at the exact extended reals, its final contents named: every weakly fair execution
   of @main terminates with each buffer at the contents after the last piece of the straight line. -/
import proofs.«103011_j65481071395098_1_alg».proof.Proof.RefRun
import proofs.«103011_j65481071395098_1_alg».proof.Proof.RefChain

noncomputable section

namespace Cert.ReferenceIdeal.RefRunA

open Cert.ReferenceIdeal Cert.ReferenceIdeal.Gen Cert.ReferenceIdeal.RefOps Cert.ReferenceIdeal.RefChain Idealize.ShloMosaic Idealize.ShloMosaic.TcCoe Idealize.SL.Sem

/-- The post of the run, piece by piece, is the contents after the last piece. -/
theorem run_eq (m : (ℓ : Loc nD τ sig) → Buf (Elt Ideal) ℓ) (d : Dev nD) (b : Ref sig .tc) :
    StableHlo.after (R17 (F := Ideal)) (StableHlo.after (R16 (F := Ideal)) (StableHlo.after (R15 (F := Ideal)) (StableHlo.after (R14 (F := Ideal)) (StableHlo.after (R13 (F := Ideal)) (StableHlo.after (R12 (F := Ideal)) (StableHlo.after (R11b (F := Ideal)) (StableHlo.after (R11a (F := Ideal)) (StableHlo.after (R10 (F := Ideal)) (StableHlo.after (R9 (F := Ideal)) (StableHlo.after (R8 (F := Ideal)) (StableHlo.after (R7 (F := Ideal)) (StableHlo.after (R6 (F := Ideal)) (StableHlo.after (R5 (F := Ideal)) (StableHlo.after (R4b (F := Ideal)) (StableHlo.after (R4a (F := Ideal)) (StableHlo.after (R3 (F := Ideal)) (StableHlo.after (R2 (F := Ideal)) (StableHlo.after (R1 (F := Ideal)) (StableHlo.launchContents m d))))))))))))))))))) (Proc.devRef .tc b)
      = A17 m d (Proc.devRef .tc b) := rfl

/-- On every device, from any memory with zero counters: every weakly fair execution of @main terminates with each
    TensorCore buffer at the contents after the last piece. -/
theorem run (m : (ℓ : Loc nD τ sig) → Buf (Elt Ideal) ℓ) (ρ : Dev nD → PrngReg) :
    θ_run defs (onTc (τ := τ) (main (F := Ideal))) ⟨m, fun _ => 0, ρ⟩ fun r => ∀ (d : Dev nD) (b : Ref sig .tc),
      r.2.mem ((d.tc : Thread nD τ).loc b) = A17 m d (Proc.devRef .tc b) :=
  RefRun.run (F := Ideal) m ρ

/-! ## The arguments end as launched: no operation writes one -/

section Args
variable (m : (ℓ : Loc nD τ sig) → Buf (Elt Ideal) ℓ) (c : Dev nD)

theorem arg0_at_A17 : A17 m c (Proc.devRef .tc main_arg0) = m ((c.tc : Thread nD τ).loc main_arg0) :=
  ((keep17 m c (r := main_arg0) (by decide)).trans ((keep16 m c (r := main_arg0) (by decide)).trans ((keep15 m c (r := main_arg0) (by decide)).trans ((keep14 m c (r := main_arg0) (by decide)).trans ((keep13 m c (r := main_arg0) (by decide)).trans ((keep12 m c (r := main_arg0) (by decide)).trans ((keep11b m c (r := main_arg0) (by decide)).trans ((keep11a m c (r := main_arg0) (by decide)).trans ((keep10 m c (r := main_arg0) (by decide)).trans ((keep9 m c (r := main_arg0) (by decide)).trans ((keep8 m c (r := main_arg0) (by decide)).trans ((keep7 m c (r := main_arg0) (by decide)).trans ((keep6 m c (r := main_arg0) (by decide)).trans ((keep5 m c (r := main_arg0) (by decide)).trans ((keep4b m c (r := main_arg0) (by decide)).trans ((keep4a m c (r := main_arg0) (by decide)).trans ((keep3 m c (r := main_arg0) (by decide)).trans ((keep2 m c (r := main_arg0) (by decide)).trans (keep1 m c (r := main_arg0) (by decide))))))))))))))))))))
theorem arg1_at_A17 : A17 m c (Proc.devRef .tc main_arg1) = m ((c.tc : Thread nD τ).loc main_arg1) :=
  ((keep17 m c (r := main_arg1) (by decide)).trans ((keep16 m c (r := main_arg1) (by decide)).trans ((keep15 m c (r := main_arg1) (by decide)).trans ((keep14 m c (r := main_arg1) (by decide)).trans ((keep13 m c (r := main_arg1) (by decide)).trans ((keep12 m c (r := main_arg1) (by decide)).trans ((keep11b m c (r := main_arg1) (by decide)).trans ((keep11a m c (r := main_arg1) (by decide)).trans ((keep10 m c (r := main_arg1) (by decide)).trans ((keep9 m c (r := main_arg1) (by decide)).trans ((keep8 m c (r := main_arg1) (by decide)).trans ((keep7 m c (r := main_arg1) (by decide)).trans ((keep6 m c (r := main_arg1) (by decide)).trans ((keep5 m c (r := main_arg1) (by decide)).trans ((keep4b m c (r := main_arg1) (by decide)).trans ((keep4a m c (r := main_arg1) (by decide)).trans ((keep3 m c (r := main_arg1) (by decide)).trans ((keep2 m c (r := main_arg1) (by decide)).trans (keep1 m c (r := main_arg1) (by decide))))))))))))))))))))
theorem arg2_at_A17 : A17 m c (Proc.devRef .tc main_arg2) = m ((c.tc : Thread nD τ).loc main_arg2) :=
  ((keep17 m c (r := main_arg2) (by decide)).trans ((keep16 m c (r := main_arg2) (by decide)).trans ((keep15 m c (r := main_arg2) (by decide)).trans ((keep14 m c (r := main_arg2) (by decide)).trans ((keep13 m c (r := main_arg2) (by decide)).trans ((keep12 m c (r := main_arg2) (by decide)).trans ((keep11b m c (r := main_arg2) (by decide)).trans ((keep11a m c (r := main_arg2) (by decide)).trans ((keep10 m c (r := main_arg2) (by decide)).trans ((keep9 m c (r := main_arg2) (by decide)).trans ((keep8 m c (r := main_arg2) (by decide)).trans ((keep7 m c (r := main_arg2) (by decide)).trans ((keep6 m c (r := main_arg2) (by decide)).trans ((keep5 m c (r := main_arg2) (by decide)).trans ((keep4b m c (r := main_arg2) (by decide)).trans ((keep4a m c (r := main_arg2) (by decide)).trans ((keep3 m c (r := main_arg2) (by decide)).trans ((keep2 m c (r := main_arg2) (by decide)).trans (keep1 m c (r := main_arg2) (by decide))))))))))))))))))))
theorem arg3_at_A17 : A17 m c (Proc.devRef .tc main_arg3) = m ((c.tc : Thread nD τ).loc main_arg3) :=
  ((keep17 m c (r := main_arg3) (by decide)).trans ((keep16 m c (r := main_arg3) (by decide)).trans ((keep15 m c (r := main_arg3) (by decide)).trans ((keep14 m c (r := main_arg3) (by decide)).trans ((keep13 m c (r := main_arg3) (by decide)).trans ((keep12 m c (r := main_arg3) (by decide)).trans ((keep11b m c (r := main_arg3) (by decide)).trans ((keep11a m c (r := main_arg3) (by decide)).trans ((keep10 m c (r := main_arg3) (by decide)).trans ((keep9 m c (r := main_arg3) (by decide)).trans ((keep8 m c (r := main_arg3) (by decide)).trans ((keep7 m c (r := main_arg3) (by decide)).trans ((keep6 m c (r := main_arg3) (by decide)).trans ((keep5 m c (r := main_arg3) (by decide)).trans ((keep4b m c (r := main_arg3) (by decide)).trans ((keep4a m c (r := main_arg3) (by decide)).trans ((keep3 m c (r := main_arg3) (by decide)).trans ((keep2 m c (r := main_arg3) (by decide)).trans (keep1 m c (r := main_arg3) (by decide))))))))))))))))))))
theorem arg4_at_A17 : A17 m c (Proc.devRef .tc main_arg4) = m ((c.tc : Thread nD τ).loc main_arg4) :=
  ((keep17 m c (r := main_arg4) (by decide)).trans ((keep16 m c (r := main_arg4) (by decide)).trans ((keep15 m c (r := main_arg4) (by decide)).trans ((keep14 m c (r := main_arg4) (by decide)).trans ((keep13 m c (r := main_arg4) (by decide)).trans ((keep12 m c (r := main_arg4) (by decide)).trans ((keep11b m c (r := main_arg4) (by decide)).trans ((keep11a m c (r := main_arg4) (by decide)).trans ((keep10 m c (r := main_arg4) (by decide)).trans ((keep9 m c (r := main_arg4) (by decide)).trans ((keep8 m c (r := main_arg4) (by decide)).trans ((keep7 m c (r := main_arg4) (by decide)).trans ((keep6 m c (r := main_arg4) (by decide)).trans ((keep5 m c (r := main_arg4) (by decide)).trans ((keep4b m c (r := main_arg4) (by decide)).trans ((keep4a m c (r := main_arg4) (by decide)).trans ((keep3 m c (r := main_arg4) (by decide)).trans ((keep2 m c (r := main_arg4) (by decide)).trans (keep1 m c (r := main_arg4) (by decide))))))))))))))))))))
theorem arg5_at_A17 : A17 m c (Proc.devRef .tc main_arg5) = m ((c.tc : Thread nD τ).loc main_arg5) :=
  ((keep17 m c (r := main_arg5) (by decide)).trans ((keep16 m c (r := main_arg5) (by decide)).trans ((keep15 m c (r := main_arg5) (by decide)).trans ((keep14 m c (r := main_arg5) (by decide)).trans ((keep13 m c (r := main_arg5) (by decide)).trans ((keep12 m c (r := main_arg5) (by decide)).trans ((keep11b m c (r := main_arg5) (by decide)).trans ((keep11a m c (r := main_arg5) (by decide)).trans ((keep10 m c (r := main_arg5) (by decide)).trans ((keep9 m c (r := main_arg5) (by decide)).trans ((keep8 m c (r := main_arg5) (by decide)).trans ((keep7 m c (r := main_arg5) (by decide)).trans ((keep6 m c (r := main_arg5) (by decide)).trans ((keep5 m c (r := main_arg5) (by decide)).trans ((keep4b m c (r := main_arg5) (by decide)).trans ((keep4a m c (r := main_arg5) (by decide)).trans ((keep3 m c (r := main_arg5) (by decide)).trans ((keep2 m c (r := main_arg5) (by decide)).trans (keep1 m c (r := main_arg5) (by decide))))))))))))))))))))
theorem arg6_at_A17 : A17 m c (Proc.devRef .tc main_arg6) = m ((c.tc : Thread nD τ).loc main_arg6) :=
  ((keep17 m c (r := main_arg6) (by decide)).trans ((keep16 m c (r := main_arg6) (by decide)).trans ((keep15 m c (r := main_arg6) (by decide)).trans ((keep14 m c (r := main_arg6) (by decide)).trans ((keep13 m c (r := main_arg6) (by decide)).trans ((keep12 m c (r := main_arg6) (by decide)).trans ((keep11b m c (r := main_arg6) (by decide)).trans ((keep11a m c (r := main_arg6) (by decide)).trans ((keep10 m c (r := main_arg6) (by decide)).trans ((keep9 m c (r := main_arg6) (by decide)).trans ((keep8 m c (r := main_arg6) (by decide)).trans ((keep7 m c (r := main_arg6) (by decide)).trans ((keep6 m c (r := main_arg6) (by decide)).trans ((keep5 m c (r := main_arg6) (by decide)).trans ((keep4b m c (r := main_arg6) (by decide)).trans ((keep4a m c (r := main_arg6) (by decide)).trans ((keep3 m c (r := main_arg6) (by decide)).trans ((keep2 m c (r := main_arg6) (by decide)).trans (keep1 m c (r := main_arg6) (by decide))))))))))))))))))))
theorem arg7_at_A17 : A17 m c (Proc.devRef .tc main_arg7) = m ((c.tc : Thread nD τ).loc main_arg7) :=
  ((keep17 m c (r := main_arg7) (by decide)).trans ((keep16 m c (r := main_arg7) (by decide)).trans ((keep15 m c (r := main_arg7) (by decide)).trans ((keep14 m c (r := main_arg7) (by decide)).trans ((keep13 m c (r := main_arg7) (by decide)).trans ((keep12 m c (r := main_arg7) (by decide)).trans ((keep11b m c (r := main_arg7) (by decide)).trans ((keep11a m c (r := main_arg7) (by decide)).trans ((keep10 m c (r := main_arg7) (by decide)).trans ((keep9 m c (r := main_arg7) (by decide)).trans ((keep8 m c (r := main_arg7) (by decide)).trans ((keep7 m c (r := main_arg7) (by decide)).trans ((keep6 m c (r := main_arg7) (by decide)).trans ((keep5 m c (r := main_arg7) (by decide)).trans ((keep4b m c (r := main_arg7) (by decide)).trans ((keep4a m c (r := main_arg7) (by decide)).trans ((keep3 m c (r := main_arg7) (by decide)).trans ((keep2 m c (r := main_arg7) (by decide)).trans (keep1 m c (r := main_arg7) (by decide))))))))))))))))))))
theorem arg8_at_A17 : A17 m c (Proc.devRef .tc main_arg8) = m ((c.tc : Thread nD τ).loc main_arg8) :=
  ((keep17 m c (r := main_arg8) (by decide)).trans ((keep16 m c (r := main_arg8) (by decide)).trans ((keep15 m c (r := main_arg8) (by decide)).trans ((keep14 m c (r := main_arg8) (by decide)).trans ((keep13 m c (r := main_arg8) (by decide)).trans ((keep12 m c (r := main_arg8) (by decide)).trans ((keep11b m c (r := main_arg8) (by decide)).trans ((keep11a m c (r := main_arg8) (by decide)).trans ((keep10 m c (r := main_arg8) (by decide)).trans ((keep9 m c (r := main_arg8) (by decide)).trans ((keep8 m c (r := main_arg8) (by decide)).trans ((keep7 m c (r := main_arg8) (by decide)).trans ((keep6 m c (r := main_arg8) (by decide)).trans ((keep5 m c (r := main_arg8) (by decide)).trans ((keep4b m c (r := main_arg8) (by decide)).trans ((keep4a m c (r := main_arg8) (by decide)).trans ((keep3 m c (r := main_arg8) (by decide)).trans ((keep2 m c (r := main_arg8) (by decide)).trans (keep1 m c (r := main_arg8) (by decide))))))))))))))))))))
theorem arg9_at_A17 : A17 m c (Proc.devRef .tc main_arg9) = m ((c.tc : Thread nD τ).loc main_arg9) :=
  ((keep17 m c (r := main_arg9) (by decide)).trans ((keep16 m c (r := main_arg9) (by decide)).trans ((keep15 m c (r := main_arg9) (by decide)).trans ((keep14 m c (r := main_arg9) (by decide)).trans ((keep13 m c (r := main_arg9) (by decide)).trans ((keep12 m c (r := main_arg9) (by decide)).trans ((keep11b m c (r := main_arg9) (by decide)).trans ((keep11a m c (r := main_arg9) (by decide)).trans ((keep10 m c (r := main_arg9) (by decide)).trans ((keep9 m c (r := main_arg9) (by decide)).trans ((keep8 m c (r := main_arg9) (by decide)).trans ((keep7 m c (r := main_arg9) (by decide)).trans ((keep6 m c (r := main_arg9) (by decide)).trans ((keep5 m c (r := main_arg9) (by decide)).trans ((keep4b m c (r := main_arg9) (by decide)).trans ((keep4a m c (r := main_arg9) (by decide)).trans ((keep3 m c (r := main_arg9) (by decide)).trans ((keep2 m c (r := main_arg9) (by decide)).trans (keep1 m c (r := main_arg9) (by decide))))))))))))))))))))
theorem arg10_at_A17 : A17 m c (Proc.devRef .tc main_arg10) = m ((c.tc : Thread nD τ).loc main_arg10) :=
  ((keep17 m c (r := main_arg10) (by decide)).trans ((keep16 m c (r := main_arg10) (by decide)).trans ((keep15 m c (r := main_arg10) (by decide)).trans ((keep14 m c (r := main_arg10) (by decide)).trans ((keep13 m c (r := main_arg10) (by decide)).trans ((keep12 m c (r := main_arg10) (by decide)).trans ((keep11b m c (r := main_arg10) (by decide)).trans ((keep11a m c (r := main_arg10) (by decide)).trans ((keep10 m c (r := main_arg10) (by decide)).trans ((keep9 m c (r := main_arg10) (by decide)).trans ((keep8 m c (r := main_arg10) (by decide)).trans ((keep7 m c (r := main_arg10) (by decide)).trans ((keep6 m c (r := main_arg10) (by decide)).trans ((keep5 m c (r := main_arg10) (by decide)).trans ((keep4b m c (r := main_arg10) (by decide)).trans ((keep4a m c (r := main_arg10) (by decide)).trans ((keep3 m c (r := main_arg10) (by decide)).trans ((keep2 m c (r := main_arg10) (by decide)).trans (keep1 m c (r := main_arg10) (by decide))))))))))))))))))))
theorem arg11_at_A17 : A17 m c (Proc.devRef .tc main_arg11) = m ((c.tc : Thread nD τ).loc main_arg11) :=
  ((keep17 m c (r := main_arg11) (by decide)).trans ((keep16 m c (r := main_arg11) (by decide)).trans ((keep15 m c (r := main_arg11) (by decide)).trans ((keep14 m c (r := main_arg11) (by decide)).trans ((keep13 m c (r := main_arg11) (by decide)).trans ((keep12 m c (r := main_arg11) (by decide)).trans ((keep11b m c (r := main_arg11) (by decide)).trans ((keep11a m c (r := main_arg11) (by decide)).trans ((keep10 m c (r := main_arg11) (by decide)).trans ((keep9 m c (r := main_arg11) (by decide)).trans ((keep8 m c (r := main_arg11) (by decide)).trans ((keep7 m c (r := main_arg11) (by decide)).trans ((keep6 m c (r := main_arg11) (by decide)).trans ((keep5 m c (r := main_arg11) (by decide)).trans ((keep4b m c (r := main_arg11) (by decide)).trans ((keep4a m c (r := main_arg11) (by decide)).trans ((keep3 m c (r := main_arg11) (by decide)).trans ((keep2 m c (r := main_arg11) (by decide)).trans (keep1 m c (r := main_arg11) (by decide))))))))))))))))))))
theorem arg12_at_A17 : A17 m c (Proc.devRef .tc main_arg12) = m ((c.tc : Thread nD τ).loc main_arg12) :=
  ((keep17 m c (r := main_arg12) (by decide)).trans ((keep16 m c (r := main_arg12) (by decide)).trans ((keep15 m c (r := main_arg12) (by decide)).trans ((keep14 m c (r := main_arg12) (by decide)).trans ((keep13 m c (r := main_arg12) (by decide)).trans ((keep12 m c (r := main_arg12) (by decide)).trans ((keep11b m c (r := main_arg12) (by decide)).trans ((keep11a m c (r := main_arg12) (by decide)).trans ((keep10 m c (r := main_arg12) (by decide)).trans ((keep9 m c (r := main_arg12) (by decide)).trans ((keep8 m c (r := main_arg12) (by decide)).trans ((keep7 m c (r := main_arg12) (by decide)).trans ((keep6 m c (r := main_arg12) (by decide)).trans ((keep5 m c (r := main_arg12) (by decide)).trans ((keep4b m c (r := main_arg12) (by decide)).trans ((keep4a m c (r := main_arg12) (by decide)).trans ((keep3 m c (r := main_arg12) (by decide)).trans ((keep2 m c (r := main_arg12) (by decide)).trans (keep1 m c (r := main_arg12) (by decide))))))))))))))))))))
theorem arg13_at_A17 : A17 m c (Proc.devRef .tc main_arg13) = m ((c.tc : Thread nD τ).loc main_arg13) :=
  ((keep17 m c (r := main_arg13) (by decide)).trans ((keep16 m c (r := main_arg13) (by decide)).trans ((keep15 m c (r := main_arg13) (by decide)).trans ((keep14 m c (r := main_arg13) (by decide)).trans ((keep13 m c (r := main_arg13) (by decide)).trans ((keep12 m c (r := main_arg13) (by decide)).trans ((keep11b m c (r := main_arg13) (by decide)).trans ((keep11a m c (r := main_arg13) (by decide)).trans ((keep10 m c (r := main_arg13) (by decide)).trans ((keep9 m c (r := main_arg13) (by decide)).trans ((keep8 m c (r := main_arg13) (by decide)).trans ((keep7 m c (r := main_arg13) (by decide)).trans ((keep6 m c (r := main_arg13) (by decide)).trans ((keep5 m c (r := main_arg13) (by decide)).trans ((keep4b m c (r := main_arg13) (by decide)).trans ((keep4a m c (r := main_arg13) (by decide)).trans ((keep3 m c (r := main_arg13) (by decide)).trans ((keep2 m c (r := main_arg13) (by decide)).trans (keep1 m c (r := main_arg13) (by decide))))))))))))))))))))

end Args

end Cert.ReferenceIdeal.RefRunA

end
-- ==== Proof.KKeep.lean ====
/- Buffers that nothing writes between two boundaries of the kernel program keep their contents: a stretch of host
   operations changes only the buffers its operations write, and a kernel stage changes only its own arrays (and of those
   only its result). From these one-boundary steps: each weight, bias and normalisation argument still holds its launch
   contents where it is first read; three arrays the host computes before the first stage (two integer index arrays and one array of
   float factors) are the same at every later stage that reads them; and each stage's result is unchanged up to the stage that consumes it. -/
import proofs.«103011_j65481071395098_1_alg».proof.Proof.Gen.KernelIdeal.Frame
import Idealize.ShloMosaic.PureOps.Ideal
import Idealize.ShloMosaic.Lib.StableHlo.Run

set_option maxRecDepth 16384

noncomputable section

namespace Cert.KernelIdeal.KKeep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## What each stretch of host operations writes -/

/-- The buffers the operations of `hostOps0` write. -/
abbrev hostOps0_written : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
theorem hostOps0_writes_sub : (hostOps0 : List (HloOp τ sig (Elt Ideal))).Forall fun op => op.writes ⊆ (hostOps0_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps0_1` write. -/
abbrev hostOps0_1_written : List (Ref sig .tc) := [main_call0_v0, main_call0_v1, main_v16]
theorem hostOps0_1_writes_sub : (hostOps0_1 : List (HloOp τ sig (Elt Ideal))).Forall fun op => op.writes ⊆ (hostOps0_1_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps0_2` write. -/
abbrev hostOps0_2_written : List (Ref sig .tc) := [main_c, main_v17, main_v18, main_c_4, main_v19, main_v20, main_v21, main_v22, main_v23, main_c_5, main_v24, main_v25, main_c_6, main_v26, main_v27, main_v28, main_v29, main_v30, main_v31]
theorem hostOps0_2_writes_sub : (hostOps0_2 : List (HloOp τ sig (Elt Ideal))).Forall fun op => op.writes ⊆ (hostOps0_2_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps1` write. -/
abbrev hostOps1_written : List (Ref sig .tc) := [main_c_7, main_v33, main_v34, main_c_8, main_v35, main_v36, main_v37, main_v38, main_v39, main_v40, main_v41, main_v42, main_cst_9, main_v43, main_v44, main_v45, main_v46]
theorem hostOps1_writes_sub : (hostOps1 : List (HloOp τ sig (Elt Ideal))).Forall fun op => op.writes ⊆ (hostOps1_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps2` write. -/
abbrev hostOps2_written : List (Ref sig .tc) := [main_cst_10, main_v48, main_cst_11, main_v49, main_v50, main_c_12]
theorem hostOps2_writes_sub : (hostOps2 : List (HloOp τ sig (Elt Ideal))).Forall fun op => op.writes ⊆ (hostOps2_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps2_1` write. -/
abbrev hostOps2_1_written : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v51]
theorem hostOps2_1_writes_sub : (hostOps2_1 : List (HloOp τ sig (Elt Ideal))).Forall fun op => op.writes ⊆ (hostOps2_1_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps2_2` write. -/
abbrev hostOps2_2_written : List (Ref sig .tc) := [main_v52, main_v53, main_v54, main_v55]
theorem hostOps2_2_writes_sub : (hostOps2_2 : List (HloOp τ sig (Elt Ideal))).Forall fun op => op.writes ⊆ (hostOps2_2_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps4` write. -/
abbrev hostOps4_written : List (Ref sig .tc) := [main_c_13, main_v58, main_v59, main_c_14, main_v60, main_v61, main_v62, main_v63, main_v64, main_v65, main_v66, main_v67, main_cst_15, main_v68, main_v69, main_v70, main_v71]
theorem hostOps4_writes_sub : (hostOps4 : List (HloOp τ sig (Elt Ideal))).Forall fun op => op.writes ⊆ (hostOps4_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps5` write. -/
abbrev hostOps5_written : List (Ref sig .tc) := [main_cst_16, main_v73, main_cst_17, main_v74, main_v75, main_c_18]
theorem hostOps5_writes_sub : (hostOps5 : List (HloOp τ sig (Elt Ideal))).Forall fun op => op.writes ⊆ (hostOps5_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps5_1` write. -/
abbrev hostOps5_1_written : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v76]
theorem hostOps5_1_writes_sub : (hostOps5_1 : List (HloOp τ sig (Elt Ideal))).Forall fun op => op.writes ⊆ (hostOps5_1_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps5_2` write. -/
abbrev hostOps5_2_written : List (Ref sig .tc) := [main_v77, main_v78, main_v79, main_v80]
theorem hostOps5_2_writes_sub : (hostOps5_2 : List (HloOp τ sig (Elt Ideal))).Forall fun op => op.writes ⊆ (hostOps5_2_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps7` write. -/
abbrev hostOps7_written : List (Ref sig .tc) := [main_c_19, main_v83, main_v84, main_c_20, main_v85, main_v86, main_v87, main_v88, main_v89, main_v90, main_v91, main_v92, main_cst_21, main_v93, main_v94, main_v95, main_v96]
theorem hostOps7_writes_sub : (hostOps7 : List (HloOp τ sig (Elt Ideal))).Forall fun op => op.writes ⊆ (hostOps7_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps9` write. -/
abbrev hostOps9_written : List (Ref sig .tc) := [main_c_22, main_v99, main_v100, main_c_23, main_v101, main_v102, main_v103, main_v104, main_v105, main_v106, main_v107, main_v108, main_cst_24, main_v109, main_v110, main_v111, main_v112]
theorem hostOps9_writes_sub : (hostOps9 : List (HloOp τ sig (Elt Ideal))).Forall fun op => op.writes ⊆ (hostOps9_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

variable (m : (ℓ : Loc nD τ sig) → Buf (Elt Ideal) ℓ) (ρ : Dev nD → PrngReg) (c : Dev nD)

/-! ## One boundary at a time: a stretch of host operations leaves a buffer it does not write as it was -/

theorem W1_of (r : Ref sig .tc) (h : r ∉ hostOps0_written) :
    W1 (F := Ideal) m ρ c (Proc.devRef .tc r) = W0 (F := Ideal) m ρ c (Proc.devRef .tc r) :=
  StableHlo.after_of_writes_sub hostOps0 _ hostOps0_writes_sub h

theorem W2_of (r : Ref sig .tc) (h : r ∉ hostOps0_1_written) :
    W2 (F := Ideal) m ρ c (Proc.devRef .tc r) = W1 (F := Ideal) m ρ c (Proc.devRef .tc r) :=
  StableHlo.after_of_writes_sub hostOps0_1 _ hostOps0_1_writes_sub h

theorem W3_of (r : Ref sig .tc) (h : r ∉ hostOps0_2_written) :
    W3 (F := Ideal) m ρ c (Proc.devRef .tc r) = W2 (F := Ideal) m ρ c (Proc.devRef .tc r) :=
  StableHlo.after_of_writes_sub hostOps0_2 _ hostOps0_2_writes_sub h

theorem W5_of (r : Ref sig .tc) (h : r ∉ hostOps1_written) :
    W5 (F := Ideal) m ρ c (Proc.devRef .tc r) = W4 (F := Ideal) m ρ c (Proc.devRef .tc r) :=
  StableHlo.after_of_writes_sub hostOps1 _ hostOps1_writes_sub h

theorem W7_of (r : Ref sig .tc) (h : r ∉ hostOps2_written) :
    W7 (F := Ideal) m ρ c (Proc.devRef .tc r) = W6 (F := Ideal) m ρ c (Proc.devRef .tc r) :=
  StableHlo.after_of_writes_sub hostOps2 _ hostOps2_writes_sub h

theorem W8_of (r : Ref sig .tc) (h : r ∉ hostOps2_1_written) :
    W8 (F := Ideal) m ρ c (Proc.devRef .tc r) = W7 (F := Ideal) m ρ c (Proc.devRef .tc r) :=
  StableHlo.after_of_writes_sub hostOps2_1 _ hostOps2_1_writes_sub h

theorem W9_of (r : Ref sig .tc) (h : r ∉ hostOps2_2_written) :
    W9 (F := Ideal) m ρ c (Proc.devRef .tc r) = W8 (F := Ideal) m ρ c (Proc.devRef .tc r) :=
  StableHlo.after_of_writes_sub hostOps2_2 _ hostOps2_2_writes_sub h

theorem W12_of (r : Ref sig .tc) (h : r ∉ hostOps4_written) :
    W12 (F := Ideal) m ρ c (Proc.devRef .tc r) = W11 (F := Ideal) m ρ c (Proc.devRef .tc r) :=
  StableHlo.after_of_writes_sub hostOps4 _ hostOps4_writes_sub h

theorem W14_of (r : Ref sig .tc) (h : r ∉ hostOps5_written) :
    W14 (F := Ideal) m ρ c (Proc.devRef .tc r) = W13 (F := Ideal) m ρ c (Proc.devRef .tc r) :=
  StableHlo.after_of_writes_sub hostOps5 _ hostOps5_writes_sub h

theorem W15_of (r : Ref sig .tc) (h : r ∉ hostOps5_1_written) :
    W15 (F := Ideal) m ρ c (Proc.devRef .tc r) = W14 (F := Ideal) m ρ c (Proc.devRef .tc r) :=
  StableHlo.after_of_writes_sub hostOps5_1 _ hostOps5_1_writes_sub h

theorem W16_of (r : Ref sig .tc) (h : r ∉ hostOps5_2_written) :
    W16 (F := Ideal) m ρ c (Proc.devRef .tc r) = W15 (F := Ideal) m ρ c (Proc.devRef .tc r) :=
  StableHlo.after_of_writes_sub hostOps5_2 _ hostOps5_2_writes_sub h

theorem W19_of (r : Ref sig .tc) (h : r ∉ hostOps7_written) :
    W19 (F := Ideal) m ρ c (Proc.devRef .tc r) = W18 (F := Ideal) m ρ c (Proc.devRef .tc r) :=
  StableHlo.after_of_writes_sub hostOps7 _ hostOps7_writes_sub h

theorem W22_of (r : Ref sig .tc) (h : r ∉ hostOps9_written) :
    W22 (F := Ideal) m ρ c (Proc.devRef .tc r) = W21 (F := Ideal) m ρ c (Proc.devRef .tc r) :=
  StableHlo.after_of_writes_sub hostOps9 _ hostOps9_writes_sub h

/-! ## The arguments still hold their launch contents where they are first read -/

theorem arg0_at_W3 : W3 (F := Ideal) m ρ c (Proc.devRef .tc main_arg0) = m ((c : Thread nD τ).loc main_arg0) :=
  calc W3 (F := Ideal) m ρ c (Proc.devRef .tc main_arg0)
    _ = W2 (F := Ideal) m ρ c (Proc.devRef .tc main_arg0) := W3_of m ρ c main_arg0 (by decide)
    _ = W1 (F := Ideal) m ρ c (Proc.devRef .tc main_arg0) := W2_of m ρ c main_arg0 (by decide)
    _ = W0 (F := Ideal) m ρ c (Proc.devRef .tc main_arg0) := W1_of m ρ c main_arg0 (by decide)
    _ = m ((c : Thread nD τ).loc main_arg0) := rfl

theorem arg2_at_W3 : W3 (F := Ideal) m ρ c (Proc.devRef .tc main_arg2) = m ((c : Thread nD τ).loc main_arg2) :=
  calc W3 (F := Ideal) m ρ c (Proc.devRef .tc main_arg2)
    _ = W2 (F := Ideal) m ρ c (Proc.devRef .tc main_arg2) := W3_of m ρ c main_arg2 (by decide)
    _ = W1 (F := Ideal) m ρ c (Proc.devRef .tc main_arg2) := W2_of m ρ c main_arg2 (by decide)
    _ = W0 (F := Ideal) m ρ c (Proc.devRef .tc main_arg2) := W1_of m ρ c main_arg2 (by decide)
    _ = m ((c : Thread nD τ).loc main_arg2) := rfl

theorem arg3_at_W4 : W4 (F := Ideal) m ρ c (Proc.devRef .tc main_arg3) = m ((c : Thread nD τ).loc main_arg3) :=
  calc W4 (F := Ideal) m ρ c (Proc.devRef .tc main_arg3)
    _ = W3 (F := Ideal) m ρ c (Proc.devRef .tc main_arg3) := W4_of_ne (F := Ideal) m ρ c main_arg3 (by decide)
    _ = W2 (F := Ideal) m ρ c (Proc.devRef .tc main_arg3) := W3_of m ρ c main_arg3 (by decide)
    _ = W1 (F := Ideal) m ρ c (Proc.devRef .tc main_arg3) := W2_of m ρ c main_arg3 (by decide)
    _ = W0 (F := Ideal) m ρ c (Proc.devRef .tc main_arg3) := W1_of m ρ c main_arg3 (by decide)
    _ = m ((c : Thread nD τ).loc main_arg3) := rfl

theorem arg4_at_W6 : W6 (F := Ideal) m ρ c (Proc.devRef .tc main_arg4) = m ((c : Thread nD τ).loc main_arg4) :=
  calc W6 (F := Ideal) m ρ c (Proc.devRef .tc main_arg4)
    _ = W5 (F := Ideal) m ρ c (Proc.devRef .tc main_arg4) := W6_of_ne (F := Ideal) m ρ c main_arg4 (by decide)
    _ = W4 (F := Ideal) m ρ c (Proc.devRef .tc main_arg4) := W5_of m ρ c main_arg4 (by decide)
    _ = W3 (F := Ideal) m ρ c (Proc.devRef .tc main_arg4) := W4_of_ne (F := Ideal) m ρ c main_arg4 (by decide)
    _ = W2 (F := Ideal) m ρ c (Proc.devRef .tc main_arg4) := W3_of m ρ c main_arg4 (by decide)
    _ = W1 (F := Ideal) m ρ c (Proc.devRef .tc main_arg4) := W2_of m ρ c main_arg4 (by decide)
    _ = W0 (F := Ideal) m ρ c (Proc.devRef .tc main_arg4) := W1_of m ρ c main_arg4 (by decide)
    _ = m ((c : Thread nD τ).loc main_arg4) := rfl

theorem arg5_at_W6 : W6 (F := Ideal) m ρ c (Proc.devRef .tc main_arg5) = m ((c : Thread nD τ).loc main_arg5) :=
  calc W6 (F := Ideal) m ρ c (Proc.devRef .tc main_arg5)
    _ = W5 (F := Ideal) m ρ c (Proc.devRef .tc main_arg5) := W6_of_ne (F := Ideal) m ρ c main_arg5 (by decide)
    _ = W4 (F := Ideal) m ρ c (Proc.devRef .tc main_arg5) := W5_of m ρ c main_arg5 (by decide)
    _ = W3 (F := Ideal) m ρ c (Proc.devRef .tc main_arg5) := W4_of_ne (F := Ideal) m ρ c main_arg5 (by decide)
    _ = W2 (F := Ideal) m ρ c (Proc.devRef .tc main_arg5) := W3_of m ρ c main_arg5 (by decide)
    _ = W1 (F := Ideal) m ρ c (Proc.devRef .tc main_arg5) := W2_of m ρ c main_arg5 (by decide)
    _ = W0 (F := Ideal) m ρ c (Proc.devRef .tc main_arg5) := W1_of m ρ c main_arg5 (by decide)
    _ = m ((c : Thread nD τ).loc main_arg5) := rfl

theorem arg6_at_W10 : W10 (F := Ideal) m ρ c (Proc.devRef .tc main_arg6) = m ((c : Thread nD τ).loc main_arg6) :=
  calc W10 (F := Ideal) m ρ c (Proc.devRef .tc main_arg6)
    _ = W9 (F := Ideal) m ρ c (Proc.devRef .tc main_arg6) := W10_of_ne (F := Ideal) m ρ c main_arg6 (by decide)
    _ = W8 (F := Ideal) m ρ c (Proc.devRef .tc main_arg6) := W9_of m ρ c main_arg6 (by decide)
    _ = W7 (F := Ideal) m ρ c (Proc.devRef .tc main_arg6) := W8_of m ρ c main_arg6 (by decide)
    _ = W6 (F := Ideal) m ρ c (Proc.devRef .tc main_arg6) := W7_of m ρ c main_arg6 (by decide)
    _ = W5 (F := Ideal) m ρ c (Proc.devRef .tc main_arg6) := W6_of_ne (F := Ideal) m ρ c main_arg6 (by decide)
    _ = W4 (F := Ideal) m ρ c (Proc.devRef .tc main_arg6) := W5_of m ρ c main_arg6 (by decide)
    _ = W3 (F := Ideal) m ρ c (Proc.devRef .tc main_arg6) := W4_of_ne (F := Ideal) m ρ c main_arg6 (by decide)
    _ = W2 (F := Ideal) m ρ c (Proc.devRef .tc main_arg6) := W3_of m ρ c main_arg6 (by decide)
    _ = W1 (F := Ideal) m ρ c (Proc.devRef .tc main_arg6) := W2_of m ρ c main_arg6 (by decide)
    _ = W0 (F := Ideal) m ρ c (Proc.devRef .tc main_arg6) := W1_of m ρ c main_arg6 (by decide)
    _ = m ((c : Thread nD τ).loc main_arg6) := rfl

theorem arg7_at_W11 : W11 (F := Ideal) m ρ c (Proc.devRef .tc main_arg7) = m ((c : Thread nD τ).loc main_arg7) :=
  calc W11 (F := Ideal) m ρ c (Proc.devRef .tc main_arg7)
    _ = W10 (F := Ideal) m ρ c (Proc.devRef .tc main_arg7) := W11_of_ne (F := Ideal) m ρ c main_arg7 (by decide)
    _ = W9 (F := Ideal) m ρ c (Proc.devRef .tc main_arg7) := W10_of_ne (F := Ideal) m ρ c main_arg7 (by decide)
    _ = W8 (F := Ideal) m ρ c (Proc.devRef .tc main_arg7) := W9_of m ρ c main_arg7 (by decide)
    _ = W7 (F := Ideal) m ρ c (Proc.devRef .tc main_arg7) := W8_of m ρ c main_arg7 (by decide)
    _ = W6 (F := Ideal) m ρ c (Proc.devRef .tc main_arg7) := W7_of m ρ c main_arg7 (by decide)
    _ = W5 (F := Ideal) m ρ c (Proc.devRef .tc main_arg7) := W6_of_ne (F := Ideal) m ρ c main_arg7 (by decide)
    _ = W4 (F := Ideal) m ρ c (Proc.devRef .tc main_arg7) := W5_of m ρ c main_arg7 (by decide)
    _ = W3 (F := Ideal) m ρ c (Proc.devRef .tc main_arg7) := W4_of_ne (F := Ideal) m ρ c main_arg7 (by decide)
    _ = W2 (F := Ideal) m ρ c (Proc.devRef .tc main_arg7) := W3_of m ρ c main_arg7 (by decide)
    _ = W1 (F := Ideal) m ρ c (Proc.devRef .tc main_arg7) := W2_of m ρ c main_arg7 (by decide)
    _ = W0 (F := Ideal) m ρ c (Proc.devRef .tc main_arg7) := W1_of m ρ c main_arg7 (by decide)
    _ = m ((c : Thread nD τ).loc main_arg7) := rfl

theorem arg8_at_W13 : W13 (F := Ideal) m ρ c (Proc.devRef .tc main_arg8) = m ((c : Thread nD τ).loc main_arg8) :=
  calc W13 (F := Ideal) m ρ c (Proc.devRef .tc main_arg8)
    _ = W12 (F := Ideal) m ρ c (Proc.devRef .tc main_arg8) := W13_of_ne (F := Ideal) m ρ c main_arg8 (by decide)
    _ = W11 (F := Ideal) m ρ c (Proc.devRef .tc main_arg8) := W12_of m ρ c main_arg8 (by decide)
    _ = W10 (F := Ideal) m ρ c (Proc.devRef .tc main_arg8) := W11_of_ne (F := Ideal) m ρ c main_arg8 (by decide)
    _ = W9 (F := Ideal) m ρ c (Proc.devRef .tc main_arg8) := W10_of_ne (F := Ideal) m ρ c main_arg8 (by decide)
    _ = W8 (F := Ideal) m ρ c (Proc.devRef .tc main_arg8) := W9_of m ρ c main_arg8 (by decide)
    _ = W7 (F := Ideal) m ρ c (Proc.devRef .tc main_arg8) := W8_of m ρ c main_arg8 (by decide)
    _ = W6 (F := Ideal) m ρ c (Proc.devRef .tc main_arg8) := W7_of m ρ c main_arg8 (by decide)
    _ = W5 (F := Ideal) m ρ c (Proc.devRef .tc main_arg8) := W6_of_ne (F := Ideal) m ρ c main_arg8 (by decide)
    _ = W4 (F := Ideal) m ρ c (Proc.devRef .tc main_arg8) := W5_of m ρ c main_arg8 (by decide)
    _ = W3 (F := Ideal) m ρ c (Proc.devRef .tc main_arg8) := W4_of_ne (F := Ideal) m ρ c main_arg8 (by decide)
    _ = W2 (F := Ideal) m ρ c (Proc.devRef .tc main_arg8) := W3_of m ρ c main_arg8 (by decide)
    _ = W1 (F := Ideal) m ρ c (Proc.devRef .tc main_arg8) := W2_of m ρ c main_arg8 (by decide)
    _ = W0 (F := Ideal) m ρ c (Proc.devRef .tc main_arg8) := W1_of m ρ c main_arg8 (by decide)
    _ = m ((c : Thread nD τ).loc main_arg8) := rfl

theorem arg9_at_W13 : W13 (F := Ideal) m ρ c (Proc.devRef .tc main_arg9) = m ((c : Thread nD τ).loc main_arg9) :=
  calc W13 (F := Ideal) m ρ c (Proc.devRef .tc main_arg9)
    _ = W12 (F := Ideal) m ρ c (Proc.devRef .tc main_arg9) := W13_of_ne (F := Ideal) m ρ c main_arg9 (by decide)
    _ = W11 (F := Ideal) m ρ c (Proc.devRef .tc main_arg9) := W12_of m ρ c main_arg9 (by decide)
    _ = W10 (F := Ideal) m ρ c (Proc.devRef .tc main_arg9) := W11_of_ne (F := Ideal) m ρ c main_arg9 (by decide)
    _ = W9 (F := Ideal) m ρ c (Proc.devRef .tc main_arg9) := W10_of_ne (F := Ideal) m ρ c main_arg9 (by decide)
    _ = W8 (F := Ideal) m ρ c (Proc.devRef .tc main_arg9) := W9_of m ρ c main_arg9 (by decide)
    _ = W7 (F := Ideal) m ρ c (Proc.devRef .tc main_arg9) := W8_of m ρ c main_arg9 (by decide)
    _ = W6 (F := Ideal) m ρ c (Proc.devRef .tc main_arg9) := W7_of m ρ c main_arg9 (by decide)
    _ = W5 (F := Ideal) m ρ c (Proc.devRef .tc main_arg9) := W6_of_ne (F := Ideal) m ρ c main_arg9 (by decide)
    _ = W4 (F := Ideal) m ρ c (Proc.devRef .tc main_arg9) := W5_of m ρ c main_arg9 (by decide)
    _ = W3 (F := Ideal) m ρ c (Proc.devRef .tc main_arg9) := W4_of_ne (F := Ideal) m ρ c main_arg9 (by decide)
    _ = W2 (F := Ideal) m ρ c (Proc.devRef .tc main_arg9) := W3_of m ρ c main_arg9 (by decide)
    _ = W1 (F := Ideal) m ρ c (Proc.devRef .tc main_arg9) := W2_of m ρ c main_arg9 (by decide)
    _ = W0 (F := Ideal) m ρ c (Proc.devRef .tc main_arg9) := W1_of m ρ c main_arg9 (by decide)
    _ = m ((c : Thread nD τ).loc main_arg9) := rfl

theorem arg10_at_W17 : W17 (F := Ideal) m ρ c (Proc.devRef .tc main_arg10) = m ((c : Thread nD τ).loc main_arg10) :=
  calc W17 (F := Ideal) m ρ c (Proc.devRef .tc main_arg10)
    _ = W16 (F := Ideal) m ρ c (Proc.devRef .tc main_arg10) := W17_of_ne (F := Ideal) m ρ c main_arg10 (by decide)
    _ = W15 (F := Ideal) m ρ c (Proc.devRef .tc main_arg10) := W16_of m ρ c main_arg10 (by decide)
    _ = W14 (F := Ideal) m ρ c (Proc.devRef .tc main_arg10) := W15_of m ρ c main_arg10 (by decide)
    _ = W13 (F := Ideal) m ρ c (Proc.devRef .tc main_arg10) := W14_of m ρ c main_arg10 (by decide)
    _ = W12 (F := Ideal) m ρ c (Proc.devRef .tc main_arg10) := W13_of_ne (F := Ideal) m ρ c main_arg10 (by decide)
    _ = W11 (F := Ideal) m ρ c (Proc.devRef .tc main_arg10) := W12_of m ρ c main_arg10 (by decide)
    _ = W10 (F := Ideal) m ρ c (Proc.devRef .tc main_arg10) := W11_of_ne (F := Ideal) m ρ c main_arg10 (by decide)
    _ = W9 (F := Ideal) m ρ c (Proc.devRef .tc main_arg10) := W10_of_ne (F := Ideal) m ρ c main_arg10 (by decide)
    _ = W8 (F := Ideal) m ρ c (Proc.devRef .tc main_arg10) := W9_of m ρ c main_arg10 (by decide)
    _ = W7 (F := Ideal) m ρ c (Proc.devRef .tc main_arg10) := W8_of m ρ c main_arg10 (by decide)
    _ = W6 (F := Ideal) m ρ c (Proc.devRef .tc main_arg10) := W7_of m ρ c main_arg10 (by decide)
    _ = W5 (F := Ideal) m ρ c (Proc.devRef .tc main_arg10) := W6_of_ne (F := Ideal) m ρ c main_arg10 (by decide)
    _ = W4 (F := Ideal) m ρ c (Proc.devRef .tc main_arg10) := W5_of m ρ c main_arg10 (by decide)
    _ = W3 (F := Ideal) m ρ c (Proc.devRef .tc main_arg10) := W4_of_ne (F := Ideal) m ρ c main_arg10 (by decide)
    _ = W2 (F := Ideal) m ρ c (Proc.devRef .tc main_arg10) := W3_of m ρ c main_arg10 (by decide)
    _ = W1 (F := Ideal) m ρ c (Proc.devRef .tc main_arg10) := W2_of m ρ c main_arg10 (by decide)
    _ = W0 (F := Ideal) m ρ c (Proc.devRef .tc main_arg10) := W1_of m ρ c main_arg10 (by decide)
    _ = m ((c : Thread nD τ).loc main_arg10) := rfl

theorem arg11_at_W18 : W18 (F := Ideal) m ρ c (Proc.devRef .tc main_arg11) = m ((c : Thread nD τ).loc main_arg11) :=
  calc W18 (F := Ideal) m ρ c (Proc.devRef .tc main_arg11)
    _ = W17 (F := Ideal) m ρ c (Proc.devRef .tc main_arg11) := W18_of_ne (F := Ideal) m ρ c main_arg11 (by decide)
    _ = W16 (F := Ideal) m ρ c (Proc.devRef .tc main_arg11) := W17_of_ne (F := Ideal) m ρ c main_arg11 (by decide)
    _ = W15 (F := Ideal) m ρ c (Proc.devRef .tc main_arg11) := W16_of m ρ c main_arg11 (by decide)
    _ = W14 (F := Ideal) m ρ c (Proc.devRef .tc main_arg11) := W15_of m ρ c main_arg11 (by decide)
    _ = W13 (F := Ideal) m ρ c (Proc.devRef .tc main_arg11) := W14_of m ρ c main_arg11 (by decide)
    _ = W12 (F := Ideal) m ρ c (Proc.devRef .tc main_arg11) := W13_of_ne (F := Ideal) m ρ c main_arg11 (by decide)
    _ = W11 (F := Ideal) m ρ c (Proc.devRef .tc main_arg11) := W12_of m ρ c main_arg11 (by decide)
    _ = W10 (F := Ideal) m ρ c (Proc.devRef .tc main_arg11) := W11_of_ne (F := Ideal) m ρ c main_arg11 (by decide)
    _ = W9 (F := Ideal) m ρ c (Proc.devRef .tc main_arg11) := W10_of_ne (F := Ideal) m ρ c main_arg11 (by decide)
    _ = W8 (F := Ideal) m ρ c (Proc.devRef .tc main_arg11) := W9_of m ρ c main_arg11 (by decide)
    _ = W7 (F := Ideal) m ρ c (Proc.devRef .tc main_arg11) := W8_of m ρ c main_arg11 (by decide)
    _ = W6 (F := Ideal) m ρ c (Proc.devRef .tc main_arg11) := W7_of m ρ c main_arg11 (by decide)
    _ = W5 (F := Ideal) m ρ c (Proc.devRef .tc main_arg11) := W6_of_ne (F := Ideal) m ρ c main_arg11 (by decide)
    _ = W4 (F := Ideal) m ρ c (Proc.devRef .tc main_arg11) := W5_of m ρ c main_arg11 (by decide)
    _ = W3 (F := Ideal) m ρ c (Proc.devRef .tc main_arg11) := W4_of_ne (F := Ideal) m ρ c main_arg11 (by decide)
    _ = W2 (F := Ideal) m ρ c (Proc.devRef .tc main_arg11) := W3_of m ρ c main_arg11 (by decide)
    _ = W1 (F := Ideal) m ρ c (Proc.devRef .tc main_arg11) := W2_of m ρ c main_arg11 (by decide)
    _ = W0 (F := Ideal) m ρ c (Proc.devRef .tc main_arg11) := W1_of m ρ c main_arg11 (by decide)
    _ = m ((c : Thread nD τ).loc main_arg11) := rfl

theorem arg12_at_W20 : W20 (F := Ideal) m ρ c (Proc.devRef .tc main_arg12) = m ((c : Thread nD τ).loc main_arg12) :=
  calc W20 (F := Ideal) m ρ c (Proc.devRef .tc main_arg12)
    _ = W19 (F := Ideal) m ρ c (Proc.devRef .tc main_arg12) := W20_of_ne (F := Ideal) m ρ c main_arg12 (by decide)
    _ = W18 (F := Ideal) m ρ c (Proc.devRef .tc main_arg12) := W19_of m ρ c main_arg12 (by decide)
    _ = W17 (F := Ideal) m ρ c (Proc.devRef .tc main_arg12) := W18_of_ne (F := Ideal) m ρ c main_arg12 (by decide)
    _ = W16 (F := Ideal) m ρ c (Proc.devRef .tc main_arg12) := W17_of_ne (F := Ideal) m ρ c main_arg12 (by decide)
    _ = W15 (F := Ideal) m ρ c (Proc.devRef .tc main_arg12) := W16_of m ρ c main_arg12 (by decide)
    _ = W14 (F := Ideal) m ρ c (Proc.devRef .tc main_arg12) := W15_of m ρ c main_arg12 (by decide)
    _ = W13 (F := Ideal) m ρ c (Proc.devRef .tc main_arg12) := W14_of m ρ c main_arg12 (by decide)
    _ = W12 (F := Ideal) m ρ c (Proc.devRef .tc main_arg12) := W13_of_ne (F := Ideal) m ρ c main_arg12 (by decide)
    _ = W11 (F := Ideal) m ρ c (Proc.devRef .tc main_arg12) := W12_of m ρ c main_arg12 (by decide)
    _ = W10 (F := Ideal) m ρ c (Proc.devRef .tc main_arg12) := W11_of_ne (F := Ideal) m ρ c main_arg12 (by decide)
    _ = W9 (F := Ideal) m ρ c (Proc.devRef .tc main_arg12) := W10_of_ne (F := Ideal) m ρ c main_arg12 (by decide)
    _ = W8 (F := Ideal) m ρ c (Proc.devRef .tc main_arg12) := W9_of m ρ c main_arg12 (by decide)
    _ = W7 (F := Ideal) m ρ c (Proc.devRef .tc main_arg12) := W8_of m ρ c main_arg12 (by decide)
    _ = W6 (F := Ideal) m ρ c (Proc.devRef .tc main_arg12) := W7_of m ρ c main_arg12 (by decide)
    _ = W5 (F := Ideal) m ρ c (Proc.devRef .tc main_arg12) := W6_of_ne (F := Ideal) m ρ c main_arg12 (by decide)
    _ = W4 (F := Ideal) m ρ c (Proc.devRef .tc main_arg12) := W5_of m ρ c main_arg12 (by decide)
    _ = W3 (F := Ideal) m ρ c (Proc.devRef .tc main_arg12) := W4_of_ne (F := Ideal) m ρ c main_arg12 (by decide)
    _ = W2 (F := Ideal) m ρ c (Proc.devRef .tc main_arg12) := W3_of m ρ c main_arg12 (by decide)
    _ = W1 (F := Ideal) m ρ c (Proc.devRef .tc main_arg12) := W2_of m ρ c main_arg12 (by decide)
    _ = W0 (F := Ideal) m ρ c (Proc.devRef .tc main_arg12) := W1_of m ρ c main_arg12 (by decide)
    _ = m ((c : Thread nD τ).loc main_arg12) := rfl

theorem arg13_at_W21 : W21 (F := Ideal) m ρ c (Proc.devRef .tc main_arg13) = m ((c : Thread nD τ).loc main_arg13) :=
  calc W21 (F := Ideal) m ρ c (Proc.devRef .tc main_arg13)
    _ = W20 (F := Ideal) m ρ c (Proc.devRef .tc main_arg13) := W21_of_ne (F := Ideal) m ρ c main_arg13 (by decide)
    _ = W19 (F := Ideal) m ρ c (Proc.devRef .tc main_arg13) := W20_of_ne (F := Ideal) m ρ c main_arg13 (by decide)
    _ = W18 (F := Ideal) m ρ c (Proc.devRef .tc main_arg13) := W19_of m ρ c main_arg13 (by decide)
    _ = W17 (F := Ideal) m ρ c (Proc.devRef .tc main_arg13) := W18_of_ne (F := Ideal) m ρ c main_arg13 (by decide)
    _ = W16 (F := Ideal) m ρ c (Proc.devRef .tc main_arg13) := W17_of_ne (F := Ideal) m ρ c main_arg13 (by decide)
    _ = W15 (F := Ideal) m ρ c (Proc.devRef .tc main_arg13) := W16_of m ρ c main_arg13 (by decide)
    _ = W14 (F := Ideal) m ρ c (Proc.devRef .tc main_arg13) := W15_of m ρ c main_arg13 (by decide)
    _ = W13 (F := Ideal) m ρ c (Proc.devRef .tc main_arg13) := W14_of m ρ c main_arg13 (by decide)
    _ = W12 (F := Ideal) m ρ c (Proc.devRef .tc main_arg13) := W13_of_ne (F := Ideal) m ρ c main_arg13 (by decide)
    _ = W11 (F := Ideal) m ρ c (Proc.devRef .tc main_arg13) := W12_of m ρ c main_arg13 (by decide)
    _ = W10 (F := Ideal) m ρ c (Proc.devRef .tc main_arg13) := W11_of_ne (F := Ideal) m ρ c main_arg13 (by decide)
    _ = W9 (F := Ideal) m ρ c (Proc.devRef .tc main_arg13) := W10_of_ne (F := Ideal) m ρ c main_arg13 (by decide)
    _ = W8 (F := Ideal) m ρ c (Proc.devRef .tc main_arg13) := W9_of m ρ c main_arg13 (by decide)
    _ = W7 (F := Ideal) m ρ c (Proc.devRef .tc main_arg13) := W8_of m ρ c main_arg13 (by decide)
    _ = W6 (F := Ideal) m ρ c (Proc.devRef .tc main_arg13) := W7_of m ρ c main_arg13 (by decide)
    _ = W5 (F := Ideal) m ρ c (Proc.devRef .tc main_arg13) := W6_of_ne (F := Ideal) m ρ c main_arg13 (by decide)
    _ = W4 (F := Ideal) m ρ c (Proc.devRef .tc main_arg13) := W5_of m ρ c main_arg13 (by decide)
    _ = W3 (F := Ideal) m ρ c (Proc.devRef .tc main_arg13) := W4_of_ne (F := Ideal) m ρ c main_arg13 (by decide)
    _ = W2 (F := Ideal) m ρ c (Proc.devRef .tc main_arg13) := W3_of m ρ c main_arg13 (by decide)
    _ = W1 (F := Ideal) m ρ c (Proc.devRef .tc main_arg13) := W2_of m ρ c main_arg13 (by decide)
    _ = W0 (F := Ideal) m ρ c (Proc.devRef .tc main_arg13) := W1_of m ρ c main_arg13 (by decide)
    _ = m ((c : Thread nD τ).loc main_arg13) := rfl

/-! ## The three arrays computed before the first stage are the same at every later stage -/

theorem keep_main_v3_W4 : W4 (F := Ideal) m ρ c (Proc.devRef .tc main_v3) = W3 (F := Ideal) m ρ c (Proc.devRef .tc main_v3) :=
  W4_of_ne (F := Ideal) m ρ c main_v3 (by decide)
theorem keep_main_v3_W11 : W11 (F := Ideal) m ρ c (Proc.devRef .tc main_v3) = W3 (F := Ideal) m ρ c (Proc.devRef .tc main_v3) :=
  calc W11 (F := Ideal) m ρ c (Proc.devRef .tc main_v3)
    _ = W10 (F := Ideal) m ρ c (Proc.devRef .tc main_v3) := W11_of_ne (F := Ideal) m ρ c main_v3 (by decide)
    _ = W9 (F := Ideal) m ρ c (Proc.devRef .tc main_v3) := W10_of_ne (F := Ideal) m ρ c main_v3 (by decide)
    _ = W8 (F := Ideal) m ρ c (Proc.devRef .tc main_v3) := W9_of m ρ c main_v3 (by decide)
    _ = W7 (F := Ideal) m ρ c (Proc.devRef .tc main_v3) := W8_of m ρ c main_v3 (by decide)
    _ = W6 (F := Ideal) m ρ c (Proc.devRef .tc main_v3) := W7_of m ρ c main_v3 (by decide)
    _ = W5 (F := Ideal) m ρ c (Proc.devRef .tc main_v3) := W6_of_ne (F := Ideal) m ρ c main_v3 (by decide)
    _ = W4 (F := Ideal) m ρ c (Proc.devRef .tc main_v3) := W5_of m ρ c main_v3 (by decide)
    _ = W3 (F := Ideal) m ρ c (Proc.devRef .tc main_v3) := keep_main_v3_W4 m ρ c
theorem keep_main_v3_W18 : W18 (F := Ideal) m ρ c (Proc.devRef .tc main_v3) = W3 (F := Ideal) m ρ c (Proc.devRef .tc main_v3) :=
  calc W18 (F := Ideal) m ρ c (Proc.devRef .tc main_v3)
    _ = W17 (F := Ideal) m ρ c (Proc.devRef .tc main_v3) := W18_of_ne (F := Ideal) m ρ c main_v3 (by decide)
    _ = W16 (F := Ideal) m ρ c (Proc.devRef .tc main_v3) := W17_of_ne (F := Ideal) m ρ c main_v3 (by decide)
    _ = W15 (F := Ideal) m ρ c (Proc.devRef .tc main_v3) := W16_of m ρ c main_v3 (by decide)
    _ = W14 (F := Ideal) m ρ c (Proc.devRef .tc main_v3) := W15_of m ρ c main_v3 (by decide)
    _ = W13 (F := Ideal) m ρ c (Proc.devRef .tc main_v3) := W14_of m ρ c main_v3 (by decide)
    _ = W12 (F := Ideal) m ρ c (Proc.devRef .tc main_v3) := W13_of_ne (F := Ideal) m ρ c main_v3 (by decide)
    _ = W11 (F := Ideal) m ρ c (Proc.devRef .tc main_v3) := W12_of m ρ c main_v3 (by decide)
    _ = W3 (F := Ideal) m ρ c (Proc.devRef .tc main_v3) := keep_main_v3_W11 m ρ c
theorem keep_main_v3_W21 : W21 (F := Ideal) m ρ c (Proc.devRef .tc main_v3) = W3 (F := Ideal) m ρ c (Proc.devRef .tc main_v3) :=
  calc W21 (F := Ideal) m ρ c (Proc.devRef .tc main_v3)
    _ = W20 (F := Ideal) m ρ c (Proc.devRef .tc main_v3) := W21_of_ne (F := Ideal) m ρ c main_v3 (by decide)
    _ = W19 (F := Ideal) m ρ c (Proc.devRef .tc main_v3) := W20_of_ne (F := Ideal) m ρ c main_v3 (by decide)
    _ = W18 (F := Ideal) m ρ c (Proc.devRef .tc main_v3) := W19_of m ρ c main_v3 (by decide)
    _ = W3 (F := Ideal) m ρ c (Proc.devRef .tc main_v3) := keep_main_v3_W18 m ρ c

theorem keep_main_v6_W4 : W4 (F := Ideal) m ρ c (Proc.devRef .tc main_v6) = W3 (F := Ideal) m ρ c (Proc.devRef .tc main_v6) :=
  W4_of_ne (F := Ideal) m ρ c main_v6 (by decide)
theorem keep_main_v6_W11 : W11 (F := Ideal) m ρ c (Proc.devRef .tc main_v6) = W3 (F := Ideal) m ρ c (Proc.devRef .tc main_v6) :=
  calc W11 (F := Ideal) m ρ c (Proc.devRef .tc main_v6)
    _ = W10 (F := Ideal) m ρ c (Proc.devRef .tc main_v6) := W11_of_ne (F := Ideal) m ρ c main_v6 (by decide)
    _ = W9 (F := Ideal) m ρ c (Proc.devRef .tc main_v6) := W10_of_ne (F := Ideal) m ρ c main_v6 (by decide)
    _ = W8 (F := Ideal) m ρ c (Proc.devRef .tc main_v6) := W9_of m ρ c main_v6 (by decide)
    _ = W7 (F := Ideal) m ρ c (Proc.devRef .tc main_v6) := W8_of m ρ c main_v6 (by decide)
    _ = W6 (F := Ideal) m ρ c (Proc.devRef .tc main_v6) := W7_of m ρ c main_v6 (by decide)
    _ = W5 (F := Ideal) m ρ c (Proc.devRef .tc main_v6) := W6_of_ne (F := Ideal) m ρ c main_v6 (by decide)
    _ = W4 (F := Ideal) m ρ c (Proc.devRef .tc main_v6) := W5_of m ρ c main_v6 (by decide)
    _ = W3 (F := Ideal) m ρ c (Proc.devRef .tc main_v6) := keep_main_v6_W4 m ρ c
theorem keep_main_v6_W18 : W18 (F := Ideal) m ρ c (Proc.devRef .tc main_v6) = W3 (F := Ideal) m ρ c (Proc.devRef .tc main_v6) :=
  calc W18 (F := Ideal) m ρ c (Proc.devRef .tc main_v6)
    _ = W17 (F := Ideal) m ρ c (Proc.devRef .tc main_v6) := W18_of_ne (F := Ideal) m ρ c main_v6 (by decide)
    _ = W16 (F := Ideal) m ρ c (Proc.devRef .tc main_v6) := W17_of_ne (F := Ideal) m ρ c main_v6 (by decide)
    _ = W15 (F := Ideal) m ρ c (Proc.devRef .tc main_v6) := W16_of m ρ c main_v6 (by decide)
    _ = W14 (F := Ideal) m ρ c (Proc.devRef .tc main_v6) := W15_of m ρ c main_v6 (by decide)
    _ = W13 (F := Ideal) m ρ c (Proc.devRef .tc main_v6) := W14_of m ρ c main_v6 (by decide)
    _ = W12 (F := Ideal) m ρ c (Proc.devRef .tc main_v6) := W13_of_ne (F := Ideal) m ρ c main_v6 (by decide)
    _ = W11 (F := Ideal) m ρ c (Proc.devRef .tc main_v6) := W12_of m ρ c main_v6 (by decide)
    _ = W3 (F := Ideal) m ρ c (Proc.devRef .tc main_v6) := keep_main_v6_W11 m ρ c
theorem keep_main_v6_W21 : W21 (F := Ideal) m ρ c (Proc.devRef .tc main_v6) = W3 (F := Ideal) m ρ c (Proc.devRef .tc main_v6) :=
  calc W21 (F := Ideal) m ρ c (Proc.devRef .tc main_v6)
    _ = W20 (F := Ideal) m ρ c (Proc.devRef .tc main_v6) := W21_of_ne (F := Ideal) m ρ c main_v6 (by decide)
    _ = W19 (F := Ideal) m ρ c (Proc.devRef .tc main_v6) := W20_of_ne (F := Ideal) m ρ c main_v6 (by decide)
    _ = W18 (F := Ideal) m ρ c (Proc.devRef .tc main_v6) := W19_of m ρ c main_v6 (by decide)
    _ = W3 (F := Ideal) m ρ c (Proc.devRef .tc main_v6) := keep_main_v6_W18 m ρ c

theorem keep_main_v31_W4 : W4 (F := Ideal) m ρ c (Proc.devRef .tc main_v31) = W3 (F := Ideal) m ρ c (Proc.devRef .tc main_v31) :=
  W4_of_ne (F := Ideal) m ρ c main_v31 (by decide)
theorem keep_main_v31_W11 : W11 (F := Ideal) m ρ c (Proc.devRef .tc main_v31) = W3 (F := Ideal) m ρ c (Proc.devRef .tc main_v31) :=
  calc W11 (F := Ideal) m ρ c (Proc.devRef .tc main_v31)
    _ = W10 (F := Ideal) m ρ c (Proc.devRef .tc main_v31) := W11_of_ne (F := Ideal) m ρ c main_v31 (by decide)
    _ = W9 (F := Ideal) m ρ c (Proc.devRef .tc main_v31) := W10_of_ne (F := Ideal) m ρ c main_v31 (by decide)
    _ = W8 (F := Ideal) m ρ c (Proc.devRef .tc main_v31) := W9_of m ρ c main_v31 (by decide)
    _ = W7 (F := Ideal) m ρ c (Proc.devRef .tc main_v31) := W8_of m ρ c main_v31 (by decide)
    _ = W6 (F := Ideal) m ρ c (Proc.devRef .tc main_v31) := W7_of m ρ c main_v31 (by decide)
    _ = W5 (F := Ideal) m ρ c (Proc.devRef .tc main_v31) := W6_of_ne (F := Ideal) m ρ c main_v31 (by decide)
    _ = W4 (F := Ideal) m ρ c (Proc.devRef .tc main_v31) := W5_of m ρ c main_v31 (by decide)
    _ = W3 (F := Ideal) m ρ c (Proc.devRef .tc main_v31) := keep_main_v31_W4 m ρ c
theorem keep_main_v31_W18 : W18 (F := Ideal) m ρ c (Proc.devRef .tc main_v31) = W3 (F := Ideal) m ρ c (Proc.devRef .tc main_v31) :=
  calc W18 (F := Ideal) m ρ c (Proc.devRef .tc main_v31)
    _ = W17 (F := Ideal) m ρ c (Proc.devRef .tc main_v31) := W18_of_ne (F := Ideal) m ρ c main_v31 (by decide)
    _ = W16 (F := Ideal) m ρ c (Proc.devRef .tc main_v31) := W17_of_ne (F := Ideal) m ρ c main_v31 (by decide)
    _ = W15 (F := Ideal) m ρ c (Proc.devRef .tc main_v31) := W16_of m ρ c main_v31 (by decide)
    _ = W14 (F := Ideal) m ρ c (Proc.devRef .tc main_v31) := W15_of m ρ c main_v31 (by decide)
    _ = W13 (F := Ideal) m ρ c (Proc.devRef .tc main_v31) := W14_of m ρ c main_v31 (by decide)
    _ = W12 (F := Ideal) m ρ c (Proc.devRef .tc main_v31) := W13_of_ne (F := Ideal) m ρ c main_v31 (by decide)
    _ = W11 (F := Ideal) m ρ c (Proc.devRef .tc main_v31) := W12_of m ρ c main_v31 (by decide)
    _ = W3 (F := Ideal) m ρ c (Proc.devRef .tc main_v31) := keep_main_v31_W11 m ρ c
theorem keep_main_v31_W21 : W21 (F := Ideal) m ρ c (Proc.devRef .tc main_v31) = W3 (F := Ideal) m ρ c (Proc.devRef .tc main_v31) :=
  calc W21 (F := Ideal) m ρ c (Proc.devRef .tc main_v31)
    _ = W20 (F := Ideal) m ρ c (Proc.devRef .tc main_v31) := W21_of_ne (F := Ideal) m ρ c main_v31 (by decide)
    _ = W19 (F := Ideal) m ρ c (Proc.devRef .tc main_v31) := W20_of_ne (F := Ideal) m ρ c main_v31 (by decide)
    _ = W18 (F := Ideal) m ρ c (Proc.devRef .tc main_v31) := W19_of m ρ c main_v31 (by decide)
    _ = W3 (F := Ideal) m ρ c (Proc.devRef .tc main_v31) := keep_main_v31_W18 m ρ c

/-! ## A stage's result is unchanged up to the stage that consumes it -/

theorem keep_main_v47_W9 : W9 (F := Ideal) m ρ c (Proc.devRef .tc main_v47) = W6 (F := Ideal) m ρ c (Proc.devRef .tc main_v47) :=
  calc W9 (F := Ideal) m ρ c (Proc.devRef .tc main_v47)
    _ = W8 (F := Ideal) m ρ c (Proc.devRef .tc main_v47) := W9_of m ρ c main_v47 (by decide)
    _ = W7 (F := Ideal) m ρ c (Proc.devRef .tc main_v47) := W8_of m ρ c main_v47 (by decide)
    _ = W6 (F := Ideal) m ρ c (Proc.devRef .tc main_v47) := W7_of m ρ c main_v47 (by decide)

theorem keep_main_v72_W16 : W16 (F := Ideal) m ρ c (Proc.devRef .tc main_v72) = W13 (F := Ideal) m ρ c (Proc.devRef .tc main_v72) :=
  calc W16 (F := Ideal) m ρ c (Proc.devRef .tc main_v72)
    _ = W15 (F := Ideal) m ρ c (Proc.devRef .tc main_v72) := W16_of m ρ c main_v72 (by decide)
    _ = W14 (F := Ideal) m ρ c (Proc.devRef .tc main_v72) := W15_of m ρ c main_v72 (by decide)
    _ = W13 (F := Ideal) m ρ c (Proc.devRef .tc main_v72) := W14_of m ρ c main_v72 (by decide)

theorem keep_main_v81_W20 : W20 (F := Ideal) m ρ c (Proc.devRef .tc main_v81) = W17 (F := Ideal) m ρ c (Proc.devRef .tc main_v81) :=
  calc W20 (F := Ideal) m ρ c (Proc.devRef .tc main_v81)
    _ = W19 (F := Ideal) m ρ c (Proc.devRef .tc main_v81) := W20_of_ne (F := Ideal) m ρ c main_v81 (by decide)
    _ = W18 (F := Ideal) m ρ c (Proc.devRef .tc main_v81) := W19_of m ρ c main_v81 (by decide)
    _ = W17 (F := Ideal) m ρ c (Proc.devRef .tc main_v81) := (W18_arr (F := Ideal) m ρ c 0).trans (((dat6 (V17 (F := Ideal) m ρ) c).arrAt_in 0 rfl _).trans (A_eq6 (V17 (F := Ideal) m ρ) c 0))

theorem keep_main_v97_W23 : W23 (F := Ideal) m ρ c (Proc.devRef .tc main_v97) = W20 (F := Ideal) m ρ c (Proc.devRef .tc main_v97) :=
  calc W23 (F := Ideal) m ρ c (Proc.devRef .tc main_v97)
    _ = W22 (F := Ideal) m ρ c (Proc.devRef .tc main_v97) := W23_of_ne (F := Ideal) m ρ c main_v97 (by decide)
    _ = W21 (F := Ideal) m ρ c (Proc.devRef .tc main_v97) := W22_of m ρ c main_v97 (by decide)
    _ = W20 (F := Ideal) m ρ c (Proc.devRef .tc main_v97) := W21_of_ne (F := Ideal) m ρ c main_v97 (by decide)

end Cert.KernelIdeal.KKeep
end
-- ==== Proof.Bridge1.lean ====
/-
  The graph's normalisation is one computation in both programs.

  From the edge list both programs build the source and destination index vectors (the edges followed by one
  self-loop per node), count each node's in-degree by a scatter-add of ones, take the reciprocal square root of
  the degree where it is positive, and multiply the two gathered factors of every edge.  The two programs apply
  the same host operations to the same edge list, so the three vectors every later stage reads — sources,
  destinations, edge weights — are equal.  (A concatenation of two pieces is equal to another as soon as the
  pieces are: the congruence below lets rewriting reach inside it.)
-/
import proofs.«103011_j65481071395098_1_alg».proof.Proof.Gen.KernelIdeal.Frame
import proofs.«103011_j65481071395098_1_alg».proof.Proof.RefChain
import Idealize.ShloMosaic.PureOps.Ideal

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- Concatenating equal pieces gives equal results. -/
@[congr] theorem concat2_congr {α : Type} (t : Shape) (ax : Fin t.rank) (s1 s2 : Shape) {a a' : s1.Idx → α} {b b' : s2.Idx → α}
    (h : Shape.Concatenates [s1, s2] t ax) (ha : a = a') (hb : b = b') :
    concatenate t ax [⟨s1, a⟩, ⟨s2, b⟩] h = concatenate t ax [⟨s1, a'⟩, ⟨s2, b'⟩] h := by subst ha hb; rfl

set_option maxHeartbeats 4000000 in
/-- The source indices agree. -/
theorem s1_v3 (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.KernelIdeal.Gen.W3 (F := Ideal) m ρ c (Proc.devRef .tc Cert.KernelIdeal.main_v3) = Cert.ReferenceIdeal.RefChain.A1 m' c (Proc.devRef .tc Cert.ReferenceIdeal.main_v3) := by
  unfold Cert.ReferenceIdeal.RefChain.A1 Cert.ReferenceIdeal.RefChain.A0
  dsimp only [Cert.KernelIdeal.Gen.W3, Cert.KernelIdeal.Gen.W2, Cert.KernelIdeal.Gen.W1, Cert.KernelIdeal.Gen.hostOps0, Cert.KernelIdeal.Gen.hostOps0_1, Cert.KernelIdeal.Gen.hostOps0_2, Cert.ReferenceIdeal.RefOps.R1]
  after_results_simp
  rw [show Cert.KernelIdeal.Gen.W0 m ρ c (Proc.devRef .tc Cert.KernelIdeal.main_arg1) = m ((c.tc : Thread Cert.KernelIdeal.nD Cert.KernelIdeal.τ).loc Cert.KernelIdeal.main_arg1) from rfl,
    show StableHlo.launchContents m' c (Proc.devRef .tc Cert.ReferenceIdeal.main_arg1) = m' ((c.tc : Thread Cert.ReferenceIdeal.nD Cert.ReferenceIdeal.τ).loc Cert.ReferenceIdeal.main_arg1) from rfl, h1]
  first | done | rfl

set_option maxHeartbeats 4000000 in
/-- The destination indices agree. -/
theorem s1_v6 (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.KernelIdeal.Gen.W3 (F := Ideal) m ρ c (Proc.devRef .tc Cert.KernelIdeal.main_v6) = Cert.ReferenceIdeal.RefChain.A1 m' c (Proc.devRef .tc Cert.ReferenceIdeal.main_v6) := by
  unfold Cert.ReferenceIdeal.RefChain.A1 Cert.ReferenceIdeal.RefChain.A0
  dsimp only [Cert.KernelIdeal.Gen.W3, Cert.KernelIdeal.Gen.W2, Cert.KernelIdeal.Gen.W1, Cert.KernelIdeal.Gen.hostOps0, Cert.KernelIdeal.Gen.hostOps0_1, Cert.KernelIdeal.Gen.hostOps0_2, Cert.ReferenceIdeal.RefOps.R1]
  after_results_simp
  rw [show Cert.KernelIdeal.Gen.W0 m ρ c (Proc.devRef .tc Cert.KernelIdeal.main_arg1) = m ((c.tc : Thread Cert.KernelIdeal.nD Cert.KernelIdeal.τ).loc Cert.KernelIdeal.main_arg1) from rfl,
    show StableHlo.launchContents m' c (Proc.devRef .tc Cert.ReferenceIdeal.main_arg1) = m' ((c.tc : Thread Cert.ReferenceIdeal.nD Cert.ReferenceIdeal.τ).loc Cert.ReferenceIdeal.main_arg1) from rfl, h1]
  first | done | rfl

set_option maxHeartbeats 4000000 in
/-- The edge weights agree. -/
theorem s1_v31 (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.KernelIdeal.Gen.W3 (F := Ideal) m ρ c (Proc.devRef .tc Cert.KernelIdeal.main_v31) = Cert.ReferenceIdeal.RefChain.A1 m' c (Proc.devRef .tc Cert.ReferenceIdeal.main_v31) := by
  unfold Cert.ReferenceIdeal.RefChain.A1 Cert.ReferenceIdeal.RefChain.A0
  dsimp only [Cert.KernelIdeal.Gen.W3, Cert.KernelIdeal.Gen.W2, Cert.KernelIdeal.Gen.W1, Cert.KernelIdeal.Gen.hostOps0, Cert.KernelIdeal.Gen.hostOps0_1, Cert.KernelIdeal.Gen.hostOps0_2, Cert.ReferenceIdeal.RefOps.R1]
  after_results_simp
  rw [show Cert.KernelIdeal.Gen.W0 m ρ c (Proc.devRef .tc Cert.KernelIdeal.main_arg1) = m ((c.tc : Thread Cert.KernelIdeal.nD Cert.KernelIdeal.τ).loc Cert.KernelIdeal.main_arg1) from rfl,
    show StableHlo.launchContents m' c (Proc.devRef .tc Cert.ReferenceIdeal.main_arg1) = m' ((c.tc : Thread Cert.ReferenceIdeal.nD Cert.ReferenceIdeal.τ).loc Cert.ReferenceIdeal.main_arg1) from rfl, h1]
  first | done | rfl

end Cert.Bridge

end
-- ==== Proof.Spec.lean ====
/-
  What the graph-convolution encoder computes on its dense stages, entry by entry, over the extended reals.

  The node features are matrices with 100000 rows.  Three dense stages occur between the sparse
  gather / scatter-add stages: a matrix product with a small weight matrix (every entry the sum, over the
  contracted axis, of the products of a row of the features with a column of the weights); the addition of a
  bias row to every row; and the batch normalisation of every column, scaled, shifted and cut off below at zero:
  an entry `h` of column `j` becomes `max ((h - mean j) * rsqrt (var j + eps) * g j + beta j) 0`.
  Both programs are shown to compute exactly these functions on their dense stages; the row statistics and the
  sparse stages between them are the same host operations on both sides and are never opened.
-/
import Idealize.ShloMosaic.PureOps.Ideal
import Idealize.ShloMosaic.Lib.ValueIdx

noncomputable section

open scoped BigOperators

namespace Cert.Gcn

open Idealize.ShloMosaic Idealize.ShloMosaic.ValueIdx

/-- A real matrix of the given extents, indexed by its two coordinates. -/
abbrev Mat (a b : Nat) : Type := Vec Ideal (⟨2, ![a, b]⟩ : Shape) .f32

/-- Features (81 columns) times weights (81 × 64). -/
def mm81 (x : Mat 100000 81) (w : Mat 81 64) : Mat 100000 64 :=
  fun i => ∑ k : Fin 81, x (ix2 (n0 := 100000) (n1 := 81) (i 0) k) * w (ix2 (n0 := 81) (n1 := 64) k (i 1))

/-- Features (64 columns) times weights (64 × 64). -/
def mm64 (x : Mat 100000 64) (w : Mat 64 64) : Mat 100000 64 :=
  fun i => ∑ k : Fin 64, x (ix2 (n0 := 100000) (n1 := 64) (i 0) k) * w (ix2 (n0 := 64) (n1 := 64) k (i 1))

/-- Features (64 columns) times weights (64 × 32). -/
def mm32 (x : Mat 100000 64) (w : Mat 64 32) : Mat 100000 32 :=
  fun i => ∑ k : Fin 64, x (ix2 (n0 := 100000) (n1 := 64) (i 0) k) * w (ix2 (n0 := 64) (n1 := 32) k (i 1))

theorem mm81_apply (x : Mat 100000 81) (w : Mat 81 64) (r : Fin 100000) (c : Fin 64) :
    mm81 x w (ix2 r c) = ∑ k : Fin 81, x (ix2 r k) * w (ix2 k c) := rfl
theorem mm64_apply (x : Mat 100000 64) (w : Mat 64 64) (r : Fin 100000) (c : Fin 64) :
    mm64 x w (ix2 r c) = ∑ k : Fin 64, x (ix2 r k) * w (ix2 k c) := rfl
theorem mm32_apply (x : Mat 100000 64) (w : Mat 64 32) (r : Fin 100000) (c : Fin 32) :
    mm32 x w (ix2 r c) = ∑ k : Fin 64, x (ix2 r k) * w (ix2 k c) := rfl

/-- A bias row (kept as a 1 × 64 matrix) added to every row. -/
def addRow64 (h : Mat 100000 64) (b : Mat 1 64) : Mat 100000 64 :=
  fun i => h i + b (ix2 (n0 := 1) (n1 := 64) 0 (i 1))

/-- A bias row (kept as a 1 × 32 matrix) added to every row. -/
def addRow32 (h : Mat 100000 32) (b : Mat 1 32) : Mat 100000 32 :=
  fun i => h i + b (ix2 (n0 := 1) (n1 := 32) 0 (i 1))

theorem addRow64_apply (h : Mat 100000 64) (b : Mat 1 64) (r : Fin 100000) (c : Fin 64) :
    addRow64 h b (ix2 r c) = h (ix2 r c) + b (ix2 0 c) := rfl
theorem addRow32_apply (h : Mat 100000 32) (b : Mat 1 32) (r : Fin 100000) (c : Fin 32) :
    addRow32 h b (ix2 r c) = h (ix2 r c) + b (ix2 0 c) := rfl

/-- Column-wise normalisation with the statistics, scale and shift given as 1 × 64 rows, then the cut-off at
    zero.  The small constant under the root is the float nearest to 1e-5, the same word in both programs. -/
def normRelu (h : Mat 100000 64) (mean var g beta : Mat 1 64) : Mat 100000 64 :=
  fun i => max ((h i - mean (ix2 (n0 := 1) (n1 := 64) 0 (i 1)))
      * Ideal.rsqrt (var (ix2 (n0 := 1) (n1 := 64) 0 (i 1)) + Ideal.ofBits .f32 0x3727C5AC#32)
      * g (ix2 (n0 := 1) (n1 := 64) 0 (i 1)) + beta (ix2 (n0 := 1) (n1 := 64) 0 (i 1)))
    (Ideal.ofBits .f32 0x00000000#32)

theorem normRelu_apply (h : Mat 100000 64) (mean var g beta : Mat 1 64) (r : Fin 100000) (c : Fin 64) :
    normRelu h mean var g beta (ix2 r c)
      = max ((h (ix2 r c) - mean (ix2 0 c)) * Ideal.rsqrt (var (ix2 0 c) + Ideal.ofBits .f32 0x3727C5AC#32)
          * g (ix2 0 c) + beta (ix2 0 c)) (Ideal.ofBits .f32 0x00000000#32) := rfl

/-- A vector of 64 entries laid out as a 1 × 64 row. -/
def row64 (v : Vec Ideal (⟨1, ![64]⟩ : Shape) .f32) : Mat 1 64 := fun i => v (ix1 (n := 64) (i 1))
/-- A vector of 32 entries laid out as a 1 × 32 row. -/
def row32 (v : Vec Ideal (⟨1, ![32]⟩ : Shape) .f32) : Mat 1 32 := fun i => v (ix1 (n := 32) (i 1))

theorem row64_apply (v : Vec Ideal (⟨1, ![64]⟩ : Shape) .f32) (a : Fin 1) (c : Fin 64) : row64 v (ix2 a c) = v (ix1 c) := rfl
theorem row32_apply (v : Vec Ideal (⟨1, ![32]⟩ : Shape) .f32) (a : Fin 1) (c : Fin 32) : row32 v (ix2 a c) = v (ix1 c) := rfl

end Cert.Gcn

end
-- ==== Proof.RegionMM.lean ====
/- The four matrix-product stages of the kernel, each read as ONE function of the arrays the stage finds: a stage works
   through the 100000 rows in ten blocks of 10000 rows, multiplying each block by the resident weight matrix; the array it
   leaves is the matrix product of the whole feature array with the weights. Per stage: the body's product at an entry of
   a block as the sum over the contracted coordinate; what a grid point writes back as the rows of the whole product that
   the point's block holds; the blocks cover the array; so the array after the stage is the product. -/
import proofs.«103011_j65481071395098_1_alg».proof.Proof.Gen.KernelIdeal.Frame
import proofs.«103011_j65481071395098_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionMM

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The three contractions' operand indices, coordinate by coordinate -/

/-- Left operand index of the 81-term contraction: the row of the output, on axis 0 … -/
theorem lhs81_0 (i : S10000x64.Idx) (q : dot_S10000x81_S81x64_S10000x64_1_0_0_1_n_n.contr.Idx) :
    (dot_S10000x81_S81x64_S10000x64_1_0_0_1_n_n.lhsIdx i q 0).val = (i 0).val := by
  unfold DotDims.lhsIdx
  rw [dif_neg (show ¬(0 : Fin S10000x81.rank) ∈ dot_S10000x81_S81x64_S10000x64_1_0_0_1_n_n.lhsBatch by decide), dif_pos (show (0 : Fin S10000x81.rank) ∈ dot_S10000x81_S81x64_S10000x64_1_0_0_1_n_n.lhsNonContracting by decide)]
  rfl
/-- … and the contracted position, on axis 1. -/
theorem lhs81_1 (i : S10000x64.Idx) (q : dot_S10000x81_S81x64_S10000x64_1_0_0_1_n_n.contr.Idx) :
    (dot_S10000x81_S81x64_S10000x64_1_0_0_1_n_n.lhsIdx i q 1).val = (q ⟨0, by decide⟩).val :=
  dot_S10000x81_S81x64_S10000x64_1_0_0_1_n_n.lhsIdx_val_of_single rfl i q
/-- Right operand index: the contracted position on axis 0 … -/
theorem rhs81_0 (i : S10000x64.Idx) (q : dot_S10000x81_S81x64_S10000x64_1_0_0_1_n_n.contr.Idx) :
    (dot_S10000x81_S81x64_S10000x64_1_0_0_1_n_n.rhsIdx i q 0).val = (q ⟨0, by decide⟩).val :=
  dot_S10000x81_S81x64_S10000x64_1_0_0_1_n_n.rhsIdx_val_of_single rfl i q
/-- … and the column of the output on axis 1. -/
theorem rhs81_1 (i : S10000x64.Idx) (q : dot_S10000x81_S81x64_S10000x64_1_0_0_1_n_n.contr.Idx) :
    (dot_S10000x81_S81x64_S10000x64_1_0_0_1_n_n.rhsIdx i q 1).val = (i 1).val := by
  unfold DotDims.rhsIdx
  rw [dif_neg (show ¬(1 : Fin S81x64.rank) ∈ dot_S10000x81_S81x64_S10000x64_1_0_0_1_n_n.rhsBatch by decide), dif_pos (show (1 : Fin S81x64.rank) ∈ dot_S10000x81_S81x64_S10000x64_1_0_0_1_n_n.rhsNonContracting by decide)]
  rfl

/-- Left operand index of the 64-term contraction: the row of the output, on axis 0 … -/
theorem lhs64_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and the contracted position, on axis 1. -/
theorem lhs64_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- Right operand index: the contracted position on axis 0 … -/
theorem rhs64_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and the column of the output on axis 1. -/
theorem rhs64_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Left operand index of the 64-term contraction: the row of the output, on axis 0 … -/
theorem lhs32_0 (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
/-- … and the contracted position, on axis 1. -/
theorem lhs32_1 (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
/-- Right operand index: the contracted position on axis 0 … -/
theorem rhs32_0 (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
/-- … and the column of the output on axis 1. -/
theorem rhs32_1 (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-! ## The body's product of a row block with the resident weights, entry by entry -/

/-- The body's product at row `p`, column `q` of the block: the sum over the 81 contracted entries. -/
theorem pay0 (x0 : Vec Ideal S10000x81 .f32) (x1 : Vec Ideal S81x64 .f32) (p : Fin 10000) (q : Fin 64) :
    k0_pay1 x0 x1 (ix2 p q) = ∑ k : Fin 81, x0 (ix2 p k) * x1 (ix2 k q) := by
  unfold k0_pay1
  refine (Ideal.matmul_constant_zero_apply dot_S10000x81_S81x64_S10000x64_1_0_0_1_n_n none _ _ (ix2 p q)).trans ?_
  rw [← Equiv.sum_comp (contrEquiv1 dot_S10000x81_S81x64_S10000x64_1_0_0_1_n_n 81 rfl rfl).symm]
  refine Finset.sum_congr rfl fun k _ => ?_
  have hk := contrEquiv1_symm_val dot_S10000x81_S81x64_S10000x64_1_0_0_1_n_n 81 rfl rfl k
  have el : dot_S10000x81_S81x64_S10000x64_1_0_0_1_n_n.lhsIdx (ix2 p q) ((contrEquiv1 dot_S10000x81_S81x64_S10000x64_1_0_0_1_n_n 81 rfl rfl).symm k) = ix2 p k := funext fun a => Fin.ext (by
    match a with
    | ⟨0, _⟩ => exact lhs81_0 _ _
    | ⟨1, _⟩ => exact (lhs81_1 _ _).trans hk)
  have er : dot_S10000x81_S81x64_S10000x64_1_0_0_1_n_n.rhsIdx (ix2 p q) ((contrEquiv1 dot_S10000x81_S81x64_S10000x64_1_0_0_1_n_n 81 rfl rfl).symm k) = ix2 k q := funext fun a => Fin.ext (by
    match a with
    | ⟨0, _⟩ => exact (rhs81_0 _ _).trans hk
    | ⟨1, _⟩ => exact rhs81_1 _ _)
  rw [el, er]
  rfl

/-- The body's product at row `p`, column `q` of the block: the sum over the 64 contracted entries. -/
theorem pay3 (x0 : Vec Ideal S10000x64 .f32) (x1 : Vec Ideal S64x64 .f32) (p : Fin 10000) (q : Fin 64) :
    k3_pay1 x0 x1 (ix2 p q) = ∑ k : Fin 64, x0 (ix2 p k) * x1 (ix2 k q) := by
  unfold k3_pay1
  refine (Ideal.matmul_constant_zero_apply dot_S10000x64_S64x64_S10000x64_1_0_0_1_n_n none _ _ (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs64_0 _ _
    | ⟨1, _⟩ => exact (lhs64_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs64_0 _ _).trans hk
    | ⟨1, _⟩ => exact rhs64_1 _ _)
  rw [el, er]
  show shapeCast S10000x64 x0 shapeCasts_S10000x64_S10000x64 (ix2 p k) * x1 (ix2 k q) = _
  rw [shapeCast_self]

/-- The body's product at row `p`, column `q` of the block: the sum over the 64 contracted entries. -/
theorem pay6 (x0 : Vec Ideal S10000x64 .f32) (x1 : Vec Ideal S64x32 .f32) (p : Fin 10000) (q : Fin 32) :
    k6_pay1 x0 x1 (ix2 p q) = ∑ k : Fin 64, x0 (ix2 p k) * x1 (ix2 k q) := by
  unfold k6_pay1
  refine (Ideal.matmul_constant_zero_apply dot_S10000x64_S64x32_S10000x32_1_0_0_1_n_n none _ _ (ix2 p q)).trans ?_
  rw [← Equiv.sum_comp (contrEquiv1 dot_S10000x64_S64x32_S10000x32_1_0_0_1_n_n 64 rfl rfl).symm]
  refine Finset.sum_congr rfl fun k _ => ?_
  have hk := contrEquiv1_symm_val dot_S10000x64_S64x32_S10000x32_1_0_0_1_n_n 64 rfl rfl k
  have el : dot_S10000x64_S64x32_S10000x32_1_0_0_1_n_n.lhsIdx (ix2 p q) ((contrEquiv1 dot_S10000x64_S64x32_S10000x32_1_0_0_1_n_n 64 rfl rfl).symm k) = ix2 p k := funext fun a => Fin.ext (by
    match a with
    | ⟨0, _⟩ => exact lhs32_0 _ _
    | ⟨1, _⟩ => exact (lhs32_1 _ _).trans hk)
  have er : dot_S10000x64_S64x32_S10000x32_1_0_0_1_n_n.rhsIdx (ix2 p q) ((contrEquiv1 dot_S10000x64_S64x32_S10000x32_1_0_0_1_n_n 64 rfl rfl).symm k) = ix2 k q := funext fun a => Fin.ext (by
    match a with
    | ⟨0, _⟩ => exact (rhs32_0 _ _).trans hk
    | ⟨1, _⟩ => exact rhs32_1 _ _)
  rw [el, er]
  show shapeCast S10000x64 x0 shapeCasts_S10000x64_S10000x64 (ix2 p k) * x1 (ix2 k q) = _
  rw [shapeCast_self]

/-- The body's product at row `p`, column `q` of the block: the sum over the 64 contracted entries. -/
theorem pay8 (x0 : Vec Ideal S10000x64 .f32) (x1 : Vec Ideal S64x32 .f32) (p : Fin 10000) (q : Fin 32) :
    k8_pay1 x0 x1 (ix2 p q) = ∑ k : Fin 64, x0 (ix2 p k) * x1 (ix2 k q) := by
  unfold k8_pay1
  refine (Ideal.matmul_constant_zero_apply dot_S10000x64_S64x32_S10000x32_1_0_0_1_n_n none _ _ (ix2 p q)).trans ?_
  rw [← Equiv.sum_comp (contrEquiv1 dot_S10000x64_S64x32_S10000x32_1_0_0_1_n_n 64 rfl rfl).symm]
  refine Finset.sum_congr rfl fun k _ => ?_
  have hk := contrEquiv1_symm_val dot_S10000x64_S64x32_S10000x32_1_0_0_1_n_n 64 rfl rfl k
  have el : dot_S10000x64_S64x32_S10000x32_1_0_0_1_n_n.lhsIdx (ix2 p q) ((contrEquiv1 dot_S10000x64_S64x32_S10000x32_1_0_0_1_n_n 64 rfl rfl).symm k) = ix2 p k := funext fun a => Fin.ext (by
    match a with
    | ⟨0, _⟩ => exact lhs32_0 _ _
    | ⟨1, _⟩ => exact (lhs32_1 _ _).trans hk)
  have er : dot_S10000x64_S64x32_S10000x32_1_0_0_1_n_n.rhsIdx (ix2 p q) ((contrEquiv1 dot_S10000x64_S64x32_S10000x32_1_0_0_1_n_n 64 rfl rfl).symm k) = ix2 k q := funext fun a => Fin.ext (by
    match a with
    | ⟨0, _⟩ => exact (rhs32_0 _ _).trans hk
    | ⟨1, _⟩ => exact rhs32_1 _ _)
  rw [el, er]
  show shapeCast S10000x64 x0 shapeCasts_S10000x64_S10000x64 (ix2 p k) * x1 (ix2 k q) = _
  rw [shapeCast_self]

theorem hz : (![0, 0] : Fin 2 → Nat) = fun _ => 0 := funext fun a => by fin_cases a <;> rfl

/-! ## Region 0: from the row blocks to the whole product -/

/-- The printed index maps over the ten grid points: the features' and the result's block index is the point on the row
    axis and zero on the column axis; the weights' block index is zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is rows `10000 t … 10000 t + 9999` of the product of the two arrays. -/
theorem flushed0_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.Gcn.mm81 (V c main_arg0) (V c main_arg2)) := by
  show (cfg0.win 2).cut (grid0.coords t) ((dat0 V c).after 2 t) = _
  rw [after0_2]
  unfold out0_2
  rw [View.canon_unit_zero hz]
  simp only [View.ld_unit_zero (S := S10000x81) hz, View.ld_unit_zero (S := S81x64) hz]
  obtain ⟨i00, i01, i10, i11, i20, i21⟩ := idx0 t
  have ht : t.val < 10 := lt_of_lt_of_eq t.isLt (show cfg0.N = 10 from N_0)
  funext j
  obtain ⟨p, q, rfl⟩ : ∃ (p : Fin 10000) (q : Fin 64), j = ix2 p q := ⟨j 0, j 1, eq_ix2 j⟩
  have hp : p.val < 10000 := p.isLt
  have eo : ((cfg0.win 2).blk t).view.emb (ix2 p q) = ix2 (⟨t.val * 10000 + p.val, by omega⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  show k0_pay1 (iblk0 V c 0 t) (iblk0 V c 1 t) (ix2 p q) = Cert.Gcn.mm81 (V c main_arg0) (V c main_arg2) (((cfg0.win 2).blk t).view.emb (ix2 p q))
  rw [eo, Cert.Gcn.mm81_apply]
  refine (pay0 _ _ p q).trans (Finset.sum_congr rfl fun k _ => ?_)
  have e0 : iblk0 V c 0 t (ix2 p k) = V c main_arg0 (ix2 (⟨t.val * 10000 + p.val, by omega⟩ : Fin 100000) k) := by
    show V c main_arg0 (((cfg0.win 0).blk t).view.emb (ix2 p k)) = _
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 81 + 1 * k.val = k.val; omega
  have e1 : iblk0 V c 1 t (ix2 k q) = V c main_arg2 (ix2 k q) := by
    show V c main_arg2 (((cfg0.win 1).blk t).view.emb (ix2 k q)) = _
    refine congrArg _ (funext fun a => Fin.ext ?_)
    match a with
    | ⟨0, _⟩ => show win0_1.index t (0 : Fin 2) * 81 + 1 * k.val = k.val; omega
    | ⟨1, _⟩ => show win0_1.index t (1 : Fin 2) * 64 + 1 * q.val = q.val; omega
  rw [e0, e1]

/-- An index of the result array is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- Row `r` of the result lies in the block of point `r / 10000`: the ten blocks cover the array. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, by rw [show cfg0.N = 10 from N_0]; omega⟩, rfl⟩
  obtain ⟨-, -, -, -, i20, i21⟩ := idx0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After region 0 the result array is the product of the features with the first weights. -/
theorem final0 (V : (c : Dev nD) → (b : Ref sig .tc) → Buf (Elt Ideal) ((c : Thread nD τ).loc b)) (c : Dev nD) :
    (dat0 (F := Ideal) V c).arrAt 2 cfg0.N = Cert.Gcn.mm81 (V c main_arg0) (V c main_arg2) :=
  (dat0 (F := Ideal) V c).arrAt_eq_of_cover 2 (Cert.Gcn.mm81 (V c main_arg0) (V c main_arg2)) (fun t _ => flushed0_eq V c t) cover0

/-! ## Region 3: from the row blocks to the whole product -/

/-- The printed index maps over the ten grid points: the activations' and the result's block index is the point on the row
    axis and zero on the column axis; the weights' block index is zero. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point `t` writes back is rows `10000 t … 10000 t + 9999` of the product of the two arrays. -/
theorem flushed3_eq (V : (c : Dev nD) → (b : Ref sig .tc) → Buf (Elt Ideal) ((c : Thread nD τ).loc b)) (c : Dev nD) (t : Fin cfg3.N) :
    (dat3 (F := Ideal) V c).flushed 2 t
      = ((cfg3.win 2).blk t).view.read (Elt Ideal) (Cert.Gcn.mm64 (V c main_v56) (V c main_arg6)) := by
  show (cfg3.win 2).cut (grid3.coords t) ((dat3 V c).after 2 t) = _
  rw [after3_2]
  unfold out3_2
  rw [View.canon_unit_zero hz]
  simp only [View.ld_unit_zero (S := S10000x64) hz, View.ld_unit_zero (S := S64x64) hz]
  obtain ⟨i00, i01, i10, i11, i20, i21⟩ := idx3 t
  have ht : t.val < 10 := lt_of_lt_of_eq t.isLt (show cfg3.N = 10 from N_3)
  funext j
  obtain ⟨p, q, rfl⟩ : ∃ (p : Fin 10000) (q : Fin 64), j = ix2 p q := ⟨j 0, j 1, eq_ix2 j⟩
  have hp : p.val < 10000 := p.isLt
  have eo : ((cfg3.win 2).blk t).view.emb (ix2 p q) = ix2 (⟨t.val * 10000 + p.val, by omega⟩ : Fin 100000) q := by
    funext a; apply Fin.ext
    match a with
    | ⟨0, _⟩ => show win3_2.index t (0 : Fin 2) * 10000 + 1 * p.val = t.val * 10000 + p.val; omega
    | ⟨1, _⟩ => show win3_2.index t (1 : Fin 2) * 64 + 1 * q.val = q.val; omega
  show k3_pay1 (iblk3 V c 0 t) (iblk3 V c 1 t) (ix2 p q) = Cert.Gcn.mm64 (V c main_v56) (V c main_arg6) (((cfg3.win 2).blk t).view.emb (ix2 p q))
  rw [eo, Cert.Gcn.mm64_apply]
  refine (pay3 _ _ p q).trans (Finset.sum_congr rfl fun k _ => ?_)
  have e0 : iblk3 V c 0 t (ix2 p k) = V c main_v56 (ix2 (⟨t.val * 10000 + p.val, by omega⟩ : Fin 100000) k) := by
    show V c main_v56 (((cfg3.win 0).blk t).view.emb (ix2 p k)) = _
    refine congrArg _ (funext fun a => Fin.ext ?_)
    match a with
    | ⟨0, _⟩ => show win3_0.index t (0 : Fin 2) * 10000 + 1 * p.val = t.val * 10000 + p.val; omega
    | ⟨1, _⟩ => show win3_0.index t (1 : Fin 2) * 64 + 1 * k.val = k.val; omega
  have e1 : iblk3 V c 1 t (ix2 k q) = V c main_arg6 (ix2 k q) := by
    show V c main_arg6 (((cfg3.win 1).blk t).view.emb (ix2 k q)) = _
    refine congrArg _ (funext fun a => Fin.ext ?_)
    match a with
    | ⟨0, _⟩ => show win3_1.index t (0 : Fin 2) * 64 + 1 * k.val = k.val; omega
    | ⟨1, _⟩ => show win3_1.index t (1 : Fin 2) * 64 + 1 * q.val = q.val; omega
  rw [e0, e1]

/-- An index of the result array is in point `t`'s block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v57).slice (win3_2.rect t)).set ↔ _
  rw [View.set_slice_whole, Rect.mem_set_unit]
  exact Iff.rfl

/-- Row `r` of the result lies in the block of point `r / 10000`: the ten blocks cover the array. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ : ∃ t : Fin cfg3.N, t.val = (i 0).val / 10000 :=
    ⟨⟨(i 0).val / 10000, by rw [show cfg3.N = 10 from N_3]; omega⟩, rfl⟩
  obtain ⟨-, -, -, -, i20, i21⟩ := idx3 t
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- After region 3 the result array is the product of the first layer's activations with the second weights. -/
theorem final3 (V : (c : Dev nD) → (b : Ref sig .tc) → Buf (Elt Ideal) ((c : Thread nD τ).loc b)) (c : Dev nD) :
    (dat3 (F := Ideal) V c).arrAt 2 cfg3.N = Cert.Gcn.mm64 (V c main_v56) (V c main_arg6) :=
  (dat3 (F := Ideal) V c).arrAt_eq_of_cover 2 (Cert.Gcn.mm64 (V c main_v56) (V c main_arg6)) (fun t _ => flushed3_eq V c t) cover3

/-! ## Region 6: from the row blocks to the whole product -/

/-- The printed index maps over the ten grid points: the activations' and the result's block index is the point on the row
    axis and zero on the column axis; the weights' block index is zero. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What grid point `t` writes back is rows `10000 t … 10000 t + 9999` of the product of the two arrays. -/
theorem flushed6_eq (V : (c : Dev nD) → (b : Ref sig .tc) → Buf (Elt Ideal) ((c : Thread nD τ).loc b)) (c : Dev nD) (t : Fin cfg6.N) :
    (dat6 (F := Ideal) V c).flushed 2 t
      = ((cfg6.win 2).blk t).view.read (Elt Ideal) (Cert.Gcn.mm32 (V c main_v81) (V c main_arg10)) := by
  show (cfg6.win 2).cut (grid6.coords t) ((dat6 V c).after 2 t) = _
  rw [after6_2]
  unfold out6_2
  rw [View.canon_unit_zero hz]
  simp only [View.ld_unit_zero (S := S10000x64) hz, View.ld_unit_zero (S := S64x32) hz]
  obtain ⟨i00, i01, i10, i11, i20, i21⟩ := idx6 t
  have ht : t.val < 10 := lt_of_lt_of_eq t.isLt (show cfg6.N = 10 from N_6)
  funext j
  obtain ⟨p, q, rfl⟩ : ∃ (p : Fin 10000) (q : Fin 32), j = ix2 p q := ⟨j 0, j 1, eq_ix2 j⟩
  have hp : p.val < 10000 := p.isLt
  have eo : ((cfg6.win 2).blk t).view.emb (ix2 p q) = ix2 (⟨t.val * 10000 + p.val, by omega⟩ : Fin 100000) q := by
    funext a; apply Fin.ext
    match a with
    | ⟨0, _⟩ => show win6_2.index t (0 : Fin 2) * 10000 + 1 * p.val = t.val * 10000 + p.val; omega
    | ⟨1, _⟩ => show win6_2.index t (1 : Fin 2) * 32 + 1 * q.val = q.val; omega
  show k6_pay1 (iblk6 V c 0 t) (iblk6 V c 1 t) (ix2 p q) = Cert.Gcn.mm32 (V c main_v81) (V c main_arg10) (((cfg6.win 2).blk t).view.emb (ix2 p q))
  rw [eo, Cert.Gcn.mm32_apply]
  refine (pay6 _ _ p q).trans (Finset.sum_congr rfl fun k _ => ?_)
  have e0 : iblk6 V c 0 t (ix2 p k) = V c main_v81 (ix2 (⟨t.val * 10000 + p.val, by omega⟩ : Fin 100000) k) := by
    show V c main_v81 (((cfg6.win 0).blk t).view.emb (ix2 p k)) = _
    refine congrArg _ (funext fun a => Fin.ext ?_)
    match a with
    | ⟨0, _⟩ => show win6_0.index t (0 : Fin 2) * 10000 + 1 * p.val = t.val * 10000 + p.val; omega
    | ⟨1, _⟩ => show win6_0.index t (1 : Fin 2) * 64 + 1 * k.val = k.val; omega
  have e1 : iblk6 V c 1 t (ix2 k q) = V c main_arg10 (ix2 k q) := by
    show V c main_arg10 (((cfg6.win 1).blk t).view.emb (ix2 k q)) = _
    refine congrArg _ (funext fun a => Fin.ext ?_)
    match a with
    | ⟨0, _⟩ => show win6_1.index t (0 : Fin 2) * 64 + 1 * k.val = k.val; omega
    | ⟨1, _⟩ => show win6_1.index t (1 : Fin 2) * 32 + 1 * q.val = q.val; omega
  rw [e0, e1]

/-- An index of the result array is in point `t`'s block iff each coordinate is in the block's range on its axis. -/
theorem mem_blk6 (t : Fin cfg6.N) (i : S100000x32.Idx) :
    i ∈ ((cfg6.win 2).blk t).view.set ↔ ∀ a : Fin 2, win6_2.index t a * S10000x32.size a ≤ (i a).val ∧ (i a).val < win6_2.index t a * S10000x32.size a + S10000x32.size a := by
  show i ∈ ((View.whole main_v82).slice (win6_2.rect t)).set ↔ _
  rw [View.set_slice_whole, Rect.mem_set_unit]
  exact Iff.rfl

/-- Row `r` of the result lies in the block of point `r / 10000`: the ten blocks cover the array. -/
theorem cover6 (i : S100000x32.Idx) : ∃ t : Fin cfg6.N, (cfg6.win 2).flush t = true ∧ i ∈ ((cfg6.win 2).blk t).view.set := by
  have hi0 : (i 0).val < 100000 := (i 0).isLt
  have hi1 : (i 1).val < 32 := (i 1).isLt
  obtain ⟨t, ht⟩ : ∃ t : Fin cfg6.N, t.val = (i 0).val / 10000 :=
    ⟨⟨(i 0).val / 10000, by rw [show cfg6.N = 10 from N_6]; omega⟩, rfl⟩
  obtain ⟨-, -, -, -, i20, i21⟩ := idx6 t
  refine ⟨t, flush6_2 t, ?_⟩
  rw [mem_blk6]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 32 ≤ (i 1).val ∧ (i 1).val < win6_2.index t (1 : Fin 2) * 32 + 32; omega

/-- After region 6 the result array is the product of the second layer's activations with the first head's weights. -/
theorem final6 (V : (c : Dev nD) → (b : Ref sig .tc) → Buf (Elt Ideal) ((c : Thread nD τ).loc b)) (c : Dev nD) :
    (dat6 (F := Ideal) V c).arrAt 2 cfg6.N = Cert.Gcn.mm32 (V c main_v81) (V c main_arg10) :=
  (dat6 (F := Ideal) V c).arrAt_eq_of_cover 2 (Cert.Gcn.mm32 (V c main_v81) (V c main_arg10)) (fun t _ => flushed6_eq V c t) cover6

/-! ## Region 8: from the row blocks to the whole product -/

/-- The printed index maps over the ten grid points: the activations' and the result's block index is the point on the row
    axis and zero on the column axis; the weights' block index is zero. -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What grid point `t` writes back is rows `10000 t … 10000 t + 9999` of the product of the two arrays. -/
theorem flushed8_eq (V : (c : Dev nD) → (b : Ref sig .tc) → Buf (Elt Ideal) ((c : Thread nD τ).loc b)) (c : Dev nD) (t : Fin cfg8.N) :
    (dat8 (F := Ideal) V c).flushed 2 t
      = ((cfg8.win 2).blk t).view.read (Elt Ideal) (Cert.Gcn.mm32 (V c main_v81) (V c main_arg12)) := by
  show (cfg8.win 2).cut (grid8.coords t) ((dat8 V c).after 2 t) = _
  rw [after8_2]
  unfold out8_2
  rw [View.canon_unit_zero hz]
  simp only [View.ld_unit_zero (S := S10000x64) hz, View.ld_unit_zero (S := S64x32) hz]
  obtain ⟨i00, i01, i10, i11, i20, i21⟩ := idx8 t
  have ht : t.val < 10 := lt_of_lt_of_eq t.isLt (show cfg8.N = 10 from N_8)
  funext j
  obtain ⟨p, q, rfl⟩ : ∃ (p : Fin 10000) (q : Fin 32), j = ix2 p q := ⟨j 0, j 1, eq_ix2 j⟩
  have hp : p.val < 10000 := p.isLt
  have eo : ((cfg8.win 2).blk t).view.emb (ix2 p q) = ix2 (⟨t.val * 10000 + p.val, by omega⟩ : Fin 100000) q := by
    funext a; apply Fin.ext
    match a with
    | ⟨0, _⟩ => show win8_2.index t (0 : Fin 2) * 10000 + 1 * p.val = t.val * 10000 + p.val; omega
    | ⟨1, _⟩ => show win8_2.index t (1 : Fin 2) * 32 + 1 * q.val = q.val; omega
  show k8_pay1 (iblk8 V c 0 t) (iblk8 V c 1 t) (ix2 p q) = Cert.Gcn.mm32 (V c main_v81) (V c main_arg12) (((cfg8.win 2).blk t).view.emb (ix2 p q))
  rw [eo, Cert.Gcn.mm32_apply]
  refine (pay8 _ _ p q).trans (Finset.sum_congr rfl fun k _ => ?_)
  have e0 : iblk8 V c 0 t (ix2 p k) = V c main_v81 (ix2 (⟨t.val * 10000 + p.val, by omega⟩ : Fin 100000) k) := by
    show V c main_v81 (((cfg8.win 0).blk t).view.emb (ix2 p k)) = _
    refine congrArg _ (funext fun a => Fin.ext ?_)
    match a with
    | ⟨0, _⟩ => show win8_0.index t (0 : Fin 2) * 10000 + 1 * p.val = t.val * 10000 + p.val; omega
    | ⟨1, _⟩ => show win8_0.index t (1 : Fin 2) * 64 + 1 * k.val = k.val; omega
  have e1 : iblk8 V c 1 t (ix2 k q) = V c main_arg12 (ix2 k q) := by
    show V c main_arg12 (((cfg8.win 1).blk t).view.emb (ix2 k q)) = _
    refine congrArg _ (funext fun a => Fin.ext ?_)
    match a with
    | ⟨0, _⟩ => show win8_1.index t (0 : Fin 2) * 64 + 1 * k.val = k.val; omega
    | ⟨1, _⟩ => show win8_1.index t (1 : Fin 2) * 32 + 1 * q.val = q.val; omega
  rw [e0, e1]

/-- An index of the result array is in point `t`'s block iff each coordinate is in the block's range on its axis. -/
theorem mem_blk8 (t : Fin cfg8.N) (i : S100000x32.Idx) :
    i ∈ ((cfg8.win 2).blk t).view.set ↔ ∀ a : Fin 2, win8_2.index t a * S10000x32.size a ≤ (i a).val ∧ (i a).val < win8_2.index t a * S10000x32.size a + S10000x32.size a := by
  show i ∈ ((View.whole main_v98).slice (win8_2.rect t)).set ↔ _
  rw [View.set_slice_whole, Rect.mem_set_unit]
  exact Iff.rfl

/-- Row `r` of the result lies in the block of point `r / 10000`: the ten blocks cover the array. -/
theorem cover8 (i : S100000x32.Idx) : ∃ t : Fin cfg8.N, (cfg8.win 2).flush t = true ∧ i ∈ ((cfg8.win 2).blk t).view.set := by
  have hi0 : (i 0).val < 100000 := (i 0).isLt
  have hi1 : (i 1).val < 32 := (i 1).isLt
  obtain ⟨t, ht⟩ : ∃ t : Fin cfg8.N, t.val = (i 0).val / 10000 :=
    ⟨⟨(i 0).val / 10000, by rw [show cfg8.N = 10 from N_8]; omega⟩, rfl⟩
  obtain ⟨-, -, -, -, i20, i21⟩ := idx8 t
  refine ⟨t, flush8_2 t, ?_⟩
  rw [mem_blk8]
  intro a
  match a with
  | ⟨0, _⟩ => show win8_2.index t (0 : Fin 2) * 10000 ≤ (i 0).val ∧ (i 0).val < win8_2.index t (0 : Fin 2) * 10000 + 10000; omega
  | ⟨1, _⟩ => show win8_2.index t (1 : Fin 2) * 32 ≤ (i 1).val ∧ (i 1).val < win8_2.index t (1 : Fin 2) * 32 + 32; omega

/-- After region 8 the result array is the product of the second layer's activations with the second head's weights. -/
theorem final8 (V : (c : Dev nD) → (b : Ref sig .tc) → Buf (Elt Ideal) ((c : Thread nD τ).loc b)) (c : Dev nD) :
    (dat8 (F := Ideal) V c).arrAt 2 cfg8.N = Cert.Gcn.mm32 (V c main_v81) (V c main_arg12) :=
  (dat8 (F := Ideal) V c).arrAt_eq_of_cover 2 (Cert.Gcn.mm32 (V c main_v81) (V c main_arg12)) (fun t _ => flushed8_eq V c t) cover8

end Cert.KernelIdeal.RegionMM
end
-- ==== Proof.RegionRow.lean ====
/-
  The row stages of the kernel, region by region: adding a bias row to every row of a matrix, and the
  column-wise normalisation followed by the cut-off at zero.  Each such region walks over ten blocks of
  10000 rows; at every block the body computes, entry by entry, the stage's function of the block of the big
  operand and of the resident one-row operands.  Block t of the output is therefore block t of the stage's
  function of the whole arrays, and since the ten blocks cover the 100000 rows, the output array ends holding
  that function.
-/
import proofs.«103011_j65481071395098_1_alg».proof.Proof.Gen.KernelIdeal.Frame
import proofs.«103011_j65481071395098_1_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.RegionRow

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access. -/
theorem zero_offsets : (![0, 0] : Fin 2 → Nat) = fun _ => 0 := funext fun a => by fin_cases a <;> rfl

/-! ## Region 1: the bias row added to the first product -/

/-- The bias body of region 1 at row p, column q: the entry plus the bias row's entry of that column. -/
theorem bias_at1 (x0 : Vec Ideal S10000x64 .f32) (x1 : Vec Ideal S1x64 .f32) (p : Fin 10000) (q : Fin 64) :
    k1_pay1 x0 x1 (ix2 p q) = x0 (ix2 p q) + x1 (ix2 0 q) := by
  unfold k1_pay1
  rw [addf_apply, shapeCast_self, shapeCast_self, broadcastTo_1b_ab_apply]

/-- A block of rows of the bias stage: when the body's big operand is the rows e j of the array A and its
    small operand is the row B, the body's result is the rows e j of A with B added to every row. -/
theorem bias_block1 (A : Vec Ideal S100000x64 .f32) (B x1 : Vec Ideal S1x64 .f32) (x0 : Vec Ideal S10000x64 .f32)
    (e : S10000x64.Idx → S100000x64.Idx) (h0 : ∀ j, x0 j = A (e j)) (h1 : ∀ k, x1 k = B k)
    (he : ∀ j, ((e j) 1).val = (j 1).val) :
    k1_pay1 x0 x1 = fun j => Cert.Gcn.addRow64 A B (e j) := by
  funext j
  obtain ⟨p, q, rfl⟩ : ∃ (p : Fin 10000) (q : Fin 64), j = ix2 p q := ⟨j 0, j 1, eq_ix2 j⟩
  rw [bias_at1, h0, h1]
  show A (e (ix2 p q)) + B (ix2 0 q) = A (e (ix2 p q)) + B (ix2 0 ((e (ix2 p q)) 1))
  have hq : (e (ix2 p q)) 1 = q := Fin.ext (he (ix2 p q))
  rw [hq]

/-- The printed index maps over the ten points: the big operand's block moves with the output's, down the rows;
    the bias row stays. -/
theorem idx_facts1 : ∀ t : Fin cfg1.N, win1_0.index t (0 : Fin 2) = win1_2.index t (0 : Fin 2)
    ∧ win1_0.index t (1 : Fin 2) = win1_2.index t (1 : Fin 2)
    ∧ win1_1.index t (0 : Fin 2) = 0 ∧ win1_1.index t (1 : Fin 2) = 0
    ∧ win1_2.index t (0 : Fin 2) ≤ 9 ∧ win1_2.index t (1 : Fin 2) = 0 :=
  (by decide +kernel : ∀ t : Fin grid1.N, _)

/-- Every block of rows is some point's. -/
theorem idx_onto1 : ∀ q0 : Fin 10, ∃ t : Fin cfg1.N, win1_2.index t = ![q0.val, 0] :=
  (by decide +kernel : ∀ q0 : Fin 10, ∃ t : Fin grid1.N, win1_2.index t = ![q0.val, 0])

/-- What point t writes back is block t of the bias stage of the arrays the region finds. -/
theorem flushed1_eq (c : Dev nD) (t : Fin cfg1.N) :
    (dat1 V c).flushed 2 t
      = ((cfg1.win 2).blk t).view.read (Elt Ideal) (Cert.Gcn.addRow64 (V c main_v45) (V c main_v46)) := by
  show (cfg1.win 2).cut (grid1.coords t) ((dat1 V c).after 2 t) = _
  rw [after1_2]
  unfold out1_2
  rw [View.canon_unit_zero zero_offsets]
  simp only [View.ld_unit_zero (S := S10000x64) zero_offsets, View.ld_unit_zero (S := S1x64) zero_offsets]
  obtain ⟨e0, e1, e2, e3, e4, e5⟩ := idx_facts1 t
  refine bias_block1 (V c main_v45) (V c main_v46) (iblk1 V c 1 t) (iblk1 V c 0 t)
    (fun j => ((cfg1.win 2).blk t).view.emb j) (fun j => ?_) (fun k => ?_) (fun j => ?_)
  · show V c main_v45 (((cfg1.win 0).blk t).view.emb j) = V c main_v45 (((cfg1.win 2).blk t).view.emb j)
    refine congrArg _ (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  · show V c main_v46 (((cfg1.win 1).blk t).view.emb k) = V c main_v46 k
    refine congrArg _ (funext fun a => Fin.ext ?_)
    match a with
    | ⟨0, _⟩ => show win1_1.index t (0 : Fin 2) * 1 + 1 * (k 0).val = (k 0).val; omega
    | ⟨1, _⟩ => show win1_1.index t (1 : Fin 2) * 64 + 1 * (k 1).val = (k 1).val; omega
  · show win1_2.index t (1 : Fin 2) * 64 + 1 * (j 1).val = (j 1).val; omega

/-- An index of the array is in point t's block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v47).slice (win1_2.rect t)).set ↔ _
  rw [View.set_slice_whole, Rect.mem_set_unit]
  exact Iff.rfl

/-- The ten blocks cover the array: row r lies in the block of point r / 10000. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array of region 1 after its run: the bias row added to every row of the array it was given. -/
theorem final1 (c : Dev nD) :
    (dat1 V c).arrAt 2 cfg1.N = Cert.Gcn.addRow64 (V c main_v45) (V c main_v46) :=
  (dat1 V c).arrAt_eq_of_cover 2 (Cert.Gcn.addRow64 (V c main_v45) (V c main_v46))
    (fun t _ => flushed1_eq V c t) cover1

/-! ## Region 4: the bias row added to the second product -/

/-- The bias body of region 4 at row p, column q: the entry plus the bias row's entry of that column. -/
theorem bias_at4 (x0 : Vec Ideal S10000x64 .f32) (x1 : Vec Ideal S1x64 .f32) (p : Fin 10000) (q : Fin 64) :
    k4_pay1 x0 x1 (ix2 p q) = x0 (ix2 p q) + x1 (ix2 0 q) := by
  unfold k4_pay1
  rw [addf_apply, shapeCast_self, shapeCast_self, broadcastTo_1b_ab_apply]

/-- A block of rows of the bias stage: when the body's big operand is the rows e j of the array A and its
    small operand is the row B, the body's result is the rows e j of A with B added to every row. -/
theorem bias_block4 (A : Vec Ideal S100000x64 .f32) (B x1 : Vec Ideal S1x64 .f32) (x0 : Vec Ideal S10000x64 .f32)
    (e : S10000x64.Idx → S100000x64.Idx) (h0 : ∀ j, x0 j = A (e j)) (h1 : ∀ k, x1 k = B k)
    (he : ∀ j, ((e j) 1).val = (j 1).val) :
    k4_pay1 x0 x1 = fun j => Cert.Gcn.addRow64 A B (e j) := by
  funext j
  obtain ⟨p, q, rfl⟩ : ∃ (p : Fin 10000) (q : Fin 64), j = ix2 p q := ⟨j 0, j 1, eq_ix2 j⟩
  rw [bias_at4, h0, h1]
  show A (e (ix2 p q)) + B (ix2 0 q) = A (e (ix2 p q)) + B (ix2 0 ((e (ix2 p q)) 1))
  have hq : (e (ix2 p q)) 1 = q := Fin.ext (he (ix2 p q))
  rw [hq]

/-- The printed index maps over the ten points: the big operand's block moves with the output's, down the rows;
    the bias row stays. -/
theorem idx_facts4 : ∀ t : Fin cfg4.N, win4_0.index t (0 : Fin 2) = win4_2.index t (0 : Fin 2)
    ∧ win4_0.index t (1 : Fin 2) = win4_2.index t (1 : Fin 2)
    ∧ win4_1.index t (0 : Fin 2) = 0 ∧ win4_1.index t (1 : Fin 2) = 0
    ∧ win4_2.index t (0 : Fin 2) ≤ 9 ∧ win4_2.index t (1 : Fin 2) = 0 :=
  (by decide +kernel : ∀ t : Fin grid4.N, _)

/-- Every block of rows is some point's. -/
theorem idx_onto4 : ∀ q0 : Fin 10, ∃ t : Fin cfg4.N, win4_2.index t = ![q0.val, 0] :=
  (by decide +kernel : ∀ q0 : Fin 10, ∃ t : Fin grid4.N, win4_2.index t = ![q0.val, 0])

/-- What point t writes back is block t of the bias stage of the arrays the region finds. -/
theorem flushed4_eq (c : Dev nD) (t : Fin cfg4.N) :
    (dat4 V c).flushed 2 t
      = ((cfg4.win 2).blk t).view.read (Elt Ideal) (Cert.Gcn.addRow64 (V c main_v70) (V c main_v71)) := by
  show (cfg4.win 2).cut (grid4.coords t) ((dat4 V c).after 2 t) = _
  rw [after4_2]
  unfold out4_2
  rw [View.canon_unit_zero zero_offsets]
  simp only [View.ld_unit_zero (S := S10000x64) zero_offsets, View.ld_unit_zero (S := S1x64) zero_offsets]
  obtain ⟨e0, e1, e2, e3, e4, e5⟩ := idx_facts4 t
  refine bias_block4 (V c main_v70) (V c main_v71) (iblk4 V c 1 t) (iblk4 V c 0 t)
    (fun j => ((cfg4.win 2).blk t).view.emb j) (fun j => ?_) (fun k => ?_) (fun j => ?_)
  · show V c main_v70 (((cfg4.win 0).blk t).view.emb j) = V c main_v70 (((cfg4.win 2).blk t).view.emb j)
    refine congrArg _ (funext fun a => Fin.ext ?_)
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 64 + 1 * (j 1).val = win4_2.index t (1 : Fin 2) * 64 + 1 * (j 1).val; omega
  · show V c main_v71 (((cfg4.win 1).blk t).view.emb k) = V c main_v71 k
    refine congrArg _ (funext fun a => Fin.ext ?_)
    match a with
    | ⟨0, _⟩ => show win4_1.index t (0 : Fin 2) * 1 + 1 * (k 0).val = (k 0).val; omega
    | ⟨1, _⟩ => show win4_1.index t (1 : Fin 2) * 64 + 1 * (k 1).val = (k 1).val; omega
  · show win4_2.index t (1 : Fin 2) * 64 + 1 * (j 1).val = (j 1).val; omega

/-- An index of the array is in point t's block iff each coordinate is in the block's range on its axis. -/
theorem mem_blk4 (t : Fin cfg4.N) (i : S100000x64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v72).slice (win4_2.rect t)).set ↔ _
  rw [View.set_slice_whole, Rect.mem_set_unit]
  exact Iff.rfl

/-- The ten blocks cover the array: row r lies in the block of point r / 10000. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := idx_onto4 ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- The output array of region 4 after its run: the bias row added to every row of the array it was given. -/
theorem final4 (c : Dev nD) :
    (dat4 V c).arrAt 2 cfg4.N = Cert.Gcn.addRow64 (V c main_v70) (V c main_v71) :=
  (dat4 V c).arrAt_eq_of_cover 2 (Cert.Gcn.addRow64 (V c main_v70) (V c main_v71))
    (fun t _ => flushed4_eq V c t) cover4

/-! ## Region 7: the bias row added to the first 32-column product -/

/-- The bias body of region 7 at row p, column q: the entry plus the bias row's entry of that column. -/
theorem bias_at7 (x0 : Vec Ideal S10000x32 .f32) (x1 : Vec Ideal S1x32 .f32) (p : Fin 10000) (q : Fin 32) :
    k7_pay1 x0 x1 (ix2 p q) = x0 (ix2 p q) + x1 (ix2 0 q) := by
  unfold k7_pay1
  rw [addf_apply, shapeCast_self, shapeCast_self, broadcastTo_1b_ab_apply]

/-- A block of rows of the bias stage: when the body's big operand is the rows e j of the array A and its
    small operand is the row B, the body's result is the rows e j of A with B added to every row. -/
theorem bias_block7 (A : Vec Ideal S100000x32 .f32) (B x1 : Vec Ideal S1x32 .f32) (x0 : Vec Ideal S10000x32 .f32)
    (e : S10000x32.Idx → S100000x32.Idx) (h0 : ∀ j, x0 j = A (e j)) (h1 : ∀ k, x1 k = B k)
    (he : ∀ j, ((e j) 1).val = (j 1).val) :
    k7_pay1 x0 x1 = fun j => Cert.Gcn.addRow32 A B (e j) := by
  funext j
  obtain ⟨p, q, rfl⟩ : ∃ (p : Fin 10000) (q : Fin 32), j = ix2 p q := ⟨j 0, j 1, eq_ix2 j⟩
  rw [bias_at7, h0, h1]
  show A (e (ix2 p q)) + B (ix2 0 q) = A (e (ix2 p q)) + B (ix2 0 ((e (ix2 p q)) 1))
  have hq : (e (ix2 p q)) 1 = q := Fin.ext (he (ix2 p q))
  rw [hq]

/-- The printed index maps over the ten points: the big operand's block moves with the output's, down the rows;
    the bias row stays. -/
theorem idx_facts7 : ∀ t : Fin cfg7.N, win7_0.index t (0 : Fin 2) = win7_2.index t (0 : Fin 2)
    ∧ win7_0.index t (1 : Fin 2) = win7_2.index t (1 : Fin 2)
    ∧ win7_1.index t (0 : Fin 2) = 0 ∧ win7_1.index t (1 : Fin 2) = 0
    ∧ win7_2.index t (0 : Fin 2) ≤ 9 ∧ win7_2.index t (1 : Fin 2) = 0 :=
  (by decide +kernel : ∀ t : Fin grid7.N, _)

/-- Every block of rows is some point's. -/
theorem idx_onto7 : ∀ q0 : Fin 10, ∃ t : Fin cfg7.N, win7_2.index t = ![q0.val, 0] :=
  (by decide +kernel : ∀ q0 : Fin 10, ∃ t : Fin grid7.N, win7_2.index t = ![q0.val, 0])

/-- What point t writes back is block t of the bias stage of the arrays the region finds. -/
theorem flushed7_eq (c : Dev nD) (t : Fin cfg7.N) :
    (dat7 V c).flushed 2 t
      = ((cfg7.win 2).blk t).view.read (Elt Ideal) (Cert.Gcn.addRow32 (V c main_v95) (V c main_v96)) := by
  show (cfg7.win 2).cut (grid7.coords t) ((dat7 V c).after 2 t) = _
  rw [after7_2]
  unfold out7_2
  rw [View.canon_unit_zero zero_offsets]
  simp only [View.ld_unit_zero (S := S10000x32) zero_offsets, View.ld_unit_zero (S := S1x32) zero_offsets]
  obtain ⟨e0, e1, e2, e3, e4, e5⟩ := idx_facts7 t
  refine bias_block7 (V c main_v95) (V c main_v96) (iblk7 V c 1 t) (iblk7 V c 0 t)
    (fun j => ((cfg7.win 2).blk t).view.emb j) (fun j => ?_) (fun k => ?_) (fun j => ?_)
  · show V c main_v95 (((cfg7.win 0).blk t).view.emb j) = V c main_v95 (((cfg7.win 2).blk t).view.emb j)
    refine congrArg _ (funext fun a => Fin.ext ?_)
    match a with
    | ⟨0, _⟩ => show win7_0.index t (0 : Fin 2) * 10000 + 1 * (j 0).val = win7_2.index t (0 : Fin 2) * 10000 + 1 * (j 0).val; omega
    | ⟨1, _⟩ => show win7_0.index t (1 : Fin 2) * 32 + 1 * (j 1).val = win7_2.index t (1 : Fin 2) * 32 + 1 * (j 1).val; omega
  · show V c main_v96 (((cfg7.win 1).blk t).view.emb k) = V c main_v96 k
    refine congrArg _ (funext fun a => Fin.ext ?_)
    match a with
    | ⟨0, _⟩ => show win7_1.index t (0 : Fin 2) * 1 + 1 * (k 0).val = (k 0).val; omega
    | ⟨1, _⟩ => show win7_1.index t (1 : Fin 2) * 32 + 1 * (k 1).val = (k 1).val; omega
  · show win7_2.index t (1 : Fin 2) * 32 + 1 * (j 1).val = (j 1).val; omega

/-- An index of the array is in point t's block iff each coordinate is in the block's range on its axis. -/
theorem mem_blk7 (t : Fin cfg7.N) (i : S100000x32.Idx) :
    i ∈ ((cfg7.win 2).blk t).view.set ↔ ∀ a : Fin 2, win7_2.index t a * S10000x32.size a ≤ (i a).val
      ∧ (i a).val < win7_2.index t a * S10000x32.size a + S10000x32.size a := by
  show i ∈ ((View.whole main_v97).slice (win7_2.rect t)).set ↔ _
  rw [View.set_slice_whole, Rect.mem_set_unit]
  exact Iff.rfl

/-- The ten blocks cover the array: row r lies in the block of point r / 10000. -/
theorem cover7 (i : S100000x32.Idx) :
    ∃ t : Fin cfg7.N, (cfg7.win 2).flush t = true ∧ i ∈ ((cfg7.win 2).blk t).view.set := by
  have hi0 : (i 0).val < 100000 := (i 0).isLt
  have hi1 : (i 1).val < 32 := (i 1).isLt
  obtain ⟨t, ht⟩ := idx_onto7 ⟨(i 0).val / 10000, by omega⟩
  have q0 : win7_2.index t (0 : Fin 2) = (i 0).val / 10000 := congrFun ht 0
  have q1 : win7_2.index t (1 : Fin 2) = 0 := congrFun ht 1
  refine ⟨t, flush7_2 t, ?_⟩
  rw [mem_blk7]
  intro a
  match a with
  | ⟨0, _⟩ => show win7_2.index t (0 : Fin 2) * 10000 ≤ (i 0).val ∧ (i 0).val < win7_2.index t (0 : Fin 2) * 10000 + 10000; omega
  | ⟨1, _⟩ => show win7_2.index t (1 : Fin 2) * 32 ≤ (i 1).val ∧ (i 1).val < win7_2.index t (1 : Fin 2) * 32 + 32; omega

/-- The output array of region 7 after its run: the bias row added to every row of the array it was given. -/
theorem final7 (c : Dev nD) :
    (dat7 V c).arrAt 2 cfg7.N = Cert.Gcn.addRow32 (V c main_v95) (V c main_v96) :=
  (dat7 V c).arrAt_eq_of_cover 2 (Cert.Gcn.addRow32 (V c main_v95) (V c main_v96))
    (fun t _ => flushed7_eq V c t) cover7

/-! ## Region 9: the bias row added to the second 32-column product -/

/-- The bias body of region 9 at row p, column q: the entry plus the bias row's entry of that column. -/
theorem bias_at9 (x0 : Vec Ideal S10000x32 .f32) (x1 : Vec Ideal S1x32 .f32) (p : Fin 10000) (q : Fin 32) :
    k9_pay1 x0 x1 (ix2 p q) = x0 (ix2 p q) + x1 (ix2 0 q) := by
  unfold k9_pay1
  rw [addf_apply, shapeCast_self, shapeCast_self, broadcastTo_1b_ab_apply]

/-- A block of rows of the bias stage: when the body's big operand is the rows e j of the array A and its
    small operand is the row B, the body's result is the rows e j of A with B added to every row. -/
theorem bias_block9 (A : Vec Ideal S100000x32 .f32) (B x1 : Vec Ideal S1x32 .f32) (x0 : Vec Ideal S10000x32 .f32)
    (e : S10000x32.Idx → S100000x32.Idx) (h0 : ∀ j, x0 j = A (e j)) (h1 : ∀ k, x1 k = B k)
    (he : ∀ j, ((e j) 1).val = (j 1).val) :
    k9_pay1 x0 x1 = fun j => Cert.Gcn.addRow32 A B (e j) := by
  funext j
  obtain ⟨p, q, rfl⟩ : ∃ (p : Fin 10000) (q : Fin 32), j = ix2 p q := ⟨j 0, j 1, eq_ix2 j⟩
  rw [bias_at9, h0, h1]
  show A (e (ix2 p q)) + B (ix2 0 q) = A (e (ix2 p q)) + B (ix2 0 ((e (ix2 p q)) 1))
  have hq : (e (ix2 p q)) 1 = q := Fin.ext (he (ix2 p q))
  rw [hq]

/-- The printed index maps over the ten points: the big operand's block moves with the output's, down the rows;
    the bias row stays. -/
theorem idx_facts9 : ∀ t : Fin cfg9.N, win9_0.index t (0 : Fin 2) = win9_2.index t (0 : Fin 2)
    ∧ win9_0.index t (1 : Fin 2) = win9_2.index t (1 : Fin 2)
    ∧ win9_1.index t (0 : Fin 2) = 0 ∧ win9_1.index t (1 : Fin 2) = 0
    ∧ win9_2.index t (0 : Fin 2) ≤ 9 ∧ win9_2.index t (1 : Fin 2) = 0 :=
  (by decide +kernel : ∀ t : Fin grid9.N, _)

/-- Every block of rows is some point's. -/
theorem idx_onto9 : ∀ q0 : Fin 10, ∃ t : Fin cfg9.N, win9_2.index t = ![q0.val, 0] :=
  (by decide +kernel : ∀ q0 : Fin 10, ∃ t : Fin grid9.N, win9_2.index t = ![q0.val, 0])

/-- What point t writes back is block t of the bias stage of the arrays the region finds. -/
theorem flushed9_eq (c : Dev nD) (t : Fin cfg9.N) :
    (dat9 V c).flushed 2 t
      = ((cfg9.win 2).blk t).view.read (Elt Ideal) (Cert.Gcn.addRow32 (V c main_v111) (V c main_v112)) := by
  show (cfg9.win 2).cut (grid9.coords t) ((dat9 V c).after 2 t) = _
  rw [after9_2]
  unfold out9_2
  rw [View.canon_unit_zero zero_offsets]
  simp only [View.ld_unit_zero (S := S10000x32) zero_offsets, View.ld_unit_zero (S := S1x32) zero_offsets]
  obtain ⟨e0, e1, e2, e3, e4, e5⟩ := idx_facts9 t
  refine bias_block9 (V c main_v111) (V c main_v112) (iblk9 V c 1 t) (iblk9 V c 0 t)
    (fun j => ((cfg9.win 2).blk t).view.emb j) (fun j => ?_) (fun k => ?_) (fun j => ?_)
  · show V c main_v111 (((cfg9.win 0).blk t).view.emb j) = V c main_v111 (((cfg9.win 2).blk t).view.emb j)
    refine congrArg _ (funext fun a => Fin.ext ?_)
    match a with
    | ⟨0, _⟩ => show win9_0.index t (0 : Fin 2) * 10000 + 1 * (j 0).val = win9_2.index t (0 : Fin 2) * 10000 + 1 * (j 0).val; omega
    | ⟨1, _⟩ => show win9_0.index t (1 : Fin 2) * 32 + 1 * (j 1).val = win9_2.index t (1 : Fin 2) * 32 + 1 * (j 1).val; omega
  · show V c main_v112 (((cfg9.win 1).blk t).view.emb k) = V c main_v112 k
    refine congrArg _ (funext fun a => Fin.ext ?_)
    match a with
    | ⟨0, _⟩ => show win9_1.index t (0 : Fin 2) * 1 + 1 * (k 0).val = (k 0).val; omega
    | ⟨1, _⟩ => show win9_1.index t (1 : Fin 2) * 32 + 1 * (k 1).val = (k 1).val; omega
  · show win9_2.index t (1 : Fin 2) * 32 + 1 * (j 1).val = (j 1).val; omega

/-- An index of the array is in point t's block iff each coordinate is in the block's range on its axis. -/
theorem mem_blk9 (t : Fin cfg9.N) (i : S100000x32.Idx) :
    i ∈ ((cfg9.win 2).blk t).view.set ↔ ∀ a : Fin 2, win9_2.index t a * S10000x32.size a ≤ (i a).val
      ∧ (i a).val < win9_2.index t a * S10000x32.size a + S10000x32.size a := by
  show i ∈ ((View.whole main_v113).slice (win9_2.rect t)).set ↔ _
  rw [View.set_slice_whole, Rect.mem_set_unit]
  exact Iff.rfl

/-- The ten blocks cover the array: row r lies in the block of point r / 10000. -/
theorem cover9 (i : S100000x32.Idx) :
    ∃ t : Fin cfg9.N, (cfg9.win 2).flush t = true ∧ i ∈ ((cfg9.win 2).blk t).view.set := by
  have hi0 : (i 0).val < 100000 := (i 0).isLt
  have hi1 : (i 1).val < 32 := (i 1).isLt
  obtain ⟨t, ht⟩ := idx_onto9 ⟨(i 0).val / 10000, by omega⟩
  have q0 : win9_2.index t (0 : Fin 2) = (i 0).val / 10000 := congrFun ht 0
  have q1 : win9_2.index t (1 : Fin 2) = 0 := congrFun ht 1
  refine ⟨t, flush9_2 t, ?_⟩
  rw [mem_blk9]
  intro a
  match a with
  | ⟨0, _⟩ => show win9_2.index t (0 : Fin 2) * 10000 ≤ (i 0).val ∧ (i 0).val < win9_2.index t (0 : Fin 2) * 10000 + 10000; omega
  | ⟨1, _⟩ => show win9_2.index t (1 : Fin 2) * 32 ≤ (i 1).val ∧ (i 1).val < win9_2.index t (1 : Fin 2) * 32 + 32; omega

/-- The output array of region 9 after its run: the bias row added to every row of the array it was given. -/
theorem final9 (c : Dev nD) :
    (dat9 V c).arrAt 2 cfg9.N = Cert.Gcn.addRow32 (V c main_v111) (V c main_v112) :=
  (dat9 V c).arrAt_eq_of_cover 2 (Cert.Gcn.addRow32 (V c main_v111) (V c main_v112))
    (fun t _ => flushed9_eq V c t) cover9

/-! ## Region 2: the first normalisation and cut-off at zero -/

/-- The normalising body of region 2 at row p, column q.  Its operands are, in this order, the block of the
    matrix and the one-row blocks of the variance, the mean, the scale and the shift. -/
theorem normRelu_at2 (x0 : Vec Ideal S10000x64 .f32) (xv xm xg xb : Vec Ideal S1x64 .f32) (p : Fin 10000) (q : Fin 64) :
    k2_pay1 x0 xv xm xg xb (ix2 p q)
      = max ((x0 (ix2 p q) - xm (ix2 0 q)) * Ideal.rsqrt (xv (ix2 0 q) + Ideal.ofBits .f32 0x3727C5AC#32)
          * xg (ix2 0 q) + xb (ix2 0 q)) (Ideal.ofBits .f32 0x00000000#32) := by
  unfold k2_pay1
  rw [maximumf_apply, addf_apply, mulf_apply, mulf_apply, subf_apply]
  simp only [shapeCast_self]
  rw [broadcastTo_1b_ab_apply, broadcastTo_1b_ab_apply, broadcastTo_1b_ab_apply, broadcastTo_1b_ab_apply]
  rfl

/-- A block of rows of the normalising stage: when the body's big operand is the rows e j of the array A and its
    small operands are the rows of the statistics, the scale and the shift, the body's result is the rows e j of
    the normalised and cut-off array. -/
theorem normRelu_block2 (A : Vec Ideal S100000x64 .f32) (Mn Vr G Bt : Vec Ideal S1x64 .f32)
    (x0 : Vec Ideal S10000x64 .f32) (xv xm xg xb : Vec Ideal S1x64 .f32)
    (e : S10000x64.Idx → S100000x64.Idx) (h0 : ∀ j, x0 j = A (e j))
    (hv : ∀ k, xv k = Vr k) (hm : ∀ k, xm k = Mn k) (hg : ∀ k, xg k = G k) (hb : ∀ k, xb k = Bt k)
    (he : ∀ j, ((e j) 1).val = (j 1).val) :
    k2_pay1 x0 xv xm xg xb = fun j => Cert.Gcn.normRelu A Mn Vr G Bt (e j) := by
  funext j
  obtain ⟨p, q, rfl⟩ : ∃ (p : Fin 10000) (q : Fin 64), j = ix2 p q := ⟨j 0, j 1, eq_ix2 j⟩
  obtain ⟨r, s, hrs⟩ : ∃ (r : Fin 100000) (s : Fin 64), e (ix2 p q) = ix2 r s :=
    ⟨(e (ix2 p q)) 0, (e (ix2 p q)) 1, eq_ix2 _⟩
  have hs : s = q := Fin.ext (by have h1 := he (ix2 p q); rw [hrs] at h1; exact h1)
  subst hs
  rw [normRelu_at2, h0, hv, hm, hg, hb]
  show _ = Cert.Gcn.normRelu A Mn Vr G Bt (e (ix2 p s))
  rw [hrs, Cert.Gcn.normRelu_apply]

/-- The printed index maps over the ten points: the matrix's block moves with the output's, down the rows; the
    four one-row operands stay. -/
theorem idx_facts2 : ∀ t : Fin cfg2.N, win2_0.index t (0 : Fin 2) = win2_5.index t (0 : Fin 2)
    ∧ win2_0.index t (1 : Fin 2) = win2_5.index t (1 : Fin 2)
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 9 ∧ win2_5.index t (1 : Fin 2) = 0 :=
  (by decide +kernel : ∀ t : Fin grid2.N, _)

/-- Every block of rows is some point's. -/
theorem idx_onto2 : ∀ q0 : Fin 10, ∃ t : Fin cfg2.N, win2_5.index t = ![q0.val, 0] :=
  (by decide +kernel : ∀ q0 : Fin 10, ∃ t : Fin grid2.N, win2_5.index t = ![q0.val, 0])

/-- What point t writes back is block t of the normalising stage of the arrays the region finds. -/
theorem flushed2_eq (c : Dev nD) (t : Fin cfg2.N) :
    (dat2 V c).flushed 5 t
      = ((cfg2.win 5).blk t).view.read (Elt Ideal)
          (Cert.Gcn.normRelu (V c main_v47) (V c main_v52) (V c main_v53) (V c main_v54) (V c main_v55)) := by
  show (cfg2.win 5).cut (grid2.coords t) ((dat2 V c).after 5 t) = _
  rw [after2_5]
  unfold out2_5
  rw [View.canon_unit_zero zero_offsets]
  simp only [View.ld_unit_zero (S := S10000x64) zero_offsets, View.ld_unit_zero (S := S1x64) zero_offsets]
  obtain ⟨e0, e1, m0, m1, v0, v1, g0, g1, b0, b1, o0, o1⟩ := idx_facts2 t
  refine normRelu_block2 (V c main_v47) (V c main_v52) (V c main_v53) (V c main_v54) (V c main_v55)
    (iblk2 V c 0 t) (iblk2 V c 2 t) (iblk2 V c 1 t) (iblk2 V c 3 t) (iblk2 V c 4 t)
    (fun j => ((cfg2.win 5).blk t).view.emb j) (fun j => ?_) (fun k => ?_) (fun k => ?_) (fun k => ?_) (fun k => ?_) (fun j => ?_)
  · show V c main_v47 (((cfg2.win 0).blk t).view.emb j) = V c main_v47 (((cfg2.win 5).blk t).view.emb j)
    refine congrArg _ (funext fun a => Fin.ext ?_)
    match a with
    | ⟨0, _⟩ => show win2_0.index t (0 : Fin 2) * 10000 + 1 * (j 0).val = win2_5.index t (0 : Fin 2) * 10000 + 1 * (j 0).val; omega
    | ⟨1, _⟩ => show win2_0.index t (1 : Fin 2) * 64 + 1 * (j 1).val = win2_5.index t (1 : Fin 2) * 64 + 1 * (j 1).val; omega
  · show V c main_v53 (((cfg2.win 2).blk t).view.emb k) = V c main_v53 k
    refine congrArg _ (funext fun a => Fin.ext ?_)
    match a with
    | ⟨0, _⟩ => show win2_2.index t (0 : Fin 2) * 1 + 1 * (k 0).val = (k 0).val; omega
    | ⟨1, _⟩ => show win2_2.index t (1 : Fin 2) * 64 + 1 * (k 1).val = (k 1).val; omega
  · show V c main_v52 (((cfg2.win 1).blk t).view.emb k) = V c main_v52 k
    refine congrArg _ (funext fun a => Fin.ext ?_)
    match a with
    | ⟨0, _⟩ => show win2_1.index t (0 : Fin 2) * 1 + 1 * (k 0).val = (k 0).val; omega
    | ⟨1, _⟩ => show win2_1.index t (1 : Fin 2) * 64 + 1 * (k 1).val = (k 1).val; omega
  · show V c main_v54 (((cfg2.win 3).blk t).view.emb k) = V c main_v54 k
    refine congrArg _ (funext fun a => Fin.ext ?_)
    match a with
    | ⟨0, _⟩ => show win2_3.index t (0 : Fin 2) * 1 + 1 * (k 0).val = (k 0).val; omega
    | ⟨1, _⟩ => show win2_3.index t (1 : Fin 2) * 64 + 1 * (k 1).val = (k 1).val; omega
  · show V c main_v55 (((cfg2.win 4).blk t).view.emb k) = V c main_v55 k
    refine congrArg _ (funext fun a => Fin.ext ?_)
    match a with
    | ⟨0, _⟩ => show win2_4.index t (0 : Fin 2) * 1 + 1 * (k 0).val = (k 0).val; omega
    | ⟨1, _⟩ => show win2_4.index t (1 : Fin 2) * 64 + 1 * (k 1).val = (k 1).val; omega
  · show win2_5.index t (1 : Fin 2) * 64 + 1 * (j 1).val = (j 1).val; omega

/-- An index of the array is in point t's block iff each coordinate is in the block's range on its axis. -/
theorem mem_blk2 (t : Fin cfg2.N) (i : S100000x64.Idx) :
    i ∈ ((cfg2.win 5).blk t).view.set ↔ ∀ a : Fin 2, win2_5.index t a * S10000x64.size a ≤ (i a).val
      ∧ (i a).val < win2_5.index t a * S10000x64.size a + S10000x64.size a := by
  show i ∈ ((View.whole main_v56).slice (win2_5.rect t)).set ↔ _
  rw [View.set_slice_whole, Rect.mem_set_unit]
  exact Iff.rfl

/-- The ten blocks cover the array: row r lies in the block of point r / 10000. -/
theorem cover2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ := idx_onto2 ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- The output array of region 2 after its run: every column of the array it was given normalised with the
    statistics, scaled, shifted and cut off below at zero. -/
theorem final2 (c : Dev nD) :
    (dat2 V c).arrAt 5 cfg2.N
      = Cert.Gcn.normRelu (V c main_v47) (V c main_v52) (V c main_v53) (V c main_v54) (V c main_v55) :=
  (dat2 V c).arrAt_eq_of_cover 5 (Cert.Gcn.normRelu (V c main_v47) (V c main_v52) (V c main_v53) (V c main_v54) (V c main_v55))
    (fun t _ => flushed2_eq V c t) cover2

/-! ## Region 5: the second normalisation and cut-off at zero -/

/-- The normalising body of region 5 at row p, column q.  Its operands are, in this order, the block of the
    matrix and the one-row blocks of the variance, the mean, the scale and the shift. -/
theorem normRelu_at5 (x0 : Vec Ideal S10000x64 .f32) (xv xm xg xb : Vec Ideal S1x64 .f32) (p : Fin 10000) (q : Fin 64) :
    k5_pay1 x0 xv xm xg xb (ix2 p q)
      = max ((x0 (ix2 p q) - xm (ix2 0 q)) * Ideal.rsqrt (xv (ix2 0 q) + Ideal.ofBits .f32 0x3727C5AC#32)
          * xg (ix2 0 q) + xb (ix2 0 q)) (Ideal.ofBits .f32 0x00000000#32) := by
  unfold k5_pay1
  rw [maximumf_apply, addf_apply, mulf_apply, mulf_apply, subf_apply]
  simp only [shapeCast_self]
  rw [broadcastTo_1b_ab_apply, broadcastTo_1b_ab_apply, broadcastTo_1b_ab_apply, broadcastTo_1b_ab_apply]
  rfl

/-- A block of rows of the normalising stage: when the body's big operand is the rows e j of the array A and its
    small operands are the rows of the statistics, the scale and the shift, the body's result is the rows e j of
    the normalised and cut-off array. -/
theorem normRelu_block5 (A : Vec Ideal S100000x64 .f32) (Mn Vr G Bt : Vec Ideal S1x64 .f32)
    (x0 : Vec Ideal S10000x64 .f32) (xv xm xg xb : Vec Ideal S1x64 .f32)
    (e : S10000x64.Idx → S100000x64.Idx) (h0 : ∀ j, x0 j = A (e j))
    (hv : ∀ k, xv k = Vr k) (hm : ∀ k, xm k = Mn k) (hg : ∀ k, xg k = G k) (hb : ∀ k, xb k = Bt k)
    (he : ∀ j, ((e j) 1).val = (j 1).val) :
    k5_pay1 x0 xv xm xg xb = fun j => Cert.Gcn.normRelu A Mn Vr G Bt (e j) := by
  funext j
  obtain ⟨p, q, rfl⟩ : ∃ (p : Fin 10000) (q : Fin 64), j = ix2 p q := ⟨j 0, j 1, eq_ix2 j⟩
  obtain ⟨r, s, hrs⟩ : ∃ (r : Fin 100000) (s : Fin 64), e (ix2 p q) = ix2 r s :=
    ⟨(e (ix2 p q)) 0, (e (ix2 p q)) 1, eq_ix2 _⟩
  have hs : s = q := Fin.ext (by have h1 := he (ix2 p q); rw [hrs] at h1; exact h1)
  subst hs
  rw [normRelu_at5, h0, hv, hm, hg, hb]
  show _ = Cert.Gcn.normRelu A Mn Vr G Bt (e (ix2 p s))
  rw [hrs, Cert.Gcn.normRelu_apply]

/-- The printed index maps over the ten points: the matrix's block moves with the output's, down the rows; the
    four one-row operands stay. -/
theorem idx_facts5 : ∀ t : Fin cfg5.N, win5_0.index t (0 : Fin 2) = win5_5.index t (0 : Fin 2)
    ∧ win5_0.index t (1 : Fin 2) = win5_5.index t (1 : Fin 2)
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) ≤ 9 ∧ win5_5.index t (1 : Fin 2) = 0 :=
  (by decide +kernel : ∀ t : Fin grid5.N, _)

/-- Every block of rows is some point's. -/
theorem idx_onto5 : ∀ q0 : Fin 10, ∃ t : Fin cfg5.N, win5_5.index t = ![q0.val, 0] :=
  (by decide +kernel : ∀ q0 : Fin 10, ∃ t : Fin grid5.N, win5_5.index t = ![q0.val, 0])

/-- What point t writes back is block t of the normalising stage of the arrays the region finds. -/
theorem flushed5_eq (c : Dev nD) (t : Fin cfg5.N) :
    (dat5 V c).flushed 5 t
      = ((cfg5.win 5).blk t).view.read (Elt Ideal)
          (Cert.Gcn.normRelu (V c main_v72) (V c main_v77) (V c main_v78) (V c main_v79) (V c main_v80)) := by
  show (cfg5.win 5).cut (grid5.coords t) ((dat5 V c).after 5 t) = _
  rw [after5_5]
  unfold out5_5
  rw [View.canon_unit_zero zero_offsets]
  simp only [View.ld_unit_zero (S := S10000x64) zero_offsets, View.ld_unit_zero (S := S1x64) zero_offsets]
  obtain ⟨e0, e1, m0, m1, v0, v1, g0, g1, b0, b1, o0, o1⟩ := idx_facts5 t
  refine normRelu_block5 (V c main_v72) (V c main_v77) (V c main_v78) (V c main_v79) (V c main_v80)
    (iblk5 V c 0 t) (iblk5 V c 2 t) (iblk5 V c 1 t) (iblk5 V c 3 t) (iblk5 V c 4 t)
    (fun j => ((cfg5.win 5).blk t).view.emb j) (fun j => ?_) (fun k => ?_) (fun k => ?_) (fun k => ?_) (fun k => ?_) (fun j => ?_)
  · show V c main_v72 (((cfg5.win 0).blk t).view.emb j) = V c main_v72 (((cfg5.win 5).blk t).view.emb j)
    refine congrArg _ (funext fun a => Fin.ext ?_)
    match a with
    | ⟨0, _⟩ => show win5_0.index t (0 : Fin 2) * 10000 + 1 * (j 0).val = win5_5.index t (0 : Fin 2) * 10000 + 1 * (j 0).val; omega
    | ⟨1, _⟩ => show win5_0.index t (1 : Fin 2) * 64 + 1 * (j 1).val = win5_5.index t (1 : Fin 2) * 64 + 1 * (j 1).val; omega
  · show V c main_v78 (((cfg5.win 2).blk t).view.emb k) = V c main_v78 k
    refine congrArg _ (funext fun a => Fin.ext ?_)
    match a with
    | ⟨0, _⟩ => show win5_2.index t (0 : Fin 2) * 1 + 1 * (k 0).val = (k 0).val; omega
    | ⟨1, _⟩ => show win5_2.index t (1 : Fin 2) * 64 + 1 * (k 1).val = (k 1).val; omega
  · show V c main_v77 (((cfg5.win 1).blk t).view.emb k) = V c main_v77 k
    refine congrArg _ (funext fun a => Fin.ext ?_)
    match a with
    | ⟨0, _⟩ => show win5_1.index t (0 : Fin 2) * 1 + 1 * (k 0).val = (k 0).val; omega
    | ⟨1, _⟩ => show win5_1.index t (1 : Fin 2) * 64 + 1 * (k 1).val = (k 1).val; omega
  · show V c main_v79 (((cfg5.win 3).blk t).view.emb k) = V c main_v79 k
    refine congrArg _ (funext fun a => Fin.ext ?_)
    match a with
    | ⟨0, _⟩ => show win5_3.index t (0 : Fin 2) * 1 + 1 * (k 0).val = (k 0).val; omega
    | ⟨1, _⟩ => show win5_3.index t (1 : Fin 2) * 64 + 1 * (k 1).val = (k 1).val; omega
  · show V c main_v80 (((cfg5.win 4).blk t).view.emb k) = V c main_v80 k
    refine congrArg _ (funext fun a => Fin.ext ?_)
    match a with
    | ⟨0, _⟩ => show win5_4.index t (0 : Fin 2) * 1 + 1 * (k 0).val = (k 0).val; omega
    | ⟨1, _⟩ => show win5_4.index t (1 : Fin 2) * 64 + 1 * (k 1).val = (k 1).val; omega
  · show win5_5.index t (1 : Fin 2) * 64 + 1 * (j 1).val = (j 1).val; omega

/-- An index of the array is in point t's block iff each coordinate is in the block's range on its axis. -/
theorem mem_blk5 (t : Fin cfg5.N) (i : S100000x64.Idx) :
    i ∈ ((cfg5.win 5).blk t).view.set ↔ ∀ a : Fin 2, win5_5.index t a * S10000x64.size a ≤ (i a).val
      ∧ (i a).val < win5_5.index t a * S10000x64.size a + S10000x64.size a := by
  show i ∈ ((View.whole main_v81).slice (win5_5.rect t)).set ↔ _
  rw [View.set_slice_whole, Rect.mem_set_unit]
  exact Iff.rfl

/-- The ten blocks cover the array: row r lies in the block of point r / 10000. -/
theorem cover5 (i : S100000x64.Idx) :
    ∃ t : Fin cfg5.N, (cfg5.win 5).flush t = true ∧ i ∈ ((cfg5.win 5).blk t).view.set := by
  have hi0 : (i 0).val < 100000 := (i 0).isLt
  have hi1 : (i 1).val < 64 := (i 1).isLt
  obtain ⟨t, ht⟩ := idx_onto5 ⟨(i 0).val / 10000, by omega⟩
  have q0 : win5_5.index t (0 : Fin 2) = (i 0).val / 10000 := congrFun ht 0
  have q1 : win5_5.index t (1 : Fin 2) = 0 := congrFun ht 1
  refine ⟨t, flush5_5 t, ?_⟩
  rw [mem_blk5]
  intro a
  match a with
  | ⟨0, _⟩ => show win5_5.index t (0 : Fin 2) * 10000 ≤ (i 0).val ∧ (i 0).val < win5_5.index t (0 : Fin 2) * 10000 + 10000; omega
  | ⟨1, _⟩ => show win5_5.index t (1 : Fin 2) * 64 ≤ (i 1).val ∧ (i 1).val < win5_5.index t (1 : Fin 2) * 64 + 64; omega

/-- The output array of region 5 after its run: every column of the array it was given normalised with the
    statistics, scaled, shifted and cut off below at zero. -/
theorem final5 (c : Dev nD) :
    (dat5 V c).arrAt 5 cfg5.N
      = Cert.Gcn.normRelu (V c main_v72) (V c main_v77) (V c main_v78) (V c main_v79) (V c main_v80) :=
  (dat5 V c).arrAt_eq_of_cover 5 (Cert.Gcn.normRelu (V c main_v72) (V c main_v77) (V c main_v78) (V c main_v79) (V c main_v80))
    (fun t _ => flushed5_eq V c t) cover5

/-! ## A vector reshaped to a one-row matrix -/

/-- A vector of 64 entries cast to the shape 1 × 64 is the vector laid out as a row. -/
theorem reshape_row64 (v : Vec Ideal S64 .f32) (h : S64.ShapeCasts S1x64) :
    shapeCast S1x64 v h = Cert.Gcn.row64 v := by
  funext j
  obtain ⟨a, q, rfl⟩ : ∃ (a : Fin 1) (q : Fin 64), j = ix2 a q := ⟨j 0, j 1, eq_ix2 j⟩
  rw [Cert.Gcn.row64_apply]
  refine shapeCast_apply v h (ix2 a q) (ix1 q) ?_
  rw [Shape.rowMajor_val_two, Shape.rowMajor_val_one]
  show q.val = a.val * 64 + q.val
  have := a.isLt
  omega

/-- A vector of 32 entries cast to the shape 1 × 32 is the vector laid out as a row. -/
theorem reshape_row32 (v : Vec Ideal S32 .f32) (h : S32.ShapeCasts S1x32) :
    shapeCast S1x32 v h = Cert.Gcn.row32 v := by
  funext j
  obtain ⟨a, q, rfl⟩ : ∃ (a : Fin 1) (q : Fin 32), j = ix2 a q := ⟨j 0, j 1, eq_ix2 j⟩
  rw [Cert.Gcn.row32_apply]
  refine shapeCast_apply v h (ix2 a q) (ix1 q) ?_
  rw [Shape.rowMajor_val_two, Shape.rowMajor_val_one]
  show q.val = a.val * 32 + q.val
  have := a.isLt
  omega

/-- The same in the form a host reshape leaves: the cast read index by index. -/
theorem reshape_row64_fun (v : Vec Ideal S64 .f32) (h : S64.ShapeCasts S1x64) :
    (fun i => shapeCast S1x64 v h i) = Cert.Gcn.row64 v := reshape_row64 v h

theorem reshape_row32_fun (v : Vec Ideal S32 .f32) (h : S32.ShapeCasts S1x32) :
    (fun i => shapeCast S1x32 v h i) = Cert.Gcn.row32 v := reshape_row32 v h

end Cert.KernelIdeal.RegionRow

end
-- ==== Proof.RefDot.lean ====
/- The reference's three matrix products read entry by entry: the host's product of the feature array with a weight matrix
   is, at row r and column c, the sum over the contracted coordinate of the products of the entries. -/
import proofs.«103011_j65481071395098_1_alg».proof.ReferenceIdeal
import proofs.«103011_j65481071395098_1_alg».proof.Proof.Spec
import Idealize.ShloMosaic.Lib.ValueIdx
import Idealize.ShloMosaic.PureOps.Ideal.Laws

noncomputable section

namespace Cert.ReferenceIdeal.RefDot

open Cert.ReferenceIdeal Idealize.ShloMosaic Idealize.ShloMosaic.ValueIdx
open scoped BigOperators

variable [Cert.ReferenceIdeal.Facts]

/-! ## The first layer's product: 81 features into 64 -/

/-- Left operand index of the 81-term contraction: the row of the output, on axis 0 … -/
theorem lhs81_0 (i : S100000x64.Idx) (q : dot_S100000x81_S81x64_S100000x64_1_0_0_1_n_n.contr.Idx) :
    (dot_S100000x81_S81x64_S100000x64_1_0_0_1_n_n.lhsIdx i q 0).val = (i 0).val := by
  unfold DotDims.lhsIdx
  rw [dif_neg (show ¬(0 : Fin S100000x81.rank) ∈ dot_S100000x81_S81x64_S100000x64_1_0_0_1_n_n.lhsBatch from List.not_mem_nil), dif_pos (show (0 : Fin S100000x81.rank) ∈ dot_S100000x81_S81x64_S100000x64_1_0_0_1_n_n.lhsNonContracting from List.mem_singleton.mpr rfl)]
  rfl
/-- … and the contracted position, on axis 1. -/
theorem lhs81_1 (i : S100000x64.Idx) (q : dot_S100000x81_S81x64_S100000x64_1_0_0_1_n_n.contr.Idx) :
    (dot_S100000x81_S81x64_S100000x64_1_0_0_1_n_n.lhsIdx i q 1).val = (q ⟨0, Nat.one_pos⟩).val :=
  dot_S100000x81_S81x64_S100000x64_1_0_0_1_n_n.lhsIdx_val_of_single rfl i q
/-- Right operand index: the contracted position on axis 0 … -/
theorem rhs81_0 (i : S100000x64.Idx) (q : dot_S100000x81_S81x64_S100000x64_1_0_0_1_n_n.contr.Idx) :
    (dot_S100000x81_S81x64_S100000x64_1_0_0_1_n_n.rhsIdx i q 0).val = (q ⟨0, Nat.one_pos⟩).val :=
  dot_S100000x81_S81x64_S100000x64_1_0_0_1_n_n.rhsIdx_val_of_single rfl i q
/-- … and the column of the output on axis 1. -/
theorem rhs81_1 (i : S100000x64.Idx) (q : dot_S100000x81_S81x64_S100000x64_1_0_0_1_n_n.contr.Idx) :
    (dot_S100000x81_S81x64_S100000x64_1_0_0_1_n_n.rhsIdx i q 1).val = (i 1).val := by
  unfold DotDims.rhsIdx
  rw [dif_neg (show ¬(1 : Fin S81x64.rank) ∈ dot_S100000x81_S81x64_S100000x64_1_0_0_1_n_n.rhsBatch from List.not_mem_nil), dif_pos (show (1 : Fin S81x64.rank) ∈ dot_S100000x81_S81x64_S100000x64_1_0_0_1_n_n.rhsNonContracting from List.mem_singleton.mpr rfl)]
  rfl

/-- The host's product of a 100000 × 81 by a 81 × 64 matrix is the matrix product, entry by entry. -/
theorem dot81 (x : Vec Ideal S100000x81 .f32) (w : Vec Ideal S81x64 .f32) :
    Host.dotGeneral (F := Ideal) (φ₁ := .f32) (φ₂ := .f32) dot_S100000x81_S81x64_S100000x64_1_0_0_1_n_n none x w = Cert.Gcn.mm81 x w := by
  funext i
  obtain ⟨r, c, rfl⟩ : ∃ (r : Fin 100000) (c : Fin 64), i = ix2 r c := ⟨i 0, i 1, eq_ix2 i⟩
  rw [Cert.Gcn.mm81_apply]
  refine (Ideal.dotGeneral_apply (φ₁ := .f32) (φ₂ := .f32) dot_S100000x81_S81x64_S100000x64_1_0_0_1_n_n none .single x w (ix2 r c)).trans ?_
  rw [← Equiv.sum_comp (contrEquiv1 dot_S100000x81_S81x64_S100000x64_1_0_0_1_n_n 81 rfl rfl).symm]
  refine Finset.sum_congr rfl fun k _ => ?_
  have hk := contrEquiv1_symm_val dot_S100000x81_S81x64_S100000x64_1_0_0_1_n_n 81 rfl rfl k
  have el : dot_S100000x81_S81x64_S100000x64_1_0_0_1_n_n.lhsIdx (ix2 r c) ((contrEquiv1 dot_S100000x81_S81x64_S100000x64_1_0_0_1_n_n 81 rfl rfl).symm k) = ix2 r k := funext fun a => Fin.ext (by
    match a with
    | ⟨0, _⟩ => exact lhs81_0 _ _
    | ⟨1, _⟩ => exact (lhs81_1 _ _).trans hk)
  have er : dot_S100000x81_S81x64_S100000x64_1_0_0_1_n_n.rhsIdx (ix2 r c) ((contrEquiv1 dot_S100000x81_S81x64_S100000x64_1_0_0_1_n_n 81 rfl rfl).symm k) = ix2 k c := funext fun a => Fin.ext (by
    match a with
    | ⟨0, _⟩ => exact (rhs81_0 _ _).trans hk
    | ⟨1, _⟩ => exact rhs81_1 _ _)
  rw [el, er]

/-! ## The second layer's product: 64 features into 64 -/

/-- Left operand index of the 64-term contraction: the row of the output, on axis 0 … -/
theorem lhs64_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch from List.not_mem_nil), dif_pos (show (0 : Fin S100000x64.rank) ∈ dot_S100000x64_S64x64_S100000x64_1_0_0_1_n_n.lhsNonContracting from List.mem_singleton.mpr rfl)]
  rfl
/-- … and the contracted position, on axis 1. -/
theorem lhs64_1 (i : S100000x64.Idx) (q : dot_S100000x64_S64x64_S100000x64_1_0_0_1_n_n.contr.Idx) :
    (dot_S100000x64_S64x64_S100000x64_1_0_0_1_n_n.lhsIdx i q 1).val = (q ⟨0, Nat.one_pos⟩).val :=
  dot_S100000x64_S64x64_S100000x64_1_0_0_1_n_n.lhsIdx_val_of_single rfl i q
/-- Right operand index: the contracted position on axis 0 … -/
theorem rhs64_0 (i : S100000x64.Idx) (q : dot_S100000x64_S64x64_S100000x64_1_0_0_1_n_n.contr.Idx) :
    (dot_S100000x64_S64x64_S100000x64_1_0_0_1_n_n.rhsIdx i q 0).val = (q ⟨0, Nat.one_pos⟩).val :=
  dot_S100000x64_S64x64_S100000x64_1_0_0_1_n_n.rhsIdx_val_of_single rfl i q
/-- … and the column of the output on axis 1. -/
theorem rhs64_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch from List.not_mem_nil), dif_pos (show (1 : Fin S64x64.rank) ∈ dot_S100000x64_S64x64_S100000x64_1_0_0_1_n_n.rhsNonContracting from List.mem_singleton.mpr rfl)]
  rfl

/-- The host's product of a 100000 × 64 by a 64 × 64 matrix is the matrix product, entry by entry. -/
theorem dot64 (x : Vec Ideal S100000x64 .f32) (w : Vec Ideal S64x64 .f32) :
    Host.dotGeneral (F := Ideal) (φ₁ := .f32) (φ₂ := .f32) dot_S100000x64_S64x64_S100000x64_1_0_0_1_n_n none x w = Cert.Gcn.mm64 x w := by
  funext i
  obtain ⟨r, c, rfl⟩ : ∃ (r : Fin 100000) (c : Fin 64), i = ix2 r c := ⟨i 0, i 1, eq_ix2 i⟩
  rw [Cert.Gcn.mm64_apply]
  refine (Ideal.dotGeneral_apply (φ₁ := .f32) (φ₂ := .f32) dot_S100000x64_S64x64_S100000x64_1_0_0_1_n_n none .single x w (ix2 r c)).trans ?_
  rw [← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 r c) ((contrEquiv1 dot_S100000x64_S64x64_S100000x64_1_0_0_1_n_n 64 rfl rfl).symm k) = ix2 r k := funext fun a => Fin.ext (by
    match a with
    | ⟨0, _⟩ => exact lhs64_0 _ _
    | ⟨1, _⟩ => exact (lhs64_1 _ _).trans hk)
  have er : dot_S100000x64_S64x64_S100000x64_1_0_0_1_n_n.rhsIdx (ix2 r c) ((contrEquiv1 dot_S100000x64_S64x64_S100000x64_1_0_0_1_n_n 64 rfl rfl).symm k) = ix2 k c := funext fun a => Fin.ext (by
    match a with
    | ⟨0, _⟩ => exact (rhs64_0 _ _).trans hk
    | ⟨1, _⟩ => exact rhs64_1 _ _)
  rw [el, er]

/-! ## The two heads' product: 64 features into 32 -/

/-- Left operand index of the 64-term contraction: the row of the output, on axis 0 … -/
theorem lhs32_0 (i : S100000x32.Idx) (q : dot_S100000x64_S64x32_S100000x32_1_0_0_1_n_n.contr.Idx) :
    (dot_S100000x64_S64x32_S100000x32_1_0_0_1_n_n.lhsIdx i q 0).val = (i 0).val := by
  unfold DotDims.lhsIdx
  rw [dif_neg (show ¬(0 : Fin S100000x64.rank) ∈ dot_S100000x64_S64x32_S100000x32_1_0_0_1_n_n.lhsBatch from List.not_mem_nil), dif_pos (show (0 : Fin S100000x64.rank) ∈ dot_S100000x64_S64x32_S100000x32_1_0_0_1_n_n.lhsNonContracting from List.mem_singleton.mpr rfl)]
  rfl
/-- … and the contracted position, on axis 1. -/
theorem lhs32_1 (i : S100000x32.Idx) (q : dot_S100000x64_S64x32_S100000x32_1_0_0_1_n_n.contr.Idx) :
    (dot_S100000x64_S64x32_S100000x32_1_0_0_1_n_n.lhsIdx i q 1).val = (q ⟨0, Nat.one_pos⟩).val :=
  dot_S100000x64_S64x32_S100000x32_1_0_0_1_n_n.lhsIdx_val_of_single rfl i q
/-- Right operand index: the contracted position on axis 0 … -/
theorem rhs32_0 (i : S100000x32.Idx) (q : dot_S100000x64_S64x32_S100000x32_1_0_0_1_n_n.contr.Idx) :
    (dot_S100000x64_S64x32_S100000x32_1_0_0_1_n_n.rhsIdx i q 0).val = (q ⟨0, Nat.one_pos⟩).val :=
  dot_S100000x64_S64x32_S100000x32_1_0_0_1_n_n.rhsIdx_val_of_single rfl i q
/-- … and the column of the output on axis 1. -/
theorem rhs32_1 (i : S100000x32.Idx) (q : dot_S100000x64_S64x32_S100000x32_1_0_0_1_n_n.contr.Idx) :
    (dot_S100000x64_S64x32_S100000x32_1_0_0_1_n_n.rhsIdx i q 1).val = (i 1).val := by
  unfold DotDims.rhsIdx
  rw [dif_neg (show ¬(1 : Fin S64x32.rank) ∈ dot_S100000x64_S64x32_S100000x32_1_0_0_1_n_n.rhsBatch from List.not_mem_nil), dif_pos (show (1 : Fin S64x32.rank) ∈ dot_S100000x64_S64x32_S100000x32_1_0_0_1_n_n.rhsNonContracting from List.mem_singleton.mpr rfl)]
  rfl

/-- The host's product of a 100000 × 64 by a 64 × 32 matrix is the matrix product, entry by entry. -/
theorem dot32 (x : Vec Ideal S100000x64 .f32) (w : Vec Ideal S64x32 .f32) :
    Host.dotGeneral (F := Ideal) (φ₁ := .f32) (φ₂ := .f32) dot_S100000x64_S64x32_S100000x32_1_0_0_1_n_n none x w = Cert.Gcn.mm32 x w := by
  funext i
  obtain ⟨r, c, rfl⟩ : ∃ (r : Fin 100000) (c : Fin 32), i = ix2 r c := ⟨i 0, i 1, eq_ix2 i⟩
  rw [Cert.Gcn.mm32_apply]
  refine (Ideal.dotGeneral_apply (φ₁ := .f32) (φ₂ := .f32) dot_S100000x64_S64x32_S100000x32_1_0_0_1_n_n none .single x w (ix2 r c)).trans ?_
  rw [← Equiv.sum_comp (contrEquiv1 dot_S100000x64_S64x32_S100000x32_1_0_0_1_n_n 64 rfl rfl).symm]
  refine Finset.sum_congr rfl fun k _ => ?_
  have hk := contrEquiv1_symm_val dot_S100000x64_S64x32_S100000x32_1_0_0_1_n_n 64 rfl rfl k
  have el : dot_S100000x64_S64x32_S100000x32_1_0_0_1_n_n.lhsIdx (ix2 r c) ((contrEquiv1 dot_S100000x64_S64x32_S100000x32_1_0_0_1_n_n 64 rfl rfl).symm k) = ix2 r k := funext fun a => Fin.ext (by
    match a with
    | ⟨0, _⟩ => exact lhs32_0 _ _
    | ⟨1, _⟩ => exact (lhs32_1 _ _).trans hk)
  have er : dot_S100000x64_S64x32_S100000x32_1_0_0_1_n_n.rhsIdx (ix2 r c) ((contrEquiv1 dot_S100000x64_S64x32_S100000x32_1_0_0_1_n_n 64 rfl rfl).symm k) = ix2 k c := funext fun a => Fin.ext (by
    match a with
    | ⟨0, _⟩ => exact (rhs32_0 _ _).trans hk
    | ⟨1, _⟩ => exact rhs32_1 _ _)
  rw [el, er]

end Cert.ReferenceIdeal.RefDot
end
-- ==== Proof.RefRow.lean ====
/-
  The reference's row stages, entry by entry: a vector laid out as a one-row matrix and repeated down the
  100000 rows is, at row r and column q, the vector's entry q; so adding it is adding a bias row, and the
  reference's normalisation followed by the cut-off at zero is the column-wise formula of the specification.
-/
import proofs.«103011_j65481071395098_1_alg».proof.ReferenceIdeal
import proofs.«103011_j65481071395098_1_alg».proof.Proof.Spec
import Idealize.ShloMosaic.Lib.Pipeline.Value
import Idealize.ShloMosaic.Lib.KernelVsHost
import Idealize.ShloMosaic.Lib.ValueIdx

noncomputable section

namespace Cert.ReferenceIdeal.RefRow

open Cert.ReferenceIdeal Idealize.ShloMosaic Idealize.ShloMosaic.ValueIdx

variable [Cert.ReferenceIdeal.Facts]
open Cert.ReferenceIdeal.Facts₀ Cert.ReferenceIdeal.Facts

/-- A vector of 64 entries broadcast along axis 1 of a 1 × 64 matrix is the vector laid out as a row. -/
theorem rowOfVec64 (b : Vec Ideal S64 .f32) :
    broadcastInDim S1x64 ![1] bcast_S64_S1x64_1 b = Cert.Gcn.row64 b := by
  funext j
  obtain ⟨a, q, rfl⟩ : ∃ (a : Fin 1) (q : Fin 64), j = ix2 a q := ⟨j 0, j 1, eq_ix2 j⟩
  rw [Cert.Gcn.row64_apply]
  refine broadcastInDim_apply ![1] bcast_S64_S1x64_1 b (ix2 a q) (ix1 q) fun ax => ?_
  match ax with
  | ⟨0, _⟩ => rfl

/-- A vector of 32 entries broadcast along axis 1 of a 1 × 32 matrix is the vector laid out as a row. -/
theorem rowOfVec32 (b : Vec Ideal S32 .f32) :
    broadcastInDim S1x32 ![1] bcast_S32_S1x32_1 b = Cert.Gcn.row32 b := by
  funext j
  obtain ⟨a, q, rfl⟩ : ∃ (a : Fin 1) (q : Fin 32), j = ix2 a q := ⟨j 0, j 1, eq_ix2 j⟩
  rw [Cert.Gcn.row32_apply]
  refine broadcastInDim_apply ![1] bcast_S32_S1x32_1 b (ix2 a q) (ix1 q) fun ax => ?_
  match ax with
  | ⟨0, _⟩ => rfl

/-- A vector of 64 entries laid out as a row and repeated down the rows reads, at row r and column q, its entry q. -/
theorem rowDown64 (v : Vec Ideal S64 .f32) (r : Fin 100000) (q : Fin 64) :
    broadcastInDim S100000x64 ![0, 1] bcast_S1x64_S100000x64_0_1 (broadcastInDim S1x64 ![1] bcast_S64_S1x64_1 v) (ix2 r q)
      = v (ix1 q) := by
  rw [broadcastInDim_oneRow_apply bcast_S1x64_S100000x64_0_1 _ r q, rowOfVec64, Cert.Gcn.row64_apply]

/-- A vector of 32 entries laid out as a row and repeated down the rows reads, at row r and column q, its entry q. -/
theorem rowDown32 (v : Vec Ideal S32 .f32) (r : Fin 100000) (q : Fin 32) :
    broadcastInDim S100000x32 ![0, 1] bcast_S1x32_S100000x32_0_1 (broadcastInDim S1x32 ![1] bcast_S32_S1x32_1 v) (ix2 r q)
      = v (ix1 q) := by
  rw [broadcastInDim_oneRow_apply bcast_S1x32_S100000x32_0_1 _ r q, rowOfVec32, Cert.Gcn.row32_apply]

/-- The reference's bias addition on 64 columns is the bias row added to every row. -/
theorem bias64 (a : Vec Ideal S100000x64 .f32) (b : Vec Ideal S64 .f32) :
    addf (F := Ideal) (φ := .f32) a (broadcastInDim S100000x64 ![0, 1] bcast_S1x64_S100000x64_0_1 (broadcastInDim S1x64 ![1] bcast_S64_S1x64_1 b))
      = Cert.Gcn.addRow64 a (Cert.Gcn.row64 b) := by
  funext i
  obtain ⟨r, q, rfl⟩ : ∃ (r : Fin 100000) (q : Fin 64), i = ix2 r q := ⟨i 0, i 1, eq_ix2 i⟩
  rw [addf_apply, rowDown64, Cert.Gcn.addRow64_apply, Cert.Gcn.row64_apply]

/-- The reference's bias addition on 32 columns is the bias row added to every row. -/
theorem bias32 (a : Vec Ideal S100000x32 .f32) (b : Vec Ideal S32 .f32) :
    addf (F := Ideal) (φ := .f32) a (broadcastInDim S100000x32 ![0, 1] bcast_S1x32_S100000x32_0_1 (broadcastInDim S1x32 ![1] bcast_S32_S1x32_1 b))
      = Cert.Gcn.addRow32 a (Cert.Gcn.row32 b) := by
  funext i
  obtain ⟨r, q, rfl⟩ : ∃ (r : Fin 100000) (q : Fin 32), i = ix2 r q := ⟨i 0, i 1, eq_ix2 i⟩
  rw [addf_apply, rowDown32, Cert.Gcn.addRow32_apply, Cert.Gcn.row32_apply]

/-- The reference's normalisation of the 64 columns followed by the cut-off at zero: the statistics, the scale
    and the shift are vectors laid out as rows and repeated down the rows; the small constant is added to the
    variance before the reciprocal root is taken, column by column. -/
theorem bnRelu64 (h : Vec Ideal S100000x64 .f32) (mean var g beta : Vec Ideal S64 .f32) :
    maximumf (F := Ideal) (φ := .f32)
        (addf
          (mulf
            (mulf
              (subf h (broadcastInDim S100000x64 ![0, 1] bcast_S1x64_S100000x64_0_1 (broadcastInDim S1x64 ![1] bcast_S64_S1x64_1 mean)))
              (broadcastInDim S100000x64 ![0, 1] bcast_S1x64_S100000x64_0_1 (broadcastInDim S1x64 ![1] bcast_S64_S1x64_1
                (Host.rsqrt (F := Ideal) (addf var (broadcastInDim S64 ![] bcast_S_S64 (constant (F := Ideal) S_ .f32 0x3727C5AC#32)))))))
            (broadcastInDim S100000x64 ![0, 1] bcast_S1x64_S100000x64_0_1 (broadcastInDim S1x64 ![1] bcast_S64_S1x64_1 g)))
          (broadcastInDim S100000x64 ![0, 1] bcast_S1x64_S100000x64_0_1 (broadcastInDim S1x64 ![1] bcast_S64_S1x64_1 beta)))
        (broadcastInDim S100000x64 ![] bcast_S_S100000x64 (constant (F := Ideal) S_ .f32 0x00000000#32))
      = Cert.Gcn.normRelu h (Cert.Gcn.row64 mean) (Cert.Gcn.row64 var) (Cert.Gcn.row64 g) (Cert.Gcn.row64 beta) := by
  funext i
  obtain ⟨r, q, rfl⟩ : ∃ (r : Fin 100000) (q : Fin 64), i = ix2 r q := ⟨i 0, i 1, eq_ix2 i⟩
  rw [Cert.Gcn.normRelu_apply, maximumf_apply, addf_apply, mulf_apply, mulf_apply, subf_apply]
  rw [rowDown64, rowDown64, rowDown64, rowDown64]
  simp only [Cert.Gcn.row64_apply]
  rfl

end Cert.ReferenceIdeal.RefRow

end
-- ==== Proof.Bridge2.lean ====
/-
  The first graph convolution and the first normalisation, stage by stage.

  Each statement compares the kernel's program at one of its boundaries with the reference after the matching
  piece of its host operations: given equal inputs, the stage's output buffers are equal.  A dense stage of the
  kernel is read through what its blocks write back (a matrix product, a bias row added, a normalisation); the
  reference's matching operations are shown to be the same function of the same operands; the sparse stages and
  the column statistics are the same host operations on both sides.
-/
import proofs.«103011_j65481071395098_1_alg».proof.Proof.Gen.KernelIdeal.Frame
import proofs.«103011_j65481071395098_1_alg».proof.Proof.RefChain
import proofs.«103011_j65481071395098_1_alg».proof.Proof.RegionMM
import proofs.«103011_j65481071395098_1_alg».proof.Proof.RegionRow
import proofs.«103011_j65481071395098_1_alg».proof.Proof.RefDot
import proofs.«103011_j65481071395098_1_alg».proof.Proof.RefRow
import Idealize.ShloMosaic.PureOps.Ideal

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 4000000 in
/-- Dense stage 0: the kernel's blocks of the product, and the reference's whole product, are the same matrix
    product of equal operands. -/
theorem s2 (hx : Cert.KernelIdeal.Gen.W3 (F := Ideal) m ρ c (Proc.devRef .tc Cert.KernelIdeal.main_arg0) = Cert.ReferenceIdeal.RefChain.A1 m' c (Proc.devRef .tc Cert.ReferenceIdeal.main_arg0)) (hw : Cert.KernelIdeal.Gen.W3 (F := Ideal) m ρ c (Proc.devRef .tc Cert.KernelIdeal.main_arg2) = Cert.ReferenceIdeal.RefChain.A1 m' c (Proc.devRef .tc Cert.ReferenceIdeal.main_arg2)) :
    Cert.KernelIdeal.Gen.W4 (F := Ideal) m ρ c (Proc.devRef .tc Cert.KernelIdeal.main_v32) = Cert.ReferenceIdeal.RefChain.A2 m' c (Proc.devRef .tc Cert.ReferenceIdeal.main_v32) := by
  have hk : Cert.KernelIdeal.Gen.W4 (F := Ideal) m ρ c (Proc.devRef .tc Cert.KernelIdeal.main_v32) = Cert.Gcn.mm81 (Cert.KernelIdeal.Gen.W3 (F := Ideal) m ρ c (Proc.devRef .tc Cert.KernelIdeal.main_arg0)) (Cert.KernelIdeal.Gen.W3 (F := Ideal) m ρ c (Proc.devRef .tc Cert.KernelIdeal.main_arg2)) :=
    (Cert.KernelIdeal.Gen.W4_arr (F := Ideal) m ρ c 2).trans (Cert.KernelIdeal.RegionMM.final0 (Cert.KernelIdeal.Gen.V3 (F := Ideal) m ρ) c)
  have hr : Cert.ReferenceIdeal.RefChain.A2 m' c (Proc.devRef .tc Cert.ReferenceIdeal.main_v32) = Cert.Gcn.mm81 (Cert.ReferenceIdeal.RefChain.A1 m' c (Proc.devRef .tc Cert.ReferenceIdeal.main_arg0)) (Cert.ReferenceIdeal.RefChain.A1 m' c (Proc.devRef .tc Cert.ReferenceIdeal.main_arg2)) := by
    unfold Cert.ReferenceIdeal.RefChain.A2
    dsimp only [Cert.ReferenceIdeal.RefOps.R2]
    after_results_simp
    exact Cert.ReferenceIdeal.RefDot.dot81 _ _
  rw [hk, hr, hx, hw]

set_option maxHeartbeats 4000000 in
/-- The sparse stage after dense stage 0: gather the rows at the edges' sources, scale by the edge weights,
    scatter-add at the destinations — the same host operations on equal operands. -/
theorem s3 (hh : Cert.KernelIdeal.Gen.W4 (F := Ideal) m ρ c (Proc.devRef .tc Cert.KernelIdeal.main_v32) = Cert.ReferenceIdeal.RefChain.A2 m' c (Proc.devRef .tc Cert.ReferenceIdeal.main_v32)) (h3 : Cert.KernelIdeal.Gen.W4 (F := Ideal) m ρ c (Proc.devRef .tc Cert.KernelIdeal.main_v3) = Cert.ReferenceIdeal.RefChain.A2 m' c (Proc.devRef .tc Cert.ReferenceIdeal.main_v3))
    (h6 : Cert.KernelIdeal.Gen.W4 (F := Ideal) m ρ c (Proc.devRef .tc Cert.KernelIdeal.main_v6) = Cert.ReferenceIdeal.RefChain.A2 m' c (Proc.devRef .tc Cert.ReferenceIdeal.main_v6)) (h31 : Cert.KernelIdeal.Gen.W4 (F := Ideal) m ρ c (Proc.devRef .tc Cert.KernelIdeal.main_v31) = Cert.ReferenceIdeal.RefChain.A2 m' c (Proc.devRef .tc Cert.ReferenceIdeal.main_v31)) :
    Cert.KernelIdeal.Gen.W5 (F := Ideal) m ρ c (Proc.devRef .tc Cert.KernelIdeal.main_v45) = Cert.ReferenceIdeal.RefChain.A3 m' c (Proc.devRef .tc Cert.ReferenceIdeal.main_v45) := by
  unfold Cert.ReferenceIdeal.RefChain.A3
  dsimp only [Cert.KernelIdeal.Gen.W5, Cert.KernelIdeal.Gen.hostOps1, Cert.ReferenceIdeal.RefOps.R3]
  after_results_simp
  rw [hh, h3, h6, h31]
  first | done | rfl

set_option maxHeartbeats 4000000 in
/-- The bias of the convolution before dense stage 1's write-back: the kernel adds the bias row block by block, the
    reference adds it broadcast to every row. -/
theorem s4 (hh : Cert.KernelIdeal.Gen.W5 (F := Ideal) m ρ c (Proc.devRef .tc Cert.KernelIdeal.main_v45) = Cert.ReferenceIdeal.RefChain.A3 m' c (Proc.devRef .tc Cert.ReferenceIdeal.main_v45)) (hb : Cert.KernelIdeal.Gen.W4 (F := Ideal) m ρ c (Proc.devRef .tc Cert.KernelIdeal.main_arg3) = Cert.ReferenceIdeal.RefChain.A3 m' c (Proc.devRef .tc Cert.ReferenceIdeal.main_arg3)) :
    Cert.KernelIdeal.Gen.W6 (F := Ideal) m ρ c (Proc.devRef .tc Cert.KernelIdeal.main_v47) = Cert.ReferenceIdeal.RefChain.A4b m' c (Proc.devRef .tc Cert.ReferenceIdeal.main_v48) := by
  have hkb : Cert.KernelIdeal.Gen.W5 (F := Ideal) m ρ c (Proc.devRef .tc Cert.KernelIdeal.main_v46) = Cert.Gcn.row64 (Cert.KernelIdeal.Gen.W4 (F := Ideal) m ρ c (Proc.devRef .tc Cert.KernelIdeal.main_arg3)) := by
    dsimp only [Cert.KernelIdeal.Gen.W5, Cert.KernelIdeal.Gen.hostOps1]
    after_results_simp
    first | exact Cert.KernelIdeal.RegionRow.reshape_row64_fun _ _ | exact Cert.KernelIdeal.RegionRow.reshape_row64 _ _
  have hk : Cert.KernelIdeal.Gen.W6 (F := Ideal) m ρ c (Proc.devRef .tc Cert.KernelIdeal.main_v47) = Cert.Gcn.addRow64 (Cert.KernelIdeal.Gen.W5 (F := Ideal) m ρ c (Proc.devRef .tc Cert.KernelIdeal.main_v45)) (Cert.KernelIdeal.Gen.W5 (F := Ideal) m ρ c (Proc.devRef .tc Cert.KernelIdeal.main_v46)) :=
    (Cert.KernelIdeal.Gen.W6_arr (F := Ideal) m ρ c 2).trans (Cert.KernelIdeal.RegionRow.final1 (Cert.KernelIdeal.Gen.V5 (F := Ideal) m ρ) c)
  have hr : Cert.ReferenceIdeal.RefChain.A4b m' c (Proc.devRef .tc Cert.ReferenceIdeal.main_v48) = Cert.Gcn.addRow64 (Cert.ReferenceIdeal.RefChain.A3 m' c (Proc.devRef .tc Cert.ReferenceIdeal.main_v45)) (Cert.Gcn.row64 (Cert.ReferenceIdeal.RefChain.A3 m' c (Proc.devRef .tc Cert.ReferenceIdeal.main_arg3))) := by
    unfold Cert.ReferenceIdeal.RefChain.A4b Cert.ReferenceIdeal.RefChain.A4a
    dsimp only [Cert.ReferenceIdeal.RefOps.R4b, Cert.ReferenceIdeal.RefOps.R4a]
    after_results_simp
    exact Cert.ReferenceIdeal.RefRow.bias64 _ _
  rw [hk, hkb, hr, hh, hb]

set_option maxHeartbeats 4000000 in
/-- The column means of equal matrices are equal (the kernel's program lays them out as a row). -/
theorem s5_mean (hh : Cert.KernelIdeal.Gen.W6 (F := Ideal) m ρ c (Proc.devRef .tc Cert.KernelIdeal.main_v47) = Cert.ReferenceIdeal.RefChain.A4b m' c (Proc.devRef .tc Cert.ReferenceIdeal.main_v48)) :
    Cert.KernelIdeal.Gen.W9 (F := Ideal) m ρ c (Proc.devRef .tc Cert.KernelIdeal.main_v52) = Cert.Gcn.row64 (Cert.ReferenceIdeal.RefChain.A5 m' c (Proc.devRef .tc Cert.ReferenceIdeal.main_v51)) := by
  unfold Cert.ReferenceIdeal.RefChain.A5
  dsimp only [Cert.KernelIdeal.Gen.W9, Cert.KernelIdeal.Gen.W8, Cert.KernelIdeal.Gen.W7, Cert.KernelIdeal.Gen.hostOps2, Cert.KernelIdeal.Gen.hostOps2_1, Cert.KernelIdeal.Gen.hostOps2_2, Cert.ReferenceIdeal.RefOps.R5]
  after_results_simp
  rw [hh]
  refine (Cert.KernelIdeal.RegionRow.reshape_row64_fun _ _).trans ?_
  first | rfl | exact congrArg _ rfl

/-- The column variances of equal matrices are equal (the kernel's program lays them out as a row). -/
theorem s5_var (hh : Cert.KernelIdeal.Gen.W6 (F := Ideal) m ρ c (Proc.devRef .tc Cert.KernelIdeal.main_v47) = Cert.ReferenceIdeal.RefChain.A4b m' c (Proc.devRef .tc Cert.ReferenceIdeal.main_v48)) :
    Cert.KernelIdeal.Gen.W9 (F := Ideal) m ρ c (Proc.devRef .tc Cert.KernelIdeal.main_v53) = Cert.Gcn.row64 (Cert.ReferenceIdeal.RefChain.A5 m' c (Proc.devRef .tc Cert.ReferenceIdeal.main_v52)) := by
  unfold Cert.ReferenceIdeal.RefChain.A5
  dsimp only [Cert.KernelIdeal.Gen.W9, Cert.KernelIdeal.Gen.W8, Cert.KernelIdeal.Gen.W7, Cert.KernelIdeal.Gen.hostOps2, Cert.KernelIdeal.Gen.hostOps2_1, Cert.KernelIdeal.Gen.hostOps2_2, Cert.ReferenceIdeal.RefOps.R5]
  after_results_simp
  rw [hh]
  refine (Cert.KernelIdeal.RegionRow.reshape_row64_fun _ _).trans ?_
  first | rfl | exact congrArg _ rfl

set_option maxHeartbeats 4000000 in
/-- Dense stage 2: normalisation, scale, shift and cut-off at zero, column statistics and parameters equal. -/
theorem s6 (hh : Cert.KernelIdeal.Gen.W9 (F := Ideal) m ρ c (Proc.devRef .tc Cert.KernelIdeal.main_v47) = Cert.ReferenceIdeal.RefChain.A5 m' c (Proc.devRef .tc Cert.ReferenceIdeal.main_v48)) (hmean : Cert.KernelIdeal.Gen.W9 (F := Ideal) m ρ c (Proc.devRef .tc Cert.KernelIdeal.main_v52) = Cert.Gcn.row64 (Cert.ReferenceIdeal.RefChain.A5 m' c (Proc.devRef .tc Cert.ReferenceIdeal.main_v51)))
    (hvar : Cert.KernelIdeal.Gen.W9 (F := Ideal) m ρ c (Proc.devRef .tc Cert.KernelIdeal.main_v53) = Cert.Gcn.row64 (Cert.ReferenceIdeal.RefChain.A5 m' c (Proc.devRef .tc Cert.ReferenceIdeal.main_v52)))
    (hg : Cert.KernelIdeal.Gen.W6 (F := Ideal) m ρ c (Proc.devRef .tc Cert.KernelIdeal.main_arg4) = Cert.ReferenceIdeal.RefChain.A5 m' c (Proc.devRef .tc Cert.ReferenceIdeal.main_arg4)) (hbeta : Cert.KernelIdeal.Gen.W6 (F := Ideal) m ρ c (Proc.devRef .tc Cert.KernelIdeal.main_arg5) = Cert.ReferenceIdeal.RefChain.A5 m' c (Proc.devRef .tc Cert.ReferenceIdeal.main_arg5)) :
    Cert.KernelIdeal.Gen.W10 (F := Ideal) m ρ c (Proc.devRef .tc Cert.KernelIdeal.main_v56) = Cert.ReferenceIdeal.RefChain.A6 m' c (Proc.devRef .tc Cert.ReferenceIdeal.main_v68) := by
  have hkg : Cert.KernelIdeal.Gen.W9 (F := Ideal) m ρ c (Proc.devRef .tc Cert.KernelIdeal.main_v54) = Cert.Gcn.row64 (Cert.KernelIdeal.Gen.W6 (F := Ideal) m ρ c (Proc.devRef .tc Cert.KernelIdeal.main_arg4)) := by
    dsimp only [Cert.KernelIdeal.Gen.W9, Cert.KernelIdeal.Gen.W8, Cert.KernelIdeal.Gen.W7, Cert.KernelIdeal.Gen.hostOps2, Cert.KernelIdeal.Gen.hostOps2_1, Cert.KernelIdeal.Gen.hostOps2_2]
    after_results_simp
    first | exact Cert.KernelIdeal.RegionRow.reshape_row64_fun _ _ | exact Cert.KernelIdeal.RegionRow.reshape_row64 _ _
  have hkb : Cert.KernelIdeal.Gen.W9 (F := Ideal) m ρ c (Proc.devRef .tc Cert.KernelIdeal.main_v55) = Cert.Gcn.row64 (Cert.KernelIdeal.Gen.W6 (F := Ideal) m ρ c (Proc.devRef .tc Cert.KernelIdeal.main_arg5)) := by
    dsimp only [Cert.KernelIdeal.Gen.W9, Cert.KernelIdeal.Gen.W8, Cert.KernelIdeal.Gen.W7, Cert.KernelIdeal.Gen.hostOps2, Cert.KernelIdeal.Gen.hostOps2_1, Cert.KernelIdeal.Gen.hostOps2_2]
    after_results_simp
    first | exact Cert.KernelIdeal.RegionRow.reshape_row64_fun _ _ | exact Cert.KernelIdeal.RegionRow.reshape_row64 _ _
  have hk : Cert.KernelIdeal.Gen.W10 (F := Ideal) m ρ c (Proc.devRef .tc Cert.KernelIdeal.main_v56) = Cert.Gcn.normRelu (Cert.KernelIdeal.Gen.W9 (F := Ideal) m ρ c (Proc.devRef .tc Cert.KernelIdeal.main_v47)) (Cert.KernelIdeal.Gen.W9 (F := Ideal) m ρ c (Proc.devRef .tc Cert.KernelIdeal.main_v52)) (Cert.KernelIdeal.Gen.W9 (F := Ideal) m ρ c (Proc.devRef .tc Cert.KernelIdeal.main_v53)) (Cert.KernelIdeal.Gen.W9 (F := Ideal) m ρ c (Proc.devRef .tc Cert.KernelIdeal.main_v54)) (Cert.KernelIdeal.Gen.W9 (F := Ideal) m ρ c (Proc.devRef .tc Cert.KernelIdeal.main_v55)) :=
    (Cert.KernelIdeal.Gen.W10_arr (F := Ideal) m ρ c 5).trans (Cert.KernelIdeal.RegionRow.final2 (Cert.KernelIdeal.Gen.V9 (F := Ideal) m ρ) c)
  have hr : Cert.ReferenceIdeal.RefChain.A6 m' c (Proc.devRef .tc Cert.ReferenceIdeal.main_v68) = Cert.Gcn.normRelu (Cert.ReferenceIdeal.RefChain.A5 m' c (Proc.devRef .tc Cert.ReferenceIdeal.main_v48)) (Cert.Gcn.row64 (Cert.ReferenceIdeal.RefChain.A5 m' c (Proc.devRef .tc Cert.ReferenceIdeal.main_v51))) (Cert.Gcn.row64 (Cert.ReferenceIdeal.RefChain.A5 m' c (Proc.devRef .tc Cert.ReferenceIdeal.main_v52)))
      (Cert.Gcn.row64 (Cert.ReferenceIdeal.RefChain.A5 m' c (Proc.devRef .tc Cert.ReferenceIdeal.main_arg4))) (Cert.Gcn.row64 (Cert.ReferenceIdeal.RefChain.A5 m' c (Proc.devRef .tc Cert.ReferenceIdeal.main_arg5))) := by
    have hrelu : Cert.ReferenceIdeal.RefChain.A6 m' c (Proc.devRef .tc Cert.ReferenceIdeal.main_v68) = maximumf (F := Ideal) (φ := .f32) (Cert.ReferenceIdeal.RefChain.A6 m' c (Proc.devRef .tc Cert.ReferenceIdeal.main_v67))
        (broadcastInDim Cert.ReferenceIdeal.S100000x64 ![] Cert.ReferenceIdeal.Gen.bcast_S_S100000x64 (constant (F := Ideal) Cert.ReferenceIdeal.S_ .f32 0x00000000#32)) := by
      unfold Cert.ReferenceIdeal.RefChain.A6
      rfl
    rw [hrelu]
    unfold Cert.ReferenceIdeal.RefChain.A6
    dsimp only [Cert.ReferenceIdeal.RefOps.R6]
    after_results_simp
    exact Cert.ReferenceIdeal.RefRow.bnRelu64 _ _ _ _ _
  rw [hk, hkg, hkb, hr, hh, hmean, hvar, hg, hbeta]

end Cert.Bridge

end
-- ==== Proof.Bridge3.lean ====
/-
  The second graph convolution and the second normalisation, stage by stage, and the second matrix product before
  them: the same comparisons as for the first convolution, one layer further (equal inputs give equal outputs at
  each stage).
-/
import proofs.«103011_j65481071395098_1_alg».proof.Proof.Gen.KernelIdeal.Frame
import proofs.«103011_j65481071395098_1_alg».proof.Proof.RefChain
import proofs.«103011_j65481071395098_1_alg».proof.Proof.RegionMM
import proofs.«103011_j65481071395098_1_alg».proof.Proof.RegionRow
import proofs.«103011_j65481071395098_1_alg».proof.Proof.RefDot
import proofs.«103011_j65481071395098_1_alg».proof.Proof.RefRow
import Idealize.ShloMosaic.PureOps.Ideal

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 4000000 in
/-- Dense stage 3: the kernel's blocks of the product, and the reference's whole product, are the same matrix
    product of equal operands. -/
theorem s7 (hx : Cert.KernelIdeal.Gen.W10 (F := Ideal) m ρ c (Proc.devRef .tc Cert.KernelIdeal.main_v56) = Cert.ReferenceIdeal.RefChain.A6 m' c (Proc.devRef .tc Cert.ReferenceIdeal.main_v68)) (hw : Cert.KernelIdeal.Gen.W10 (F := Ideal) m ρ c (Proc.devRef .tc Cert.KernelIdeal.main_arg6) = Cert.ReferenceIdeal.RefChain.A6 m' c (Proc.devRef .tc Cert.ReferenceIdeal.main_arg6)) :
    Cert.KernelIdeal.Gen.W11 (F := Ideal) m ρ c (Proc.devRef .tc Cert.KernelIdeal.main_v57) = Cert.ReferenceIdeal.RefChain.A7 m' c (Proc.devRef .tc Cert.ReferenceIdeal.main_v69) := by
  have hk : Cert.KernelIdeal.Gen.W11 (F := Ideal) m ρ c (Proc.devRef .tc Cert.KernelIdeal.main_v57) = Cert.Gcn.mm64 (Cert.KernelIdeal.Gen.W10 (F := Ideal) m ρ c (Proc.devRef .tc Cert.KernelIdeal.main_v56)) (Cert.KernelIdeal.Gen.W10 (F := Ideal) m ρ c (Proc.devRef .tc Cert.KernelIdeal.main_arg6)) :=
    (Cert.KernelIdeal.Gen.W11_arr (F := Ideal) m ρ c 2).trans (Cert.KernelIdeal.RegionMM.final3 (Cert.KernelIdeal.Gen.V10 (F := Ideal) m ρ) c)
  have hr : Cert.ReferenceIdeal.RefChain.A7 m' c (Proc.devRef .tc Cert.ReferenceIdeal.main_v69) = Cert.Gcn.mm64 (Cert.ReferenceIdeal.RefChain.A6 m' c (Proc.devRef .tc Cert.ReferenceIdeal.main_v68)) (Cert.ReferenceIdeal.RefChain.A6 m' c (Proc.devRef .tc Cert.ReferenceIdeal.main_arg6)) := by
    unfold Cert.ReferenceIdeal.RefChain.A7
    dsimp only [Cert.ReferenceIdeal.RefOps.R7]
    after_results_simp
    exact Cert.ReferenceIdeal.RefDot.dot64 _ _
  rw [hk, hr, hx, hw]

set_option maxHeartbeats 4000000 in
/-- The sparse stage after dense stage 3: gather the rows at the edges' sources, scale by the edge weights,
    scatter-add at the destinations — the same host operations on equal operands. -/
theorem s8 (hh : Cert.KernelIdeal.Gen.W11 (F := Ideal) m ρ c (Proc.devRef .tc Cert.KernelIdeal.main_v57) = Cert.ReferenceIdeal.RefChain.A7 m' c (Proc.devRef .tc Cert.ReferenceIdeal.main_v69)) (h3 : Cert.KernelIdeal.Gen.W11 (F := Ideal) m ρ c (Proc.devRef .tc Cert.KernelIdeal.main_v3) = Cert.ReferenceIdeal.RefChain.A7 m' c (Proc.devRef .tc Cert.ReferenceIdeal.main_v3))
    (h6 : Cert.KernelIdeal.Gen.W11 (F := Ideal) m ρ c (Proc.devRef .tc Cert.KernelIdeal.main_v6) = Cert.ReferenceIdeal.RefChain.A7 m' c (Proc.devRef .tc Cert.ReferenceIdeal.main_v6)) (h31 : Cert.KernelIdeal.Gen.W11 (F := Ideal) m ρ c (Proc.devRef .tc Cert.KernelIdeal.main_v31) = Cert.ReferenceIdeal.RefChain.A7 m' c (Proc.devRef .tc Cert.ReferenceIdeal.main_v31)) :
    Cert.KernelIdeal.Gen.W12 (F := Ideal) m ρ c (Proc.devRef .tc Cert.KernelIdeal.main_v70) = Cert.ReferenceIdeal.RefChain.A8 m' c (Proc.devRef .tc Cert.ReferenceIdeal.main_v82) := by
  unfold Cert.ReferenceIdeal.RefChain.A8
  dsimp only [Cert.KernelIdeal.Gen.W12, Cert.KernelIdeal.Gen.hostOps4, Cert.ReferenceIdeal.RefOps.R8]
  after_results_simp
  rw [hh, h3, h6, h31]
  first | done | rfl

set_option maxHeartbeats 4000000 in
/-- The bias of the convolution before dense stage 4's write-back: the kernel adds the bias row block by block, the
    reference adds it broadcast to every row. -/
theorem s9 (hh : Cert.KernelIdeal.Gen.W12 (F := Ideal) m ρ c (Proc.devRef .tc Cert.KernelIdeal.main_v70) = Cert.ReferenceIdeal.RefChain.A8 m' c (Proc.devRef .tc Cert.ReferenceIdeal.main_v82)) (hb : Cert.KernelIdeal.Gen.W11 (F := Ideal) m ρ c (Proc.devRef .tc Cert.KernelIdeal.main_arg7) = Cert.ReferenceIdeal.RefChain.A8 m' c (Proc.devRef .tc Cert.ReferenceIdeal.main_arg7)) :
    Cert.KernelIdeal.Gen.W13 (F := Ideal) m ρ c (Proc.devRef .tc Cert.KernelIdeal.main_v72) = Cert.ReferenceIdeal.RefChain.A9 m' c (Proc.devRef .tc Cert.ReferenceIdeal.main_v85) := by
  have hkb : Cert.KernelIdeal.Gen.W12 (F := Ideal) m ρ c (Proc.devRef .tc Cert.KernelIdeal.main_v71) = Cert.Gcn.row64 (Cert.KernelIdeal.Gen.W11 (F := Ideal) m ρ c (Proc.devRef .tc Cert.KernelIdeal.main_arg7)) := by
    dsimp only [Cert.KernelIdeal.Gen.W12, Cert.KernelIdeal.Gen.hostOps4]
    after_results_simp
    first | exact Cert.KernelIdeal.RegionRow.reshape_row64_fun _ _ | exact Cert.KernelIdeal.RegionRow.reshape_row64 _ _
  have hk : Cert.KernelIdeal.Gen.W13 (F := Ideal) m ρ c (Proc.devRef .tc Cert.KernelIdeal.main_v72) = Cert.Gcn.addRow64 (Cert.KernelIdeal.Gen.W12 (F := Ideal) m ρ c (Proc.devRef .tc Cert.KernelIdeal.main_v70)) (Cert.KernelIdeal.Gen.W12 (F := Ideal) m ρ c (Proc.devRef .tc Cert.KernelIdeal.main_v71)) :=
    (Cert.KernelIdeal.Gen.W13_arr (F := Ideal) m ρ c 2).trans (Cert.KernelIdeal.RegionRow.final4 (Cert.KernelIdeal.Gen.V12 (F := Ideal) m ρ) c)
  have hr : Cert.ReferenceIdeal.RefChain.A9 m' c (Proc.devRef .tc Cert.ReferenceIdeal.main_v85) = Cert.Gcn.addRow64 (Cert.ReferenceIdeal.RefChain.A8 m' c (Proc.devRef .tc Cert.ReferenceIdeal.main_v82)) (Cert.Gcn.row64 (Cert.ReferenceIdeal.RefChain.A8 m' c (Proc.devRef .tc Cert.ReferenceIdeal.main_arg7))) := by
    unfold Cert.ReferenceIdeal.RefChain.A9
    dsimp only [Cert.ReferenceIdeal.RefOps.R9]
    after_results_simp
    exact Cert.ReferenceIdeal.RefRow.bias64 _ _
  rw [hk, hkb, hr, hh, hb]

set_option maxHeartbeats 4000000 in
/-- The column means of equal matrices are equal (the kernel's program lays them out as a row). -/
theorem s10_mean (hh : Cert.KernelIdeal.Gen.W13 (F := Ideal) m ρ c (Proc.devRef .tc Cert.KernelIdeal.main_v72) = Cert.ReferenceIdeal.RefChain.A9 m' c (Proc.devRef .tc Cert.ReferenceIdeal.main_v85)) :
    Cert.KernelIdeal.Gen.W16 (F := Ideal) m ρ c (Proc.devRef .tc Cert.KernelIdeal.main_v77) = Cert.Gcn.row64 (Cert.ReferenceIdeal.RefChain.A10 m' c (Proc.devRef .tc Cert.ReferenceIdeal.main_v88)) := by
  unfold Cert.ReferenceIdeal.RefChain.A10
  dsimp only [Cert.KernelIdeal.Gen.W16, Cert.KernelIdeal.Gen.W15, Cert.KernelIdeal.Gen.W14, Cert.KernelIdeal.Gen.hostOps5, Cert.KernelIdeal.Gen.hostOps5_1, Cert.KernelIdeal.Gen.hostOps5_2, Cert.ReferenceIdeal.RefOps.R10]
  after_results_simp
  rw [hh]
  refine (Cert.KernelIdeal.RegionRow.reshape_row64_fun _ _).trans ?_
  first | rfl | exact congrArg _ rfl

/-- The column variances of equal matrices are equal (the kernel's program lays them out as a row). -/
theorem s10_var (hh : Cert.KernelIdeal.Gen.W13 (F := Ideal) m ρ c (Proc.devRef .tc Cert.KernelIdeal.main_v72) = Cert.ReferenceIdeal.RefChain.A9 m' c (Proc.devRef .tc Cert.ReferenceIdeal.main_v85)) :
    Cert.KernelIdeal.Gen.W16 (F := Ideal) m ρ c (Proc.devRef .tc Cert.KernelIdeal.main_v78) = Cert.Gcn.row64 (Cert.ReferenceIdeal.RefChain.A10 m' c (Proc.devRef .tc Cert.ReferenceIdeal.main_v89)) := by
  unfold Cert.ReferenceIdeal.RefChain.A10
  dsimp only [Cert.KernelIdeal.Gen.W16, Cert.KernelIdeal.Gen.W15, Cert.KernelIdeal.Gen.W14, Cert.KernelIdeal.Gen.hostOps5, Cert.KernelIdeal.Gen.hostOps5_1, Cert.KernelIdeal.Gen.hostOps5_2, Cert.ReferenceIdeal.RefOps.R10]
  after_results_simp
  rw [hh]
  refine (Cert.KernelIdeal.RegionRow.reshape_row64_fun _ _).trans ?_
  first | rfl | exact congrArg _ rfl

set_option maxHeartbeats 4000000 in
/-- Dense stage 5: normalisation, scale, shift and cut-off at zero, column statistics and parameters equal. -/
theorem s11 (hh : Cert.KernelIdeal.Gen.W16 (F := Ideal) m ρ c (Proc.devRef .tc Cert.KernelIdeal.main_v72) = Cert.ReferenceIdeal.RefChain.A10 m' c (Proc.devRef .tc Cert.ReferenceIdeal.main_v85)) (hmean : Cert.KernelIdeal.Gen.W16 (F := Ideal) m ρ c (Proc.devRef .tc Cert.KernelIdeal.main_v77) = Cert.Gcn.row64 (Cert.ReferenceIdeal.RefChain.A10 m' c (Proc.devRef .tc Cert.ReferenceIdeal.main_v88)))
    (hvar : Cert.KernelIdeal.Gen.W16 (F := Ideal) m ρ c (Proc.devRef .tc Cert.KernelIdeal.main_v78) = Cert.Gcn.row64 (Cert.ReferenceIdeal.RefChain.A10 m' c (Proc.devRef .tc Cert.ReferenceIdeal.main_v89)))
    (hg : Cert.KernelIdeal.Gen.W13 (F := Ideal) m ρ c (Proc.devRef .tc Cert.KernelIdeal.main_arg8) = Cert.ReferenceIdeal.RefChain.A10 m' c (Proc.devRef .tc Cert.ReferenceIdeal.main_arg8)) (hbeta : Cert.KernelIdeal.Gen.W13 (F := Ideal) m ρ c (Proc.devRef .tc Cert.KernelIdeal.main_arg9) = Cert.ReferenceIdeal.RefChain.A10 m' c (Proc.devRef .tc Cert.ReferenceIdeal.main_arg9)) :
    Cert.KernelIdeal.Gen.W17 (F := Ideal) m ρ c (Proc.devRef .tc Cert.KernelIdeal.main_v81) = Cert.ReferenceIdeal.RefChain.A11b m' c (Proc.devRef .tc Cert.ReferenceIdeal.main_v105) := by
  have hkg : Cert.KernelIdeal.Gen.W16 (F := Ideal) m ρ c (Proc.devRef .tc Cert.KernelIdeal.main_v79) = Cert.Gcn.row64 (Cert.KernelIdeal.Gen.W13 (F := Ideal) m ρ c (Proc.devRef .tc Cert.KernelIdeal.main_arg8)) := by
    dsimp only [Cert.KernelIdeal.Gen.W16, Cert.KernelIdeal.Gen.W15, Cert.KernelIdeal.Gen.W14, Cert.KernelIdeal.Gen.hostOps5, Cert.KernelIdeal.Gen.hostOps5_1, Cert.KernelIdeal.Gen.hostOps5_2]
    after_results_simp
    first | exact Cert.KernelIdeal.RegionRow.reshape_row64_fun _ _ | exact Cert.KernelIdeal.RegionRow.reshape_row64 _ _
  have hkb : Cert.KernelIdeal.Gen.W16 (F := Ideal) m ρ c (Proc.devRef .tc Cert.KernelIdeal.main_v80) = Cert.Gcn.row64 (Cert.KernelIdeal.Gen.W13 (F := Ideal) m ρ c (Proc.devRef .tc Cert.KernelIdeal.main_arg9)) := by
    dsimp only [Cert.KernelIdeal.Gen.W16, Cert.KernelIdeal.Gen.W15, Cert.KernelIdeal.Gen.W14, Cert.KernelIdeal.Gen.hostOps5, Cert.KernelIdeal.Gen.hostOps5_1, Cert.KernelIdeal.Gen.hostOps5_2]
    after_results_simp
    first | exact Cert.KernelIdeal.RegionRow.reshape_row64_fun _ _ | exact Cert.KernelIdeal.RegionRow.reshape_row64 _ _
  have hk : Cert.KernelIdeal.Gen.W17 (F := Ideal) m ρ c (Proc.devRef .tc Cert.KernelIdeal.main_v81) = Cert.Gcn.normRelu (Cert.KernelIdeal.Gen.W16 (F := Ideal) m ρ c (Proc.devRef .tc Cert.KernelIdeal.main_v72)) (Cert.KernelIdeal.Gen.W16 (F := Ideal) m ρ c (Proc.devRef .tc Cert.KernelIdeal.main_v77)) (Cert.KernelIdeal.Gen.W16 (F := Ideal) m ρ c (Proc.devRef .tc Cert.KernelIdeal.main_v78)) (Cert.KernelIdeal.Gen.W16 (F := Ideal) m ρ c (Proc.devRef .tc Cert.KernelIdeal.main_v79)) (Cert.KernelIdeal.Gen.W16 (F := Ideal) m ρ c (Proc.devRef .tc Cert.KernelIdeal.main_v80)) :=
    (Cert.KernelIdeal.Gen.W17_arr (F := Ideal) m ρ c 5).trans (Cert.KernelIdeal.RegionRow.final5 (Cert.KernelIdeal.Gen.V16 (F := Ideal) m ρ) c)
  have hr : Cert.ReferenceIdeal.RefChain.A11b m' c (Proc.devRef .tc Cert.ReferenceIdeal.main_v105) = Cert.Gcn.normRelu (Cert.ReferenceIdeal.RefChain.A10 m' c (Proc.devRef .tc Cert.ReferenceIdeal.main_v85)) (Cert.Gcn.row64 (Cert.ReferenceIdeal.RefChain.A10 m' c (Proc.devRef .tc Cert.ReferenceIdeal.main_v88))) (Cert.Gcn.row64 (Cert.ReferenceIdeal.RefChain.A10 m' c (Proc.devRef .tc Cert.ReferenceIdeal.main_v89)))
      (Cert.Gcn.row64 (Cert.ReferenceIdeal.RefChain.A10 m' c (Proc.devRef .tc Cert.ReferenceIdeal.main_arg8))) (Cert.Gcn.row64 (Cert.ReferenceIdeal.RefChain.A10 m' c (Proc.devRef .tc Cert.ReferenceIdeal.main_arg9))) := by
    have hrelu : Cert.ReferenceIdeal.RefChain.A11b m' c (Proc.devRef .tc Cert.ReferenceIdeal.main_v105) = maximumf (F := Ideal) (φ := .f32) (Cert.ReferenceIdeal.RefChain.A11b m' c (Proc.devRef .tc Cert.ReferenceIdeal.main_v104))
        (broadcastInDim Cert.ReferenceIdeal.S100000x64 ![] Cert.ReferenceIdeal.Gen.bcast_S_S100000x64 (constant (F := Ideal) Cert.ReferenceIdeal.S_ .f32 0x00000000#32)) := by
      unfold Cert.ReferenceIdeal.RefChain.A11b Cert.ReferenceIdeal.RefChain.A11a
      rfl
    rw [hrelu]
    unfold Cert.ReferenceIdeal.RefChain.A11b Cert.ReferenceIdeal.RefChain.A11a
    dsimp only [Cert.ReferenceIdeal.RefOps.R11b, Cert.ReferenceIdeal.RefOps.R11a]
    after_results_simp
    exact Cert.ReferenceIdeal.RefRow.bnRelu64 _ _ _ _ _
  rw [hk, hkg, hkb, hr, hh, hmean, hvar, hg, hbeta]

end Cert.Bridge

end
-- ==== Proof.Bridge4.lean ====
/-
  The two output heads (mean and log-deviation), stage by stage: each is a graph convolution of the second
  normalised layer with its own weights and bias; equal inputs give equal outputs at each stage.
-/
import proofs.«103011_j65481071395098_1_alg».proof.Proof.Gen.KernelIdeal.Frame
import proofs.«103011_j65481071395098_1_alg».proof.Proof.RefChain
import proofs.«103011_j65481071395098_1_alg».proof.Proof.RegionMM
import proofs.«103011_j65481071395098_1_alg».proof.Proof.RegionRow
import proofs.«103011_j65481071395098_1_alg».proof.Proof.RefDot
import proofs.«103011_j65481071395098_1_alg».proof.Proof.RefRow
import Idealize.ShloMosaic.PureOps.Ideal

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 4000000 in
/-- Dense stage 6: the kernel's blocks of the product, and the reference's whole product, are the same matrix
    product of equal operands. -/
theorem s12 (hx : Cert.KernelIdeal.Gen.W17 (F := Ideal) m ρ c (Proc.devRef .tc Cert.KernelIdeal.main_v81) = Cert.ReferenceIdeal.RefChain.A11b m' c (Proc.devRef .tc Cert.ReferenceIdeal.main_v105)) (hw : Cert.KernelIdeal.Gen.W17 (F := Ideal) m ρ c (Proc.devRef .tc Cert.KernelIdeal.main_arg10) = Cert.ReferenceIdeal.RefChain.A11b m' c (Proc.devRef .tc Cert.ReferenceIdeal.main_arg10)) :
    Cert.KernelIdeal.Gen.W18 (F := Ideal) m ρ c (Proc.devRef .tc Cert.KernelIdeal.main_v82) = Cert.ReferenceIdeal.RefChain.A12 m' c (Proc.devRef .tc Cert.ReferenceIdeal.main_v106) := by
  have hk : Cert.KernelIdeal.Gen.W18 (F := Ideal) m ρ c (Proc.devRef .tc Cert.KernelIdeal.main_v82) = Cert.Gcn.mm32 (Cert.KernelIdeal.Gen.W17 (F := Ideal) m ρ c (Proc.devRef .tc Cert.KernelIdeal.main_v81)) (Cert.KernelIdeal.Gen.W17 (F := Ideal) m ρ c (Proc.devRef .tc Cert.KernelIdeal.main_arg10)) :=
    (Cert.KernelIdeal.Gen.W18_arr (F := Ideal) m ρ c 2).trans (Cert.KernelIdeal.RegionMM.final6 (Cert.KernelIdeal.Gen.V17 (F := Ideal) m ρ) c)
  have hr : Cert.ReferenceIdeal.RefChain.A12 m' c (Proc.devRef .tc Cert.ReferenceIdeal.main_v106) = Cert.Gcn.mm32 (Cert.ReferenceIdeal.RefChain.A11b m' c (Proc.devRef .tc Cert.ReferenceIdeal.main_v105)) (Cert.ReferenceIdeal.RefChain.A11b m' c (Proc.devRef .tc Cert.ReferenceIdeal.main_arg10)) := by
    unfold Cert.ReferenceIdeal.RefChain.A12
    dsimp only [Cert.ReferenceIdeal.RefOps.R12]
    after_results_simp
    exact Cert.ReferenceIdeal.RefDot.dot32 _ _
  rw [hk, hr, hx, hw]

set_option maxHeartbeats 4000000 in
/-- The sparse stage after dense stage 6: gather the rows at the edges' sources, scale by the edge weights,
    scatter-add at the destinations — the same host operations on equal operands. -/
theorem s13 (hh : Cert.KernelIdeal.Gen.W18 (F := Ideal) m ρ c (Proc.devRef .tc Cert.KernelIdeal.main_v82) = Cert.ReferenceIdeal.RefChain.A12 m' c (Proc.devRef .tc Cert.ReferenceIdeal.main_v106)) (h3 : Cert.KernelIdeal.Gen.W18 (F := Ideal) m ρ c (Proc.devRef .tc Cert.KernelIdeal.main_v3) = Cert.ReferenceIdeal.RefChain.A12 m' c (Proc.devRef .tc Cert.ReferenceIdeal.main_v3))
    (h6 : Cert.KernelIdeal.Gen.W18 (F := Ideal) m ρ c (Proc.devRef .tc Cert.KernelIdeal.main_v6) = Cert.ReferenceIdeal.RefChain.A12 m' c (Proc.devRef .tc Cert.ReferenceIdeal.main_v6)) (h31 : Cert.KernelIdeal.Gen.W18 (F := Ideal) m ρ c (Proc.devRef .tc Cert.KernelIdeal.main_v31) = Cert.ReferenceIdeal.RefChain.A12 m' c (Proc.devRef .tc Cert.ReferenceIdeal.main_v31)) :
    Cert.KernelIdeal.Gen.W19 (F := Ideal) m ρ c (Proc.devRef .tc Cert.KernelIdeal.main_v95) = Cert.ReferenceIdeal.RefChain.A13 m' c (Proc.devRef .tc Cert.ReferenceIdeal.main_v119) := by
  unfold Cert.ReferenceIdeal.RefChain.A13
  dsimp only [Cert.KernelIdeal.Gen.W19, Cert.KernelIdeal.Gen.hostOps7, Cert.ReferenceIdeal.RefOps.R13]
  after_results_simp
  rw [hh, h3, h6, h31]
  first | done | rfl

set_option maxHeartbeats 4000000 in
/-- The bias of the convolution before dense stage 7's write-back: the kernel adds the bias row block by block, the
    reference adds it broadcast to every row. -/
theorem s14 (hh : Cert.KernelIdeal.Gen.W19 (F := Ideal) m ρ c (Proc.devRef .tc Cert.KernelIdeal.main_v95) = Cert.ReferenceIdeal.RefChain.A13 m' c (Proc.devRef .tc Cert.ReferenceIdeal.main_v119)) (hb : Cert.KernelIdeal.Gen.W18 (F := Ideal) m ρ c (Proc.devRef .tc Cert.KernelIdeal.main_arg11) = Cert.ReferenceIdeal.RefChain.A13 m' c (Proc.devRef .tc Cert.ReferenceIdeal.main_arg11)) :
    Cert.KernelIdeal.Gen.W20 (F := Ideal) m ρ c (Proc.devRef .tc Cert.KernelIdeal.main_v97) = Cert.ReferenceIdeal.RefChain.A14 m' c (Proc.devRef .tc Cert.ReferenceIdeal.main_v122) := by
  have hkb : Cert.KernelIdeal.Gen.W19 (F := Ideal) m ρ c (Proc.devRef .tc Cert.KernelIdeal.main_v96) = Cert.Gcn.row32 (Cert.KernelIdeal.Gen.W18 (F := Ideal) m ρ c (Proc.devRef .tc Cert.KernelIdeal.main_arg11)) := by
    dsimp only [Cert.KernelIdeal.Gen.W19, Cert.KernelIdeal.Gen.hostOps7]
    after_results_simp
    first | exact Cert.KernelIdeal.RegionRow.reshape_row32_fun _ _ | exact Cert.KernelIdeal.RegionRow.reshape_row32 _ _
  have hk : Cert.KernelIdeal.Gen.W20 (F := Ideal) m ρ c (Proc.devRef .tc Cert.KernelIdeal.main_v97) = Cert.Gcn.addRow32 (Cert.KernelIdeal.Gen.W19 (F := Ideal) m ρ c (Proc.devRef .tc Cert.KernelIdeal.main_v95)) (Cert.KernelIdeal.Gen.W19 (F := Ideal) m ρ c (Proc.devRef .tc Cert.KernelIdeal.main_v96)) :=
    (Cert.KernelIdeal.Gen.W20_arr (F := Ideal) m ρ c 2).trans (Cert.KernelIdeal.RegionRow.final7 (Cert.KernelIdeal.Gen.V19 (F := Ideal) m ρ) c)
  have hr : Cert.ReferenceIdeal.RefChain.A14 m' c (Proc.devRef .tc Cert.ReferenceIdeal.main_v122) = Cert.Gcn.addRow32 (Cert.ReferenceIdeal.RefChain.A13 m' c (Proc.devRef .tc Cert.ReferenceIdeal.main_v119)) (Cert.Gcn.row32 (Cert.ReferenceIdeal.RefChain.A13 m' c (Proc.devRef .tc Cert.ReferenceIdeal.main_arg11))) := by
    unfold Cert.ReferenceIdeal.RefChain.A14
    dsimp only [Cert.ReferenceIdeal.RefOps.R14]
    after_results_simp
    exact Cert.ReferenceIdeal.RefRow.bias32 _ _
  rw [hk, hkb, hr, hh, hb]

set_option maxHeartbeats 4000000 in
/-- Dense stage 8: the kernel's blocks of the product, and the reference's whole product, are the same matrix
    product of equal operands. -/
theorem s15 (hx : Cert.KernelIdeal.Gen.W20 (F := Ideal) m ρ c (Proc.devRef .tc Cert.KernelIdeal.main_v81) = Cert.ReferenceIdeal.RefChain.A14 m' c (Proc.devRef .tc Cert.ReferenceIdeal.main_v105)) (hw : Cert.KernelIdeal.Gen.W20 (F := Ideal) m ρ c (Proc.devRef .tc Cert.KernelIdeal.main_arg12) = Cert.ReferenceIdeal.RefChain.A14 m' c (Proc.devRef .tc Cert.ReferenceIdeal.main_arg12)) :
    Cert.KernelIdeal.Gen.W21 (F := Ideal) m ρ c (Proc.devRef .tc Cert.KernelIdeal.main_v98) = Cert.ReferenceIdeal.RefChain.A15 m' c (Proc.devRef .tc Cert.ReferenceIdeal.main_v123) := by
  have hk : Cert.KernelIdeal.Gen.W21 (F := Ideal) m ρ c (Proc.devRef .tc Cert.KernelIdeal.main_v98) = Cert.Gcn.mm32 (Cert.KernelIdeal.Gen.W20 (F := Ideal) m ρ c (Proc.devRef .tc Cert.KernelIdeal.main_v81)) (Cert.KernelIdeal.Gen.W20 (F := Ideal) m ρ c (Proc.devRef .tc Cert.KernelIdeal.main_arg12)) :=
    (Cert.KernelIdeal.Gen.W21_arr (F := Ideal) m ρ c 2).trans (Cert.KernelIdeal.RegionMM.final8 (Cert.KernelIdeal.Gen.V20 (F := Ideal) m ρ) c)
  have hr : Cert.ReferenceIdeal.RefChain.A15 m' c (Proc.devRef .tc Cert.ReferenceIdeal.main_v123) = Cert.Gcn.mm32 (Cert.ReferenceIdeal.RefChain.A14 m' c (Proc.devRef .tc Cert.ReferenceIdeal.main_v105)) (Cert.ReferenceIdeal.RefChain.A14 m' c (Proc.devRef .tc Cert.ReferenceIdeal.main_arg12)) := by
    unfold Cert.ReferenceIdeal.RefChain.A15
    dsimp only [Cert.ReferenceIdeal.RefOps.R15]
    after_results_simp
    exact Cert.ReferenceIdeal.RefDot.dot32 _ _
  rw [hk, hr, hx, hw]

set_option maxHeartbeats 4000000 in
/-- The sparse stage after dense stage 8: gather the rows at the edges' sources, scale by the edge weights,
    scatter-add at the destinations — the same host operations on equal operands. -/
theorem s16 (hh : Cert.KernelIdeal.Gen.W21 (F := Ideal) m ρ c (Proc.devRef .tc Cert.KernelIdeal.main_v98) = Cert.ReferenceIdeal.RefChain.A15 m' c (Proc.devRef .tc Cert.ReferenceIdeal.main_v123)) (h3 : Cert.KernelIdeal.Gen.W21 (F := Ideal) m ρ c (Proc.devRef .tc Cert.KernelIdeal.main_v3) = Cert.ReferenceIdeal.RefChain.A15 m' c (Proc.devRef .tc Cert.ReferenceIdeal.main_v3))
    (h6 : Cert.KernelIdeal.Gen.W21 (F := Ideal) m ρ c (Proc.devRef .tc Cert.KernelIdeal.main_v6) = Cert.ReferenceIdeal.RefChain.A15 m' c (Proc.devRef .tc Cert.ReferenceIdeal.main_v6)) (h31 : Cert.KernelIdeal.Gen.W21 (F := Ideal) m ρ c (Proc.devRef .tc Cert.KernelIdeal.main_v31) = Cert.ReferenceIdeal.RefChain.A15 m' c (Proc.devRef .tc Cert.ReferenceIdeal.main_v31)) :
    Cert.KernelIdeal.Gen.W22 (F := Ideal) m ρ c (Proc.devRef .tc Cert.KernelIdeal.main_v111) = Cert.ReferenceIdeal.RefChain.A16 m' c (Proc.devRef .tc Cert.ReferenceIdeal.main_v136) := by
  unfold Cert.ReferenceIdeal.RefChain.A16
  dsimp only [Cert.KernelIdeal.Gen.W22, Cert.KernelIdeal.Gen.hostOps9, Cert.ReferenceIdeal.RefOps.R16]
  after_results_simp
  rw [hh, h3, h6, h31]
  first | done | rfl

set_option maxHeartbeats 4000000 in
/-- The bias of the convolution before dense stage 9's write-back: the kernel adds the bias row block by block, the
    reference adds it broadcast to every row. -/
theorem s17 (hh : Cert.KernelIdeal.Gen.W22 (F := Ideal) m ρ c (Proc.devRef .tc Cert.KernelIdeal.main_v111) = Cert.ReferenceIdeal.RefChain.A16 m' c (Proc.devRef .tc Cert.ReferenceIdeal.main_v136)) (hb : Cert.KernelIdeal.Gen.W21 (F := Ideal) m ρ c (Proc.devRef .tc Cert.KernelIdeal.main_arg13) = Cert.ReferenceIdeal.RefChain.A16 m' c (Proc.devRef .tc Cert.ReferenceIdeal.main_arg13)) :
    Cert.KernelIdeal.Gen.W23 (F := Ideal) m ρ c (Proc.devRef .tc Cert.KernelIdeal.main_v113) = Cert.ReferenceIdeal.RefChain.A17 m' c (Proc.devRef .tc Cert.ReferenceIdeal.main_v139) := by
  have hkb : Cert.KernelIdeal.Gen.W22 (F := Ideal) m ρ c (Proc.devRef .tc Cert.KernelIdeal.main_v112) = Cert.Gcn.row32 (Cert.KernelIdeal.Gen.W21 (F := Ideal) m ρ c (Proc.devRef .tc Cert.KernelIdeal.main_arg13)) := by
    dsimp only [Cert.KernelIdeal.Gen.W22, Cert.KernelIdeal.Gen.hostOps9]
    after_results_simp
    first | exact Cert.KernelIdeal.RegionRow.reshape_row32_fun _ _ | exact Cert.KernelIdeal.RegionRow.reshape_row32 _ _
  have hk : Cert.KernelIdeal.Gen.W23 (F := Ideal) m ρ c (Proc.devRef .tc Cert.KernelIdeal.main_v113) = Cert.Gcn.addRow32 (Cert.KernelIdeal.Gen.W22 (F := Ideal) m ρ c (Proc.devRef .tc Cert.KernelIdeal.main_v111)) (Cert.KernelIdeal.Gen.W22 (F := Ideal) m ρ c (Proc.devRef .tc Cert.KernelIdeal.main_v112)) :=
    (Cert.KernelIdeal.Gen.W23_arr (F := Ideal) m ρ c 2).trans (Cert.KernelIdeal.RegionRow.final9 (Cert.KernelIdeal.Gen.V22 (F := Ideal) m ρ) c)
  have hr : Cert.ReferenceIdeal.RefChain.A17 m' c (Proc.devRef .tc Cert.ReferenceIdeal.main_v139) = Cert.Gcn.addRow32 (Cert.ReferenceIdeal.RefChain.A16 m' c (Proc.devRef .tc Cert.ReferenceIdeal.main_v136)) (Cert.Gcn.row32 (Cert.ReferenceIdeal.RefChain.A16 m' c (Proc.devRef .tc Cert.ReferenceIdeal.main_arg13))) := by
    unfold Cert.ReferenceIdeal.RefChain.A17
    dsimp only [Cert.ReferenceIdeal.RefOps.R17]
    after_results_simp
    exact Cert.ReferenceIdeal.RefRow.bias32 _ _
  rw [hk, hkb, hr, hh, hb]

end Cert.Bridge

end
-- ==== Proof.BridgeFinal.lean ====
/-
  The two programs end with equal results.

  The comparisons of the single stages are chained from the arguments to the two result arrays: the graph's
  normalisation; the first convolution (product, sparse aggregation, bias); its column statistics and
  normalisation; the second convolution and normalisation; and the two heads.  Between the stages a buffer that
  is not written keeps its contents, on both sides, which carries the edge vectors and the normalised second
  layer to the places where they are read again.
-/
import proofs.«103011_j65481071395098_1_alg».proof.Proof.KKeep
import proofs.«103011_j65481071395098_1_alg».proof.Proof.RefChain
import proofs.«103011_j65481071395098_1_alg».proof.Proof.Bridge1
import proofs.«103011_j65481071395098_1_alg».proof.Proof.Bridge2
import proofs.«103011_j65481071395098_1_alg».proof.Proof.Bridge3
import proofs.«103011_j65481071395098_1_alg».proof.Proof.Bridge4
import Idealize.ShloMosaic.PureOps.Ideal

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The mean head: the kernel's program ends with the array the reference ends with. -/
theorem agree_mu_of (ha0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (ha1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (ha2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (ha3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (ha4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (ha5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (ha6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (ha7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (ha8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (ha9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (ha10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (ha11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (ha12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) (ha13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.KernelIdeal.Gen.W23 (F := Ideal) m ρ c (Proc.devRef .tc Cert.KernelIdeal.main_v97) = Cert.ReferenceIdeal.RefChain.A17 m' c (Proc.devRef .tc Cert.ReferenceIdeal.main_v122) := by
  have ev3 := s1_v3 m ρ m' c ha1
  have ev6 := s1_v6 m ρ m' c ha1
  have ev31 := s1_v31 m ρ m' c ha1
  have h32 := s2 m ρ m' c ((Cert.KernelIdeal.KKeep.arg0_at_W3 m ρ c).trans ((ha0).symm.trans (Cert.ReferenceIdeal.RefChain.arg0_at_A1 m' c).symm)) ((Cert.KernelIdeal.KKeep.arg2_at_W3 m ρ c).trans ((ha2).symm.trans (Cert.ReferenceIdeal.RefChain.arg2_at_A1 m' c).symm))
  have h45 := s3 m ρ m' c h32 ((Cert.KernelIdeal.KKeep.keep_main_v3_W4 m ρ c).trans (ev3.trans (Cert.ReferenceIdeal.RefChain.keep_v3_A2 m' c).symm)) ((Cert.KernelIdeal.KKeep.keep_main_v6_W4 m ρ c).trans (ev6.trans (Cert.ReferenceIdeal.RefChain.keep_v6_A2 m' c).symm)) ((Cert.KernelIdeal.KKeep.keep_main_v31_W4 m ρ c).trans (ev31.trans (Cert.ReferenceIdeal.RefChain.keep_v31_A2 m' c).symm))
  have h47 := s4 m ρ m' c h45 ((Cert.KernelIdeal.KKeep.arg3_at_W4 m ρ c).trans ((ha3).symm.trans (Cert.ReferenceIdeal.RefChain.arg3_at_A3 m' c).symm))
  have hmean1 := s5_mean m ρ m' c h47
  have hvar1 := s5_var m ρ m' c h47
  have h47' := (Cert.KernelIdeal.KKeep.keep_main_v47_W9 m ρ c).trans (h47.trans (Cert.ReferenceIdeal.RefChain.keep_v48_A5 m' c).symm)
  have h56 := s6 m ρ m' c h47' hmean1 hvar1 ((Cert.KernelIdeal.KKeep.arg4_at_W6 m ρ c).trans ((ha4).symm.trans (Cert.ReferenceIdeal.RefChain.arg4_at_A5 m' c).symm)) ((Cert.KernelIdeal.KKeep.arg5_at_W6 m ρ c).trans ((ha5).symm.trans (Cert.ReferenceIdeal.RefChain.arg5_at_A5 m' c).symm))
  have h57 := s7 m ρ m' c h56 ((Cert.KernelIdeal.KKeep.arg6_at_W10 m ρ c).trans ((ha6).symm.trans (Cert.ReferenceIdeal.RefChain.arg6_at_A6 m' c).symm))
  have h70 := s8 m ρ m' c h57 ((Cert.KernelIdeal.KKeep.keep_main_v3_W11 m ρ c).trans (ev3.trans (Cert.ReferenceIdeal.RefChain.keep_v3_A7 m' c).symm)) ((Cert.KernelIdeal.KKeep.keep_main_v6_W11 m ρ c).trans (ev6.trans (Cert.ReferenceIdeal.RefChain.keep_v6_A7 m' c).symm)) ((Cert.KernelIdeal.KKeep.keep_main_v31_W11 m ρ c).trans (ev31.trans (Cert.ReferenceIdeal.RefChain.keep_v31_A7 m' c).symm))
  have h72 := s9 m ρ m' c h70 ((Cert.KernelIdeal.KKeep.arg7_at_W11 m ρ c).trans ((ha7).symm.trans (Cert.ReferenceIdeal.RefChain.arg7_at_A8 m' c).symm))
  have hmean2 := s10_mean m ρ m' c h72
  have hvar2 := s10_var m ρ m' c h72
  have h72' := (Cert.KernelIdeal.KKeep.keep_main_v72_W16 m ρ c).trans (h72.trans (Cert.ReferenceIdeal.RefChain.keep_v85_A10 m' c).symm)
  have h81 := s11 m ρ m' c h72' hmean2 hvar2 ((Cert.KernelIdeal.KKeep.arg8_at_W13 m ρ c).trans ((ha8).symm.trans (Cert.ReferenceIdeal.RefChain.arg8_at_A10 m' c).symm)) ((Cert.KernelIdeal.KKeep.arg9_at_W13 m ρ c).trans ((ha9).symm.trans (Cert.ReferenceIdeal.RefChain.arg9_at_A10 m' c).symm))
  have h82 := s12 m ρ m' c h81 ((Cert.KernelIdeal.KKeep.arg10_at_W17 m ρ c).trans ((ha10).symm.trans (Cert.ReferenceIdeal.RefChain.arg10_at_A11b m' c).symm))
  have h95 := s13 m ρ m' c h82 ((Cert.KernelIdeal.KKeep.keep_main_v3_W18 m ρ c).trans (ev3.trans (Cert.ReferenceIdeal.RefChain.keep_v3_A12 m' c).symm)) ((Cert.KernelIdeal.KKeep.keep_main_v6_W18 m ρ c).trans (ev6.trans (Cert.ReferenceIdeal.RefChain.keep_v6_A12 m' c).symm)) ((Cert.KernelIdeal.KKeep.keep_main_v31_W18 m ρ c).trans (ev31.trans (Cert.ReferenceIdeal.RefChain.keep_v31_A12 m' c).symm))
  have h97 := s14 m ρ m' c h95 ((Cert.KernelIdeal.KKeep.arg11_at_W18 m ρ c).trans ((ha11).symm.trans (Cert.ReferenceIdeal.RefChain.arg11_at_A13 m' c).symm))
  exact (Cert.KernelIdeal.KKeep.keep_main_v97_W23 m ρ c).trans (h97.trans (Cert.ReferenceIdeal.RefChain.keep_v122_A17 m' c).symm)

/-- The log-deviation head: likewise. -/
theorem agree_logstd_of (ha0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (ha1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (ha2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (ha3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (ha4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (ha5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (ha6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (ha7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (ha8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (ha9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (ha10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (ha11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (ha12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) (ha13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.KernelIdeal.Gen.W23 (F := Ideal) m ρ c (Proc.devRef .tc Cert.KernelIdeal.main_v113) = Cert.ReferenceIdeal.RefChain.A17 m' c (Proc.devRef .tc Cert.ReferenceIdeal.main_v139) := by
  have ev3 := s1_v3 m ρ m' c ha1
  have ev6 := s1_v6 m ρ m' c ha1
  have ev31 := s1_v31 m ρ m' c ha1
  have h32 := s2 m ρ m' c ((Cert.KernelIdeal.KKeep.arg0_at_W3 m ρ c).trans ((ha0).symm.trans (Cert.ReferenceIdeal.RefChain.arg0_at_A1 m' c).symm)) ((Cert.KernelIdeal.KKeep.arg2_at_W3 m ρ c).trans ((ha2).symm.trans (Cert.ReferenceIdeal.RefChain.arg2_at_A1 m' c).symm))
  have h45 := s3 m ρ m' c h32 ((Cert.KernelIdeal.KKeep.keep_main_v3_W4 m ρ c).trans (ev3.trans (Cert.ReferenceIdeal.RefChain.keep_v3_A2 m' c).symm)) ((Cert.KernelIdeal.KKeep.keep_main_v6_W4 m ρ c).trans (ev6.trans (Cert.ReferenceIdeal.RefChain.keep_v6_A2 m' c).symm)) ((Cert.KernelIdeal.KKeep.keep_main_v31_W4 m ρ c).trans (ev31.trans (Cert.ReferenceIdeal.RefChain.keep_v31_A2 m' c).symm))
  have h47 := s4 m ρ m' c h45 ((Cert.KernelIdeal.KKeep.arg3_at_W4 m ρ c).trans ((ha3).symm.trans (Cert.ReferenceIdeal.RefChain.arg3_at_A3 m' c).symm))
  have hmean1 := s5_mean m ρ m' c h47
  have hvar1 := s5_var m ρ m' c h47
  have h47' := (Cert.KernelIdeal.KKeep.keep_main_v47_W9 m ρ c).trans (h47.trans (Cert.ReferenceIdeal.RefChain.keep_v48_A5 m' c).symm)
  have h56 := s6 m ρ m' c h47' hmean1 hvar1 ((Cert.KernelIdeal.KKeep.arg4_at_W6 m ρ c).trans ((ha4).symm.trans (Cert.ReferenceIdeal.RefChain.arg4_at_A5 m' c).symm)) ((Cert.KernelIdeal.KKeep.arg5_at_W6 m ρ c).trans ((ha5).symm.trans (Cert.ReferenceIdeal.RefChain.arg5_at_A5 m' c).symm))
  have h57 := s7 m ρ m' c h56 ((Cert.KernelIdeal.KKeep.arg6_at_W10 m ρ c).trans ((ha6).symm.trans (Cert.ReferenceIdeal.RefChain.arg6_at_A6 m' c).symm))
  have h70 := s8 m ρ m' c h57 ((Cert.KernelIdeal.KKeep.keep_main_v3_W11 m ρ c).trans (ev3.trans (Cert.ReferenceIdeal.RefChain.keep_v3_A7 m' c).symm)) ((Cert.KernelIdeal.KKeep.keep_main_v6_W11 m ρ c).trans (ev6.trans (Cert.ReferenceIdeal.RefChain.keep_v6_A7 m' c).symm)) ((Cert.KernelIdeal.KKeep.keep_main_v31_W11 m ρ c).trans (ev31.trans (Cert.ReferenceIdeal.RefChain.keep_v31_A7 m' c).symm))
  have h72 := s9 m ρ m' c h70 ((Cert.KernelIdeal.KKeep.arg7_at_W11 m ρ c).trans ((ha7).symm.trans (Cert.ReferenceIdeal.RefChain.arg7_at_A8 m' c).symm))
  have hmean2 := s10_mean m ρ m' c h72
  have hvar2 := s10_var m ρ m' c h72
  have h72' := (Cert.KernelIdeal.KKeep.keep_main_v72_W16 m ρ c).trans (h72.trans (Cert.ReferenceIdeal.RefChain.keep_v85_A10 m' c).symm)
  have h81 := s11 m ρ m' c h72' hmean2 hvar2 ((Cert.KernelIdeal.KKeep.arg8_at_W13 m ρ c).trans ((ha8).symm.trans (Cert.ReferenceIdeal.RefChain.arg8_at_A10 m' c).symm)) ((Cert.KernelIdeal.KKeep.arg9_at_W13 m ρ c).trans ((ha9).symm.trans (Cert.ReferenceIdeal.RefChain.arg9_at_A10 m' c).symm))
  have h81' := (Cert.KernelIdeal.KKeep.keep_main_v81_W20 m ρ c).trans (h81.trans (Cert.ReferenceIdeal.RefChain.keep_v105_A14 m' c).symm)
  have h98 := s15 m ρ m' c h81' ((Cert.KernelIdeal.KKeep.arg12_at_W20 m ρ c).trans ((ha12).symm.trans (Cert.ReferenceIdeal.RefChain.arg12_at_A14 m' c).symm))
  have h111 := s16 m ρ m' c h98 ((Cert.KernelIdeal.KKeep.keep_main_v3_W21 m ρ c).trans (ev3.trans (Cert.ReferenceIdeal.RefChain.keep_v3_A15 m' c).symm)) ((Cert.KernelIdeal.KKeep.keep_main_v6_W21 m ρ c).trans (ev6.trans (Cert.ReferenceIdeal.RefChain.keep_v6_A15 m' c).symm)) ((Cert.KernelIdeal.KKeep.keep_main_v31_W21 m ρ c).trans (ev31.trans (Cert.ReferenceIdeal.RefChain.keep_v31_A15 m' c).symm))
  exact s17 m ρ m' c h111 ((Cert.KernelIdeal.KKeep.arg13_at_W21 m ρ c).trans ((ha13).symm.trans (Cert.ReferenceIdeal.RefChain.arg13_at_A16 m' c).symm))

/-- The same from the agreement of all fourteen arguments, as the claim states it. -/
theorem agree_mu (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.KernelIdeal.Gen.W23 (F := Ideal) m ρ c (Proc.devRef .tc Cert.KernelIdeal.main_v97) = Cert.ReferenceIdeal.RefChain.A17 m' c (Proc.devRef .tc Cert.ReferenceIdeal.main_v122) := by
  obtain ⟨ha0, ha1, ha2, ha3, ha4, ha5, ha6, ha7, ha8, ha9, ha10, ha11, ha12, ha13⟩ := hag
  exact agree_mu_of m ρ m' c ha0 ha1 ha2 ha3 ha4 ha5 ha6 ha7 ha8 ha9 ha10 ha11 ha12 ha13

/-- The same from the agreement of all fourteen arguments, as the claim states it. -/
theorem agree_logstd (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.KernelIdeal.Gen.W23 (F := Ideal) m ρ c (Proc.devRef .tc Cert.KernelIdeal.main_v113) = Cert.ReferenceIdeal.RefChain.A17 m' c (Proc.devRef .tc Cert.ReferenceIdeal.main_v139) := by
  obtain ⟨ha0, ha1, ha2, ha3, ha4, ha5, ha6, ha7, ha8, ha9, ha10, ha11, ha12, ha13⟩ := hag
  exact agree_logstd_of m ρ m' c ha0 ha1 ha2 ha3 ha4 ha5 ha6 ha7 ha8 ha9 ha10 ha11 ha12 ha13

end Cert.Bridge

end
-- ==== Proof.lean ====
/-
  The certificate of the graph-convolution encoder: five claims about three programs.

  Three of them say that a program, started from any memory whose float inputs are finite, terminates on every
  weakly fair execution without a fault and leaves its fourteen argument arrays as they were.  For the kernel as
  printed and for its reading over the extended reals this is the launch-by-launch account of its ten dense
  stages and of the host operations between them; for the reference, which launches nothing, it is the fold of
  its host operations over the launch contents, read at the arguments, which no operation writes.

  The fourth says that the reading over the extended reals is the kernel's own text: no operation was
  rewritten, so there is nothing to show.

  The fifth says that over the extended reals, from memories that agree on the arguments, the kernel and the
  reference end with the same two result arrays, entry by entry.  Each side's run names its results as the
  last link of a chain of buffer contents; the two last links are equal because every dense stage of the
  kernel — a product with a small weight matrix gathered block by block, a bias row added to every row, a
  column-wise normalisation cut off at zero — computes the function the reference computes with whole-array
  operations, and the sparse stages in between are the same host operations applied to equal operands.
-/
import proofs.«103011_j65481071395098_1_alg».proof.Defs
import proofs.«103011_j65481071395098_1_alg».proof.Proof.Gen.Kernel
import proofs.«103011_j65481071395098_1_alg».proof.Proof.Gen.Kernel.Skeleton
import proofs.«103011_j65481071395098_1_alg».proof.Proof.Gen.Kernel.Launch
import proofs.«103011_j65481071395098_1_alg».proof.Proof.Gen.Kernel.Points
import proofs.«103011_j65481071395098_1_alg».proof.Proof.Gen.Kernel.Frame
import proofs.«103011_j65481071395098_1_alg».proof.Proof.Gen.KernelIdeal
import proofs.«103011_j65481071395098_1_alg».proof.Proof.Gen.KernelIdeal.Skeleton
import proofs.«103011_j65481071395098_1_alg».proof.Proof.Gen.KernelIdeal.Launch
import proofs.«103011_j65481071395098_1_alg».proof.Proof.Gen.KernelIdeal.Points
import proofs.«103011_j65481071395098_1_alg».proof.Proof.Gen.KernelIdeal.Frame
import proofs.«103011_j65481071395098_1_alg».proof.Proof.Gen.ReferenceIdeal
import proofs.«103011_j65481071395098_1_alg».proof.Proof.Gen.Pre_finite_inputs
import proofs.«103011_j65481071395098_1_alg».proof.Proof.KRun
import proofs.«103011_j65481071395098_1_alg».proof.Proof.RefRunA
import proofs.«103011_j65481071395098_1_alg».proof.Proof.BridgeFinal
import Idealize.ShloMosaic.Adequacy
import Idealize.ShloMosaic.Init

set_option maxRecDepth 16384

noncomputable section

namespace Cert.Proof

open Idealize.ShloMosaic Idealize.ShloMosaic.TcCoe Idealize.SL.Sem

/-- The kernel as printed terminates and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference terminates and keeps its arguments: no host operation writes an argument array. -/
theorem frame_ri : Cert.frame_ReferenceIdeal := fun m' ρ' _ =>
  (θ_run (Cert.ReferenceIdeal.defs (F := Ideal)) _ _).mono
    (fun _ h c =>
      ⟨(h c Cert.ReferenceIdeal.main_arg0).trans (Cert.ReferenceIdeal.RefRunA.arg0_at_A17 m' c),
       (h c Cert.ReferenceIdeal.main_arg1).trans (Cert.ReferenceIdeal.RefRunA.arg1_at_A17 m' c),
       (h c Cert.ReferenceIdeal.main_arg2).trans (Cert.ReferenceIdeal.RefRunA.arg2_at_A17 m' c),
       (h c Cert.ReferenceIdeal.main_arg3).trans (Cert.ReferenceIdeal.RefRunA.arg3_at_A17 m' c),
       (h c Cert.ReferenceIdeal.main_arg4).trans (Cert.ReferenceIdeal.RefRunA.arg4_at_A17 m' c),
       (h c Cert.ReferenceIdeal.main_arg5).trans (Cert.ReferenceIdeal.RefRunA.arg5_at_A17 m' c),
       (h c Cert.ReferenceIdeal.main_arg6).trans (Cert.ReferenceIdeal.RefRunA.arg6_at_A17 m' c),
       (h c Cert.ReferenceIdeal.main_arg7).trans (Cert.ReferenceIdeal.RefRunA.arg7_at_A17 m' c),
       (h c Cert.ReferenceIdeal.main_arg8).trans (Cert.ReferenceIdeal.RefRunA.arg8_at_A17 m' c),
       (h c Cert.ReferenceIdeal.main_arg9).trans (Cert.ReferenceIdeal.RefRunA.arg9_at_A17 m' c),
       (h c Cert.ReferenceIdeal.main_arg10).trans (Cert.ReferenceIdeal.RefRunA.arg10_at_A17 m' c),
       (h c Cert.ReferenceIdeal.main_arg11).trans (Cert.ReferenceIdeal.RefRunA.arg11_at_A17 m' c),
       (h c Cert.ReferenceIdeal.main_arg12).trans (Cert.ReferenceIdeal.RefRunA.arg12_at_A17 m' c),
       (h c Cert.ReferenceIdeal.main_arg13).trans (Cert.ReferenceIdeal.RefRunA.arg13_at_A17 m' c)⟩)
    (Cert.ReferenceIdeal.RefRunA.run m' ρ')

/-- Over the extended reals, from memories agreeing on the arguments, both programs end with the same two
    result arrays: the last link of the kernel's chain at its two results, which is the last link of the
    reference's chain at its two results. -/
theorem algebraic : Cert.algebraic_KernelIdeal_ReferenceIdeal := by
  intro m ρ m' ρ' _ hagree
  refine ⟨fun c => Cert.KernelIdeal.Gen.W23 (F := Ideal) m ρ c (Proc.devRef .tc Cert.KernelIdeal.main_v97),
    fun c => Cert.KernelIdeal.Gen.W23 (F := Ideal) m ρ c (Proc.devRef .tc Cert.KernelIdeal.main_v113),
    Cert.KernelIdeal.KRun.run (F := Ideal) m ρ, ?_⟩
  refine (θ_run (Cert.ReferenceIdeal.defs (F := Ideal)) _ _).mono (fun _ h c => ?_) (Cert.ReferenceIdeal.RefRunA.run m' ρ')
  exact ⟨(h c Cert.ReferenceIdeal.main_v122).trans (Cert.Bridge.agree_mu m ρ m' c (hagree c)).symm,
    (h c Cert.ReferenceIdeal.main_v139).trans (Cert.Bridge.agree_logstd m ρ m' c (hagree c)).symm,
    (h c Cert.ReferenceIdeal.main_arg0).trans (Cert.ReferenceIdeal.RefRunA.arg0_at_A17 m' c),
    (h c Cert.ReferenceIdeal.main_arg1).trans (Cert.ReferenceIdeal.RefRunA.arg1_at_A17 m' c),
    (h c Cert.ReferenceIdeal.main_arg2).trans (Cert.ReferenceIdeal.RefRunA.arg2_at_A17 m' c),
    (h c Cert.ReferenceIdeal.main_arg3).trans (Cert.ReferenceIdeal.RefRunA.arg3_at_A17 m' c),
    (h c Cert.ReferenceIdeal.main_arg4).trans (Cert.ReferenceIdeal.RefRunA.arg4_at_A17 m' c),
    (h c Cert.ReferenceIdeal.main_arg5).trans (Cert.ReferenceIdeal.RefRunA.arg5_at_A17 m' c),
    (h c Cert.ReferenceIdeal.main_arg6).trans (Cert.ReferenceIdeal.RefRunA.arg6_at_A17 m' c),
    (h c Cert.ReferenceIdeal.main_arg7).trans (Cert.ReferenceIdeal.RefRunA.arg7_at_A17 m' c),
    (h c Cert.ReferenceIdeal.main_arg8).trans (Cert.ReferenceIdeal.RefRunA.arg8_at_A17 m' c),
    (h c Cert.ReferenceIdeal.main_arg9).trans (Cert.ReferenceIdeal.RefRunA.arg9_at_A17 m' c),
    (h c Cert.ReferenceIdeal.main_arg10).trans (Cert.ReferenceIdeal.RefRunA.arg10_at_A17 m' c),
    (h c Cert.ReferenceIdeal.main_arg11).trans (Cert.ReferenceIdeal.RefRunA.arg11_at_A17 m' c),
    (h c Cert.ReferenceIdeal.main_arg12).trans (Cert.ReferenceIdeal.RefRunA.arg12_at_A17 m' c),
    (h c Cert.ReferenceIdeal.main_arg13).trans (Cert.ReferenceIdeal.RefRunA.arg13_at_A17 m' c)⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
